-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v207)) (v1 : (c : Dev Cert.KernelIdeal.nD) → Buf (Elt Ideal) ((c.tc : Thread Cert.KernelIdeal.nD Cert.KernelIdeal.τ).loc Cert.KernelIdeal.main_v208)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v207) = v0 c
          ∧ r.2.mem ((c.tc : Thread Cert.KernelIdeal.nD Cert.KernelIdeal.τ).loc Cert.KernelIdeal.main_v208) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_v223) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x128 : Shape := ⟨2, ![12000, 128]⟩
abbrev S384000 : Shape := ⟨1, ![384000]⟩
abbrev S12000 : Shape := ⟨1, ![12000]⟩
abbrev S12000x64 : Shape := ⟨2, ![12000, 64]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S12000x128 : S_.BroadcastsInDim S12000x128 (![] : Fin 0 → Fin S12000x128.rank)
  reducesTo_S12000x128_S_d0_1 : S12000x128.ReducesTo [0, 1] S_
  h_S_ : 0 < S_.numel
  bcast_S_S12000x64 : S_.BroadcastsInDim S12000x64 (![] : Fin 0 → Fin S12000x64.rank)
  reducesTo_S12000x64_S_d0_1 : S12000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg17 : FVec F S64x64 .f32) (main_arg18 : FVec F S64 .f32) (main_arg19 : FVec F S64x128 .f32) (main_arg20 : FVec F S128 .f32) (main_v63 : IVec S_ 1) (main_v67 : IVec S_ 1) : IVec S_ 1 :=
  let main_v68 : IVec S_ 1 := andi main_v63 main_v67
  let main_v69 : FVec F S64x64 .f32 := Host.absf main_arg17
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg18
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x128 .f32 := Host.absf main_arg19
  let main_cst_30 : FVec F S_ .f32 := constant S_ .f32 0x7F800000#32
  let main_v80 : FVec F S64x128 .f32 := broadcastInDim S64x128 ![] bcast_S_S64x128 main_cst_30
  let main_v81 : IVec S64x128 1 := cmpf .olt main_v79 main_v80
  let main_c_31 : IVec S_ 1 := constantI S_ 1 1#1
  let main_v82 : IVec S_ 1 := (fun x v => Host.reduce IntOp.andi x v reducesTo_S64x128_S_d0_1 h_S_) main_v81 main_c_31
  let main_v83 : IVec S_ 1 := andi main_v78 main_v82
  let main_v84 : FVec F S128 .f32 := Host.absf main_arg20
  let main_cst_32 : FVec F S_ .f32 := constant S_ .f32 0x7F800000#32
  fn_part5 (F := F) main_v83 main_v84 main_cst_32

def fn_part3 {F : FTy → Type} [FloatOps F] (main_arg14 : FVec F S64 .f32) (main_arg15 : FVec F S64 .f32) (main_arg16 : FVec F S64 .f32) (main_arg17 : FVec F S64x64 .f32) (main_arg18 : FVec F S64 .f32) (main_arg19 : FVec F S64x128 .f32) (main_arg20 : FVec F S128 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg16
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg17 main_arg18 main_arg19 main_arg20 main_v63 main_v67

def fn_part2 {F : FTy → Type} [FloatOps F] (main_arg10 : FVec F S64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64x64 .f32) (main_arg18 : FVec F S64 .f32) (main_arg19 : FVec F S64x128 .f32) (main_arg20 : FVec F S128 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg13
  let main_cst_18 : FVec F S_ .f32 := constant S_ .f32 0x7F800000#32
  let main_v50 : FVec F S64x64 .f32 := broadcastInDim S64x64 ![] bcast_S_S64x64 main_cst_18
  fn_part3 (F := F) main_arg14 main_arg15 main_arg16 main_arg17 main_arg18 main_arg19 main_arg20 main_v48 main_v49 main_v50

def fn_part1 {F : FTy → Type} [FloatOps F] (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64x64 .f32) (main_arg18 : FVec F S64 .f32) (main_arg19 : FVec F S64x128 .f32) (main_arg20 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_v33

def fn {F : FTy → Type} [FloatOps F] (main_arg0 : FVec F S12000x128 .f32) (main_arg1 : IVec S384000 32) (main_arg2 : IVec S384000 32) (main_arg3 : IVec S12000 32) (main_arg4 : FVec F S12000x64 .f32) (main_arg5 : FVec F S128x64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64x64 .f32) (main_arg18 : FVec F S64 .f32) (main_arg19 : FVec F S64x128 .f32) (main_arg20 : FVec F S128 .f32) : IVec S_ 1 :=
  let main_v0 : FVec F S12000x128 .f32 := Host.absf main_arg0
  let main_cst : FVec F S_ .f32 := constant S_ .f32 0x7F800000#32
  let main_v1 : FVec F S12000x128 .f32 := broadcastInDim S12000x128 ![] bcast_S_S12000x128 main_cst
  let main_v2 : IVec S12000x128 1 := cmpf .olt main_v0 main_v1
  let main_c : IVec S_ 1 := constantI S_ 1 1#1
  let main_v3 : IVec S_ 1 := (fun x v => Host.reduce IntOp.andi x v reducesTo_S12000x128_S_d0_1 h_S_) main_v2 main_c
  let main_v4 : FVec F S12000x64 .f32 := Host.absf main_arg4
  let main_cst_0 : FVec F S_ .f32 := constant S_ .f32 0x7F800000#32
  let main_v5 : FVec F S12000x64 .f32 := broadcastInDim S12000x64 ![] bcast_S_S12000x64 main_cst_0
  let main_v6 : IVec S12000x64 1 := cmpf .olt main_v4 main_v5
  let main_c_1 : IVec S_ 1 := constantI S_ 1 1#1
  let main_v7 : IVec S_ 1 := (fun x v => Host.reduce IntOp.andi x v reducesTo_S12000x64_S_d0_1 h_S_) main_v6 main_c_1
  let main_v8 : IVec S_ 1 := andi main_v3 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_arg15 main_arg16 main_arg17 main_arg18 main_arg19 main_arg20 main_v13 main_v16
-- ==== Kernel.lean ====
abbrev S12000x128 : Shape := ⟨2, ![12000, 128]⟩
abbrev S384000 : Shape := ⟨1, ![384000]⟩
abbrev S12000 : Shape := ⟨1, ![12000]⟩
abbrev S12000x64 : Shape := ⟨2, ![12000, 64]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S396000 : Shape := ⟨1, ![396000]⟩
abbrev S_ : Shape := ⟨0, ![]⟩
abbrev S396000x1 : Shape := ⟨2, ![396000, 1]⟩
abbrev S396000x64 : Shape := ⟨2, ![396000, 64]⟩
abbrev S1x64 : Shape := ⟨2, ![1, 64]⟩
abbrev S1200x64 : Shape := ⟨2, ![1200, 64]⟩
abbrev S1200x128 : Shape := ⟨2, ![1200, 128]⟩
abbrev S1x128 : Shape := ⟨2, ![1, 128]⟩
abbrev S12000x12000 : Shape := ⟨2, ![12000, 12000]⟩
abbrev S1024x64 : Shape := ⟨2, ![1024, 64]⟩
abbrev S1024x1024 : Shape := ⟨2, ![1024, 1024]⟩
abbrev S64x1024 : Shape := ⟨2, ![64, 1024]⟩

abbrev nBuf : Space → Nat
  | .hbm => 278
  | .vmem => 14
  | .smem => 0
  | _ => 0

abbrev hbmTy0_0 (i : Nat) : BufTy := match i % 128 with
  | 0 => ⟨S12000x128, .f32⟩
  | 1 => ⟨S384000, .i32⟩
  | 2 => ⟨S384000, .i32⟩
  | 3 => ⟨S12000, .i32⟩
  | 4 => ⟨S12000x64, .f32⟩
  | 5 => ⟨S128x64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64x64, .f32⟩
  | 14 => ⟨S64, .f32⟩
  | 15 => ⟨S64, .f32⟩
  | 16 => ⟨S64, .f32⟩
  | 17 => ⟨S64x64, .f32⟩
  | 18 => ⟨S64, .f32⟩
  | 19 => ⟨S64x128, .f32⟩
  | 20 => ⟨S128, .f32⟩
  | 21 => ⟨S12000x64, .f32⟩
  | 22 => ⟨S12000, .i32⟩
  | 23 => ⟨S396000, .i32⟩
  | 24 => ⟨S396000, .i32⟩
  | 25 => ⟨S_, .f32⟩
  | 26 => ⟨S396000, .f32⟩
  | 27 => ⟨S_, .f32⟩
  | 28 => ⟨S12000, .f32⟩
  | 29 => ⟨S396000x1, .i32⟩
  | 30 => ⟨S12000, .f32⟩
  | 31 => ⟨S12000, .f32⟩
  | 32 => ⟨S_, .i32⟩
  | 33 => ⟨S396000, .i32⟩
  | 34 => ⟨S396000, .i1⟩
  | 35 => ⟨S_, .i32⟩
  | 36 => ⟨S396000, .i32⟩
  | 37 => ⟨S396000, .i32⟩
  | 38 => ⟨S396000, .i32⟩
  | 39 => ⟨S396000x1, .i32⟩
  | 40 => ⟨S396000, .f32⟩
  | 41 => ⟨S_, .i32⟩
  | 42 => ⟨S396000, .i32⟩
  | 43 => ⟨S396000, .i1⟩
  | 44 => ⟨S_, .i32⟩
  | 45 => ⟨S396000, .i32⟩
  | 46 => ⟨S396000, .i32⟩
  | 47 => ⟨S396000, .i32⟩
  | 48 => ⟨S396000x1, .i32⟩
  | 49 => ⟨S396000, .f32⟩
  | 50 => ⟨S396000, .f32⟩
  | 51 => ⟨S_, .i32⟩
  | 52 => ⟨S396000, .i32⟩
  | 53 => ⟨S396000, .i1⟩
  | 54 => ⟨S_, .i32⟩
  | 55 => ⟨S396000, .i32⟩
  | 56 => ⟨S396000, .i32⟩
  | 57 => ⟨S396000, .i32⟩
  | 58 => ⟨S396000x1, .i32⟩
  | 59 => ⟨S396000x64, .f32⟩
  | 60 => ⟨S396000x1, .f32⟩
  | 61 => ⟨S396000x64, .f32⟩
  | 62 => ⟨S396000x64, .f32⟩
  | 63 => ⟨S_, .f32⟩
  | 64 => ⟨S12000x64, .f32⟩
  | 65 => ⟨S396000x1, .i32⟩
  | 66 => ⟨S12000x64, .f32⟩
  | 67 => ⟨S1x64, .f32⟩
  | 68 => ⟨S12000x64, .f32⟩
  | 69 => ⟨S12000x64, .f32⟩
  | 70 => ⟨S12000x64, .f32⟩
  | 71 => ⟨S12000x64, .f32⟩
  | 72 => ⟨S_, .f32⟩
  | 73 => ⟨S12000x64, .f32⟩
  | 74 => ⟨S12000x64, .f32⟩
  | 75 => ⟨S_, .f32⟩
  | 76 => ⟨S12000x64, .f32⟩
  | 77 => ⟨S12000x64, .f32⟩
  | 78 => ⟨S_, .f32⟩
  | 79 => ⟨S64, .f32⟩
  | 80 => ⟨S_, .f32⟩
  | 81 => ⟨S64, .f32⟩
  | 82 => ⟨S64, .f32⟩
  | 83 => ⟨S1x64, .f32⟩
  | 84 => ⟨S12000x64, .f32⟩
  | 85 => ⟨S12000x64, .f32⟩
  | 86 => ⟨S12000x64, .f32⟩
  | 87 => ⟨S_, .f32⟩
  | 88 => ⟨S64, .f32⟩
  | 89 => ⟨S_, .f32⟩
  | 90 => ⟨S64, .f32⟩
  | 91 => ⟨S64, .f32⟩
  | 92 => ⟨S_, .f32⟩
  | 93 => ⟨S64, .f32⟩
  | 94 => ⟨S64, .f32⟩
  | 95 => ⟨S64, .f32⟩
  | 96 => ⟨S1x64, .f32⟩
  | 97 => ⟨S12000x64, .f32⟩
  | 98 => ⟨S12000x64, .f32⟩
  | 99 => ⟨S1x64, .f32⟩
  | 100 => ⟨S12000x64, .f32⟩
  | 101 => ⟨S12000x64, .f32⟩
  | 102 => ⟨S1x64, .f32⟩
  | 103 => ⟨S12000x64, .f32⟩
  | 104 => ⟨S12000x64, .f32⟩
  | 105 => ⟨S12000x64, .f32⟩
  | 106 => ⟨S12000, .i32⟩
  | 107 => ⟨S396000, .i32⟩
  | 108 => ⟨S396000, .i32⟩
  | 109 => ⟨S_, .f32⟩
  | 110 => ⟨S396000, .f32⟩
  | 111 => ⟨S_, .f32⟩
  | 112 => ⟨S12000, .f32⟩
  | 113 => ⟨S396000x1, .i32⟩
  | 114 => ⟨S12000, .f32⟩
  | 115 => ⟨S12000, .f32⟩
  | 116 => ⟨S_, .i32⟩
  | 117 => ⟨S396000, .i32⟩
  | 118 => ⟨S396000, .i1⟩
  | 119 => ⟨S_, .i32⟩
  | 120 => ⟨S396000, .i32⟩
  | 121 => ⟨S396000, .i32⟩
  | 122 => ⟨S396000, .i32⟩
  | 123 => ⟨S396000x1, .i32⟩
  | 124 => ⟨S396000, .f32⟩
  | 125 => ⟨S_, .i32⟩
  | 126 => ⟨S396000, .i32⟩
  | 127 => ⟨S396000, .i1⟩
  | _ => ⟨S12000x128, .f32⟩

abbrev hbmTy0_1 (i : Nat) : BufTy := match i % 128 with
  | 0 => ⟨S_, .i32⟩
  | 1 => ⟨S396000, .i32⟩
  | 2 => ⟨S396000, .i32⟩
  | 3 => ⟨S396000, .i32⟩
  | 4 => ⟨S396000x1, .i32⟩
  | 5 => ⟨S396000, .f32⟩
  | 6 => ⟨S396000, .f32⟩
  | 7 => ⟨S_, .i32⟩
  | 8 => ⟨S396000, .i32⟩
  | 9 => ⟨S396000, .i1⟩
  | 10 => ⟨S_, .i32⟩
  | 11 => ⟨S396000, .i32⟩
  | 12 => ⟨S396000, .i32⟩
  | 13 => ⟨S396000, .i32⟩
  | 14 => ⟨S396000x1, .i32⟩
  | 15 => ⟨S396000x64, .f32⟩
  | 16 => ⟨S396000x1, .f32⟩
  | 17 => ⟨S396000x64, .f32⟩
  | 18 => ⟨S396000x64, .f32⟩
  | 19 => ⟨S_, .f32⟩
  | 20 => ⟨S12000x64, .f32⟩
  | 21 => ⟨S396000x1, .i32⟩
  | 22 => ⟨S12000x64, .f32⟩
  | 23 => ⟨S1x64, .f32⟩
  | 24 => ⟨S12000x64, .f32⟩
  | 25 => ⟨S12000x64, .f32⟩
  | 26 => ⟨S12000x64, .f32⟩
  | 27 => ⟨S12000x64, .f32⟩
  | 28 => ⟨S_, .f32⟩
  | 29 => ⟨S12000x64, .f32⟩
  | 30 => ⟨S12000x64, .f32⟩
  | 31 => ⟨S_, .f32⟩
  | 32 => ⟨S12000x64, .f32⟩
  | 33 => ⟨S12000x64, .f32⟩
  | 34 => ⟨S_, .f32⟩
  | 35 => ⟨S64, .f32⟩
  | 36 => ⟨S_, .f32⟩
  | 37 => ⟨S64, .f32⟩
  | 38 => ⟨S64, .f32⟩
  | 39 => ⟨S1x64, .f32⟩
  | 40 => ⟨S12000x64, .f32⟩
  | 41 => ⟨S12000x64, .f32⟩
  | 42 => ⟨S12000x64, .f32⟩
  | 43 => ⟨S_, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S64, .f32⟩
  | 52 => ⟨S1x64, .f32⟩
  | 53 => ⟨S12000x64, .f32⟩
  | 54 => ⟨S12000x64, .f32⟩
  | 55 => ⟨S1x64, .f32⟩
  | 56 => ⟨S12000x64, .f32⟩
  | 57 => ⟨S12000x64, .f32⟩
  | 58 => ⟨S1x64, .f32⟩
  | 59 => ⟨S12000x64, .f32⟩
  | 60 => ⟨S12000x64, .f32⟩
  | 61 => ⟨S12000x64, .f32⟩
  | 62 => ⟨S12000, .i32⟩
  | 63 => ⟨S396000, .i32⟩
  | 64 => ⟨S396000, .i32⟩
  | 65 => ⟨S_, .f32⟩
  | 66 => ⟨S396000, .f32⟩
  | 67 => ⟨S_, .f32⟩
  | 68 => ⟨S12000, .f32⟩
  | 69 => ⟨S396000x1, .i32⟩
  | 70 => ⟨S12000, .f32⟩
  | 71 => ⟨S12000, .f32⟩
  | 72 => ⟨S_, .i32⟩
  | 73 => ⟨S396000, .i32⟩
  | 74 => ⟨S396000, .i1⟩
  | 75 => ⟨S_, .i32⟩
  | 76 => ⟨S396000, .i32⟩
  | 77 => ⟨S396000, .i32⟩
  | 78 => ⟨S396000, .i32⟩
  | 79 => ⟨S396000x1, .i32⟩
  | 80 => ⟨S396000, .f32⟩
  | 81 => ⟨S_, .i32⟩
  | 82 => ⟨S396000, .i32⟩
  | 83 => ⟨S396000, .i1⟩
  | 84 => ⟨S_, .i32⟩
  | 85 => ⟨S396000, .i32⟩
  | 86 => ⟨S396000, .i32⟩
  | 87 => ⟨S396000, .i32⟩
  | 88 => ⟨S396000x1, .i32⟩
  | 89 => ⟨S396000, .f32⟩
  | 90 => ⟨S396000, .f32⟩
  | 91 => ⟨S_, .i32⟩
  | 92 => ⟨S396000, .i32⟩
  | 93 => ⟨S396000, .i1⟩
  | 94 => ⟨S_, .i32⟩
  | 95 => ⟨S396000, .i32⟩
  | 96 => ⟨S396000, .i32⟩
  | 97 => ⟨S396000, .i32⟩
  | 98 => ⟨S396000x1, .i32⟩
  | 99 => ⟨S396000x64, .f32⟩
  | 100 => ⟨S396000x1, .f32⟩
  | 101 => ⟨S396000x64, .f32⟩
  | 102 => ⟨S396000x64, .f32⟩
  | 103 => ⟨S_, .f32⟩
  | 104 => ⟨S12000x64, .f32⟩
  | 105 => ⟨S396000x1, .i32⟩
  | 106 => ⟨S12000x64, .f32⟩
  | 107 => ⟨S1x64, .f32⟩
  | 108 => ⟨S12000x64, .f32⟩
  | 109 => ⟨S12000x64, .f32⟩
  | 110 => ⟨S12000x64, .f32⟩
  | 111 => ⟨S12000x64, .f32⟩
  | 112 => ⟨S_, .f32⟩
  | 113 => ⟨S12000x64, .f32⟩
  | 114 => ⟨S12000x64, .f32⟩
  | 115 => ⟨S_, .f32⟩
  | 116 => ⟨S12000x64, .f32⟩
  | 117 => ⟨S12000x64, .f32⟩
  | 118 => ⟨S_, .f32⟩
  | 119 => ⟨S64, .f32⟩
  | 120 => ⟨S_, .f32⟩
  | 121 => ⟨S64, .f32⟩
  | 122 => ⟨S64, .f32⟩
  | 123 => ⟨S1x64, .f32⟩
  | 124 => ⟨S12000x64, .f32⟩
  | 125 => ⟨S12000x64, .f32⟩
  | 126 => ⟨S12000x64, .f32⟩
  | 127 => ⟨S_, .f32⟩
  | _ => ⟨S12000x128, .f32⟩

abbrev hbmTy0_2 (i : Nat) : BufTy := match i % 128 with
  | 0 => ⟨S64, .f32⟩
  | 1 => ⟨S_, .f32⟩
  | 2 => ⟨S64, .f32⟩
  | 3 => ⟨S64, .f32⟩
  | 4 => ⟨S_, .f32⟩
  | 5 => ⟨S64, .f32⟩
  | 6 => ⟨S64, .f32⟩
  | 7 => ⟨S64, .f32⟩
  | 8 => ⟨S1x64, .f32⟩
  | 9 => ⟨S12000x64, .f32⟩
  | 10 => ⟨S12000x64, .f32⟩
  | 11 => ⟨S1x64, .f32⟩
  | 12 => ⟨S12000x64, .f32⟩
  | 13 => ⟨S12000x64, .f32⟩
  | 14 => ⟨S1x64, .f32⟩
  | 15 => ⟨S12000x64, .f32⟩
  | 16 => ⟨S12000x64, .f32⟩
  | 17 => ⟨S12000x64, .f32⟩
  | 18 => ⟨S12000x64, .f32⟩
  | 19 => ⟨S12000x64, .f32⟩
  | 20 => ⟨S12000x128, .f32⟩
  | 21 => ⟨S12000x12000, .f32⟩
  | _ => ⟨S12000x128, .f32⟩

abbrev hbmTy (i : Nat) : BufTy := match i / 128 with
  | 0 => hbmTy0_0 i
  | 1 => hbmTy0_1 i
  | 2 => hbmTy0_2 i
  | _ => ⟨S12000x128, .f32⟩

abbrev bufTy : (tb : Table) → Fin (tcTables nBuf tb) → BufTy
  | .hbm, ⟨i, _⟩ => hbmTy i
  | .local _ .vmem, ⟨0, _⟩ => ⟨S1200x64, .f32⟩
  | .local _ .vmem, ⟨1, _⟩ => ⟨S1200x64, .f32⟩
  | .local _ .vmem, ⟨2, _⟩ => ⟨S64x64, .f32⟩
  | .local _ .vmem, ⟨3, _⟩ => ⟨S64, .f32⟩
  | .local _ .vmem, ⟨4, _⟩ => ⟨S64x128, .f32⟩
  | .local _ .vmem, ⟨5, _⟩ => ⟨S128, .f32⟩
  | .local _ .vmem, ⟨6, _⟩ => ⟨S1200x128, .f32⟩
  | .local _ .vmem, ⟨7, _⟩ => ⟨S1200x128, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x1024, .f32⟩
  | .local _ .vmem, ⟨13, _⟩ => ⟨S1024x1024, .f32⟩
  | _, _ => ⟨S12000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c : Ref sig .tc := ⟨.hbm, 32, rfl⟩
abbrev main_v9 : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_2 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_v24 : Ref sig .tc := ⟨.hbm, 52, rfl⟩
abbrev main_v25 : Ref sig .tc := ⟨.hbm, 53, rfl⟩
abbrev main_c_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_7 : Ref sig .tc := ⟨.hbm, 72, rfl⟩
abbrev main_v42 : Ref sig .tc := ⟨.hbm, 73, rfl⟩
abbrev main_v43 : Ref sig .tc := ⟨.hbm, 74, rfl⟩
abbrev main_cst_8 : Ref sig .tc := ⟨.hbm, 75, rfl⟩
abbrev main_v44 : Ref sig .tc := ⟨.hbm, 76, rfl⟩
abbrev main_v45 : Ref sig .tc := ⟨.hbm, 77, rfl⟩
abbrev main_cst_9 : Ref sig .tc := ⟨.hbm, 78, rfl⟩
abbrev main_v46 : Ref sig .tc := ⟨.hbm, 79, rfl⟩
abbrev main_cst_10 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_11 : Ref sig .tc := ⟨.hbm, 87, rfl⟩
abbrev main_v53 : Ref sig .tc := ⟨.hbm, 88, rfl⟩
abbrev main_cst_12 : Ref sig .tc := ⟨.hbm, 89, rfl⟩
abbrev main_v54 : Ref sig .tc := ⟨.hbm, 90, rfl⟩
abbrev main_v55 : Ref sig .tc := ⟨.hbm, 91, rfl⟩
abbrev main_cst_13 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_14 : Ref sig .tc := ⟨.hbm, 109, rfl⟩
abbrev main_v72 : Ref sig .tc := ⟨.hbm, 110, rfl⟩
abbrev main_cst_15 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_16 : Ref sig .tc := ⟨.hbm, 116, rfl⟩
abbrev main_v77 : Ref sig .tc := ⟨.hbm, 117, rfl⟩
abbrev main_v78 : Ref sig .tc := ⟨.hbm, 118, rfl⟩
abbrev main_c_17 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_18 : Ref sig .tc := ⟨.hbm, 125, rfl⟩
abbrev main_v84 : Ref sig .tc := ⟨.hbm, 126, rfl⟩
abbrev main_v85 : Ref sig .tc := ⟨.hbm, 127, rfl⟩
abbrev main_c_19 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_20 : Ref sig .tc := ⟨.hbm, 135, rfl⟩
abbrev main_v92 : Ref sig .tc := ⟨.hbm, 136, rfl⟩
abbrev main_v93 : Ref sig .tc := ⟨.hbm, 137, rfl⟩
abbrev main_c_21 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_22 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_23 : Ref sig .tc := ⟨.hbm, 156, rfl⟩
abbrev main_v110 : Ref sig .tc := ⟨.hbm, 157, rfl⟩
abbrev main_v111 : Ref sig .tc := ⟨.hbm, 158, rfl⟩
abbrev main_cst_24 : Ref sig .tc := ⟨.hbm, 159, rfl⟩
abbrev main_v112 : Ref sig .tc := ⟨.hbm, 160, rfl⟩
abbrev main_v113 : Ref sig .tc := ⟨.hbm, 161, rfl⟩
abbrev main_cst_25 : Ref sig .tc := ⟨.hbm, 162, rfl⟩
abbrev main_v114 : Ref sig .tc := ⟨.hbm, 163, rfl⟩
abbrev main_cst_26 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_27 : Ref sig .tc := ⟨.hbm, 171, rfl⟩
abbrev main_v121 : Ref sig .tc := ⟨.hbm, 172, rfl⟩
abbrev main_cst_28 : Ref sig .tc := ⟨.hbm, 173, rfl⟩
abbrev main_v122 : Ref sig .tc := ⟨.hbm, 174, rfl⟩
abbrev main_v123 : Ref sig .tc := ⟨.hbm, 175, rfl⟩
abbrev main_cst_29 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_30 : Ref sig .tc := ⟨.hbm, 193, rfl⟩
abbrev main_v140 : Ref sig .tc := ⟨.hbm, 194, rfl⟩
abbrev main_cst_31 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_c_32 : Ref sig .tc := ⟨.hbm, 200, rfl⟩
abbrev main_v145 : Ref sig .tc := ⟨.hbm, 201, rfl⟩
abbrev main_v146 : Ref sig .tc := ⟨.hbm, 202, rfl⟩
abbrev main_c_33 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_c_34 : Ref sig .tc := ⟨.hbm, 209, rfl⟩
abbrev main_v152 : Ref sig .tc := ⟨.hbm, 210, rfl⟩
abbrev main_v153 : Ref sig .tc := ⟨.hbm, 211, rfl⟩
abbrev main_c_35 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_c_36 : Ref sig .tc := ⟨.hbm, 219, rfl⟩
abbrev main_v160 : Ref sig .tc := ⟨.hbm, 220, rfl⟩
abbrev main_v161 : Ref sig .tc := ⟨.hbm, 221, rfl⟩
abbrev main_c_37 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_cst_38 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_cst_39 : Ref sig .tc := ⟨.hbm, 240, rfl⟩
abbrev main_v178 : Ref sig .tc := ⟨.hbm, 241, rfl⟩
abbrev main_v179 : Ref sig .tc := ⟨.hbm, 242, rfl⟩
abbrev main_cst_40 : Ref sig .tc := ⟨.hbm, 243, rfl⟩
abbrev main_v180 : Ref sig .tc := ⟨.hbm, 244, rfl⟩
abbrev main_v181 : Ref sig .tc := ⟨.hbm, 245, rfl⟩
abbrev main_cst_41 : Ref sig .tc := ⟨.hbm, 246, rfl⟩
abbrev main_v182 : Ref sig .tc := ⟨.hbm, 247, rfl⟩
abbrev main_cst_42 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_cst_43 : Ref sig .tc := ⟨.hbm, 255, rfl⟩
abbrev main_v189 : Ref sig .tc := ⟨.hbm, 256, rfl⟩
abbrev main_cst_44 : Ref sig .tc := ⟨.hbm, 257, rfl⟩
abbrev main_v190 : Ref sig .tc := ⟨.hbm, 258, rfl⟩
abbrev main_v191 : Ref sig .tc := ⟨.hbm, 259, rfl⟩
abbrev main_cst_45 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![12, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  concatenates_S384000_S12000_S396000_d0 : Shape.Concatenates [S384000, S12000] S396000 0
  bcast_S_S396000 : S_.BroadcastsInDim S396000 (![] : Fin 0 → Fin S396000.rank)
  bcast_S_S12000 : S_.BroadcastsInDim S12000 (![] : Fin 0 → Fin S12000.rank)
  bcast_S396000_S396000x1_0 : S396000.BroadcastsInDim S396000x1 (![0] : Fin 1 → Fin S396000x1.rank)
  bcast_S396000x1_S396000x64_0_1 : S396000x1.BroadcastsInDim S396000x64 (![0, 1] : Fin 2 → Fin S396000x64.rank)
  bcast_S_S12000x64 : S_.BroadcastsInDim S12000x64 (![] : Fin 0 → Fin S12000x64.rank)
  bcast_S64_S1x64_1 : S64.BroadcastsInDim S1x64 (![1] : Fin 1 → Fin S1x64.rank)
  bcast_S1x64_S12000x64_0_1 : S1x64.BroadcastsInDim S12000x64 (![0, 1] : Fin 2 → Fin S12000x64.rank)
  reducesTo_S12000x64_S64_d0 : S12000x64.ReducesTo [0] S64
  h_S_ : 0 < S_.numel
  bcast_S_S64 : S_.BroadcastsInDim S64 (![] : Fin 0 → Fin S64.rank)
  inb_S1200x64_S1200x64_0_0 : ∀ a, (![0, 0] : Fin 2 → Nat) a + S1200x64.size a ≤ S1200x64.size a
  h_S1200x64 : 0 < S1200x64.numel
  shapeCasts_S1200x64_S1200x64 : S1200x64.ShapeCasts S1200x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S1200x64 : S1x64.Broadcasts S1200x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S1200x128 : S1x128.Broadcasts S1200x128
  inb_S1200x128_S1200x128_0_0 : ∀ a, (![0, 0] : Fin 2 → Nat) a + S1200x128.size a ≤ S1200x128.size a
  h_S1200x128 : 0 < S1200x128.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  dot_S12000x128_S128x64_S12000x64_1_0_0_1_n_n_wf : DotDims.WF S12000x128 S128x64 S12000x64 [1] [0] [0] [1] [] []
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  gather_S12000x64_S396000x1_S396000x64_1_0_n_n_0_1_164_wf : GatherDims.WF S12000x64 S396000x1 S396000x64 [1] [0] [] [0] [] 1 ![1, 64]
  scatter_S12000x64_S396000x1_S396000x64_1_0_0_1_wf : ScatterDims.WF S12000x64 S396000x1 S396000x64 [1] [0] [0] 1
  dot_S12000x64_S64x64_S12000x64_1_0_0_1_n_n_wf : DotDims.WF S12000x64 S64x64 S12000x64 [1] [0] [0] [1] [] []
  dot_S1200x64_S64x64_S1200x64_1_0_0_1_n_n_wf : DotDims.WF S1200x64 S64x64 S1200x64 [1] [0] [0] [1] [] []
  dot_S1200x64_S64x128_S1200x128_1_0_0_1_n_n_wf : DotDims.WF S1200x64 S64x128 S1200x128 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x64.size a ≤ S12000x64.size a
  hwx0_0 : ∀ i : grid0.Coords, EltTy.bits .f32 = 32 ∨ (Rect.block (s := S12000x64) S1200x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1200x128.size a ≤ S12000x128.size a
  hwx0_5 : ∀ i : grid0.Coords, EltTy.bits .f32 = 32 ∨ (Rect.block (s := S12000x128) S1200x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1024x64.size a < S12000x64.size a
  hwx1_0 : ∀ i : grid1.Coords, EltTy.bits .f32 = 32 ∨ (Rect.unit (s := S12000x64) (fun a => cc1_transform_0 i a * S1024x64.size a) (fun a => (Pipeline.Clip.of (cc1_transform_0 i a) (S1024x64.size a) (S12000x64.size a)).extent (S1024x64.size a)) fun a => Pipeline.Clip.inb (Pipeline.Clip.ok_of (hstart1_0 i a))).WholeWords (EltTy.packing .f32)
  hwxs1_0 : ∀ i : grid1.Coords, EltTy.bits .f32 = 32 ∨ (Rect.unit (s := S1024x64) (fun _ => 0) (fun a => (Pipeline.Clip.of (cc1_transform_0 i a) (S1024x64.size a) (S12000x64.size a)).extent (S1024x64.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x64.size a < S12000x64.size a
  hwx1_1 : ∀ i : grid1.Coords, EltTy.bits .f32 = 32 ∨ (Rect.unit (s := S12000x64) (fun a => cc1_transform_1 i a * S1024x64.size a) (fun a => (Pipeline.Clip.of (cc1_transform_1 i a) (S1024x64.size a) (S12000x64.size a)).extent (S1024x64.size a)) fun a => Pipeline.Clip.inb (Pipeline.Clip.ok_of (hstart1_1 i a))).WholeWords (EltTy.packing .f32)
  hwxs1_1 : ∀ i : grid1.Coords, EltTy.bits .f32 = 32 ∨ (Rect.unit (s := S1024x64) (fun _ => 0) (fun a => (Pipeline.Clip.of (cc1_transform_1 i a) (S1024x64.size a) (S12000x64.size a)).extent (S1024x64.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1024x1024.size a < S12000x12000.size a
  hwx1_2 : ∀ i : grid1.Coords, EltTy.bits .f32 = 32 ∨ (Rect.unit (s := S12000x12000) (fun a => cc1_transform_2 i a * S1024x1024.size a) (fun a => (Pipeline.Clip.of (cc1_transform_2 i a) (S1024x1024.size a) (S12000x12000.size a)).extent (S1024x1024.size a)) fun a => Pipeline.Clip.inb (Pipeline.Clip.ok_of (hstart1_2 i a))).WholeWords (EltTy.packing .f32)
  hwxs1_2 : ∀ i : grid1.Coords, EltTy.bits .f32 = 32 ∨ (Rect.unit (s := S1024x1024) (fun _ => 0) (fun a => (Pipeline.Clip.of (cc1_transform_2 i a) (S1024x1024.size a) (S12000x12000.size a)).extent (S1024x1024.size a)) fun a => (Nat.zero_add _).trans_le (Pipeline.Clip.extent_le (Pipeline.Clip.ok_of (hstart1_2 i a)))).WholeWords (EltTy.packing .f32)

variable [Facts₀]

def dot_S12000x128_S128x64_S12000x64_1_0_0_1_n_n : DotDims S12000x128 S128x64 S12000x64 where
  lhsContracting := [1]
  rhsContracting := [0]
  lhsNonContracting := [0]
  rhsNonContracting := [1]
  lhsBatch := []
  rhsBatch := []
  wf := dot_S12000x128_S128x64_S12000x64_1_0_0_1_n_n_wf
def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def gather_S12000x64_S396000x1_S396000x64_1_0_n_n_0_1_164 : GatherDims S12000x64 S396000x1 S396000x64 where
  offsetDims := [1]
  collapsedSliceDims := [0]
  operandBatchingDims := []
  startIndicesBatchingDims := []
  startIndexMap := [0]
  indexVectorDim := 1
  sliceSizes := ![1, 64]
  wf := gather_S12000x64_S396000x1_S396000x64_1_0_n_n_0_1_164_wf
def scatter_S12000x64_S396000x1_S396000x64_1_0_0_1 : ScatterDims S12000x64 S396000x1 S396000x64 where
  updateWindowDims := [1]
  insertedWindowDims := [0]
  scatterDimsToOperandDims := [0]
  indexVectorDim := 1
  wf := scatter_S12000x64_S396000x1_S396000x64_1_0_0_1_wf
def dot_S12000x64_S64x64_S12000x64_1_0_0_1_n_n : DotDims S12000x64 S64x64 S12000x64 where
  lhsContracting := [1]
  rhsContracting := [0]
  lhsNonContracting := [0]
  rhsNonContracting := [1]
  lhsBatch := []
  rhsBatch := []
  wf := dot_S12000x64_S64x64_S12000x64_1_0_0_1_n_n_wf
def dot_S1200x64_S64x64_S1200x64_1_0_0_1_n_n : DotDims S1200x64 S64x64 S1200x64 where
  lhsContracting := [1]
  rhsContracting := [0]
  lhsNonContracting := [0]
  rhsNonContracting := [1]
  lhsBatch := []
  rhsBatch := []
  wf := dot_S1200x64_S64x64_S1200x64_1_0_0_1_n_n_wf
def dot_S1200x64_S64x128_S1200x128_1_0_0_1_n_n : DotDims S1200x64 S64x128 S1200x128 where
  lhsContracting := [1]
  rhsContracting := [0]
  lhsNonContracting := [0]
  rhsNonContracting := [1]
  lhsBatch := []
  rhsBatch := []
  wf := dot_S1200x64_S64x128_S1200x128_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v206) S1200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg17) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg18) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg19) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg20) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v207) S1200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpecClip (Memref.whole main_v206) S1024x64.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v206) S1024x64.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v208) S1024x1024.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S12000x128 : Shape := ⟨2, ![12000, 128]⟩
abbrev S384000 : Shape := ⟨1, ![384000]⟩
abbrev S12000 : Shape := ⟨1, ![12000]⟩
abbrev S12000x64 : Shape := ⟨2, ![12000, 64]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S396000 : Shape := ⟨1, ![396000]⟩
abbrev S_ : Shape := ⟨0, ![]⟩
abbrev S396000x1 : Shape := ⟨2, ![396000, 1]⟩
abbrev S396000x64 : Shape := ⟨2, ![396000, 64]⟩
abbrev S1x64 : Shape := ⟨2, ![1, 64]⟩
abbrev S1x128 : Shape := ⟨2, ![1, 128]⟩
abbrev S64x12000 : Shape := ⟨2, ![64, 12000]⟩
abbrev S12000x12000 : Shape := ⟨2, ![12000, 12000]⟩

abbrev nBuf : Space → Nat
  | .hbm => 302
  | .vmem => 0
  | .smem => 0
  | _ => 0

abbrev hbmTy0_0 (i : Nat) : BufTy := match i % 128 with
  | 0 => ⟨S12000x128, .f32⟩
  | 1 => ⟨S384000, .i32⟩
  | 2 => ⟨S384000, .i32⟩
  | 3 => ⟨S12000, .i32⟩
  | 4 => ⟨S12000x64, .f32⟩
  | 5 => ⟨S128x64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64x64, .f32⟩
  | 14 => ⟨S64, .f32⟩
  | 15 => ⟨S64, .f32⟩
  | 16 => ⟨S64, .f32⟩
  | 17 => ⟨S64x64, .f32⟩
  | 18 => ⟨S64, .f32⟩
  | 19 => ⟨S64x128, .f32⟩
  | 20 => ⟨S128, .f32⟩
  | 21 => ⟨S12000x64, .f32⟩
  | 22 => ⟨S12000, .i32⟩
  | 23 => ⟨S396000, .i32⟩
  | 24 => ⟨S396000, .i32⟩
  | 25 => ⟨S_, .f32⟩
  | 26 => ⟨S396000, .f32⟩
  | 27 => ⟨S_, .f32⟩
  | 28 => ⟨S12000, .f32⟩
  | 29 => ⟨S396000x1, .i32⟩
  | 30 => ⟨S12000, .f32⟩
  | 31 => ⟨S12000, .f32⟩
  | 32 => ⟨S_, .i32⟩
  | 33 => ⟨S396000, .i32⟩
  | 34 => ⟨S396000, .i1⟩
  | 35 => ⟨S_, .i32⟩
  | 36 => ⟨S396000, .i32⟩
  | 37 => ⟨S396000, .i32⟩
  | 38 => ⟨S396000, .i32⟩
  | 39 => ⟨S396000x1, .i32⟩
  | 40 => ⟨S396000, .f32⟩
  | 41 => ⟨S_, .i32⟩
  | 42 => ⟨S396000, .i32⟩
  | 43 => ⟨S396000, .i1⟩
  | 44 => ⟨S_, .i32⟩
  | 45 => ⟨S396000, .i32⟩
  | 46 => ⟨S396000, .i32⟩
  | 47 => ⟨S396000, .i32⟩
  | 48 => ⟨S396000x1, .i32⟩
  | 49 => ⟨S396000, .f32⟩
  | 50 => ⟨S396000, .f32⟩
  | 51 => ⟨S_, .i32⟩
  | 52 => ⟨S396000, .i32⟩
  | 53 => ⟨S396000, .i1⟩
  | 54 => ⟨S_, .i32⟩
  | 55 => ⟨S396000, .i32⟩
  | 56 => ⟨S396000, .i32⟩
  | 57 => ⟨S396000, .i32⟩
  | 58 => ⟨S396000x1, .i32⟩
  | 59 => ⟨S396000x64, .f32⟩
  | 60 => ⟨S396000x1, .f32⟩
  | 61 => ⟨S396000x64, .f32⟩
  | 62 => ⟨S396000x64, .f32⟩
  | 63 => ⟨S_, .f32⟩
  | 64 => ⟨S12000x64, .f32⟩
  | 65 => ⟨S396000x1, .i32⟩
  | 66 => ⟨S12000x64, .f32⟩
  | 67 => ⟨S1x64, .f32⟩
  | 68 => ⟨S12000x64, .f32⟩
  | 69 => ⟨S12000x64, .f32⟩
  | 70 => ⟨S12000x64, .f32⟩
  | 71 => ⟨S12000x64, .f32⟩
  | 72 => ⟨S_, .f32⟩
  | 73 => ⟨S12000x64, .f32⟩
  | 74 => ⟨S12000x64, .f32⟩
  | 75 => ⟨S_, .f32⟩
  | 76 => ⟨S12000x64, .f32⟩
  | 77 => ⟨S12000x64, .f32⟩
  | 78 => ⟨S_, .f32⟩
  | 79 => ⟨S64, .f32⟩
  | 80 => ⟨S_, .f32⟩
  | 81 => ⟨S64, .f32⟩
  | 82 => ⟨S64, .f32⟩
  | 83 => ⟨S1x64, .f32⟩
  | 84 => ⟨S12000x64, .f32⟩
  | 85 => ⟨S12000x64, .f32⟩
  | 86 => ⟨S12000x64, .f32⟩
  | 87 => ⟨S_, .f32⟩
  | 88 => ⟨S64, .f32⟩
  | 89 => ⟨S_, .f32⟩
  | 90 => ⟨S64, .f32⟩
  | 91 => ⟨S64, .f32⟩
  | 92 => ⟨S_, .f32⟩
  | 93 => ⟨S64, .f32⟩
  | 94 => ⟨S64, .f32⟩
  | 95 => ⟨S64, .f32⟩
  | 96 => ⟨S1x64, .f32⟩
  | 97 => ⟨S12000x64, .f32⟩
  | 98 => ⟨S12000x64, .f32⟩
  | 99 => ⟨S1x64, .f32⟩
  | 100 => ⟨S12000x64, .f32⟩
  | 101 => ⟨S12000x64, .f32⟩
  | 102 => ⟨S1x64, .f32⟩
  | 103 => ⟨S12000x64, .f32⟩
  | 104 => ⟨S12000x64, .f32⟩
  | 105 => ⟨S12000x64, .f32⟩
  | 106 => ⟨S12000, .i32⟩
  | 107 => ⟨S396000, .i32⟩
  | 108 => ⟨S396000, .i32⟩
  | 109 => ⟨S_, .f32⟩
  | 110 => ⟨S396000, .f32⟩
  | 111 => ⟨S_, .f32⟩
  | 112 => ⟨S12000, .f32⟩
  | 113 => ⟨S396000x1, .i32⟩
  | 114 => ⟨S12000, .f32⟩
  | 115 => ⟨S12000, .f32⟩
  | 116 => ⟨S_, .i32⟩
  | 117 => ⟨S396000, .i32⟩
  | 118 => ⟨S396000, .i1⟩
  | 119 => ⟨S_, .i32⟩
  | 120 => ⟨S396000, .i32⟩
  | 121 => ⟨S396000, .i32⟩
  | 122 => ⟨S396000, .i32⟩
  | 123 => ⟨S396000x1, .i32⟩
  | 124 => ⟨S396000, .f32⟩
  | 125 => ⟨S_, .i32⟩
  | 126 => ⟨S396000, .i32⟩
  | 127 => ⟨S396000, .i1⟩
  | _ => ⟨S12000x128, .f32⟩

abbrev hbmTy0_1 (i : Nat) : BufTy := match i % 128 with
  | 0 => ⟨S_, .i32⟩
  | 1 => ⟨S396000, .i32⟩
  | 2 => ⟨S396000, .i32⟩
  | 3 => ⟨S396000, .i32⟩
  | 4 => ⟨S396000x1, .i32⟩
  | 5 => ⟨S396000, .f32⟩
  | 6 => ⟨S396000, .f32⟩
  | 7 => ⟨S_, .i32⟩
  | 8 => ⟨S396000, .i32⟩
  | 9 => ⟨S396000, .i1⟩
  | 10 => ⟨S_, .i32⟩
  | 11 => ⟨S396000, .i32⟩
  | 12 => ⟨S396000, .i32⟩
  | 13 => ⟨S396000, .i32⟩
  | 14 => ⟨S396000x1, .i32⟩
  | 15 => ⟨S396000x64, .f32⟩
  | 16 => ⟨S396000x1, .f32⟩
  | 17 => ⟨S396000x64, .f32⟩
  | 18 => ⟨S396000x64, .f32⟩
  | 19 => ⟨S_, .f32⟩
  | 20 => ⟨S12000x64, .f32⟩
  | 21 => ⟨S396000x1, .i32⟩
  | 22 => ⟨S12000x64, .f32⟩
  | 23 => ⟨S1x64, .f32⟩
  | 24 => ⟨S12000x64, .f32⟩
  | 25 => ⟨S12000x64, .f32⟩
  | 26 => ⟨S12000x64, .f32⟩
  | 27 => ⟨S12000x64, .f32⟩
  | 28 => ⟨S_, .f32⟩
  | 29 => ⟨S12000x64, .f32⟩
  | 30 => ⟨S12000x64, .f32⟩
  | 31 => ⟨S_, .f32⟩
  | 32 => ⟨S12000x64, .f32⟩
  | 33 => ⟨S12000x64, .f32⟩
  | 34 => ⟨S_, .f32⟩
  | 35 => ⟨S64, .f32⟩
  | 36 => ⟨S_, .f32⟩
  | 37 => ⟨S64, .f32⟩
  | 38 => ⟨S64, .f32⟩
  | 39 => ⟨S1x64, .f32⟩
  | 40 => ⟨S12000x64, .f32⟩
  | 41 => ⟨S12000x64, .f32⟩
  | 42 => ⟨S12000x64, .f32⟩
  | 43 => ⟨S_, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S64, .f32⟩
  | 52 => ⟨S1x64, .f32⟩
  | 53 => ⟨S12000x64, .f32⟩
  | 54 => ⟨S12000x64, .f32⟩
  | 55 => ⟨S1x64, .f32⟩
  | 56 => ⟨S12000x64, .f32⟩
  | 57 => ⟨S12000x64, .f32⟩
  | 58 => ⟨S1x64, .f32⟩
  | 59 => ⟨S12000x64, .f32⟩
  | 60 => ⟨S12000x64, .f32⟩
  | 61 => ⟨S12000x64, .f32⟩
  | 62 => ⟨S12000, .i32⟩
  | 63 => ⟨S396000, .i32⟩
  | 64 => ⟨S396000, .i32⟩
  | 65 => ⟨S_, .f32⟩
  | 66 => ⟨S396000, .f32⟩
  | 67 => ⟨S_, .f32⟩
  | 68 => ⟨S12000, .f32⟩
  | 69 => ⟨S396000x1, .i32⟩
  | 70 => ⟨S12000, .f32⟩
  | 71 => ⟨S12000, .f32⟩
  | 72 => ⟨S_, .i32⟩
  | 73 => ⟨S396000, .i32⟩
  | 74 => ⟨S396000, .i1⟩
  | 75 => ⟨S_, .i32⟩
  | 76 => ⟨S396000, .i32⟩
  | 77 => ⟨S396000, .i32⟩
  | 78 => ⟨S396000, .i32⟩
  | 79 => ⟨S396000x1, .i32⟩
  | 80 => ⟨S396000, .f32⟩
  | 81 => ⟨S_, .i32⟩
  | 82 => ⟨S396000, .i32⟩
  | 83 => ⟨S396000, .i1⟩
  | 84 => ⟨S_, .i32⟩
  | 85 => ⟨S396000, .i32⟩
  | 86 => ⟨S396000, .i32⟩
  | 87 => ⟨S396000, .i32⟩
  | 88 => ⟨S396000x1, .i32⟩
  | 89 => ⟨S396000, .f32⟩
  | 90 => ⟨S396000, .f32⟩
  | 91 => ⟨S_, .i32⟩
  | 92 => ⟨S396000, .i32⟩
  | 93 => ⟨S396000, .i1⟩
  | 94 => ⟨S_, .i32⟩
  | 95 => ⟨S396000, .i32⟩
  | 96 => ⟨S396000, .i32⟩
  | 97 => ⟨S396000, .i32⟩
  | 98 => ⟨S396000x1, .i32⟩
  | 99 => ⟨S396000x64, .f32⟩
  | 100 => ⟨S396000x1, .f32⟩
  | 101 => ⟨S396000x64, .f32⟩
  | 102 => ⟨S396000x64, .f32⟩
  | 103 => ⟨S_, .f32⟩
  | 104 => ⟨S12000x64, .f32⟩
  | 105 => ⟨S396000x1, .i32⟩
  | 106 => ⟨S12000x64, .f32⟩
  | 107 => ⟨S1x64, .f32⟩
  | 108 => ⟨S12000x64, .f32⟩
  | 109 => ⟨S12000x64, .f32⟩
  | 110 => ⟨S12000x64, .f32⟩
  | 111 => ⟨S12000x64, .f32⟩
  | 112 => ⟨S_, .f32⟩
  | 113 => ⟨S12000x64, .f32⟩
  | 114 => ⟨S12000x64, .f32⟩
  | 115 => ⟨S_, .f32⟩
  | 116 => ⟨S12000x64, .f32⟩
  | 117 => ⟨S12000x64, .f32⟩
  | 118 => ⟨S_, .f32⟩
  | 119 => ⟨S64, .f32⟩
  | 120 => ⟨S_, .f32⟩
  | 121 => ⟨S64, .f32⟩
  | 122 => ⟨S64, .f32⟩
  | 123 => ⟨S1x64, .f32⟩
  | 124 => ⟨S12000x64, .f32⟩
  | 125 => ⟨S12000x64, .f32⟩
  | 126 => ⟨S12000x64, .f32⟩
  | 127 => ⟨S_, .f32⟩
  | _ => ⟨S12000x128, .f32⟩

abbrev hbmTy0_2 (i : Nat) : BufTy := match i % 128 with
  | 0 => ⟨S64, .f32⟩
  | 1 => ⟨S_, .f32⟩
  | 2 => ⟨S64, .f32⟩
  | 3 => ⟨S64, .f32⟩
  | 4 => ⟨S_, .f32⟩
  | 5 => ⟨S64, .f32⟩
  | 6 => ⟨S64, .f32⟩
  | 7 => ⟨S64, .f32⟩
  | 8 => ⟨S1x64, .f32⟩
  | 9 => ⟨S12000x64, .f32⟩
  | 10 => ⟨S12000x64, .f32⟩
  | 11 => ⟨S1x64, .f32⟩
  | 12 => ⟨S12000x64, .f32⟩
  | 13 => ⟨S12000x64, .f32⟩
  | 14 => ⟨S1x64, .f32⟩
  | 15 => ⟨S12000x64, .f32⟩
  | 16 => ⟨S12000x64, .f32⟩
  | 17 => ⟨S12000x64, .f32⟩
  | 18 => ⟨S12000x64, .f32⟩
  | 19 => ⟨S12000x64, .f32⟩
  | 20 => ⟨S12000x64, .f32⟩
  | 21 => ⟨S1x64, .f32⟩
  | 22 => ⟨S12000x64, .f32⟩
  | 23 => ⟨S12000x64, .f32⟩
  | 24 => ⟨S_, .f32⟩
  | 25 => ⟨S_, .f32⟩
  | 26 => ⟨S12000x64, .f32⟩
  | 27 => ⟨S12000x64, .i1⟩
  | 28 => ⟨S_, .f32⟩
  | 29 => ⟨S12000x64, .f32⟩
  | 30 => ⟨S12000x64, .f32⟩
  | 31 => ⟨S12000x64, .f32⟩
  | 32 => ⟨S12000x128, .f32⟩
  | 33 => ⟨S1x128, .f32⟩
  | 34 => ⟨S12000x128, .f32⟩
  | 35 => ⟨S12000x128, .f32⟩
  | 36 => ⟨S64x12000, .f32⟩
  | 37 => ⟨S12000x12000, .f32⟩
  | 38 => ⟨S12000x12000, .f32⟩
  | 39 => ⟨S12000x12000, .f32⟩
  | 40 => ⟨S_, .f32⟩
  | 41 => ⟨S12000x12000, .f32⟩
  | 42 => ⟨S12000x12000, .f32⟩
  | 43 => ⟨S_, .f32⟩
  | 44 => ⟨S12000x12000, .f32⟩
  | 45 => ⟨S12000x12000, .f32⟩
  | _ => ⟨S12000x128, .f32⟩

abbrev hbmTy (i : Nat) : BufTy := match i / 128 with
  | 0 => hbmTy0_0 i
  | 1 => hbmTy0_1 i
  | 2 => hbmTy0_2 i
  | _ => ⟨S12000x128, .f32⟩

abbrev bufTy : (tb : Table) → Fin (tcTables nBuf tb) → BufTy
  | .hbm, ⟨i, _⟩ => hbmTy i
  | _, _ => ⟨S12000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c : Ref sig .tc := ⟨.hbm, 32, rfl⟩
abbrev main_v9 : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_2 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_v24 : Ref sig .tc := ⟨.hbm, 52, rfl⟩
abbrev main_v25 : Ref sig .tc := ⟨.hbm, 53, rfl⟩
abbrev main_c_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_7 : Ref sig .tc := ⟨.hbm, 72, rfl⟩
abbrev main_v42 : Ref sig .tc := ⟨.hbm, 73, rfl⟩
abbrev main_v43 : Ref sig .tc := ⟨.hbm, 74, rfl⟩
abbrev main_cst_8 : Ref sig .tc := ⟨.hbm, 75, rfl⟩
abbrev main_v44 : Ref sig .tc := ⟨.hbm, 76, rfl⟩
abbrev main_v45 : Ref sig .tc := ⟨.hbm, 77, rfl⟩
abbrev main_cst_9 : Ref sig .tc := ⟨.hbm, 78, rfl⟩
abbrev main_v46 : Ref sig .tc := ⟨.hbm, 79, rfl⟩
abbrev main_cst_10 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_11 : Ref sig .tc := ⟨.hbm, 87, rfl⟩
abbrev main_v53 : Ref sig .tc := ⟨.hbm, 88, rfl⟩
abbrev main_cst_12 : Ref sig .tc := ⟨.hbm, 89, rfl⟩
abbrev main_v54 : Ref sig .tc := ⟨.hbm, 90, rfl⟩
abbrev main_v55 : Ref sig .tc := ⟨.hbm, 91, rfl⟩
abbrev main_cst_13 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_14 : Ref sig .tc := ⟨.hbm, 109, rfl⟩
abbrev main_v72 : Ref sig .tc := ⟨.hbm, 110, rfl⟩
abbrev main_cst_15 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_16 : Ref sig .tc := ⟨.hbm, 116, rfl⟩
abbrev main_v77 : Ref sig .tc := ⟨.hbm, 117, rfl⟩
abbrev main_v78 : Ref sig .tc := ⟨.hbm, 118, rfl⟩
abbrev main_c_17 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_18 : Ref sig .tc := ⟨.hbm, 125, rfl⟩
abbrev main_v84 : Ref sig .tc := ⟨.hbm, 126, rfl⟩
abbrev main_v85 : Ref sig .tc := ⟨.hbm, 127, rfl⟩
abbrev main_c_19 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_20 : Ref sig .tc := ⟨.hbm, 135, rfl⟩
abbrev main_v92 : Ref sig .tc := ⟨.hbm, 136, rfl⟩
abbrev main_v93 : Ref sig .tc := ⟨.hbm, 137, rfl⟩
abbrev main_c_21 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_22 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_23 : Ref sig .tc := ⟨.hbm, 156, rfl⟩
abbrev main_v110 : Ref sig .tc := ⟨.hbm, 157, rfl⟩
abbrev main_v111 : Ref sig .tc := ⟨.hbm, 158, rfl⟩
abbrev main_cst_24 : Ref sig .tc := ⟨.hbm, 159, rfl⟩
abbrev main_v112 : Ref sig .tc := ⟨.hbm, 160, rfl⟩
abbrev main_v113 : Ref sig .tc := ⟨.hbm, 161, rfl⟩
abbrev main_cst_25 : Ref sig .tc := ⟨.hbm, 162, rfl⟩
abbrev main_v114 : Ref sig .tc := ⟨.hbm, 163, rfl⟩
abbrev main_cst_26 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_27 : Ref sig .tc := ⟨.hbm, 171, rfl⟩
abbrev main_v121 : Ref sig .tc := ⟨.hbm, 172, rfl⟩
abbrev main_cst_28 : Ref sig .tc := ⟨.hbm, 173, rfl⟩
abbrev main_v122 : Ref sig .tc := ⟨.hbm, 174, rfl⟩
abbrev main_v123 : Ref sig .tc := ⟨.hbm, 175, rfl⟩
abbrev main_cst_29 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_30 : Ref sig .tc := ⟨.hbm, 193, rfl⟩
abbrev main_v140 : Ref sig .tc := ⟨.hbm, 194, rfl⟩
abbrev main_cst_31 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_c_32 : Ref sig .tc := ⟨.hbm, 200, rfl⟩
abbrev main_v145 : Ref sig .tc := ⟨.hbm, 201, rfl⟩
abbrev main_v146 : Ref sig .tc := ⟨.hbm, 202, rfl⟩
abbrev main_c_33 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_c_34 : Ref sig .tc := ⟨.hbm, 209, rfl⟩
abbrev main_v152 : Ref sig .tc := ⟨.hbm, 210, rfl⟩
abbrev main_v153 : Ref sig .tc := ⟨.hbm, 211, rfl⟩
abbrev main_c_35 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_c_36 : Ref sig .tc := ⟨.hbm, 219, rfl⟩
abbrev main_v160 : Ref sig .tc := ⟨.hbm, 220, rfl⟩
abbrev main_v161 : Ref sig .tc := ⟨.hbm, 221, rfl⟩
abbrev main_c_37 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_cst_38 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_cst_39 : Ref sig .tc := ⟨.hbm, 240, rfl⟩
abbrev main_v178 : Ref sig .tc := ⟨.hbm, 241, rfl⟩
abbrev main_v179 : Ref sig .tc := ⟨.hbm, 242, rfl⟩
abbrev main_cst_40 : Ref sig .tc := ⟨.hbm, 243, rfl⟩
abbrev main_v180 : Ref sig .tc := ⟨.hbm, 244, rfl⟩
abbrev main_v181 : Ref sig .tc := ⟨.hbm, 245, rfl⟩
abbrev main_cst_41 : Ref sig .tc := ⟨.hbm, 246, rfl⟩
abbrev main_v182 : Ref sig .tc := ⟨.hbm, 247, rfl⟩
abbrev main_cst_42 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_cst_43 : Ref sig .tc := ⟨.hbm, 255, rfl⟩
abbrev main_v189 : Ref sig .tc := ⟨.hbm, 256, rfl⟩
abbrev main_cst_44 : Ref sig .tc := ⟨.hbm, 257, rfl⟩
abbrev main_v190 : Ref sig .tc := ⟨.hbm, 258, rfl⟩
abbrev main_v191 : Ref sig .tc := ⟨.hbm, 259, rfl⟩
abbrev main_cst_45 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_cst_46 : Ref sig .tc := ⟨.hbm, 280, rfl⟩
abbrev main_call0_cst : Ref sig .tc := ⟨.hbm, 281, rfl⟩
abbrev main_call0_v0 : Ref sig .tc := ⟨.hbm, 282, rfl⟩
abbrev main_call0_v1 : Ref sig .tc := ⟨.hbm, 283, rfl⟩
abbrev main_call0_v2 : Ref sig .tc := ⟨.hbm, 284, rfl⟩
abbrev main_call0_v3 : Ref sig .tc := ⟨.hbm, 285, rfl⟩
abbrev main_call0_v4 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_cst_47 : Ref sig .tc := ⟨.hbm, 296, rfl⟩
abbrev main_v220 : Ref sig .tc := ⟨.hbm, 297, rfl⟩
abbrev main_v221 : Ref sig .tc := ⟨.hbm, 298, rfl⟩
abbrev main_cst_48 : Ref sig .tc := ⟨.hbm, 299, rfl⟩
abbrev main_v222 : Ref sig .tc := ⟨.hbm, 300, rfl⟩
abbrev main_v223 : Ref sig .tc := ⟨.hbm, 301, rfl⟩

abbrev nD : Nat := 1
abbrev τ : Topo := Topo.v7x

variable {F : FTy → Type} [FloatOps F]

class Facts₀ : Prop where
  concatenates_S384000_S12000_S396000_d0 : Shape.Concatenates [S384000, S12000] S396000 0
  bcast_S_S396000 : S_.BroadcastsInDim S396000 (![] : Fin 0 → Fin S396000.rank)
  bcast_S_S12000 : S_.BroadcastsInDim S12000 (![] : Fin 0 → Fin S12000.rank)
  bcast_S396000_S396000x1_0 : S396000.BroadcastsInDim S396000x1 (![0] : Fin 1 → Fin S396000x1.rank)
  bcast_S396000x1_S396000x64_0_1 : S396000x1.BroadcastsInDim S396000x64 (![0, 1] : Fin 2 → Fin S396000x64.rank)
  bcast_S_S12000x64 : S_.BroadcastsInDim S12000x64 (![] : Fin 0 → Fin S12000x64.rank)
  bcast_S64_S1x64_1 : S64.BroadcastsInDim S1x64 (![1] : Fin 1 → Fin S1x64.rank)
  bcast_S1x64_S12000x64_0_1 : S1x64.BroadcastsInDim S12000x64 (![0, 1] : Fin 2 → Fin S12000x64.rank)
  reducesTo_S12000x64_S64_d0 : S12000x64.ReducesTo [0] S64
  h_S_ : 0 < S_.numel
  bcast_S_S64 : S_.BroadcastsInDim S64 (![] : Fin 0 → Fin S64.rank)
  bcast_S128_S1x128_1 : S128.BroadcastsInDim S1x128 (![1] : Fin 1 → Fin S1x128.rank)
  bcast_S1x128_S12000x128_0_1 : S1x128.BroadcastsInDim S12000x128 (![0, 1] : Fin 2 → Fin S12000x128.rank)
  transposes_S12000x64_S64x12000_1_0 : S12000x64.Transposes [1, 0] S64x12000
  bcast_S_S12000x12000 : S_.BroadcastsInDim S12000x12000 (![] : Fin 0 → Fin S12000x12000.rank)
  dot_S12000x128_S128x64_S12000x64_1_0_0_1_n_n_wf : DotDims.WF S12000x128 S128x64 S12000x64 [1] [0] [0] [1] [] []
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  gather_S12000x64_S396000x1_S396000x64_1_0_n_n_0_1_164_wf : GatherDims.WF S12000x64 S396000x1 S396000x64 [1] [0] [] [0] [] 1 ![1, 64]
  scatter_S12000x64_S396000x1_S396000x64_1_0_0_1_wf : ScatterDims.WF S12000x64 S396000x1 S396000x64 [1] [0] [0] 1
  dot_S12000x64_S64x64_S12000x64_1_0_0_1_n_n_wf : DotDims.WF S12000x64 S64x64 S12000x64 [1] [0] [0] [1] [] []
  dot_S12000x64_S64x128_S12000x128_1_0_0_1_n_n_wf : DotDims.WF S12000x64 S64x128 S12000x128 [1] [0] [0] [1] [] []
  dot_S12000x64_S64x12000_S12000x12000_1_0_0_1_n_n_wf : DotDims.WF S12000x64 S64x12000 S12000x12000 [1] [0] [0] [1] [] []

variable [Facts₀]

def dot_S12000x128_S128x64_S12000x64_1_0_0_1_n_n : DotDims S12000x128 S128x64 S12000x64 where
  lhsContracting := [1]
  rhsContracting := [0]
  lhsNonContracting := [0]
  rhsNonContracting := [1]
  lhsBatch := []
  rhsBatch := []
  wf := dot_S12000x128_S128x64_S12000x64_1_0_0_1_n_n_wf
def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def gather_S12000x64_S396000x1_S396000x64_1_0_n_n_0_1_164 : GatherDims S12000x64 S396000x1 S396000x64 where
  offsetDims := [1]
  collapsedSliceDims := [0]
  operandBatchingDims := []
  startIndicesBatchingDims := []
  startIndexMap := [0]
  indexVectorDim := 1
  sliceSizes := ![1, 64]
  wf := gather_S12000x64_S396000x1_S396000x64_1_0_n_n_0_1_164_wf
def scatter_S12000x64_S396000x1_S396000x64_1_0_0_1 : ScatterDims S12000x64 S396000x1 S396000x64 where
  updateWindowDims := [1]
  insertedWindowDims := [0]
  scatterDimsToOperandDims := [0]
  indexVectorDim := 1
  wf := scatter_S12000x64_S396000x1_S396000x64_1_0_0_1_wf
def dot_S12000x64_S64x64_S12000x64_1_0_0_1_n_n : DotDims S12000x64 S64x64 S12000x64 where
  lhsContracting := [1]
  rhsContracting := [0]
  lhsNonContracting := [0]
  rhsNonContracting := [1]
  lhsBatch := []
  rhsBatch := []
  wf := dot_S12000x64_S64x64_S12000x64_1_0_0_1_n_n_wf
def dot_S12000x64_S64x128_S12000x128_1_0_0_1_n_n : DotDims S12000x64 S64x128 S12000x128 where
  lhsContracting := [1]
  rhsContracting := [0]
  lhsNonContracting := [0]
  rhsNonContracting := [1]
  lhsBatch := []
  rhsBatch := []
  wf := dot_S12000x64_S64x128_S12000x128_1_0_0_1_n_n_wf
def dot_S12000x64_S64x12000_S12000x12000_1_0_0_1_n_n : DotDims S12000x64 S64x12000 S12000x12000 where
  lhsContracting := [1]
  rhsContracting := [0]
  lhsNonContracting := [0]
  rhsNonContracting := [1]
  lhsBatch := []
  rhsBatch := []
  wf := dot_S12000x64_S64x12000_S12000x12000_1_0_0_1_n_n_wf

class Facts : Prop extends Facts₀ where

variable [Facts]
-- ==== Proof.KB.Region0.lean ====
import proofs.«119114_j25752623907299_2_alg».proof.Proof.Gen.Kernel.Launch
import proofs.«119114_j25752623907299_2_alg».proof.Proof.Gen.Kernel.Skeleton
import proofs.«119114_j25752623907299_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The decoder call: what its body does to the staging buffers

The first pipeline of @main runs the decoder over the embedding z (12000 x 64) in ten steps. At step t its body is
handed six staging buffers: rows 1200 t .. 1200 t + 1199 of z; the hidden layer's weights (64 x 64) and bias (64);
the output layer's weights (64 x 128) and bias (128) — the four of them whole, at a block index that never moves, so
the pipeline copies them in once, at the first step —; and the buffer of rows 1200 t .. of the result (12000 x 128).
The body reads the five inputs whole, reads the result's buffer once (a value nothing uses), and stores ONE value
through the whole rectangle of the result's buffer: the hidden layer's product, bias and rectifier, then the output
layer's product and bias, of what it read. 12000 = 10 * 1200: no block overhangs.

So what the body leaves in the result's buffer is a closed function `out0_5` of the five blocks it read, and it
leaves the five input buffers as it found them. This module states that as the pipeline's exact proof data `dat0`
and proves the body's obligation against them, for any float operations `F`, at a parameter `V`: the TensorCore's
buffer contents when the call is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## Blocks and rectangles -/

/-- Window `w`'s block at step `t`, read off its array as the call finds it: for window 0 the 1200 rows of z at
    `t`, for windows 1–4 the whole weight or bias array, for window 5 the 1200 rows of the result at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole rectangle of each of the six staging buffers: what each of the body's loads and its store go through. -/
abbrev r0_0 : Rect S1200x64 := Rect.unit (s := S1200x64) ![0, 0] S1200x64.size inb_S1200x64_S1200x64_0_0
abbrev r0_1 : Rect S64x64 := Rect.unit (s := S64x64) ![0, 0] S64x64.size inb_S64x64_S64x64_0_0
abbrev r0_2 : Rect S64 := Rect.unit (s := S64) ![0] S64.size inb_S64_S64_0
abbrev r0_3 : Rect S64x128 := Rect.unit (s := S64x128) ![0, 0] S64x128.size inb_S64x128_S64x128_0_0
abbrev r0_4 : Rect S128 := Rect.unit (s := S128) ![0] S128.size inb_S128_S128_0
abbrev r0_5 : Rect S1200x128 := Rect.unit (s := S1200x128) ![0, 0] S1200x128.size inb_S1200x128_S1200x128_0_0

/-! ## The result's buffer after the body -/

/-- What the body leaves in the result's buffer, from the five input buffers' contents: the decoder's value of the
    five loads, laid through the whole rectangle by the one store. -/
def out0_5 (x0 : Vec F S1200x64 .f32) (x1 : Vec F S64x64 .f32) (x2 : Vec F S64 .f32) (x3 : Vec F S64x128 .f32) (x4 : Vec F S128 .f32) :
    Vec F S1200x128 .f32 :=
  View.canon [⟨r0_5, k0_pay1 (View.ld x0 r0_0) (View.ld x1 r0_1) (View.ld x2 r0_2) (View.ld x3 r0_3) (View.ld x4 r0_4)⟩]

/-- One store through the whole rectangle reaches every entry of the buffer (one block of 1200 x 128 tiles it). -/
theorem cover0_5 (p0 : Vec F S1200x128 .f32) (y : S1200x128.Idx) :
    ∃ pc ∈ ([⟨r0_5, p0⟩] : List (View.Piece (Elt F) S1200x128 .f32)), y ∈ pc.1.set :=
  View.cover_of_tiled [⟨r0_5, p0⟩] S1200x128.size (by rfl) y

/-! ## The body on six whole buffers -/

set_option maxHeartbeats 1000000 in
/-- The decoder's body, called at any grid coordinate on six whole staging buffers — the five inputs' holding `x0 … x4`,
    the result's holding anything — runs to a continuation that is given the inputs' back as they were and the result's
    at `out0_5 x0 … x4`. Nothing of the result's earlier contents survives: the one store covers the buffer. -/
theorem sound_kernel0 (c : Dev nD) (E : Set ℕ) (i : grid0.Coords)
    (arg0 : Memref sig .tc .vmem S1200x64 .f32) (harg0 : arg0.IsWhole) (arg1 : Memref sig .tc .vmem S64x64 .f32) (harg1 : arg1.IsWhole)
    (arg2 : Memref sig .tc .vmem S64 .f32) (harg2 : arg2.IsWhole) (arg3 : Memref sig .tc .vmem S64x128 .f32) (harg3 : arg3.IsWhole)
    (arg4 : Memref sig .tc .vmem S128 .f32) (harg4 : arg4.IsWhole) (arg5 : Memref sig .tc .vmem S1200x128 .f32) (harg5 : arg5.IsWhole)
    (x0 : Vec F S1200x64 .f32) (x1 : Vec F S64x64 .f32) (x2 : Vec F S64 .f32) (x3 : Vec F S64x128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E (cc0__decoder_kernel i arg0 harg0 arg1 harg1 arg2 harg2 arg3 harg3 arg4 harg4 arg5 harg5) K := by
  simp only [cc0__decoder_kernel_eq_skeleton]; unfold cc0__decoder_kernel_skel
  unfold owns
  -- each buffer held at raw contents `fK` that read as `xK`; the result's at raw contents `f5`
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  -- the six loads and the store
  sl_exec
  sl_step
  iapply Hk
  -- the inputs: untouched
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- the result: `f5` overwritten by the store, which reads as the store's value because the store covers the buffer
  iexists _; isplitr
  swap; · iexact H5
  ipureintro
  exact View.read_writes_eq_canon _ _ _ (cover0_5 _)

/-! ## The exact proof data -/

/-- The decoder pipeline's proof data on core `c`: its six arrays as the call finds them; after the body at step `t`
    each input buffer at its block and the result's buffer at `out0_5` of the five blocks; the invariant that of a
    body that touches nothing but its buffers; every array at the full share; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-! ## What the body finds in an input buffer

Its block, at every step. For the rows of z this is a fresh copy at each step. For a weight or bias array it is the
copy made at step 0, which the body never changes and whose block index never moves: a buffer not copied into at a
step still holds the previous step's block, and that is this step's. -/

theorem before0_0 (c : Dev nD) (t : Fin cfg0.N) (d) : (dat0 V c).before 0 t d = iblk0 V c 0 t := by
  refine ((dat0 V c).before_in_eq_fetched 0 rfl (fun _ => rfl) (fun _ _ _ => rfl) (fun s => ?_) t d).trans ?_
  · rw [after0_0]; unfold Dat.blockOf iblk0; rw [A_eq0]; try rfl
  · unfold Dat.fetched Dat.blockOf iblk0; rw [A_eq0]; try rfl

theorem before0_1 (c : Dev nD) (t : Fin cfg0.N) (d) : (dat0 V c).before 1 t d = iblk0 V c 1 t := by
  refine ((dat0 V c).before_in_eq_fetched 1 rfl (fun _ => rfl) (fun _ _ _ => rfl) (fun s => ?_) t d).trans ?_
  · rw [after0_1]; unfold Dat.blockOf iblk0; rw [A_eq0]; try rfl
  · unfold Dat.fetched Dat.blockOf iblk0; rw [A_eq0]; try rfl

theorem before0_2 (c : Dev nD) (t : Fin cfg0.N) (d) : (dat0 V c).before 2 t d = iblk0 V c 2 t := by
  refine ((dat0 V c).before_in_eq_fetched 2 rfl (fun _ => rfl) (fun _ _ _ => rfl) (fun s => ?_) t d).trans ?_
  · rw [after0_2]; unfold Dat.blockOf iblk0; rw [A_eq0]; try rfl
  · unfold Dat.fetched Dat.blockOf iblk0; rw [A_eq0]; try rfl

theorem before0_3 (c : Dev nD) (t : Fin cfg0.N) (d) : (dat0 V c).before 3 t d = iblk0 V c 3 t := by
  refine ((dat0 V c).before_in_eq_fetched 3 rfl (fun _ => rfl) (fun _ _ _ => rfl) (fun s => ?_) t d).trans ?_
  · rw [after0_3]; unfold Dat.blockOf iblk0; rw [A_eq0]; try rfl
  · unfold Dat.fetched Dat.blockOf iblk0; rw [A_eq0]; try rfl

theorem before0_4 (c : Dev nD) (t : Fin cfg0.N) (d) : (dat0 V c).before 4 t d = iblk0 V c 4 t := by
  refine ((dat0 V c).before_in_eq_fetched 4 rfl (fun _ => rfl) (fun _ _ _ => rfl) (fun s => ?_) t d).trans ?_
  · rw [after0_4]; unfold Dat.blockOf iblk0; rw [A_eq0]; try rfl
  · unfold Dat.fetched Dat.blockOf iblk0; rw [A_eq0]; try rfl

/-! ## The body's obligation to the pipeline -/

/-- What the pipeline hands the body at step `t`: the invariant, what the core owes, and the six current staging
    buffers at what the proof data say they may hold, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it takes back: the same with each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at step `t`: every input buffer holds its block (`before0_0 … before0_4`), so the body's run on whole
    buffers applies with `xK` the blocks; the invariant and what the core owes are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every step: its six windows spelt out. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.Region1.lean ====
/-
  The second pipeline of @main: the adjacency prediction. At grid point (i, j) of a 12 x 12 grid the body reads two
  1024 x 64 blocks of the embedding z — rows 1024 i .. of z and rows 1024 j .. of z, the same array through two
  windows — and writes the 1024 x 1024 block (i, j) of the result: one half of the hyperbolic tangent of one half of
  the block product z_i z_jᵀ, plus one half. 12000 = 11 * 1024 + 736, so the last block on each axis overhangs the
  array and its transfers move only the part inside it: what a staging buffer holds past the array's end is any.

  This module: each window's block at a point, read off the array as the pipeline finds it (the parameter V); what
  the body leaves in the result's buffer as a function of the two operand buffers; the proof data (the two windows
  on z at the two halves of the full share); what the body finds in each buffer at a point; and the body's triple
  on whole staging buffers.
-/
import proofs.«119114_j25752623907299_2_alg».proof.Proof.Gen.Kernel.Launch
import proofs.«119114_j25752623907299_2_alg».proof.Proof.Gen.Kernel.Skeleton
import proofs.«119114_j25752623907299_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array's block that lies inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1024x64 staging rectangle and the whole 1024x1024 one. -/
abbrev rIn1 : Rect S1024x64 := Rect.unit (s := S1024x64) ![0, 0] S1024x64.size inb_S1024x64_S1024x64_0_0
abbrev rOut1 : Rect S1024x1024 := Rect.unit (s := S1024x1024) ![0, 0] S1024x1024.size inb_S1024x1024_S1024x1024_0_0

/-- What the body leaves in the output buffer, from the two input buffers' contents: its one store. -/
def out1_2 (x0 x1 : Vec F S1024x64 .f32) : Vec F S1024x1024 .f32 :=
  View.canon [⟨rOut1, k1_pay1 (View.ld x0 rIn1) (View.ld x1 rIn1)⟩]

/-- The word the proof data put past the array's end (nothing reads it). -/
abbrev pad1 : Elt F .f32 := Scalar.ofBits .f32 0#32

/-- The proof data of the second pipeline: after the body the two input buffers hold their blocks, and the output
    buffer the payload of those two, each block filled out past the array's end with `pad1`; the two windows on the
    one array `z` hold it at the two halves of the full share. -/
def dat1 (c : Dev nD) : Dat τ (Elt F) Unit ℕ (UR sig nD τ) ℕ cfg1 c where
  A w := V c (Pipeline.arrRef spec1 w)
  after w t := match w with
    | ⟨0, _⟩ => win1_0.fill (grid1.coords t) (fun _ => pad1) (iblk1 V c 0 t)
    | ⟨1, _⟩ => win1_1.fill (grid1.coords t) (fun _ => pad1) (iblk1 V c 1 t)
    | ⟨2, _⟩ => out1_2 (win1_0.fill (grid1.coords t) (fun _ => pad1) (iblk1 V c 0 t))
                        (win1_1.fill (grid1.coords t) (fun _ => pad1) (iblk1 V c 1 t))
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) :
    (dat1 V c).after 0 t = win1_0.fill (grid1.coords t) (fun _ => pad1) (iblk1 V c 0 t) := by dsimp only [dat1]
theorem after1_1 (c : Dev nD) (t : Fin cfg1.N) :
    (dat1 V c).after 1 t = win1_1.fill (grid1.coords t) (fun _ => pad1) (iblk1 V c 1 t) := by dsimp only [dat1]
theorem after1_2 (c : Dev nD) (t : Fin cfg1.N) :
    (dat1 V c).after 2 t = out1_2 (win1_0.fill (grid1.coords t) (fun _ => pad1) (iblk1 V c 0 t))
      (win1_1.fill (grid1.coords t) (fun _ => pad1) (iblk1 V c 1 t)) := by dsimp only [dat1]

/-- An input buffer holds its block on the rows inside the array and anything (`d`) past them, whether the point fetched it or not. -/
theorem before1_0 (c : Dev nD) (t : Fin cfg1.N) (d) :
    (dat1 V c).before 0 t d = win1_0.fill (grid1.coords t) d (iblk1 V c 0 t) :=
  ((dat1 V c).before_in_eq_fetched 0 rfl (fun _ => rfl)
    (fun t t' h => funext fun a => by
      show Pipeline.Clip.of (win1_0.index t a) _ _ = Pipeline.Clip.of (win1_0.index t' a) _ _
      rw [h])
    (fun t => by
      rw [after1_0]
      exact (win1_0.cut_fill _ _ _).trans (by unfold Dat.blockOf iblk1; rw [A_eq1]))
    t d).trans (by unfold Dat.fetched Dat.blockOf iblk1; rw [A_eq1])

theorem before1_1 (c : Dev nD) (t : Fin cfg1.N) (d) :
    (dat1 V c).before 1 t d = win1_1.fill (grid1.coords t) d (iblk1 V c 1 t) :=
  ((dat1 V c).before_in_eq_fetched 1 rfl (fun _ => rfl)
    (fun t t' h => funext fun a => by
      show Pipeline.Clip.of (win1_1.index t a) _ _ = Pipeline.Clip.of (win1_1.index t' a) _ _
      rw [h])
    (fun t => by
      rw [after1_1]
      exact (win1_1.cut_fill _ _ _).trans (by unfold Dat.blockOf iblk1; rw [A_eq1]))
    t d).trans (by unfold Dat.fetched Dat.blockOf iblk1; rw [A_eq1])

/-- The output buffer holds anything: every point writes its block back, so each point starts afresh. -/
theorem before1_2 (c : Dev nD) (t : Fin cfg1.N) (d) : (dat1 V c).before 2 t d = d :=
  (dat1 V c).before_out_reset 2 rfl t
    (if h : t.val = 0 then .inl h else .inr ⟨h, flush1_2 _⟩) d

/-- The one store is the whole buffer. -/
theorem cover1_2 (p0 : Vec F S1024x1024 .f32) (y : S1024x1024.Idx) :
    ∃ pc ∈ ([⟨rOut1, p0⟩] : List (View.Piece (Elt F) S1024x1024 .f32)), y ∈ pc.1.set :=
  View.cover_of_tiled [⟨rOut1, p0⟩] S1024x1024.size (by rfl) y

set_option maxHeartbeats 1000000 in
/-- The kernel body on whole staging memrefs: two whole loads, the payload, the dead load of the output buffer, the whole store. -/
theorem sound_kernel1 (c : Dev nD) (E : Set ℕ) (i : grid1.Coords)
    (arg2 : Memref sig .tc .vmem S1024x64 .f32) (harg2 : arg2.IsWhole)
    (arg3 : Memref sig .tc .vmem S1024x64 .f32) (harg3 : arg3.IsWhole)
    (arg4 : Memref sig .tc .vmem S1024x1024 .f32) (harg4 : arg4.IsWhole)
    (x0 x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__a_pred_kernel i arg2 harg2 arg3 harg3 arg4 harg4) K := by
  simp only [cc1__a_pred_kernel_eq_skeleton]; unfold cc1__a_pred_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.Kernel.Hand
end
-- ==== Proof.KB.Region1Body.lean ====
/-
  The body obligation of the second pipeline (the adjacency prediction), at every grid point.

  Every window's last block overhangs its array, so what an operand buffer holds past the array's end is any, and the
  body computes from all of it. The part of the result inside the array — rows below the first block's cut, columns
  below the second's — must nevertheless be a fixed function of the two blocks: that holds when element (r, c) of the
  result reads only row r of the first operand buffer and row c of the second (ROW LOCALITY, `Pay1Local`), which a
  float model whose matrix product is a field without laws does not state; so the obligation takes it as a hypothesis.
  A second form forgets the result's window and needs nothing.
-/
import proofs.«119114_j25752623907299_2_alg».proof.Proof.KB.Region1
import proofs.«119114_j25752623907299_2_alg».proof.Proof.Gen.Kernel.Launch
import proofs.«119114_j25752623907299_2_alg».proof.Proof.Gen.Kernel.Skeleton
import proofs.«119114_j25752623907299_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation -/

/-- How the three windows' blocks are cut at grid coordinates `i`: the output block's rows inside the array are the
    first operand block's, its columns the second operand block's rows; the 64 lanes of `z` are never cut. -/
theorem xsize1 : ∀ i : grid1.Coords, win1_2.xsize i (0 : Fin 2) = win1_0.xsize i (0 : Fin 2)
    ∧ win1_2.xsize i (1 : Fin 2) = win1_1.xsize i (0 : Fin 2)
    ∧ win1_0.xsize i (1 : Fin 2) = 64 ∧ win1_1.xsize i (1 : Fin 2) = 64 := by decide +kernel

variable (F) in
/-- ROW LOCALITY of the body's result: its element `(r, c)` reads row `r` of the first operand buffer and row `c` of
    the second, and nothing else. A float model's `matmul` is a field with no law, so this is a hypothesis at a
    general `F`; a model that defines its product as a sum over the contraction index has it. -/
def Pay1Local : Prop := ∀ (x0 x0' x1 x1' : Vec F S1024x64 .f32) (y : S1024x1024.Idx),
  (∀ k : S1024x64.Idx, (k 0).val = (y 0).val → x0 k = x0' k) →
  (∀ k : S1024x64.Idx, (k 0).val = (y 1).val → x1 k = x1' k) → out1_2 x0 x1 y = out1_2 x0' x1' y

/-- Two fillings of one block agree wherever the transfer moves. -/
theorem fill_eq_of_moved {G : Pipeline.Grid} (w : Window sig G) {α : Type} (i : G.Coords) (d d' : w.block.Idx → α)
    (g : (w.xblock i).Idx → α) {k : w.block.Idx} (h : w.moved i k = true) : w.fill i d g k = w.fill i d' g k := by
  unfold Window.fill; rw [dif_pos h, dif_pos h]

/-- Under row locality, the part of the result inside the array does not depend on what the operand buffers hold
    past the array's end. -/
theorem cut_out1_2 (hloc : Pay1Local F) (i : grid1.Coords) (d0 d0' : win1_0.block.Idx → Elt F .f32)
    (d1 d1' : win1_1.block.Idx → Elt F .f32) (b0 : (win1_0.xblock i).Idx → Elt F .f32) (b1 : (win1_1.xblock i).Idx → Elt F .f32) :
    win1_2.cut i (out1_2 (win1_0.fill i d0 b0) (win1_1.fill i d1 b1))
      = win1_2.cut i (out1_2 (win1_0.fill i d0' b0) (win1_1.fill i d1' b1)) := by
  funext j
  obtain ⟨hA, hB, hC, hD⟩ := xsize1 i
  refine hloc _ _ _ _ _ (fun k hk => ?_) (fun k hk => ?_)
  · refine fill_eq_of_moved win1_0 i d0 d0' b0 ((win1_0.moved_iff i k).mpr fun a => ?_)
    match a with
    | ⟨0, _⟩ =>
      have hj : (j (0 : Fin 2)).val < win1_2.xsize i (0 : Fin 2) := (j (0 : Fin 2)).isLt
      show (k (0 : Fin 2)).val < win1_0.xsize i (0 : Fin 2)
      rw [hk, ← hA]; exact hj
    | ⟨1, _⟩ =>
      have h64 : (k (1 : Fin 2)).val < 64 := (k (1 : Fin 2)).isLt
      show (k (1 : Fin 2)).val < win1_0.xsize i (1 : Fin 2)
      rw [hC]; exact h64
  · refine fill_eq_of_moved win1_1 i d1 d1' b1 ((win1_1.moved_iff i k).mpr fun a => ?_)
    match a with
    | ⟨0, _⟩ =>
      have hj : (j (1 : Fin 2)).val < win1_2.xsize i (1 : Fin 2) := (j (1 : Fin 2)).isLt
      show (k (0 : Fin 2)).val < win1_1.xsize i (0 : Fin 2)
      rw [hk, ← hB]; exact hj
    | ⟨1, _⟩ =>
      have h64 : (k (1 : Fin 2)).val < 64 := (k (1 : Fin 2)).isLt
      show (k (1 : Fin 2)).val < win1_1.xsize i (1 : Fin 2)
      rw [hD]; exact h64

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: each buffer stated on the part inside the array, anything past it. -/
def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t)))))

/-- The body at any point: the operand buffers hold their blocks on the rows inside the array and anything past them;
    the result's buffer ends at the payload of those two buffers, which on the part inside the array is the payload
    of the two blocks padded by `pad1` (row locality). -/
theorem sound_body1 (hloc : Pay1Local F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  rw [before1_0 V c t d0, before1_1 V c t d1, before1_2 V c t d2]
  iapply (sound_kernel1 c Set.univ (grid1.coords t) _ _ _ _ _ _
    (win1_0.fill (grid1.coords t) d0 (iblk1 V c 0 t)) (win1_1.fill (grid1.coords t) d1 (iblk1 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win1_0.cut_fill]; iexact H0
  isplitl [H1]
  · iexists d1; rw [win1_1.cut_fill]; iexact H1
  iexists out1_2 (win1_0.fill (grid1.coords t) d0 (iblk1 V c 0 t)) (win1_1.fill (grid1.coords t) d1 (iblk1 V c 1 t))
  rw [← cut_out1_2 hloc (grid1.coords t) d0 (fun _ => pad1) d1 (fun _ => pad1) (iblk1 V c 0 t) (iblk1 V c 1 t), win1_2.fill_cut]
  iexact H2

/-- The library's body obligation, at every point, under row locality. -/
theorem body_obligation1 (hloc : Pay1Local F) (c : Dev nD) :
    BodyObligationLoose (dat1 (F := F) V c) (defs₀ (F := F)) Variants.none () Set.univ := fun t => by
  rw [bigSep_W1, bigSep_W1]
  exact sound_body1 V hloc c t

/-! ## The same with the result's window forgotten

For a claim that does not read the result array: the result's buffer is handed to the body at any contents and taken
back at any, so no property of the payload is needed. -/

/-- The windows the obligation forgets: the result's. -/
abbrev fgt1 : Fin cfg1.W → Bool := fun | ⟨0, _⟩ => false | ⟨1, _⟩ => false | ⟨2, _⟩ => true

def bodyPre1f (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ X, owns (c : Thread nD τ) (st1_2 t) fullShare X))

def bodyPost1f (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ X, owns (c : Thread nD τ) (st1_2 t) fullShare X))

theorem sound_body1_fgt (c : Dev nD) (t : Fin cfg1.N) :
    bodyPre1f V c t ⊢ wp frame (wpE (defs₀ (F := F)) Variants.none c none) Set.univ (bodyAt1 t) (fun _ => bodyPost1f V c t) := by
  unfold bodyPre1f bodyPost1f bodyAt1
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩, ⟨%d2, H2⟩⟩
  rw [before1_0 V c t d0, before1_1 V c t d1]
  iapply (sound_kernel1 c Set.univ (grid1.coords t) _ _ _ _ _ _
    (win1_0.fill (grid1.coords t) d0 (iblk1 V c 0 t)) (win1_1.fill (grid1.coords t) d1 (iblk1 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win1_0.cut_fill]; iexact H0
  isplitl [H1]
  · iexists d1; rw [win1_1.cut_fill]; iexact H1
  iexists _; iexact H2

/-- The library's body obligation with the result's window forgotten, at every point: no hypothesis on the float model. -/
theorem body_obligation1_fgt (c : Dev nD) :
    BodyObligationLoose (dat1 (F := F) V c) (defs₀ (F := F)) Variants.none () Set.univ fgt1 := fun t => by
  rw [bigSep_W1, bigSep_W1]
  exact sound_body1_fgt V c t

end Cert.Kernel.Hand
end
-- ==== Proof.KB.Region1Shares.lean ====
/-
  ENTRY and EXIT of the second pipeline (the adjacency prediction) among a TensorCore's unscoped buffers, when two of
  its windows stand on ONE array.

  Both operand windows read the embedding z; the pipeline's proof data hold z once per window, at the left and the right
  half of the full share. At the region's entry the core holds z whole: the full share is split in its two halves, one
  per window. At its exit the two halves, both still at z's entry contents (an input array is never written), join back
  to the full share; the result array comes back at what the write-backs left, every other unscoped buffer as it was.
-/
import proofs.«119114_j25752623907299_2_alg».proof.Proof.KB.Region1
import proofs.«119114_j25752623907299_2_alg».proof.Proof.Gen.Kernel.Launch
import proofs.«119114_j25752623907299_2_alg».proof.Proof.Gen.Kernel.Skeleton
import proofs.«119114_j25752623907299_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The arrays of the second pipeline among the core's unscoped buffers

Its three windows stand on two arrays: both operand windows on the embedding `z` (main_v206), the result's on
main_v208. The pipeline holds `z` once per window, at the two halves of the full share. -/

/-- The buffers behind the three windows' arrays are two. -/
theorem img1 : Finset.univ.image (Pipeline.arrRef spec1) = {main_v206, main_v208} := by decide

/-- The pipeline's arrays at contents `G`, window by window: `z` at the left half, `z` at the right half, the result whole. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v206) ↦{fullShare.left} G 0) ∗ (((c : Thread nD τ).loc main_v206) ↦{fullShare.right} G 1)
          ∗ (((c : Thread nD τ).loc main_v208) ↦{fullShare} G 2)) := by
  unfold Dat.arrays
  rw [bigSep_W1, (arr_whole1 0).set_eq_univ, (arr_whole1 2).set_eq_univ]
  rfl

/-- The full share of `z` is its two halves. -/
theorem split206 (c : Dev nD) (f : Buf (Elt F) ((c : Thread nD τ).loc main_v206)) :
    ((((c : Thread nD τ).loc main_v206) ↦{fullShare} f : sProp 𝕄))
      ⊣⊢ iprop((((c : Thread nD τ).loc main_v206) ↦{fullShare.left} f) ∗ (((c : Thread nD τ).loc main_v206) ↦{fullShare.right} f)) :=
  pointsTo_share (PosShare.mem_left_op_right fullShare)

/-- The core's unscoped buffers at `W` are `z`, the result array, and the rest. -/
theorem unscoped1_eq (c : Dev nD) (W : (b : Ref sig .tc) → Buf (Elt F) ((c : Thread nD τ).loc b)) :
    (unscopedBufs c W : sProp 𝕄)
      = iprop(((((c : Thread nD τ).loc main_v206) ↦{fullShare} W main_v206) ∗ (((c : Thread nD τ).loc main_v208) ↦{fullShare} W main_v208))
          ∗ Pipeline.unscopedRest (Ix := Unit) (Name := ℕ) (U := UR sig nD τ) (Lvl := ℕ) spec1 c W) := by
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest
  rw [bigSep_sdiff_split hA, img1, bigSep_insert (by decide : main_v206 ∉ ({main_v208} : Finset (Ref sig .tc))), bigSep_singleton]
  rfl

/-- ENTRY. The core's unscoped buffers at the entry contents are the pipeline's arrays at them — `z`'s full share
    dealt to the two operand windows in halves — and the unscoped rest. -/
theorem entry1A (c : Dev nD) :
    (unscopedBufs c (V c) : sProp 𝕄) ⊢ iprop((dat1 V c).arrays (dat1 V c).A
      ∗ Pipeline.unscopedRest (Ix := Unit) (Name := ℕ) (U := UR sig nD τ) (Lvl := ℕ) spec1 c (V c)) := by
  rw [unscoped1_eq, arrays1_eq]
  refine sep_mono ?_ .rfl
  iintro ⟨Hz, Ho⟩
  ihave Hz2 := (split206 c (V c main_v206)).1 $$ Hz
  icases Hz2 with ⟨Hl, Hr⟩
  isplitl [Hl]; · iexact Hl
  isplitl [Hr]; · iexact Hr
  iexact Ho

/-- The same with the arrays at the contents before the first write-back, which are the entry contents. -/
theorem entry1 (c : Dev nD) :
    (unscopedBufs c (V c) : sProp 𝕄) ⊢ iprop((dat1 V c).arrays ((dat1 V c).arrAt · 0)
      ∗ Pipeline.unscopedRest (Ix := Unit) (Name := ℕ) (U := UR sig nD τ) (Lvl := ℕ) spec1 c (V c)) :=
  entry1A V c

/-- EXIT. The pipeline's arrays at contents `G` that has `z` as entered under both operand windows, and the unscoped
    rest, are the core's unscoped buffers at any valuation that has the result array at `G 2` and agrees with the
    entry contents elsewhere: the two halves of `z` join back. -/
theorem exit1G (c : Dev nD) (G : (w : Fin cfg1.W) → Buf (Elt F) ((cfg1.win w).arr.view.loc (c.tc : Thread nD τ)))
    (h0 : G 0 = (dat1 V c).A 0) (h1 : G 1 = (dat1 V c).A 1)
    (V' : (b : Ref sig .tc) → Buf (Elt F) ((c : Thread nD τ).loc b)) (hout : V' main_v208 = G 2)
    (hrest : ∀ b, b ≠ main_v208 → V' b = V c b) :
    iprop((dat1 V c).arrays G ∗ Pipeline.unscopedRest (Ix := Unit) (Name := ℕ) (U := UR sig nD τ) (Lvl := ℕ) spec1 c (V c))
      ⊢ (unscopedBufs c V' : sProp 𝕄) := by
  have hR : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hrest b fun e => (Finset.mem_sdiff.mp hb).2 (e ▸ Finset.mem_image.mpr ⟨2, Finset.mem_univ _, rfl⟩)]
  rw [unscoped1_eq c V', arrays1_eq, h0, h1, hout, hrest main_v206 (by decide), hR]
  refine sep_mono ?_ .rfl
  iintro ⟨Hl, Hr, Ho⟩
  isplitl [Hl Hr]
  · iapply (split206 c (V c main_v206)).2
    isplitl [Hl]; · iexact Hl
    iexact Hr
  iexact Ho

/-- The same at the contents the pipeline leaves: the operand array as entered (an input is never written), the
    result array after the last write-back. -/
theorem exit1 (c : Dev nD) (V' : (b : Ref sig .tc) → Buf (Elt F) ((c : Thread nD τ).loc b))
    (hout : V' main_v208 = (dat1 V c).arrAt 2 cfg1.N) (hrest : ∀ b, b ≠ main_v208 → V' b = V c b) :
    iprop((dat1 V c).arrays ((dat1 V c).arrAt · cfg1.N)
      ∗ Pipeline.unscopedRest (Ix := Unit) (Name := ℕ) (U := UR sig nD τ) (Lvl := ℕ) spec1 c (V c))
      ⊢ (unscopedBufs c V' : sProp 𝕄) :=
  exit1G V c ((dat1 V c).arrAt · cfg1.N) ((dat1 V c).arrAt_in 0 rfl _) ((dat1 V c).arrAt_in 1 rfl _) V' hout hrest

end Cert.Kernel.Hand
end
-- ==== Proof.KB.WrittenRefs.lean ====
/- GENERATED by `bun scratch/gen_written_refs.js Kernel KB` in the unit directory, from proof/Proof/Gen/Kernel/Launch.lean: the 255 references
   the host operations `Gen.hostOps0` write (each operation's result reference), in the operations' order. A table; that it
   covers every operation's writes is proved where it is used. -/
import proofs.«119114_j25752623907299_2_alg».proof.Proof.Gen.Kernel

namespace Cert.Kernel.Hand

open Cert.Kernel Idealize.ShloMosaic

/-- The references the host operations before the two calls write, in order. -/
abbrev hostOps0_W : List (Ref sig .tc) := [
    main_v0, main_v1, main_v2, main_v3, main_cst, main_v4, main_cst_0, main_v5, main_v6, main_v7, main_v8, main_c,
    main_v9, main_v10, main_c_1, main_v11, main_v12, main_v13, main_v14, main_v15, main_c_2, main_v16, main_v17, main_c_3,
    main_v18, main_v19, main_v20, main_v21, main_v22, main_v23, main_c_4, main_v24, main_v25, main_c_5, main_v26, main_v27,
    main_v28, main_v29, main_v30, main_v31, main_v32, main_v33, main_cst_6, main_v34, main_v35, main_v36, main_v37, main_v38,
    main_v39, main_v40, main_v41, main_cst_7, main_v42, main_v43, main_cst_8, main_v44, main_v45, main_cst_9, main_v46, main_cst_10,
    main_v47, main_v48, main_v49, main_v50, main_v51, main_v52, main_cst_11, main_v53, main_cst_12, main_v54, main_v55, main_cst_13,
    main_v56, main_v57, main_v58, main_v59, main_v60, main_v61, main_v62, main_v63, main_v64, main_v65, main_v66, main_v67,
    main_v68, main_v69, main_v70, main_v71, main_cst_14, main_v72, main_cst_15, main_v73, main_v74, main_v75, main_v76, main_c_16,
    main_v77, main_v78, main_c_17, main_v79, main_v80, main_v81, main_v82, main_v83, main_c_18, main_v84, main_v85, main_c_19,
    main_v86, main_v87, main_v88, main_v89, main_v90, main_v91, main_c_20, main_v92, main_v93, main_c_21, main_v94, main_v95,
    main_v96, main_v97, main_v98, main_v99, main_v100, main_v101, main_cst_22, main_v102, main_v103, main_v104, main_v105, main_v106,
    main_v107, main_v108, main_v109, main_cst_23, main_v110, main_v111, main_cst_24, main_v112, main_v113, main_cst_25, main_v114, main_cst_26,
    main_v115, main_v116, main_v117, main_v118, main_v119, main_v120, main_cst_27, main_v121, main_cst_28, main_v122, main_v123, main_cst_29,
    main_v124, main_v125, main_v126, main_v127, main_v128, main_v129, main_v130, main_v131, main_v132, main_v133, main_v134, main_v135,
    main_v136, main_v137, main_v138, main_v139, main_cst_30, main_v140, main_cst_31, main_v141, main_v142, main_v143, main_v144, main_c_32,
    main_v145, main_v146, main_c_33, main_v147, main_v148, main_v149, main_v150, main_v151, main_c_34, main_v152, main_v153, main_c_35,
    main_v154, main_v155, main_v156, main_v157, main_v158, main_v159, main_c_36, main_v160, main_v161, main_c_37, main_v162, main_v163,
    main_v164, main_v165, main_v166, main_v167, main_v168, main_v169, main_cst_38, main_v170, main_v171, main_v172, main_v173, main_v174,
    main_v175, main_v176, main_v177, main_cst_39, main_v178, main_v179, main_cst_40, main_v180, main_v181, main_cst_41, main_v182, main_cst_42,
    main_v183, main_v184, main_v185, main_v186, main_v187, main_v188, main_cst_43, main_v189, main_cst_44, main_v190, main_v191, main_cst_45,
    main_v192, main_v193, main_v194, main_v195, main_v196, main_v197, main_v198, main_v199, main_v200, main_v201, main_v202, main_v203,
    main_v204, main_v205, main_v206 ]

end Cert.Kernel.Hand
-- ==== Proof.KB.Run.lean ====
/-
  The run of the whole program, for any float values: @main is 255 host operations that compute the latent array
  z (12000×64) from the arguments, then two kernel launches that both read z — call 0, the decoder
  (z·Dw1 + Db1, leaky ReLU, ·Dw2 + Db2, in ten row blocks of 1200), and call 1, the adjacency (σ(z·zᵀ) in 12×12
  blocks of 1024×1024, the last block row and column cut at 12000). The buffers' contents are followed from the
  launch memory through the host operations (`W1`), through call 0 (`W2`: its output array at what the ten
  write-backs leave, every other buffer untouched) and through call 1 (`W3`: likewise for its output). Call 1 reads
  z through two windows, so it holds that one array at two half shares (split at entry, joined back at exit). At a cut
  block the staging buffers hold arbitrary words past the array's end, so the body's obligation there needs that an
  entry of the block's result depends only on one row of each operand (`Pay1Local F`): a hypothesis here, true of the
  exact matrix product. The conclusion: every weakly fair execution terminates without a fault,
  the two outputs end at what the proof data compute, and no argument array changes.
-/
import proofs.«119114_j25752623907299_2_alg».proof.Proof.KB.Region0
import proofs.«119114_j25752623907299_2_alg».proof.Proof.KB.Region1Body
import proofs.«119114_j25752623907299_2_alg».proof.Proof.KB.Region1Shares
import proofs.«119114_j25752623907299_2_alg».proof.Proof.KB.WrittenRefs
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch. -/
abbrev W0 : Dev nD → Valuation τ sig (Elt F) := fun c b => (s₀ m ρ).mem ((c : Dev nD), b)
/-- After the host operations: what call 0 is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After call 0: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After call 1: its output array at what the write-backs leave, every other buffer as entered. -/
def W3 (c : Dev nD) : Valuation τ sig (Elt F) :=
  Function.update (W2 m ρ c) (Proc.devRef .tc main_v208) ((dat1 (V2 m ρ) c).arrAt 2 cfg1.N)
abbrev V3 : (c : Dev nD) → (b : Ref sig .tc) → Buf (Elt F) ((c : Thread nD τ).loc b) := fun c b => W3 m ρ c b
theorem V3_out (c : Dev nD) : V3 m ρ c main_v208 = (dat1 (V2 m ρ) c).arrAt 2 cfg1.N := by
  show W3 m ρ c (Proc.devRef .tc main_v208) = _
  unfold W3; exact Function.update_self ..
theorem V3_rest (c : Dev nD) (b : Ref sig .tc) (hb : b ≠ main_v208) : V3 m ρ c b = V2 m ρ c b := by
  show W3 m ρ c (Proc.devRef .tc b) = W2 m ρ c (Proc.devRef .tc b)
  unfold W3; exact Function.update_of_ne (StableHlo.devRef_ne_of_ne hb) ..

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Call 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W3`; its two input windows hold
    the one array they read at a share each. -/
def reg1 (hloc : Pay1Local F) : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := body_obligation1 (V2 m ρ) hloc c
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V2 m ρ) c (V3 m ρ c) (V3_out m ρ c) (V3_rest m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs (hloc : Pay1Local F) : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ hloc) ]
theorem main_run (hloc : Pay1Local F) (c : Dev nD) : main (F := F) c = Pipeline.Seg.run (segs m ρ hloc) := (main_chain c).trans (by chain_rfl)

set_option backward.isDefEq.respectTransparency.types false in
/-- THE RUN: at the compiled mesh, from any memory with zero counters, every weakly fair execution of @main terminates,
    nothing faulting, and every final state has each unscoped buffer at the last boundary's contents `W3`. -/
theorem run_main (hloc : Pay1Local F) : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ hloc)
    (fun c Q => by rw [main_run m ρ hloc c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-! ## What the run leaves in the unscoped buffers -/

set_option maxHeartbeats 8000000 in
/-- Every host operation writes one of the listed references (the table of the operations' result references). -/
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)

/-- A buffer no host operation writes enters call 0 as launched. -/
theorem W1_keep (c : Dev nD) (r : Ref sig .tc) (h : r ∉ hostOps0_W) : W1 m ρ c (Proc.devRef .tc r) = m ((c : Thread nD τ).loc r) :=
  (StableHlo.after_of_writes_sub hostOps0 _ hostOps0_writes h).trans rfl

/-- Call 0 changes its output array only: an input window's array is never written. -/
theorem W2_keep (c : Dev nD) (r : Ref sig .tc) (hr : r ≠ main_v207) : W2 m ρ c (Proc.devRef .tc r) = W1 m ρ c (Proc.devRef .tc r) := by
  by_cases h : ∃ w, Pipeline.arrRef spec0 w = r
  · obtain ⟨w, rfl⟩ := h
    have hin : (cfg0.win w).isOut = false := by
      revert hr; revert w; decide
    rw [W2_arr]
    exact ((dat0 (V1 m ρ) c).arrAt_in w hin _).trans (A_eq0 (V1 m ρ) c w)
  · exact W2_of_ne m ρ c r fun w e => h ⟨w, e⟩

/-- A buffer that is neither call's output and that no host operation writes ends as launched. -/
theorem W3_keep (c : Dev nD) (r : Ref sig .tc) (h1 : r ≠ main_v208) (h2 : r ≠ main_v207) (h3 : r ∉ hostOps0_W) :
    W3 m ρ c (Proc.devRef .tc r) = m ((c : Thread nD τ).loc r) :=
  (V3_rest m ρ c r h1).trans ((W2_keep m ρ c r h2).trans (W1_keep m ρ c r h3))

/-- The decoder's output array ends at what call 0's ten write-backs leave. -/
theorem W3_recon (c : Dev nD) : W3 m ρ c (Proc.devRef .tc main_v207) = (dat0 (V1 m ρ) c).arrAt 5 cfg0.N :=
  (V3_rest m ρ c main_v207 (by decide)).trans (W2_arr m ρ c 5)
/-- The adjacency array ends at what call 1's write-backs leave. -/
theorem W3_adj (c : Dev nD) : W3 m ρ c (Proc.devRef .tc main_v208) = (dat1 (V2 m ρ) c).arrAt 2 cfg1.N := V3_out m ρ c
/-- Call 1 finds the latent array as call 0 found it: the host operations' value. -/
theorem V2_latent (c : Dev nD) : V2 m ρ c main_v206 = V1 m ρ c main_v206 := W2_keep m ρ c main_v206 (by decide)
/-- Call 0 finds an argument array as launched. -/
theorem V1_arg (c : Dev nD) (r : Ref sig .tc) (h : r ∉ hostOps0_W) : V1 m ρ c r = m ((c : Thread nD τ).loc r) := W1_keep m ρ c r h

/-- The arguments of @main. -/
abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20]

/-- THE RUN, read back: every weakly fair execution terminates, nothing faulting; the decoder's output and the adjacency
    output end at what the two calls' write-backs leave; every argument array ends as launched. -/
theorem run_post (hloc : Pay1Local F) : θ_run defs (onTc (τ := τ) (main (F := F))) ⟨m, fun _ => 0, ρ⟩ (fun r => ∀ c : Dev nD,
      r.2.mem ((c.tc : Thread nD τ).loc main_v207) = (dat0 (V1 m ρ) c).arrAt 5 cfg0.N
      ∧ r.2.mem ((c.tc : Thread nD τ).loc main_v208) = (dat1 (V2 m ρ) c).arrAt 2 cfg1.N
      ∧ ∀ k ∈ argRefs, r.2.mem ((c.tc : Thread nD τ).loc k) = m ((c.tc : Thread nD τ).loc k)) :=
  (θ_run defs _ _).mono (fun r h c => ⟨(h c _ (mem_uc main_v207 (by decide))).trans (W3_recon m ρ c),
      (h c _ (mem_uc main_v208 (by decide))).trans (W3_adj m ρ c),
      fun k hk => (h c _ (mem_uc k (by revert k; decide))).trans
        (W3_keep m ρ c k (by revert k; decide) (by revert k; decide) (by revert k; decide))⟩) (run_main m ρ hloc)

end Cert.Kernel.Hand

end
-- ==== Proof.KB.FrameRel.lean ====
import proofs.«119114_j25752623907299_2_alg».proof.Proof.KB.Run

/-! # The frame of @main through relational proof data

@main is the host operations, then the decoder call, then the adjacency call. Read with EXACT proof data, the
adjacency call's body obligation at its overhanging blocks needs the block product to be local to rows (what a
buffer holds past the array's end must not reach the part of the result that is written back). That the arguments
end as launched needs nothing of the kind: here the two calls' proof data are read RELATIONALLY, the decoder call's
exactly and the adjacency call's with its output window forgotten — of what the body leaves in that window's
buffer, and so of what the write-backs leave in the output array, nothing is said. The decoder call still leaves
its arrays at named contents (exact data read relationally say what exact data say); the adjacency call gives its
two input windows' array back as found, since an input's array is never written, and its output array at SOME
contents; the arguments are none of the three and no host operation writes one. No hypothesis on the float
operations. -/

set_option maxRecDepth 16384

noncomputable section

namespace Cert.Kernel.Hand.Rel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ## The adjacency call's arrays at its exit

Relationally, each array is then at SOME contents the write-backs may have left. The two input windows' array is
never written, so it is at what the call found; of the output array nothing is said. -/
section Open
variable (V : (c : Dev nD) → (b : Ref sig .tc) → Buf (Elt F) ((c : Thread nD τ).loc b))

theorem arraysAt1_open (c : Dev nD) :
    (((dat1 V c).toRForget fgt1).arraysAt cfg1.N : sProp 𝕄)
      ⊢ iprop(∃ G : (w : Fin cfg1.W) → Buf (Elt F) ((cfg1.win w).arr.view.loc (c.tc : Thread nD τ)),
          ⌜G 0 = (dat1 V c).A 0 ∧ G 1 = (dat1 V c).A 1⌝ ∗ (dat1 V c).arrays G) := by
  unfold Pipeline.RDat.arraysAt
  iintro Ha
  ihave Ha' := (BI.bigSep_exists_pi Finset.univ (fun (w : Fin cfg1.W) G => iprop(⌜((dat1 V c).toRForget fgt1).ArrAt w cfg1.N G⌝
      ∗ (cfg1.win w).arr.view.loc (c.tc : Thread nD τ) ↦[(cfg1.win w).arr.view.set]{((dat1 V c).toRForget fgt1).share w} G))) $$ Ha
  icases Ha' with ⟨%G, Ha⟩
  ihave Ha2 := (BI.bigSep_pure_sep Finset.univ (fun (w : Fin cfg1.W) => ((dat1 V c).toRForget fgt1).ArrAt w cfg1.N (G w))
      (fun w => (cfg1.win w).arr.view.loc (c.tc : Thread nD τ) ↦[(cfg1.win w).arr.view.set]{((dat1 V c).toRForget fgt1).share w} G w)) $$ Ha
  icases Ha2 with ⟨%hG, Ha⟩
  iexists G
  isplitr
  · ipureintro
    refine ⟨?_, ?_⟩
    · have h := hG 0 (Finset.mem_univ _); rw [RDat.ArrAt_in _ 0 rfl] at h; exact h
    · have h := hG 1 (Finset.mem_univ _); rw [RDat.ArrAt_in _ 1 rfl] at h; exact h
  · iapply (show (bigSep Finset.univ fun w : Fin cfg1.W => ((cfg1.win w).arr.view.loc (c.tc : Thread nD τ)
        ↦[(cfg1.win w).arr.view.set]{((dat1 V c).toRForget fgt1).share w} G w : sProp 𝕄)) ⊢ (dat1 V c).arrays G from Entails.of_eq rfl)
    iexact Ha
end Open

variable (m : (ℓ : Loc nD τ sig) → Buf (Elt F) ℓ) (ρ : Dev nD → PrngReg)

/-! ## The buffers' contents after the adjacency call -/

/-- After the adjacency call: its output array at SOME contents `X` (the relational proof data say nothing of what
    the write-backs leave there), every other buffer as the call was entered (`W2`). -/
def W3 (c : Dev nD) (X : Buf (Elt F) ((c : Thread nD τ).loc main_v208)) : Valuation τ sig (Elt F) :=
  Function.update (W2 m ρ c) (Proc.devRef .tc main_v208) X
abbrev V3 (c : Dev nD) (X : Buf (Elt F) ((c : Thread nD τ).loc main_v208)) : (b : Ref sig .tc) → Buf (Elt F) ((c : Thread nD τ).loc b) :=
  fun b => W3 m ρ c X b
theorem V3_out (c : Dev nD) (X) : V3 m ρ c X main_v208 = X := by
  show W3 m ρ c X (Proc.devRef .tc main_v208) = _
  unfold W3; exact Function.update_self ..
theorem V3_rest (c : Dev nD) (X) (b : Ref sig .tc) (hb : b ≠ main_v208) : V3 m ρ c X b = V2 m ρ c b := by
  show W3 m ρ c X (Proc.devRef .tc b) = W2 m ρ c (Proc.devRef .tc b)
  unfold W3; exact Function.update_of_ne (StableHlo.devRef_ne_of_ne hb) ..

/-! ## The relational proof data and the last thread state -/

/-- The two calls' proof data read relationally: the decoder call's exactly, the adjacency call's with its output
    window forgotten. -/
def rdats : (p : Fin 2) → (c : Dev nD) → RDat τ (Elt F) Unit ℕ (UR sig nD τ) ℕ (Pipeline.pin (pcfgs (F := F)) adm p) c
  | ⟨0, _⟩ => fun c => (dat0 (V1 m ρ) c).toR
  | ⟨1, _⟩ => fun c => (dat1 (V2 m ρ) c).toRForget fgt1
/-- The last thread state: every unscoped buffer at the last boundary's contents, the adjacency output at some `X`. -/
abbrev Tₙ (c : Dev nD) : sProp 𝕄 :=
  iprop((∃ X, StableHlo.held (c : Thread nD τ) (Pipeline.ucRefs τ sig) (W3 m ρ c X)) ∗ ∃ r, prngReg c r)

/-! ## The regions as segments -/

set_option backward.isDefEq.respectTransparency.types false in
/-- The decoder call over the thread state: entered from every unscoped buffer at `W1`, left at `W2`. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.RDat.arrays_of_unscopedBufs (p := 0) (pcfgs (F := F)) adm (rdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    rw [show (rdats m ρ 0 c).arraysAt (Pipeline.pin (pcfgs (F := F)) adm 0).N = (pdats m ρ 0 c).toR.arraysAt cfg0.N from rfl,
      Dat.toR_arraysAt_eq]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The adjacency call over the thread state: entered from every unscoped buffer at `W2`, left with its output array
    at some contents and every other buffer as entered; its two input windows hold the one array they read at a
    share each, and give it back as they found it (an input's array is never written). -/
def reg1 : Pipeline.RDat.RegionSeg (pcfgs (F := F)) adm (rdats m ρ) () defs₀ 𝒱₀ L lv 1 where
  win := winFacts₀1
  block_pos := block_pos1
  stage_whole := stage_whole1
  K := PEmpty
  osem k := k.elim
  ho := Pipeline.OwnSemFacts.none _
  hbody c := (body_obligation1_fgt (V2 m ρ) c).toRForget
  hwaits := Pipeline.RDat.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1A (V2 m ρ) c
    rw [Pipeline.unscopedBufs_held] at hsplit
    rw [show (rdats m ρ 1 c).arrays (rdats m ρ 1 c).A = (dat1 (V2 m ρ) c).arrays (dat1 (V2 m ρ) c).A from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    rw [show (rdats m ρ 1 c).arraysAt (Pipeline.pin (pcfgs (F := F)) adm 1).N = ((dat1 (V2 m ρ) c).toRForget fgt1).arraysAt cfg1.N from rfl]
    iintro ⟨Ha, HO, HY, Hrest⟩
    ihave H := (arraysAt1_open (V2 m ρ) c) $$ Ha
    icases H with ⟨%G, %hG, Ha⟩
    have hjoin := exit1G (V2 m ρ) c G hG.1 hG.2 (V3 m ρ c (G 2)) (V3_out m ρ c (G 2)) (V3_rest m ρ c (G 2))
    rw [Pipeline.unscopedBufs_held] at hjoin
    imodintro
    isplitl [Ha Hrest HY]
    · isplitl [Ha Hrest]
      · iexists (G 2)
        iapply hjoin
        isplitl [Ha]; · iexact Ha
        iexact Hrest
      iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.RDat.Seg.run (segs m ρ) := (main_chain c).trans (by chain_rfl)

set_option backward.isDefEq.respectTransparency.types false in
/-- THE RUN: at the compiled mesh, from any memory with zero counters, every weakly fair execution of @main terminates,
    nothing faulting, and every final state has each unscoped buffer at the last boundary's contents, the adjacency
    output at some contents. -/
theorem run_main : θ_run defs (onTc (τ := τ) (main (F := F))) ⟨m, fun _ => 0, ρ⟩ (fun r => ∀ c : Dev nD,
      ∃ X, ∀ b ∈ Pipeline.ucRefs τ sig, r.2.mem (((c : Thread nD τ)).1, b) = W3 m ρ c X b) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ X, ∀ b ∈ Pipeline.ucRefs τ sig, s.mem (((c : Thread nD τ)).1, b) = W3 m ρ c X b)
    (hfin := fun c s' => by
      iintro ⟨⟨⟨%X, Hh⟩, -⟩, HSI⟩
      unfold StableHlo.held
      ihave H := (pointsTo_read_all (Pipeline.ucRefs τ sig) (fun b => (((c : Thread nD τ)).1, b)) (W3 m ρ c X) s') $$ [Hh HSI]
      · isplitl [Hh] <;> iassumption
      icases H with ⟨%h, HSI⟩
      imodintro
      isplitr
      · ipureintro; exact ⟨X, h⟩
      iexact HSI)
    (hQ := fun s h => h)

/-! ## What the run leaves in the argument arrays -/

/-- A buffer that is neither call's output and that no host operation writes ends as launched, whatever the adjacency
    output holds. -/
theorem W3_keep (c : Dev nD) (X : Buf (Elt F) ((c : Thread nD τ).loc main_v208)) (r : Ref sig .tc)
    (h1 : r ≠ main_v208) (h2 : r ≠ main_v207) (h3 : r ∉ hostOps0_W) :
    W3 m ρ c X (Proc.devRef .tc r) = m ((c : Thread nD τ).loc r) :=
  (V3_rest m ρ c X r h1).trans ((W2_keep m ρ c r h2).trans (W1_keep m ρ c r h3))

/-- THE FRAME, with no hypothesis on the float operations: every weakly fair execution terminates, nothing faulting,
    and every argument array ends as launched. -/
theorem frame_rel : θ_run defs (onTc (τ := τ) (main (F := F))) ⟨m, fun _ => 0, ρ⟩ (fun r => ∀ c : Dev nD,
      ∀ k ∈ argRefs, r.2.mem ((c.tc : Thread nD τ).loc k) = m ((c.tc : Thread nD τ).loc k)) :=
  (θ_run defs _ _).mono (fun r h c k hk => by
    obtain ⟨X, hX⟩ := h c
    exact (hX _ (mem_uc k (by revert k; decide))).trans
      (W3_keep m ρ c X k (by revert k; decide) (by revert k; decide) (by revert k; decide))) (run_main m ρ)

end Cert.Kernel.Hand.Rel

end
-- ==== Proof.KI.Region0.lean ====
import proofs.«119114_j25752623907299_2_alg».proof.Proof.Gen.KernelIdeal.Launch
import proofs.«119114_j25752623907299_2_alg».proof.Proof.Gen.KernelIdeal.Skeleton
import proofs.«119114_j25752623907299_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The decoder call: what its body does to the staging buffers

The first pipeline of @main runs the decoder over the embedding z (12000 x 64) in ten steps. At step t its body is
handed six staging buffers: rows 1200 t .. 1200 t + 1199 of z; the hidden layer's weights (64 x 64) and bias (64);
the output layer's weights (64 x 128) and bias (128) — the four of them whole, at a block index that never moves, so
the pipeline copies them in once, at the first step —; and the buffer of rows 1200 t .. of the result (12000 x 128).
The body reads the five inputs whole, reads the result's buffer once (a value nothing uses), and stores ONE value
through the whole rectangle of the result's buffer: the hidden layer's product, bias and rectifier, then the output
layer's product and bias, of what it read. 12000 = 10 * 1200: no block overhangs.

So what the body leaves in the result's buffer is a closed function `out0_5` of the five blocks it read, and it
leaves the five input buffers as it found them. This module states that as the pipeline's exact proof data `dat0`
and proves the body's obligation against them, for any float operations `F`, at a parameter `V`: the TensorCore's
buffer contents when the call is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## Blocks and rectangles -/

/-- Window `w`'s block at step `t`, read off its array as the call finds it: for window 0 the 1200 rows of z at
    `t`, for windows 1–4 the whole weight or bias array, for window 5 the 1200 rows of the result at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole rectangle of each of the six staging buffers: what each of the body's loads and its store go through. -/
abbrev r0_0 : Rect S1200x64 := Rect.unit (s := S1200x64) ![0, 0] S1200x64.size inb_S1200x64_S1200x64_0_0
abbrev r0_1 : Rect S64x64 := Rect.unit (s := S64x64) ![0, 0] S64x64.size inb_S64x64_S64x64_0_0
abbrev r0_2 : Rect S64 := Rect.unit (s := S64) ![0] S64.size inb_S64_S64_0
abbrev r0_3 : Rect S64x128 := Rect.unit (s := S64x128) ![0, 0] S64x128.size inb_S64x128_S64x128_0_0
abbrev r0_4 : Rect S128 := Rect.unit (s := S128) ![0] S128.size inb_S128_S128_0
abbrev r0_5 : Rect S1200x128 := Rect.unit (s := S1200x128) ![0, 0] S1200x128.size inb_S1200x128_S1200x128_0_0

/-! ## The result's buffer after the body -/

/-- What the body leaves in the result's buffer, from the five input buffers' contents: the decoder's value of the
    five loads, laid through the whole rectangle by the one store. -/
def out0_5 (x0 : Vec F S1200x64 .f32) (x1 : Vec F S64x64 .f32) (x2 : Vec F S64 .f32) (x3 : Vec F S64x128 .f32) (x4 : Vec F S128 .f32) :
    Vec F S1200x128 .f32 :=
  View.canon [⟨r0_5, k0_pay1 (View.ld x0 r0_0) (View.ld x1 r0_1) (View.ld x2 r0_2) (View.ld x3 r0_3) (View.ld x4 r0_4)⟩]

/-- One store through the whole rectangle reaches every entry of the buffer (one block of 1200 x 128 tiles it). -/
theorem cover0_5 (p0 : Vec F S1200x128 .f32) (y : S1200x128.Idx) :
    ∃ pc ∈ ([⟨r0_5, p0⟩] : List (View.Piece (Elt F) S1200x128 .f32)), y ∈ pc.1.set :=
  View.cover_of_tiled [⟨r0_5, p0⟩] S1200x128.size (by rfl) y

/-! ## The body on six whole buffers -/

set_option maxHeartbeats 1000000 in
/-- The decoder's body, called at any grid coordinate on six whole staging buffers — the five inputs' holding `x0 … x4`,
    the result's holding anything — runs to a continuation that is given the inputs' back as they were and the result's
    at `out0_5 x0 … x4`. Nothing of the result's earlier contents survives: the one store covers the buffer. -/
theorem sound_kernel0 (c : Dev nD) (E : Set ℕ) (i : grid0.Coords)
    (arg0 : Memref sig .tc .vmem S1200x64 .f32) (harg0 : arg0.IsWhole) (arg1 : Memref sig .tc .vmem S64x64 .f32) (harg1 : arg1.IsWhole)
    (arg2 : Memref sig .tc .vmem S64 .f32) (harg2 : arg2.IsWhole) (arg3 : Memref sig .tc .vmem S64x128 .f32) (harg3 : arg3.IsWhole)
    (arg4 : Memref sig .tc .vmem S128 .f32) (harg4 : arg4.IsWhole) (arg5 : Memref sig .tc .vmem S1200x128 .f32) (harg5 : arg5.IsWhole)
    (x0 : Vec F S1200x64 .f32) (x1 : Vec F S64x64 .f32) (x2 : Vec F S64 .f32) (x3 : Vec F S64x128 .f32) (x4 : Vec F S128 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E (cc0__decoder_kernel i arg0 harg0 arg1 harg1 arg2 harg2 arg3 harg3 arg4 harg4 arg5 harg5) K := by
  simp only [cc0__decoder_kernel_eq_skeleton]; unfold cc0__decoder_kernel_skel
  unfold owns
  -- each buffer held at raw contents `fK` that read as `xK`; the result's at raw contents `f5`
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  -- the six loads and the store
  sl_exec
  sl_step
  iapply Hk
  -- the inputs: untouched
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- the result: `f5` overwritten by the store, which reads as the store's value because the store covers the buffer
  iexists _; isplitr
  swap; · iexact H5
  ipureintro
  exact View.read_writes_eq_canon _ _ _ (cover0_5 _)

/-! ## The exact proof data -/

/-- The decoder pipeline's proof data on core `c`: its six arrays as the call finds them; after the body at step `t`
    each input buffer at its block and the result's buffer at `out0_5` of the five blocks; the invariant that of a
    body that touches nothing but its buffers; every array at the full share; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-! ## What the body finds in an input buffer

Its block, at every step. For the rows of z this is a fresh copy at each step. For a weight or bias array it is the
copy made at step 0, which the body never changes and whose block index never moves: a buffer not copied into at a
step still holds the previous step's block, and that is this step's. -/

theorem before0_0 (c : Dev nD) (t : Fin cfg0.N) (d) : (dat0 V c).before 0 t d = iblk0 V c 0 t := by
  refine ((dat0 V c).before_in_eq_fetched 0 rfl (fun _ => rfl) (fun _ _ _ => rfl) (fun s => ?_) t d).trans ?_
  · rw [after0_0]; unfold Dat.blockOf iblk0; rw [A_eq0]; try rfl
  · unfold Dat.fetched Dat.blockOf iblk0; rw [A_eq0]; try rfl

theorem before0_1 (c : Dev nD) (t : Fin cfg0.N) (d) : (dat0 V c).before 1 t d = iblk0 V c 1 t := by
  refine ((dat0 V c).before_in_eq_fetched 1 rfl (fun _ => rfl) (fun _ _ _ => rfl) (fun s => ?_) t d).trans ?_
  · rw [after0_1]; unfold Dat.blockOf iblk0; rw [A_eq0]; try rfl
  · unfold Dat.fetched Dat.blockOf iblk0; rw [A_eq0]; try rfl

theorem before0_2 (c : Dev nD) (t : Fin cfg0.N) (d) : (dat0 V c).before 2 t d = iblk0 V c 2 t := by
  refine ((dat0 V c).before_in_eq_fetched 2 rfl (fun _ => rfl) (fun _ _ _ => rfl) (fun s => ?_) t d).trans ?_
  · rw [after0_2]; unfold Dat.blockOf iblk0; rw [A_eq0]; try rfl
  · unfold Dat.fetched Dat.blockOf iblk0; rw [A_eq0]; try rfl

theorem before0_3 (c : Dev nD) (t : Fin cfg0.N) (d) : (dat0 V c).before 3 t d = iblk0 V c 3 t := by
  refine ((dat0 V c).before_in_eq_fetched 3 rfl (fun _ => rfl) (fun _ _ _ => rfl) (fun s => ?_) t d).trans ?_
  · rw [after0_3]; unfold Dat.blockOf iblk0; rw [A_eq0]; try rfl
  · unfold Dat.fetched Dat.blockOf iblk0; rw [A_eq0]; try rfl

theorem before0_4 (c : Dev nD) (t : Fin cfg0.N) (d) : (dat0 V c).before 4 t d = iblk0 V c 4 t := by
  refine ((dat0 V c).before_in_eq_fetched 4 rfl (fun _ => rfl) (fun _ _ _ => rfl) (fun s => ?_) t d).trans ?_
  · rw [after0_4]; unfold Dat.blockOf iblk0; rw [A_eq0]; try rfl
  · unfold Dat.fetched Dat.blockOf iblk0; rw [A_eq0]; try rfl

/-! ## The body's obligation to the pipeline -/

/-- What the pipeline hands the body at step `t`: the invariant, what the core owes, and the six current staging
    buffers at what the proof data say they may hold, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it takes back: the same with each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at step `t`: every input buffer holds its block (`before0_0 … before0_4`), so the body's run on whole
    buffers applies with `xK` the blocks; the invariant and what the core owes are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every step: its six windows spelt out. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
/-
  The second pipeline of @main: the adjacency prediction. At grid point (i, j) of a 12 x 12 grid the body reads two
  1024 x 64 blocks of the embedding z — rows 1024 i .. of z and rows 1024 j .. of z, the same array through two
  windows — and writes the 1024 x 1024 block (i, j) of the result: one half of the hyperbolic tangent of one half of
  the block product z_i z_jᵀ, plus one half. 12000 = 11 * 1024 + 736, so the last block on each axis overhangs the
  array and its transfers move only the part inside it: what a staging buffer holds past the array's end is any.

  This module: each window's block at a point, read off the array as the pipeline finds it (the parameter V); what
  the body leaves in the result's buffer as a function of the two operand buffers; the proof data (the two windows
  on z at the two halves of the full share); what the body finds in each buffer at a point; and the body's triple
  on whole staging buffers.
-/
import proofs.«119114_j25752623907299_2_alg».proof.Proof.Gen.KernelIdeal.Launch
import proofs.«119114_j25752623907299_2_alg».proof.Proof.Gen.KernelIdeal.Skeleton
import proofs.«119114_j25752623907299_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array's block that lies inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1024x64 staging rectangle and the whole 1024x1024 one. -/
abbrev rIn1 : Rect S1024x64 := Rect.unit (s := S1024x64) ![0, 0] S1024x64.size inb_S1024x64_S1024x64_0_0
abbrev rOut1 : Rect S1024x1024 := Rect.unit (s := S1024x1024) ![0, 0] S1024x1024.size inb_S1024x1024_S1024x1024_0_0

/-- What the body leaves in the output buffer, from the two input buffers' contents: its one store. -/
def out1_2 (x0 x1 : Vec F S1024x64 .f32) : Vec F S1024x1024 .f32 :=
  View.canon [⟨rOut1, k1_pay1 (View.ld x0 rIn1) (View.ld x1 rIn1)⟩]

/-- The word the proof data put past the array's end (nothing reads it). -/
abbrev pad1 : Elt F .f32 := Scalar.ofBits .f32 0#32

/-- The proof data of the second pipeline: after the body the two input buffers hold their blocks, and the output
    buffer the payload of those two, each block filled out past the array's end with `pad1`; the two windows on the
    one array `z` hold it at the two halves of the full share. -/
def dat1 (c : Dev nD) : Dat τ (Elt F) Unit ℕ (UR sig nD τ) ℕ cfg1 c where
  A w := V c (Pipeline.arrRef spec1 w)
  after w t := match w with
    | ⟨0, _⟩ => win1_0.fill (grid1.coords t) (fun _ => pad1) (iblk1 V c 0 t)
    | ⟨1, _⟩ => win1_1.fill (grid1.coords t) (fun _ => pad1) (iblk1 V c 1 t)
    | ⟨2, _⟩ => out1_2 (win1_0.fill (grid1.coords t) (fun _ => pad1) (iblk1 V c 0 t))
                        (win1_1.fill (grid1.coords t) (fun _ => pad1) (iblk1 V c 1 t))
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) :
    (dat1 V c).after 0 t = win1_0.fill (grid1.coords t) (fun _ => pad1) (iblk1 V c 0 t) := by dsimp only [dat1]
theorem after1_1 (c : Dev nD) (t : Fin cfg1.N) :
    (dat1 V c).after 1 t = win1_1.fill (grid1.coords t) (fun _ => pad1) (iblk1 V c 1 t) := by dsimp only [dat1]
theorem after1_2 (c : Dev nD) (t : Fin cfg1.N) :
    (dat1 V c).after 2 t = out1_2 (win1_0.fill (grid1.coords t) (fun _ => pad1) (iblk1 V c 0 t))
      (win1_1.fill (grid1.coords t) (fun _ => pad1) (iblk1 V c 1 t)) := by dsimp only [dat1]

/-- An input buffer holds its block on the rows inside the array and anything (`d`) past them, whether the point fetched it or not. -/
theorem before1_0 (c : Dev nD) (t : Fin cfg1.N) (d) :
    (dat1 V c).before 0 t d = win1_0.fill (grid1.coords t) d (iblk1 V c 0 t) :=
  ((dat1 V c).before_in_eq_fetched 0 rfl (fun _ => rfl)
    (fun t t' h => funext fun a => by
      show Pipeline.Clip.of (win1_0.index t a) _ _ = Pipeline.Clip.of (win1_0.index t' a) _ _
      rw [h])
    (fun t => by
      rw [after1_0]
      exact (win1_0.cut_fill _ _ _).trans (by unfold Dat.blockOf iblk1; rw [A_eq1]))
    t d).trans (by unfold Dat.fetched Dat.blockOf iblk1; rw [A_eq1])

theorem before1_1 (c : Dev nD) (t : Fin cfg1.N) (d) :
    (dat1 V c).before 1 t d = win1_1.fill (grid1.coords t) d (iblk1 V c 1 t) :=
  ((dat1 V c).before_in_eq_fetched 1 rfl (fun _ => rfl)
    (fun t t' h => funext fun a => by
      show Pipeline.Clip.of (win1_1.index t a) _ _ = Pipeline.Clip.of (win1_1.index t' a) _ _
      rw [h])
    (fun t => by
      rw [after1_1]
      exact (win1_1.cut_fill _ _ _).trans (by unfold Dat.blockOf iblk1; rw [A_eq1]))
    t d).trans (by unfold Dat.fetched Dat.blockOf iblk1; rw [A_eq1])

/-- The output buffer holds anything: every point writes its block back, so each point starts afresh. -/
theorem before1_2 (c : Dev nD) (t : Fin cfg1.N) (d) : (dat1 V c).before 2 t d = d :=
  (dat1 V c).before_out_reset 2 rfl t
    (if h : t.val = 0 then .inl h else .inr ⟨h, flush1_2 _⟩) d

/-- The one store is the whole buffer. -/
theorem cover1_2 (p0 : Vec F S1024x1024 .f32) (y : S1024x1024.Idx) :
    ∃ pc ∈ ([⟨rOut1, p0⟩] : List (View.Piece (Elt F) S1024x1024 .f32)), y ∈ pc.1.set :=
  View.cover_of_tiled [⟨rOut1, p0⟩] S1024x1024.size (by rfl) y

set_option maxHeartbeats 1000000 in
/-- The kernel body on whole staging memrefs: two whole loads, the payload, the dead load of the output buffer, the whole store. -/
theorem sound_kernel1 (c : Dev nD) (E : Set ℕ) (i : grid1.Coords)
    (arg2 : Memref sig .tc .vmem S1024x64 .f32) (harg2 : arg2.IsWhole)
    (arg3 : Memref sig .tc .vmem S1024x64 .f32) (harg3 : arg3.IsWhole)
    (arg4 : Memref sig .tc .vmem S1024x1024 .f32) (harg4 : arg4.IsWhole)
    (x0 x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__a_pred_kernel i arg2 harg2 arg3 harg3 arg4 harg4) K := by
  simp only [cc1__a_pred_kernel_eq_skeleton]; unfold cc1__a_pred_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.KernelIdeal.Hand
end
-- ==== Proof.KI.Region1Body.lean ====
/-
  The body obligation of the second pipeline (the adjacency prediction), at every grid point.

  Every window's last block overhangs its array, so what an operand buffer holds past the array's end is any, and the
  body computes from all of it. The part of the result inside the array — rows below the first block's cut, columns
  below the second's — must nevertheless be a fixed function of the two blocks: that holds when element (r, c) of the
  result reads only row r of the first operand buffer and row c of the second (ROW LOCALITY, `Pay1Local`), which a
  float model whose matrix product is a field without laws does not state; so the obligation takes it as a hypothesis.
  A second form forgets the result's window and needs nothing.
-/
import proofs.«119114_j25752623907299_2_alg».proof.Proof.KI.Region1
import proofs.«119114_j25752623907299_2_alg».proof.Proof.Gen.KernelIdeal.Launch
import proofs.«119114_j25752623907299_2_alg».proof.Proof.Gen.KernelIdeal.Skeleton
import proofs.«119114_j25752623907299_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation -/

/-- How the three windows' blocks are cut at grid coordinates `i`: the output block's rows inside the array are the
    first operand block's, its columns the second operand block's rows; the 64 lanes of `z` are never cut. -/
theorem xsize1 : ∀ i : grid1.Coords, win1_2.xsize i (0 : Fin 2) = win1_0.xsize i (0 : Fin 2)
    ∧ win1_2.xsize i (1 : Fin 2) = win1_1.xsize i (0 : Fin 2)
    ∧ win1_0.xsize i (1 : Fin 2) = 64 ∧ win1_1.xsize i (1 : Fin 2) = 64 := by decide +kernel

variable (F) in
/-- ROW LOCALITY of the body's result: its element `(r, c)` reads row `r` of the first operand buffer and row `c` of
    the second, and nothing else. A float model's `matmul` is a field with no law, so this is a hypothesis at a
    general `F`; a model that defines its product as a sum over the contraction index has it. -/
def Pay1Local : Prop := ∀ (x0 x0' x1 x1' : Vec F S1024x64 .f32) (y : S1024x1024.Idx),
  (∀ k : S1024x64.Idx, (k 0).val = (y 0).val → x0 k = x0' k) →
  (∀ k : S1024x64.Idx, (k 0).val = (y 1).val → x1 k = x1' k) → out1_2 x0 x1 y = out1_2 x0' x1' y

/-- Two fillings of one block agree wherever the transfer moves. -/
theorem fill_eq_of_moved {G : Pipeline.Grid} (w : Window sig G) {α : Type} (i : G.Coords) (d d' : w.block.Idx → α)
    (g : (w.xblock i).Idx → α) {k : w.block.Idx} (h : w.moved i k = true) : w.fill i d g k = w.fill i d' g k := by
  unfold Window.fill; rw [dif_pos h, dif_pos h]

/-- Under row locality, the part of the result inside the array does not depend on what the operand buffers hold
    past the array's end. -/
theorem cut_out1_2 (hloc : Pay1Local F) (i : grid1.Coords) (d0 d0' : win1_0.block.Idx → Elt F .f32)
    (d1 d1' : win1_1.block.Idx → Elt F .f32) (b0 : (win1_0.xblock i).Idx → Elt F .f32) (b1 : (win1_1.xblock i).Idx → Elt F .f32) :
    win1_2.cut i (out1_2 (win1_0.fill i d0 b0) (win1_1.fill i d1 b1))
      = win1_2.cut i (out1_2 (win1_0.fill i d0' b0) (win1_1.fill i d1' b1)) := by
  funext j
  obtain ⟨hA, hB, hC, hD⟩ := xsize1 i
  refine hloc _ _ _ _ _ (fun k hk => ?_) (fun k hk => ?_)
  · refine fill_eq_of_moved win1_0 i d0 d0' b0 ((win1_0.moved_iff i k).mpr fun a => ?_)
    match a with
    | ⟨0, _⟩ =>
      have hj : (j (0 : Fin 2)).val < win1_2.xsize i (0 : Fin 2) := (j (0 : Fin 2)).isLt
      show (k (0 : Fin 2)).val < win1_0.xsize i (0 : Fin 2)
      rw [hk, ← hA]; exact hj
    | ⟨1, _⟩ =>
      have h64 : (k (1 : Fin 2)).val < 64 := (k (1 : Fin 2)).isLt
      show (k (1 : Fin 2)).val < win1_0.xsize i (1 : Fin 2)
      rw [hC]; exact h64
  · refine fill_eq_of_moved win1_1 i d1 d1' b1 ((win1_1.moved_iff i k).mpr fun a => ?_)
    match a with
    | ⟨0, _⟩ =>
      have hj : (j (1 : Fin 2)).val < win1_2.xsize i (1 : Fin 2) := (j (1 : Fin 2)).isLt
      show (k (0 : Fin 2)).val < win1_1.xsize i (0 : Fin 2)
      rw [hk, ← hB]; exact hj
    | ⟨1, _⟩ =>
      have h64 : (k (1 : Fin 2)).val < 64 := (k (1 : Fin 2)).isLt
      show (k (1 : Fin 2)).val < win1_1.xsize i (1 : Fin 2)
      rw [hD]; exact h64

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: each buffer stated on the part inside the array, anything past it. -/
def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t)))))

/-- The body at any point: the operand buffers hold their blocks on the rows inside the array and anything past them;
    the result's buffer ends at the payload of those two buffers, which on the part inside the array is the payload
    of the two blocks padded by `pad1` (row locality). -/
theorem sound_body1 (hloc : Pay1Local F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  rw [before1_0 V c t d0, before1_1 V c t d1, before1_2 V c t d2]
  iapply (sound_kernel1 c Set.univ (grid1.coords t) _ _ _ _ _ _
    (win1_0.fill (grid1.coords t) d0 (iblk1 V c 0 t)) (win1_1.fill (grid1.coords t) d1 (iblk1 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win1_0.cut_fill]; iexact H0
  isplitl [H1]
  · iexists d1; rw [win1_1.cut_fill]; iexact H1
  iexists out1_2 (win1_0.fill (grid1.coords t) d0 (iblk1 V c 0 t)) (win1_1.fill (grid1.coords t) d1 (iblk1 V c 1 t))
  rw [← cut_out1_2 hloc (grid1.coords t) d0 (fun _ => pad1) d1 (fun _ => pad1) (iblk1 V c 0 t) (iblk1 V c 1 t), win1_2.fill_cut]
  iexact H2

/-- The library's body obligation, at every point, under row locality. -/
theorem body_obligation1 (hloc : Pay1Local F) (c : Dev nD) :
    BodyObligationLoose (dat1 (F := F) V c) (defs₀ (F := F)) Variants.none () Set.univ := fun t => by
  rw [bigSep_W1, bigSep_W1]
  exact sound_body1 V hloc c t

/-! ## The same with the result's window forgotten

For a claim that does not read the result array: the result's buffer is handed to the body at any contents and taken
back at any, so no property of the payload is needed. -/

/-- The windows the obligation forgets: the result's. -/
abbrev fgt1 : Fin cfg1.W → Bool := fun | ⟨0, _⟩ => false | ⟨1, _⟩ => false | ⟨2, _⟩ => true

def bodyPre1f (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ X, owns (c : Thread nD τ) (st1_2 t) fullShare X))

def bodyPost1f (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ X, owns (c : Thread nD τ) (st1_2 t) fullShare X))

theorem sound_body1_fgt (c : Dev nD) (t : Fin cfg1.N) :
    bodyPre1f V c t ⊢ wp frame (wpE (defs₀ (F := F)) Variants.none c none) Set.univ (bodyAt1 t) (fun _ => bodyPost1f V c t) := by
  unfold bodyPre1f bodyPost1f bodyAt1
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩, ⟨%d2, H2⟩⟩
  rw [before1_0 V c t d0, before1_1 V c t d1]
  iapply (sound_kernel1 c Set.univ (grid1.coords t) _ _ _ _ _ _
    (win1_0.fill (grid1.coords t) d0 (iblk1 V c 0 t)) (win1_1.fill (grid1.coords t) d1 (iblk1 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [win1_0.cut_fill]; iexact H0
  isplitl [H1]
  · iexists d1; rw [win1_1.cut_fill]; iexact H1
  iexists _; iexact H2

/-- The library's body obligation with the result's window forgotten, at every point: no hypothesis on the float model. -/
theorem body_obligation1_fgt (c : Dev nD) :
    BodyObligationLoose (dat1 (F := F) V c) (defs₀ (F := F)) Variants.none () Set.univ fgt1 := fun t => by
  rw [bigSep_W1, bigSep_W1]
  exact sound_body1_fgt V c t

end Cert.KernelIdeal.Hand
end
-- ==== Proof.KI.Region1Shares.lean ====
/-
  ENTRY and EXIT of the second pipeline (the adjacency prediction) among a TensorCore's unscoped buffers, when two of
  its windows stand on ONE array.

  Both operand windows read the embedding z; the pipeline's proof data hold z once per window, at the left and the right
  half of the full share. At the region's entry the core holds z whole: the full share is split in its two halves, one
  per window. At its exit the two halves, both still at z's entry contents (an input array is never written), join back
  to the full share; the result array comes back at what the write-backs left, every other unscoped buffer as it was.
-/
import proofs.«119114_j25752623907299_2_alg».proof.Proof.KI.Region1
import proofs.«119114_j25752623907299_2_alg».proof.Proof.Gen.KernelIdeal.Launch
import proofs.«119114_j25752623907299_2_alg».proof.Proof.Gen.KernelIdeal.Skeleton
import proofs.«119114_j25752623907299_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The arrays of the second pipeline among the core's unscoped buffers

Its three windows stand on two arrays: both operand windows on the embedding `z` (main_v206), the result's on
main_v208. The pipeline holds `z` once per window, at the two halves of the full share. -/

/-- The buffers behind the three windows' arrays are two. -/
theorem img1 : Finset.univ.image (Pipeline.arrRef spec1) = {main_v206, main_v208} := by decide

/-- The pipeline's arrays at contents `G`, window by window: `z` at the left half, `z` at the right half, the result whole. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v206) ↦{fullShare.left} G 0) ∗ (((c : Thread nD τ).loc main_v206) ↦{fullShare.right} G 1)
          ∗ (((c : Thread nD τ).loc main_v208) ↦{fullShare} G 2)) := by
  unfold Dat.arrays
  rw [bigSep_W1, (arr_whole1 0).set_eq_univ, (arr_whole1 2).set_eq_univ]
  rfl

/-- The full share of `z` is its two halves. -/
theorem split206 (c : Dev nD) (f : Buf (Elt F) ((c : Thread nD τ).loc main_v206)) :
    ((((c : Thread nD τ).loc main_v206) ↦{fullShare} f : sProp 𝕄))
      ⊣⊢ iprop((((c : Thread nD τ).loc main_v206) ↦{fullShare.left} f) ∗ (((c : Thread nD τ).loc main_v206) ↦{fullShare.right} f)) :=
  pointsTo_share (PosShare.mem_left_op_right fullShare)

/-- The core's unscoped buffers at `W` are `z`, the result array, and the rest. -/
theorem unscoped1_eq (c : Dev nD) (W : (b : Ref sig .tc) → Buf (Elt F) ((c : Thread nD τ).loc b)) :
    (unscopedBufs c W : sProp 𝕄)
      = iprop(((((c : Thread nD τ).loc main_v206) ↦{fullShare} W main_v206) ∗ (((c : Thread nD τ).loc main_v208) ↦{fullShare} W main_v208))
          ∗ Pipeline.unscopedRest (Ix := Unit) (Name := ℕ) (U := UR sig nD τ) (Lvl := ℕ) spec1 c W) := by
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest
  rw [bigSep_sdiff_split hA, img1, bigSep_insert (by decide : main_v206 ∉ ({main_v208} : Finset (Ref sig .tc))), bigSep_singleton]
  rfl

/-- ENTRY. The core's unscoped buffers at the entry contents are the pipeline's arrays at them — `z`'s full share
    dealt to the two operand windows in halves — and the unscoped rest. -/
theorem entry1A (c : Dev nD) :
    (unscopedBufs c (V c) : sProp 𝕄) ⊢ iprop((dat1 V c).arrays (dat1 V c).A
      ∗ Pipeline.unscopedRest (Ix := Unit) (Name := ℕ) (U := UR sig nD τ) (Lvl := ℕ) spec1 c (V c)) := by
  rw [unscoped1_eq, arrays1_eq]
  refine sep_mono ?_ .rfl
  iintro ⟨Hz, Ho⟩
  ihave Hz2 := (split206 c (V c main_v206)).1 $$ Hz
  icases Hz2 with ⟨Hl, Hr⟩
  isplitl [Hl]; · iexact Hl
  isplitl [Hr]; · iexact Hr
  iexact Ho

/-- The same with the arrays at the contents before the first write-back, which are the entry contents. -/
theorem entry1 (c : Dev nD) :
    (unscopedBufs c (V c) : sProp 𝕄) ⊢ iprop((dat1 V c).arrays ((dat1 V c).arrAt · 0)
      ∗ Pipeline.unscopedRest (Ix := Unit) (Name := ℕ) (U := UR sig nD τ) (Lvl := ℕ) spec1 c (V c)) :=
  entry1A V c

/-- EXIT. The pipeline's arrays at contents `G` that has `z` as entered under both operand windows, and the unscoped
    rest, are the core's unscoped buffers at any valuation that has the result array at `G 2` and agrees with the
    entry contents elsewhere: the two halves of `z` join back. -/
theorem exit1G (c : Dev nD) (G : (w : Fin cfg1.W) → Buf (Elt F) ((cfg1.win w).arr.view.loc (c.tc : Thread nD τ)))
    (h0 : G 0 = (dat1 V c).A 0) (h1 : G 1 = (dat1 V c).A 1)
    (V' : (b : Ref sig .tc) → Buf (Elt F) ((c : Thread nD τ).loc b)) (hout : V' main_v208 = G 2)
    (hrest : ∀ b, b ≠ main_v208 → V' b = V c b) :
    iprop((dat1 V c).arrays G ∗ Pipeline.unscopedRest (Ix := Unit) (Name := ℕ) (U := UR sig nD τ) (Lvl := ℕ) spec1 c (V c))
      ⊢ (unscopedBufs c V' : sProp 𝕄) := by
  have hR : (Pipeline.unscopedRest (Ix := Unit) (Name := ℕ) (U := UR sig nD τ) (Lvl := ℕ) spec1 c V' : sProp 𝕄)
      = Pipeline.unscopedRest spec1 c (V c) := by
    unfold Pipeline.unscopedRest
    exact bigSep_congr fun b hb => by
      rw [hrest b fun e => (Finset.mem_sdiff.mp hb).2 (e ▸ Finset.mem_image.mpr ⟨2, Finset.mem_univ _, rfl⟩)]
  rw [unscoped1_eq c V', arrays1_eq, h0, h1, hout, hrest main_v206 (by decide), hR]
  refine sep_mono ?_ .rfl
  iintro ⟨Hl, Hr, Ho⟩
  isplitl [Hl Hr]
  · iapply (split206 c (V c main_v206)).2
    isplitl [Hl]; · iexact Hl
    iexact Hr
  iexact Ho

/-- The same at the contents the pipeline leaves: the operand array as entered (an input is never written), the
    result array after the last write-back. -/
theorem exit1 (c : Dev nD) (V' : (b : Ref sig .tc) → Buf (Elt F) ((c : Thread nD τ).loc b))
    (hout : V' main_v208 = (dat1 V c).arrAt 2 cfg1.N) (hrest : ∀ b, b ≠ main_v208 → V' b = V c b) :
    iprop((dat1 V c).arrays ((dat1 V c).arrAt · cfg1.N)
      ∗ Pipeline.unscopedRest (Ix := Unit) (Name := ℕ) (U := UR sig nD τ) (Lvl := ℕ) spec1 c (V c))
      ⊢ (unscopedBufs c V' : sProp 𝕄) :=
  exit1G V c ((dat1 V c).arrAt · cfg1.N) ((dat1 V c).arrAt_in 0 rfl _) ((dat1 V c).arrAt_in 1 rfl _) V' hout hrest

end Cert.KernelIdeal.Hand
end
-- ==== Proof.KI.WrittenRefs.lean ====
/- GENERATED by `bun scratch/gen_written_refs.js KernelIdeal KI` in the unit directory, from proof/Proof/Gen/KernelIdeal/Launch.lean: the 255 references
   the host operations `Gen.hostOps0` write (each operation's result reference), in the operations' order. A table; that it
   covers every operation's writes is proved where it is used. -/
import proofs.«119114_j25752623907299_2_alg».proof.Proof.Gen.KernelIdeal

namespace Cert.KernelIdeal.Hand

open Cert.KernelIdeal Idealize.ShloMosaic

/-- The references the host operations before the two calls write, in order. -/
abbrev hostOps0_W : List (Ref sig .tc) := [
    main_v0, main_v1, main_v2, main_v3, main_cst, main_v4, main_cst_0, main_v5, main_v6, main_v7, main_v8, main_c,
    main_v9, main_v10, main_c_1, main_v11, main_v12, main_v13, main_v14, main_v15, main_c_2, main_v16, main_v17, main_c_3,
    main_v18, main_v19, main_v20, main_v21, main_v22, main_v23, main_c_4, main_v24, main_v25, main_c_5, main_v26, main_v27,
    main_v28, main_v29, main_v30, main_v31, main_v32, main_v33, main_cst_6, main_v34, main_v35, main_v36, main_v37, main_v38,
    main_v39, main_v40, main_v41, main_cst_7, main_v42, main_v43, main_cst_8, main_v44, main_v45, main_cst_9, main_v46, main_cst_10,
    main_v47, main_v48, main_v49, main_v50, main_v51, main_v52, main_cst_11, main_v53, main_cst_12, main_v54, main_v55, main_cst_13,
    main_v56, main_v57, main_v58, main_v59, main_v60, main_v61, main_v62, main_v63, main_v64, main_v65, main_v66, main_v67,
    main_v68, main_v69, main_v70, main_v71, main_cst_14, main_v72, main_cst_15, main_v73, main_v74, main_v75, main_v76, main_c_16,
    main_v77, main_v78, main_c_17, main_v79, main_v80, main_v81, main_v82, main_v83, main_c_18, main_v84, main_v85, main_c_19,
    main_v86, main_v87, main_v88, main_v89, main_v90, main_v91, main_c_20, main_v92, main_v93, main_c_21, main_v94, main_v95,
    main_v96, main_v97, main_v98, main_v99, main_v100, main_v101, main_cst_22, main_v102, main_v103, main_v104, main_v105, main_v106,
    main_v107, main_v108, main_v109, main_cst_23, main_v110, main_v111, main_cst_24, main_v112, main_v113, main_cst_25, main_v114, main_cst_26,
    main_v115, main_v116, main_v117, main_v118, main_v119, main_v120, main_cst_27, main_v121, main_cst_28, main_v122, main_v123, main_cst_29,
    main_v124, main_v125, main_v126, main_v127, main_v128, main_v129, main_v130, main_v131, main_v132, main_v133, main_v134, main_v135,
    main_v136, main_v137, main_v138, main_v139, main_cst_30, main_v140, main_cst_31, main_v141, main_v142, main_v143, main_v144, main_c_32,
    main_v145, main_v146, main_c_33, main_v147, main_v148, main_v149, main_v150, main_v151, main_c_34, main_v152, main_v153, main_c_35,
    main_v154, main_v155, main_v156, main_v157, main_v158, main_v159, main_c_36, main_v160, main_v161, main_c_37, main_v162, main_v163,
    main_v164, main_v165, main_v166, main_v167, main_v168, main_v169, main_cst_38, main_v170, main_v171, main_v172, main_v173, main_v174,
    main_v175, main_v176, main_v177, main_cst_39, main_v178, main_v179, main_cst_40, main_v180, main_v181, main_cst_41, main_v182, main_cst_42,
    main_v183, main_v184, main_v185, main_v186, main_v187, main_v188, main_cst_43, main_v189, main_cst_44, main_v190, main_v191, main_cst_45,
    main_v192, main_v193, main_v194, main_v195, main_v196, main_v197, main_v198, main_v199, main_v200, main_v201, main_v202, main_v203,
    main_v204, main_v205, main_v206 ]

end Cert.KernelIdeal.Hand
-- ==== Proof.KI.Run.lean ====
/-
  The run of the whole program, for any float values: @main is 255 host operations that compute the latent array
  z (12000×64) from the arguments, then two kernel launches that both read z — call 0, the decoder
  (z·Dw1 + Db1, leaky ReLU, ·Dw2 + Db2, in ten row blocks of 1200), and call 1, the adjacency (σ(z·zᵀ) in 12×12
  blocks of 1024×1024, the last block row and column cut at 12000). The buffers' contents are followed from the
  launch memory through the host operations (`W1`), through call 0 (`W2`: its output array at what the ten
  write-backs leave, every other buffer untouched) and through call 1 (`W3`: likewise for its output). Call 1 reads
  z through two windows, so it holds that one array at two half shares (split at entry, joined back at exit). At a cut
  block the staging buffers hold arbitrary words past the array's end, so the body's obligation there needs that an
  entry of the block's result depends only on one row of each operand (`Pay1Local F`): a hypothesis here, true of the
  exact matrix product. The conclusion: every weakly fair execution terminates without a fault,
  the two outputs end at what the proof data compute, and no argument array changes.
-/
import proofs.«119114_j25752623907299_2_alg».proof.Proof.KI.Region0
import proofs.«119114_j25752623907299_2_alg».proof.Proof.KI.Region1Body
import proofs.«119114_j25752623907299_2_alg».proof.Proof.KI.Region1Shares
import proofs.«119114_j25752623907299_2_alg».proof.Proof.KI.WrittenRefs
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch. -/
abbrev W0 : Dev nD → Valuation τ sig (Elt F) := fun c b => (s₀ m ρ).mem ((c : Dev nD), b)
/-- After the host operations: what call 0 is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After call 0: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After call 1: its output array at what the write-backs leave, every other buffer as entered. -/
def W3 (c : Dev nD) : Valuation τ sig (Elt F) :=
  Function.update (W2 m ρ c) (Proc.devRef .tc main_v208) ((dat1 (V2 m ρ) c).arrAt 2 cfg1.N)
abbrev V3 : (c : Dev nD) → (b : Ref sig .tc) → Buf (Elt F) ((c : Thread nD τ).loc b) := fun c b => W3 m ρ c b
theorem V3_out (c : Dev nD) : V3 m ρ c main_v208 = (dat1 (V2 m ρ) c).arrAt 2 cfg1.N := by
  show W3 m ρ c (Proc.devRef .tc main_v208) = _
  unfold W3; exact Function.update_self ..
theorem V3_rest (c : Dev nD) (b : Ref sig .tc) (hb : b ≠ main_v208) : V3 m ρ c b = V2 m ρ c b := by
  show W3 m ρ c (Proc.devRef .tc b) = W2 m ρ c (Proc.devRef .tc b)
  unfold W3; exact Function.update_of_ne (StableHlo.devRef_ne_of_ne hb) ..

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Call 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W3`; its two input windows hold
    the one array they read at a share each. -/
def reg1 (hloc : Pay1Local F) : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := body_obligation1 (V2 m ρ) hloc c
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V2 m ρ) c (V3 m ρ c) (V3_out m ρ c) (V3_rest m ρ c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs (hloc : Pay1Local F) : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ hloc) ]
theorem main_run (hloc : Pay1Local F) (c : Dev nD) : main (F := F) c = Pipeline.Seg.run (segs m ρ hloc) := (main_chain c).trans (by chain_rfl)

set_option backward.isDefEq.respectTransparency.types false in
/-- THE RUN: at the compiled mesh, from any memory with zero counters, every weakly fair execution of @main terminates,
    nothing faulting, and every final state has each unscoped buffer at the last boundary's contents `W3`. -/
theorem run_main (hloc : Pay1Local F) : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ hloc)
    (fun c Q => by rw [main_run m ρ hloc c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-! ## What the run leaves in the unscoped buffers -/

set_option maxHeartbeats 8000000 in
/-- Every host operation writes one of the listed references (the table of the operations' result references). -/
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)

/-- A buffer no host operation writes enters call 0 as launched. -/
theorem W1_keep (c : Dev nD) (r : Ref sig .tc) (h : r ∉ hostOps0_W) : W1 m ρ c (Proc.devRef .tc r) = m ((c : Thread nD τ).loc r) :=
  (StableHlo.after_of_writes_sub hostOps0 _ hostOps0_writes h).trans rfl

/-- Call 0 changes its output array only: an input window's array is never written. -/
theorem W2_keep (c : Dev nD) (r : Ref sig .tc) (hr : r ≠ main_v207) : W2 m ρ c (Proc.devRef .tc r) = W1 m ρ c (Proc.devRef .tc r) := by
  by_cases h : ∃ w, Pipeline.arrRef spec0 w = r
  · obtain ⟨w, rfl⟩ := h
    have hin : (cfg0.win w).isOut = false := by
      revert hr; revert w; decide
    rw [W2_arr]
    exact ((dat0 (V1 m ρ) c).arrAt_in w hin _).trans (A_eq0 (V1 m ρ) c w)
  · exact W2_of_ne m ρ c r fun w e => h ⟨w, e⟩

/-- A buffer that is neither call's output and that no host operation writes ends as launched. -/
theorem W3_keep (c : Dev nD) (r : Ref sig .tc) (h1 : r ≠ main_v208) (h2 : r ≠ main_v207) (h3 : r ∉ hostOps0_W) :
    W3 m ρ c (Proc.devRef .tc r) = m ((c : Thread nD τ).loc r) :=
  (V3_rest m ρ c r h1).trans ((W2_keep m ρ c r h2).trans (W1_keep m ρ c r h3))

/-- The decoder's output array ends at what call 0's ten write-backs leave. -/
theorem W3_recon (c : Dev nD) : W3 m ρ c (Proc.devRef .tc main_v207) = (dat0 (V1 m ρ) c).arrAt 5 cfg0.N :=
  (V3_rest m ρ c main_v207 (by decide)).trans (W2_arr m ρ c 5)
/-- The adjacency array ends at what call 1's write-backs leave. -/
theorem W3_adj (c : Dev nD) : W3 m ρ c (Proc.devRef .tc main_v208) = (dat1 (V2 m ρ) c).arrAt 2 cfg1.N := V3_out m ρ c
/-- Call 1 finds the latent array as call 0 found it: the host operations' value. -/
theorem V2_latent (c : Dev nD) : V2 m ρ c main_v206 = V1 m ρ c main_v206 := W2_keep m ρ c main_v206 (by decide)
/-- Call 0 finds an argument array as launched. -/
theorem V1_arg (c : Dev nD) (r : Ref sig .tc) (h : r ∉ hostOps0_W) : V1 m ρ c r = m ((c : Thread nD τ).loc r) := W1_keep m ρ c r h

/-- The arguments of @main. -/
abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20]

/-- THE RUN, read back: every weakly fair execution terminates, nothing faulting; the decoder's output and the adjacency
    output end at what the two calls' write-backs leave; every argument array ends as launched. -/
theorem run_post (hloc : Pay1Local F) : θ_run defs (onTc (τ := τ) (main (F := F))) ⟨m, fun _ => 0, ρ⟩ (fun r => ∀ c : Dev nD,
      r.2.mem ((c.tc : Thread nD τ).loc main_v207) = (dat0 (V1 m ρ) c).arrAt 5 cfg0.N
      ∧ r.2.mem ((c.tc : Thread nD τ).loc main_v208) = (dat1 (V2 m ρ) c).arrAt 2 cfg1.N
      ∧ ∀ k ∈ argRefs, r.2.mem ((c.tc : Thread nD τ).loc k) = m ((c.tc : Thread nD τ).loc k)) :=
  (θ_run defs _ _).mono (fun r h c => ⟨(h c _ (mem_uc main_v207 (by decide))).trans (W3_recon m ρ c),
      (h c _ (mem_uc main_v208 (by decide))).trans (W3_adj m ρ c),
      fun k hk => (h c _ (mem_uc k (by revert k; decide))).trans
        (W3_keep m ρ c k (by revert k; decide) (by revert k; decide) (by revert k; decide))⟩) (run_main m ρ hloc)

end Cert.KernelIdeal.Hand

end
-- ==== Proof.KI.Region1Value.lean ====
/-
  The adjacency prediction's payload at the IDEAL values.

  The body's result buffer is the payload of its two operand buffers (whole loads, one whole store); at the ideal
  values the block product into zero is the sum over the 64 lanes of the operands' products, the two roundings to
  bf16 are the identity and the transposition re-indexes: so element (r, c) of the result is one half of the
  hyperbolic tangent of one half of the inner product of row r of the first buffer with row c of the second, plus one
  half. In particular it reads only those two rows: row locality holds at the ideal values.
-/
import proofs.«119114_j25752623907299_2_alg».proof.Proof.KI.Region1
import proofs.«119114_j25752623907299_2_alg».proof.Proof.Gen.KernelIdeal.Launch
import proofs.«119114_j25752623907299_2_alg».proof.Proof.Gen.KernelIdeal.Skeleton
import proofs.«119114_j25752623907299_2_alg».proof.Proof.Gen.KernelIdeal.Points
import proofs.«119114_j25752623907299_2_alg».proof.Proof.KI.Region1Body
import Idealize.ShloMosaic.Lib.Pipeline.FrameBody
import Idealize.ShloMosaic.Lib.Pipeline.Value
import Idealize.ShloMosaic.Lib.KernelVsHost
import Idealize.ShloMosaic.Lib.StackMember
import Idealize.ShloMosaic.Lib.ValueIdx
import Idealize.ShloMosaic.PureOps.Ideal.Laws
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

variable {F : FTy → Type} [FloatOps F]

/-- The two zero offsets, however spelt. -/
theorem off00 : (![0, 0] : Fin 2 → Nat) = fun _ => 0 := funext fun a => by fin_cases a <;> rfl

/-- The result buffer after the body is the payload of the two operand buffers: the loads and the store are whole. -/
theorem out1_2_eq (x0 x1 : Vec F S1024x64 .f32) : out1_2 x0 x1 = k1_pay1 x0 x1 := by
  unfold out1_2
  rw [View.canon_unit_zero off00, View.ld_unit_zero off00, View.ld_unit_zero off00]

/-- One half, as the body's constant spells it. -/
abbrev half1 : Ideal .f32 := Ideal.ofBits .f32 0x3F000000#32

/-- The block product at the ideal values: entry (r, c) of `A Bᵀ` with `B` handed over transposed. -/
theorem mm1_apply (A : FVec Ideal S1024x64 .bf16) (B : FVec Ideal S64x1024 .bf16) (r c : Fin 1024) :
    matmul dot_S1024x64_S64x1024_S1024x1024_1_0_0_1_n_n none A B (constant S1024x1024 .f32 0x00000000#32) (ix2 r c)
      = ∑ k : Fin 64, A (ix2 r k) * B (ix2 k c) := by
  rw [matmul_zero_eq_dotGeneral]
  exact StackMember.dotGeneral_plain_apply (m := 1024) (n := 1024) (k := 64) none A B r c

/-- THE PAYLOAD AT AN ELEMENT, at the ideal values: one half of the hyperbolic tangent of one half of the inner product
    of row `r` of the first operand with row `c` of the second, plus one half. -/
theorem pay1_apply (x0 x1 : Vec Ideal S1024x64 .f32) (r c : Fin 1024) :
    k1_pay1 x0 x1 (ix2 r c) = half1 * Ideal.tanh (half1 * ∑ k : Fin 64, x0 (ix2 r k) * x1 (ix2 c k)) + half1 := by
  show half1 * Ideal.tanh (half1 * matmul (F := Ideal) dot_S1024x64_S64x1024_S1024x1024_1_0_0_1_n_n none
      (truncf .bf16 (shapeCast S1024x64 x0 shapeCasts_S1024x64_S1024x64) bitsLt_bf16_f32)
      (transpose S64x1024 [1, 0] (truncf .bf16 (shapeCast S1024x64 x1 shapeCasts_S1024x64_S1024x64) bitsLt_bf16_f32) transposes_S1024x64_p1_0_S64x1024)
      (constant S1024x1024 .f32 0x00000000#32) (ix2 r c)) + half1 = _
  rw [mm1_apply]
  refine congrArg (fun s => half1 * Ideal.tanh (half1 * s) + half1) (Finset.sum_congr rfl fun k _ => ?_)
  rw [transpose_apply [1, 0] _ transposes_S1024x64_p1_0_S64x1024 (ix2 k c) (ix2 c k) (fun b => by
    match b with
    | ⟨0, _⟩ => rfl
    | ⟨1, _⟩ => rfl)]
  rw [shapeCast_self, shapeCast_self]
  rfl

/-- So the result's element (r, c) reads row r of the first operand buffer and row c of the second: row locality holds
    at the ideal values, where the block product is a sum over the contraction index. -/
theorem pay1Local_ideal : Pay1Local Ideal := fun x0 x0' x1 x1' y h0 h1 => by
  obtain ⟨r, c, rfl⟩ : ∃ (r c : Fin 1024), y = ix2 r c := ⟨y 0, y 1, eq_ix2 y⟩
  rw [out1_2_eq, out1_2_eq, pay1_apply, pay1_apply]
  refine congrArg (fun s => half1 * Ideal.tanh (half1 * s) + half1) (Finset.sum_congr rfl fun k _ => ?_)
  rw [h0 (ix2 r k) rfl, h1 (ix2 c k) rfl]

/-- The result buffer after the body, at an element, at the ideal values. -/
theorem out1_2_apply (x0 x1 : Vec Ideal S1024x64 .f32) (r c : Fin 1024) :
    out1_2 x0 x1 (ix2 r c) = half1 * Ideal.tanh (half1 * ∑ k : Fin 64, x0 (ix2 r k) * x1 (ix2 c k)) + half1 := by
  rw [out1_2_eq, pay1_apply]

end Cert.KernelIdeal.Hand
end
-- ==== Proof.RefRun.Ops.lean ====
import proofs.«119114_j25752623907299_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60, in order (window `main_part0`). -/
abbrev ops0 : List (HloOp τ sig (Elt F)) :=
  [ StableHlo.binary main_arg0 main_arg5 main_v0 ((fun l r => Host.dotGeneral dot_S12000x128_S128x64_S12000x64_1_0_0_1_n_n none l r) : (⟨S12000x128, .f32⟩ : BufTy).Contents (Elt F) → (⟨S128x64, .f32⟩ : BufTy).Contents (Elt F) → (⟨S12000x64, .f32⟩ : BufTy).Contents (Elt F)),
    StableHlo.nullary main_v1 (iotaInDim S12000 32 0),
    StableHlo.binary main_arg1 main_v1 main_v2 ((fun a b => concatenate S396000 0 [⟨S384000, a⟩, ⟨S12000, b⟩] concatenates_S384000_S12000_S396000_d0) : (⟨S384000, .i32⟩ : BufTy).Contents (Elt F) → (⟨S12000, .i32⟩ : BufTy).Contents (Elt F) → (⟨S396000, .i32⟩ : BufTy).Contents (Elt F)),
    StableHlo.binary main_arg2 main_v1 main_v3 ((fun a b => concatenate S396000 0 [⟨S384000, a⟩, ⟨S12000, b⟩] concatenates_S384000_S12000_S396000_d0) : (⟨S384000, .i32⟩ : BufTy).Contents (Elt F) → (⟨S12000, .i32⟩ : BufTy).Contents (Elt F) → (⟨S396000, .i32⟩ : BufTy).Contents (Elt F)),
    StableHlo.nullary main_cst (constant S_ .f32 0x3F800000#32),
    StableHlo.unary main_cst main_v4 (broadcastInDim S396000 ![] bcast_S_S396000 : (⟨S_, .f32⟩ : BufTy).Contents (Elt F) → (⟨S396000, .f32⟩ : BufTy).Contents (Elt F)),
    StableHlo.nullary main_cst_0 (constant S_ .f32 0x00000000#32),
    StableHlo.unary main_cst_0 main_v5 (broadcastInDim S12000 ![] bcast_S_S12000 : (⟨S_, .f32⟩ : BufTy).Contents (Elt F) → (⟨S12000, .f32⟩ : BufTy).Contents (Elt F)),
    StableHlo.unary main_v3 main_v6 (broadcastInDim S396000x1 ![0] bcast_S396000_S396000x1_0 : (⟨S396000, .i32⟩ : BufTy).Contents (Elt F) → (⟨S396000x1, .i32⟩ : BufTy).Contents (Elt F)),
    StableHlo.ternary main_v5 main_v6 main_v4 main_v7 ((fun x i u => Host.scatterAdd scatter_S12000_S396000x1_S396000_n_0_0_1 x i u) : (⟨S12000, .f32⟩ : BufTy).Contents (Elt F) → (⟨S396000x1, .i32⟩ : BufTy).Contents (Elt F) → (⟨S396000, .f32⟩ : BufTy).Contents (Elt F) → (⟨S12000, .f32⟩ : BufTy).Contents (Elt F)),
    StableHlo.unary main_v7 main_v8 (Host.rsqrt : (⟨S12000, .f32⟩ : BufTy).Contents (Elt F) → (⟨S12000, .f32⟩ : BufTy).Contents (Elt F)),
    StableHlo.nullary main_c (constantI S_ 32 0#32),
    StableHlo.unary main_c main_v9 (broadcastInDim S396000 ![] bcast_S_S396000 : (⟨S_, .i32⟩ : BufTy).Contents (Elt F) → (⟨S396000, .i32⟩ : BufTy).Contents (Elt F)),
    StableHlo.binary main_v2 main_v9 main_v10 (cmpi .slt : (⟨S396000, .i32⟩ : BufTy).Contents (Elt F) → (⟨S396000, .i32⟩ : BufTy).Contents (Elt F) → (⟨S396000, .i1⟩ : BufTy).Contents (Elt F)),
    StableHlo.nullary main_c_1 (constantI S_ 32 12000#32),
    StableHlo.unary main_c_1 main_v11 (broadcastInDim S396000 ![] bcast_S_S396000 : (⟨S_, .i32⟩ : BufTy).Contents (Elt F) → (⟨S396000, .i32⟩ : BufTy).Contents (Elt F)),
    StableHlo.binary main_v2 main_v11 main_v12 (addi : (⟨S396000, .i32⟩ : BufTy).Contents (Elt F) → (⟨S396000, .i32⟩ : BufTy).Contents (Elt F) → (⟨S396000, .i32⟩ : BufTy).Contents (Elt F)),
    StableHlo.ternary main_v10 main_v12 main_v2 main_v13 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    StableHlo.unary main_v13 main_v14 (broadcastInDim S396000x1 ![0] bcast_S396000_S396000x1_0 : (⟨S396000, .i32⟩ : BufTy).Contents (Elt F) → (⟨S396000x1, .i32⟩ : BufTy).Contents (Elt F)),
    StableHlo.binary main_v8 main_v14 main_v15 ((fun x i => Host.gather gather_S12000_S396000x1_S396000_n_0_n_n_0_1_1 x i) : (⟨S12000, .f32⟩ : BufTy).Contents (Elt F) → (⟨S396000x1, .i32⟩ : BufTy).Contents (Elt F) → (⟨S396000, .f32⟩ : BufTy).Contents (Elt F)),
    StableHlo.nullary main_c_2 (constantI S_ 32 0#32),
    StableHlo.unary main_c_2 main_v16 (broadcastInDim S396000 ![] bcast_S_S396000 : (⟨S_, .i32⟩ : BufTy).Contents (Elt F) → (⟨S396000, .i32⟩ : BufTy).Contents (Elt F)),
    StableHlo.binary main_v3 main_v16 main_v17 (cmpi .slt : (⟨S396000, .i32⟩ : BufTy).Contents (Elt F) → (⟨S396000, .i32⟩ : BufTy).Contents (Elt F) → (⟨S396000, .i1⟩ : BufTy).Contents (Elt F)),
    StableHlo.nullary main_c_3 (constantI S_ 32 12000#32),
    StableHlo.unary main_c_3 main_v18 (broadcastInDim S396000 ![] bcast_S_S396000 : (⟨S_, .i32⟩ : BufTy).Contents (Elt F) → (⟨S396000, .i32⟩ : BufTy).Contents (Elt F)),
    StableHlo.binary main_v3 main_v18 main_v19 (addi : (⟨S396000, .i32⟩ : BufTy).Contents (Elt F) → (⟨S396000, .i32⟩ : BufTy).Contents (Elt F) → (⟨S396000, .i32⟩ : BufTy).Contents (Elt F)),
    StableHlo.ternary main_v17 main_v19 main_v3 main_v20 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    StableHlo.unary main_v20 main_v21 (broadcastInDim S396000x1 ![0] bcast_S396000_S396000x1_0 : (⟨S396000, .i32⟩ : BufTy).Contents (Elt F) → (⟨S396000x1, .i32⟩ : BufTy).Contents (Elt F)),
    StableHlo.binary main_v8 main_v21 main_v22 ((fun x i => Host.gather gather_S12000_S396000x1_S396000_n_0_n_n_0_1_1 x i) : (⟨S12000, .f32⟩ : BufTy).Contents (Elt F) → (⟨S396000x1, .i32⟩ : BufTy).Contents (Elt F) → (⟨S396000, .f32⟩ : BufTy).Contents (Elt F)),
    StableHlo.binary main_v15 main_v22 main_v23 (mulf : (⟨S396000, .f32⟩ : BufTy).Contents (Elt F) → (⟨S396000, .f32⟩ : BufTy).Contents (Elt F) → (⟨S396000, .f32⟩ : BufTy).Contents (Elt F)),
    StableHlo.nullary main_c_4 (constantI S_ 32 0#32),
    StableHlo.unary main_c_4 main_v24 (broadcastInDim S396000 ![] bcast_S_S396000 : (⟨S_, .i32⟩ : BufTy).Contents (Elt F) → (⟨S396000, .i32⟩ : BufTy).Contents (Elt F)),
    StableHlo.binary main_v2 main_v24 main_v25 (cmpi .slt : (⟨S396000, .i32⟩ : BufTy).Contents (Elt F) → (⟨S396000, .i32⟩ : BufTy).Contents (Elt F) → (⟨S396000, .i1⟩ : BufTy).Contents (Elt F)),
    StableHlo.nullary main_c_5 (constantI S_ 32 12000#32),
    StableHlo.unary main_c_5 main_v26 (broadcastInDim S396000 ![] bcast_S_S396000 : (⟨S_, .i32⟩ : BufTy).Contents (Elt F) → (⟨S396000, .i32⟩ : BufTy).Contents (Elt F)),
    StableHlo.binary main_v2 main_v26 main_v27 (addi : (⟨S396000, .i32⟩ : BufTy).Contents (Elt F) → (⟨S396000, .i32⟩ : BufTy).Contents (Elt F) → (⟨S396000, .i32⟩ : BufTy).Contents (Elt F)),
    StableHlo.ternary main_v25 main_v27 main_v2 main_v28 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    StableHlo.unary main_v28 main_v29 (broadcastInDim S396000x1 ![0] bcast_S396000_S396000x1_0 : (⟨S396000, .i32⟩ : BufTy).Contents (Elt F) → (⟨S396000x1, .i32⟩ : BufTy).Contents (Elt F)),
    StableHlo.binary main_v0 main_v29 main_v30 ((fun x i => Host.gather gather_S12000x64_S396000x1_S396000x64_1_0_n_n_0_1_164 x i) : (⟨S12000x64, .f32⟩ : BufTy).Contents (Elt F) → (⟨S396000x1, .i32⟩ : BufTy).Contents (Elt F) → (⟨S396000x64, .f32⟩ : BufTy).Contents (Elt F)),
    StableHlo.unary main_v23 main_v31 (broadcastInDim S396000x1 ![0] bcast_S396000_S396000x1_0 : (⟨S396000, .f32⟩ : BufTy).Contents (Elt F) → (⟨S396000x1, .f32⟩ : BufTy).Contents (Elt F)),
    StableHlo.unary main_v31 main_v32 (broadcastInDim S396000x64 ![0, 1] bcast_S396000x1_S396000x64_0_1 : (⟨S396000x1, .f32⟩ : BufTy).Contents (Elt F) → (⟨S396000x64, .f32⟩ : BufTy).Contents (Elt F)),
    StableHlo.binary main_v30 main_v32 main_v33 (mulf : (⟨S396000x64, .f32⟩ : BufTy).Contents (Elt F) → (⟨S396000x64, .f32⟩ : BufTy).Contents (Elt F) → (⟨S396000x64, .f32⟩ : BufTy).Contents (Elt F)),
    StableHlo.nullary main_cst_6 (constant S_ .f32 0x00000000#32),
    StableHlo.unary main_cst_6 main_v34 (broadcastInDim S12000x64 ![] bcast_S_S12000x64 : (⟨S_, .f32⟩ : BufTy).Contents (Elt F) → (⟨S12000x64, .f32⟩ : BufTy).Contents (Elt F)),
    StableHlo.unary main_v3 main_v35 (broadcastInDim S396000x1 ![0] bcast_S396000_S396000x1_0 : (⟨S396000, .i32⟩ : BufTy).Contents (Elt F) → (⟨S396000x1, .i32⟩ : BufTy).Contents (Elt F)),
    StableHlo.ternary main_v34 main_v35 main_v33 main_v36 ((fun x i u => Host.scatterAdd scatter_S12000x64_S396000x1_S396000x64_1_0_0_1 x i u) : (⟨S12000x64, .f32⟩ : BufTy).Contents (Elt F) → (⟨S396000x1, .i32⟩ : BufTy).Contents (Elt F) → (⟨S396000x64, .f32⟩ : BufTy).Contents (Elt F) → (⟨S12000x64, .f32⟩ : BufTy).Contents (Elt F)),
    StableHlo.unary main_arg6 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S12000x64 ![0, 1] bcast_S1x64_S12000x64_0_1 : (⟨S1x64, .f32⟩ : BufTy).Contents (Elt F) → (⟨S12000x64, .f32⟩ : BufTy).Contents (Elt F)),
    StableHlo.binary main_v36 main_v38 main_v39 (addf : (⟨S12000x64, .f32⟩ : BufTy).Contents (Elt F) → (⟨S12000x64, .f32⟩ : BufTy).Contents (Elt F) → (⟨S12000x64, .f32⟩ : BufTy).Contents (Elt F)),
    StableHlo.unary main_v39 main_v40 (Host.negf : (⟨S12000x64, .f32⟩ : BufTy).Contents (Elt F) → (⟨S12000x64, .f32⟩ : BufTy).Contents (Elt F)),
    StableHlo.unary main_v40 main_v41 (Host.exp : (⟨S12000x64, .f32⟩ : BufTy).Contents (Elt F) → (⟨S12000x64, .f32⟩ : BufTy).Contents (Elt F)),
    StableHlo.nullary main_cst_7 (constant S_ .f32 0x3F800000#32),
    StableHlo.unary main_cst_7 main_v42 (broadcastInDim S12000x64 ![] bcast_S_S12000x64 : (⟨S_, .f32⟩ : BufTy).Contents (Elt F) → (⟨S12000x64, .f32⟩ : BufTy).Contents (Elt F)),
    StableHlo.binary main_v42 main_v41 main_v43 (addf : (⟨S12000x64, .f32⟩ : BufTy).Contents (Elt F) → (⟨S12000x64, .f32⟩ : BufTy).Contents (Elt F) → (⟨S12000x64, .f32⟩ : BufTy).Contents (Elt F)),
    StableHlo.nullary main_cst_8 (constant S_ .f32 0x3F800000#32),
    StableHlo.unary main_cst_8 main_v44 (broadcastInDim S12000x64 ![] bcast_S_S12000x64 : (⟨S_, .f32⟩ : BufTy).Contents (Elt F) → (⟨S12000x64, .f32⟩ : BufTy).Contents (Elt F)),
    StableHlo.binary main_v44 main_v43 main_v45 (Host.divf : (⟨S12000x64, .f32⟩ : BufTy).Contents (Elt F) → (⟨S12000x64, .f32⟩ : BufTy).Contents (Elt F) → (⟨S12000x64, .f32⟩ : BufTy).Contents (Elt F)),
    StableHlo.nullary main_cst_9 (constant S_ .f32 0x00000000#32),
    StableHlo.binary main_v45 main_cst_9 main_v46 ((fun x v => Host.reduceAdd x v reducesTo_S12000x64_S64_d0 h_S_) : (⟨S12000x64, .f32⟩ : BufTy).Contents (Elt F) → (⟨S_, .f32⟩ : BufTy).Contents (Elt F) → (⟨S64, .f32⟩ : BufTy).Contents (Elt F)),
    StableHlo.nullary main_cst_10 (constant S_ .f32 0x463B8000#32) ]

/-- @main's operations 61 … 120, in order (window `main_part1`). -/
abbrev ops1 : List (HloOp τ sig (Elt F)) :=
  [ StableHlo.unary main_cst_10 main_v47 (broadcastInDim S64 ![] bcast_S_S64 : (⟨S_, .f32⟩ : BufTy).Contents (Elt F) → (⟨S64, .f32⟩ : BufTy).Contents (Elt F)),
    StableHlo.binary main_v46 main_v47 main_v48 (Host.divf : (⟨S64, .f32⟩ : BufTy).Contents (Elt F) → (⟨S64, .f32⟩ : BufTy).Contents (Elt F) → (⟨S64, .f32⟩ : BufTy).Contents (Elt F)),
    StableHlo.unary main_v48 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S12000x64 ![0, 1] bcast_S1x64_S12000x64_0_1 : (⟨S1x64, .f32⟩ : BufTy).Contents (Elt F) → (⟨S12000x64, .f32⟩ : BufTy).Contents (Elt F)),
    StableHlo.binary main_v45 main_v50 main_v51 (subf : (⟨S12000x64, .f32⟩ : BufTy).Contents (Elt F) → (⟨S12000x64, .f32⟩ : BufTy).Contents (Elt F) → (⟨S12000x64, .f32⟩ : BufTy).Contents (Elt F)),
    StableHlo.binary main_v51 main_v51 main_v52 (mulf : (⟨S12000x64, .f32⟩ : BufTy).Contents (Elt F) → (⟨S12000x64, .f32⟩ : BufTy).Contents (Elt F) → (⟨S12000x64, .f32⟩ : BufTy).Contents (Elt F)),
    StableHlo.nullary main_cst_11 (constant S_ .f32 0x00000000#32),
    StableHlo.binary main_v52 main_cst_11 main_v53 ((fun x v => Host.reduceAdd x v reducesTo_S12000x64_S64_d0 h_S_) : (⟨S12000x64, .f32⟩ : BufTy).Contents (Elt F) → (⟨S_, .f32⟩ : BufTy).Contents (Elt F) → (⟨S64, .f32⟩ : BufTy).Contents (Elt F)),
    StableHlo.nullary main_cst_12 (constant S_ .f32 0x463B8000#32),
    StableHlo.unary main_cst_12 main_v54 (broadcastInDim S64 ![] bcast_S_S64 : (⟨S_, .f32⟩ : BufTy).Contents (Elt F) → (⟨S64, .f32⟩ : BufTy).Contents (Elt F)),
    StableHlo.binary main_v53 main_v54 main_v55 (Host.divf : (⟨S64, .f32⟩ : BufTy).Contents (Elt F) → (⟨S64, .f32⟩ : BufTy).Contents (Elt F) → (⟨S64, .f32⟩ : BufTy).Contents (Elt F)),
    StableHlo.nullary main_cst_13 (constant S_ .f32 0x38D1B717#32),
    StableHlo.unary main_cst_13 main_v56 (broadcastInDim S64 ![] bcast_S_S64 : (⟨S_, .f32⟩ : BufTy).Contents (Elt F) → (⟨S64, .f32⟩ : BufTy).Contents (Elt F)),
    StableHlo.binary main_v55 main_v56 main_v57 (addf : (⟨S64, .f32⟩ : BufTy).Contents (Elt F) → (⟨S64, .f32⟩ : BufTy).Contents (Elt F) → (⟨S64, .f32⟩ : BufTy).Contents (Elt F)),
    StableHlo.unary main_v57 main_v58 (Host.rsqrt : (⟨S64, .f32⟩ : BufTy).Contents (Elt F) → (⟨S64, .f32⟩ : BufTy).Contents (Elt F)),
    StableHlo.unary main_v58 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S12000x64 ![0, 1] bcast_S1x64_S12000x64_0_1 : (⟨S1x64, .f32⟩ : BufTy).Contents (Elt F) → (⟨S12000x64, .f32⟩ : BufTy).Contents (Elt F)),
    StableHlo.binary main_v51 main_v60 main_v61 (mulf : (⟨S12000x64, .f32⟩ : BufTy).Contents (Elt F) → (⟨S12000x64, .f32⟩ : BufTy).Contents (Elt F) → (⟨S12000x64, .f32⟩ : BufTy).Contents (Elt F)),
    StableHlo.unary main_arg7 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S12000x64 ![0, 1] bcast_S1x64_S12000x64_0_1 : (⟨S1x64, .f32⟩ : BufTy).Contents (Elt F) → (⟨S12000x64, .f32⟩ : BufTy).Contents (Elt F)),
    StableHlo.binary main_v61 main_v63 main_v64 (mulf : (⟨S12000x64, .f32⟩ : BufTy).Contents (Elt F) → (⟨S12000x64, .f32⟩ : BufTy).Contents (Elt F) → (⟨S12000x64, .f32⟩ : BufTy).Contents (Elt F)),
    StableHlo.unary main_arg8 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S12000x64 ![0, 1] bcast_S1x64_S12000x64_0_1 : (⟨S1x64, .f32⟩ : BufTy).Contents (Elt F) → (⟨S12000x64, .f32⟩ : BufTy).Contents (Elt F)),
    StableHlo.binary main_v64 main_v66 main_v67 (addf : (⟨S12000x64, .f32⟩ : BufTy).Contents (Elt F) → (⟨S12000x64, .f32⟩ : BufTy).Contents (Elt F) → (⟨S12000x64, .f32⟩ : BufTy).Contents (Elt F)),
    StableHlo.binary main_v67 main_arg9 main_v68 ((fun l r => Host.dotGeneral dot_S12000x64_S64x64_S12000x64_1_0_0_1_n_n none l r) : (⟨S12000x64, .f32⟩ : BufTy).Contents (Elt F) → (⟨S64x64, .f32⟩ : BufTy).Contents (Elt F) → (⟨S12000x64, .f32⟩ : BufTy).Contents (Elt F)),
    StableHlo.nullary main_v69 (iotaInDim S12000 32 0),
    StableHlo.binary main_arg1 main_v69 main_v70 ((fun a b => concatenate S396000 0 [⟨S384000, a⟩, ⟨S12000, b⟩] concatenates_S384000_S12000_S396000_d0) : (⟨S384000, .i32⟩ : BufTy).Contents (Elt F) → (⟨S12000, .i32⟩ : BufTy).Contents (Elt F) → (⟨S396000, .i32⟩ : BufTy).Contents (Elt F)),
    StableHlo.binary main_arg2 main_v69 main_v71 ((fun a b => concatenate S396000 0 [⟨S384000, a⟩, ⟨S12000, b⟩] concatenates_S384000_S12000_S396000_d0) : (⟨S384000, .i32⟩ : BufTy).Contents (Elt F) → (⟨S12000, .i32⟩ : BufTy).Contents (Elt F) → (⟨S396000, .i32⟩ : BufTy).Contents (Elt F)),
    StableHlo.nullary main_cst_14 (constant S_ .f32 0x3F800000#32),
    StableHlo.unary main_cst_14 main_v72 (broadcastInDim S396000 ![] bcast_S_S396000 : (⟨S_, .f32⟩ : BufTy).Contents (Elt F) → (⟨S396000, .f32⟩ : BufTy).Contents (Elt F)),
    StableHlo.nullary main_cst_15 (constant S_ .f32 0x00000000#32),
    StableHlo.unary main_cst_15 main_v73 (broadcastInDim S12000 ![] bcast_S_S12000 : (⟨S_, .f32⟩ : BufTy).Contents (Elt F) → (⟨S12000, .f32⟩ : BufTy).Contents (Elt F)),
    StableHlo.unary main_v71 main_v74 (broadcastInDim S396000x1 ![0] bcast_S396000_S396000x1_0 : (⟨S396000, .i32⟩ : BufTy).Contents (Elt F) → (⟨S396000x1, .i32⟩ : BufTy).Contents (Elt F)),
    StableHlo.ternary main_v73 main_v74 main_v72 main_v75 ((fun x i u => Host.scatterAdd scatter_S12000_S396000x1_S396000_n_0_0_1 x i u) : (⟨S12000, .f32⟩ : BufTy).Contents (Elt F) → (⟨S396000x1, .i32⟩ : BufTy).Contents (Elt F) → (⟨S396000, .f32⟩ : BufTy).Contents (Elt F) → (⟨S12000, .f32⟩ : BufTy).Contents (Elt F)),
    StableHlo.unary main_v75 main_v76 (Host.rsqrt : (⟨S12000, .f32⟩ : BufTy).Contents (Elt F) → (⟨S12000, .f32⟩ : BufTy).Contents (Elt F)),
    StableHlo.nullary main_c_16 (constantI S_ 32 0#32),
    StableHlo.unary main_c_16 main_v77 (broadcastInDim S396000 ![] bcast_S_S396000 : (⟨S_, .i32⟩ : BufTy).Contents (Elt F) → (⟨S396000, .i32⟩ : BufTy).Contents (Elt F)),
    StableHlo.binary main_v70 main_v77 main_v78 (cmpi .slt : (⟨S396000, .i32⟩ : BufTy).Contents (Elt F) → (⟨S396000, .i32⟩ : BufTy).Contents (Elt F) → (⟨S396000, .i1⟩ : BufTy).Contents (Elt F)),
    StableHlo.nullary main_c_17 (constantI S_ 32 12000#32),
    StableHlo.unary main_c_17 main_v79 (broadcastInDim S396000 ![] bcast_S_S396000 : (⟨S_, .i32⟩ : BufTy).Contents (Elt F) → (⟨S396000, .i32⟩ : BufTy).Contents (Elt F)),
    StableHlo.binary main_v70 main_v79 main_v80 (addi : (⟨S396000, .i32⟩ : BufTy).Contents (Elt F) → (⟨S396000, .i32⟩ : BufTy).Contents (Elt F) → (⟨S396000, .i32⟩ : BufTy).Contents (Elt F)),
    StableHlo.ternary main_v78 main_v80 main_v70 main_v81 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    StableHlo.unary main_v81 main_v82 (broadcastInDim S396000x1 ![0] bcast_S396000_S396000x1_0 : (⟨S396000, .i32⟩ : BufTy).Contents (Elt F) → (⟨S396000x1, .i32⟩ : BufTy).Contents (Elt F)),
    StableHlo.binary main_v76 main_v82 main_v83 ((fun x i => Host.gather gather_S12000_S396000x1_S396000_n_0_n_n_0_1_1 x i) : (⟨S12000, .f32⟩ : BufTy).Contents (Elt F) → (⟨S396000x1, .i32⟩ : BufTy).Contents (Elt F) → (⟨S396000, .f32⟩ : BufTy).Contents (Elt F)),
    StableHlo.nullary main_c_18 (constantI S_ 32 0#32),
    StableHlo.unary main_c_18 main_v84 (broadcastInDim S396000 ![] bcast_S_S396000 : (⟨S_, .i32⟩ : BufTy).Contents (Elt F) → (⟨S396000, .i32⟩ : BufTy).Contents (Elt F)),
    StableHlo.binary main_v71 main_v84 main_v85 (cmpi .slt : (⟨S396000, .i32⟩ : BufTy).Contents (Elt F) → (⟨S396000, .i32⟩ : BufTy).Contents (Elt F) → (⟨S396000, .i1⟩ : BufTy).Contents (Elt F)),
    StableHlo.nullary main_c_19 (constantI S_ 32 12000#32),
    StableHlo.unary main_c_19 main_v86 (broadcastInDim S396000 ![] bcast_S_S396000 : (⟨S_, .i32⟩ : BufTy).Contents (Elt F) → (⟨S396000, .i32⟩ : BufTy).Contents (Elt F)),
    StableHlo.binary main_v71 main_v86 main_v87 (addi : (⟨S396000, .i32⟩ : BufTy).Contents (Elt F) → (⟨S396000, .i32⟩ : BufTy).Contents (Elt F) → (⟨S396000, .i32⟩ : BufTy).Contents (Elt F)),
    StableHlo.ternary main_v85 main_v87 main_v71 main_v88 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    StableHlo.unary main_v88 main_v89 (broadcastInDim S396000x1 ![0] bcast_S396000_S396000x1_0 : (⟨S396000, .i32⟩ : BufTy).Contents (Elt F) → (⟨S396000x1, .i32⟩ : BufTy).Contents (Elt F)),
    StableHlo.binary main_v76 main_v89 main_v90 ((fun x i => Host.gather gather_S12000_S396000x1_S396000_n_0_n_n_0_1_1 x i) : (⟨S12000, .f32⟩ : BufTy).Contents (Elt F) → (⟨S396000x1, .i32⟩ : BufTy).Contents (Elt F) → (⟨S396000, .f32⟩ : BufTy).Contents (Elt F)),
    StableHlo.binary main_v83 main_v90 main_v91 (mulf : (⟨S396000, .f32⟩ : BufTy).Contents (Elt F) → (⟨S396000, .f32⟩ : BufTy).Contents (Elt F) → (⟨S396000, .f32⟩ : BufTy).Contents (Elt F)),
    StableHlo.nullary main_c_20 (constantI S_ 32 0#32),
    StableHlo.unary main_c_20 main_v92 (broadcastInDim S396000 ![] bcast_S_S396000 : (⟨S_, .i32⟩ : BufTy).Contents (Elt F) → (⟨S396000, .i32⟩ : BufTy).Contents (Elt F)),
    StableHlo.binary main_v70 main_v92 main_v93 (cmpi .slt : (⟨S396000, .i32⟩ : BufTy).Contents (Elt F) → (⟨S396000, .i32⟩ : BufTy).Contents (Elt F) → (⟨S396000, .i1⟩ : BufTy).Contents (Elt F)),
    StableHlo.nullary main_c_21 (constantI S_ 32 12000#32),
    StableHlo.unary main_c_21 main_v94 (broadcastInDim S396000 ![] bcast_S_S396000 : (⟨S_, .i32⟩ : BufTy).Contents (Elt F) → (⟨S396000, .i32⟩ : BufTy).Contents (Elt F)),
    StableHlo.binary main_v70 main_v94 main_v95 (addi : (⟨S396000, .i32⟩ : BufTy).Contents (Elt F) → (⟨S396000, .i32⟩ : BufTy).Contents (Elt F) → (⟨S396000, .i32⟩ : BufTy).Contents (Elt F)) ]

/-- @main's operations 121 … 180, in order (window `main_part2`). -/
abbrev ops2 : List (HloOp τ sig (Elt F)) :=
  [ StableHlo.ternary main_v93 main_v95 main_v70 main_v96 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    StableHlo.unary main_v96 main_v97 (broadcastInDim S396000x1 ![0] bcast_S396000_S396000x1_0 : (⟨S396000, .i32⟩ : BufTy).Contents (Elt F) → (⟨S396000x1, .i32⟩ : BufTy).Contents (Elt F)),
    StableHlo.binary main_v68 main_v97 main_v98 ((fun x i => Host.gather gather_S12000x64_S396000x1_S396000x64_1_0_n_n_0_1_164 x i) : (⟨S12000x64, .f32⟩ : BufTy).Contents (Elt F) → (⟨S396000x1, .i32⟩ : BufTy).Contents (Elt F) → (⟨S396000x64, .f32⟩ : BufTy).Contents (Elt F)),
    StableHlo.unary main_v91 main_v99 (broadcastInDim S396000x1 ![0] bcast_S396000_S396000x1_0 : (⟨S396000, .f32⟩ : BufTy).Contents (Elt F) → (⟨S396000x1, .f32⟩ : BufTy).Contents (Elt F)),
    StableHlo.unary main_v99 main_v100 (broadcastInDim S396000x64 ![0, 1] bcast_S396000x1_S396000x64_0_1 : (⟨S396000x1, .f32⟩ : BufTy).Contents (Elt F) → (⟨S396000x64, .f32⟩ : BufTy).Contents (Elt F)),
    StableHlo.binary main_v98 main_v100 main_v101 (mulf : (⟨S396000x64, .f32⟩ : BufTy).Contents (Elt F) → (⟨S396000x64, .f32⟩ : BufTy).Contents (Elt F) → (⟨S396000x64, .f32⟩ : BufTy).Contents (Elt F)),
    StableHlo.nullary main_cst_22 (constant S_ .f32 0x00000000#32),
    StableHlo.unary main_cst_22 main_v102 (broadcastInDim S12000x64 ![] bcast_S_S12000x64 : (⟨S_, .f32⟩ : BufTy).Contents (Elt F) → (⟨S12000x64, .f32⟩ : BufTy).Contents (Elt F)),
    StableHlo.unary main_v71 main_v103 (broadcastInDim S396000x1 ![0] bcast_S396000_S396000x1_0 : (⟨S396000, .i32⟩ : BufTy).Contents (Elt F) → (⟨S396000x1, .i32⟩ : BufTy).Contents (Elt F)),
    StableHlo.ternary main_v102 main_v103 main_v101 main_v104 ((fun x i u => Host.scatterAdd scatter_S12000x64_S396000x1_S396000x64_1_0_0_1 x i u) : (⟨S12000x64, .f32⟩ : BufTy).Contents (Elt F) → (⟨S396000x1, .i32⟩ : BufTy).Contents (Elt F) → (⟨S396000x64, .f32⟩ : BufTy).Contents (Elt F) → (⟨S12000x64, .f32⟩ : BufTy).Contents (Elt F)),
    StableHlo.unary main_arg10 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S12000x64 ![0, 1] bcast_S1x64_S12000x64_0_1 : (⟨S1x64, .f32⟩ : BufTy).Contents (Elt F) → (⟨S12000x64, .f32⟩ : BufTy).Contents (Elt F)),
    StableHlo.binary main_v104 main_v106 main_v107 (addf : (⟨S12000x64, .f32⟩ : BufTy).Contents (Elt F) → (⟨S12000x64, .f32⟩ : BufTy).Contents (Elt F) → (⟨S12000x64, .f32⟩ : BufTy).Contents (Elt F)),
    StableHlo.unary main_v107 main_v108 (Host.negf : (⟨S12000x64, .f32⟩ : BufTy).Contents (Elt F) → (⟨S12000x64, .f32⟩ : BufTy).Contents (Elt F)),
    StableHlo.unary main_v108 main_v109 (Host.exp : (⟨S12000x64, .f32⟩ : BufTy).Contents (Elt F) → (⟨S12000x64, .f32⟩ : BufTy).Contents (Elt F)),
    StableHlo.nullary main_cst_23 (constant S_ .f32 0x3F800000#32),
    StableHlo.unary main_cst_23 main_v110 (broadcastInDim S12000x64 ![] bcast_S_S12000x64 : (⟨S_, .f32⟩ : BufTy).Contents (Elt F) → (⟨S12000x64, .f32⟩ : BufTy).Contents (Elt F)),
    StableHlo.binary main_v110 main_v109 main_v111 (addf : (⟨S12000x64, .f32⟩ : BufTy).Contents (Elt F) → (⟨S12000x64, .f32⟩ : BufTy).Contents (Elt F) → (⟨S12000x64, .f32⟩ : BufTy).Contents (Elt F)),
    StableHlo.nullary main_cst_24 (constant S_ .f32 0x3F800000#32),
    StableHlo.unary main_cst_24 main_v112 (broadcastInDim S12000x64 ![] bcast_S_S12000x64 : (⟨S_, .f32⟩ : BufTy).Contents (Elt F) → (⟨S12000x64, .f32⟩ : BufTy).Contents (Elt F)),
    StableHlo.binary main_v112 main_v111 main_v113 (Host.divf : (⟨S12000x64, .f32⟩ : BufTy).Contents (Elt F) → (⟨S12000x64, .f32⟩ : BufTy).Contents (Elt F) → (⟨S12000x64, .f32⟩ : BufTy).Contents (Elt F)),
    StableHlo.nullary main_cst_25 (constant S_ .f32 0x00000000#32),
    StableHlo.binary main_v113 main_cst_25 main_v114 ((fun x v => Host.reduceAdd x v reducesTo_S12000x64_S64_d0 h_S_) : (⟨S12000x64, .f32⟩ : BufTy).Contents (Elt F) → (⟨S_, .f32⟩ : BufTy).Contents (Elt F) → (⟨S64, .f32⟩ : BufTy).Contents (Elt F)),
    StableHlo.nullary main_cst_26 (constant S_ .f32 0x463B8000#32),
    StableHlo.unary main_cst_26 main_v115 (broadcastInDim S64 ![] bcast_S_S64 : (⟨S_, .f32⟩ : BufTy).Contents (Elt F) → (⟨S64, .f32⟩ : BufTy).Contents (Elt F)),
    StableHlo.binary main_v114 main_v115 main_v116 (Host.divf : (⟨S64, .f32⟩ : BufTy).Contents (Elt F) → (⟨S64, .f32⟩ : BufTy).Contents (Elt F) → (⟨S64, .f32⟩ : BufTy).Contents (Elt F)),
    StableHlo.unary main_v116 main_v117 (broadcastInDim S1x64 ![1] bcast_S64_S1x64_1 : (⟨S64, .f32⟩ : BufTy).Contents (Elt F) → (⟨S1x64, .f32⟩ : BufTy).Contents (Elt F)),
    StableHlo.unary main_v117 main_v118 (broadcastInDim S12000x64 ![0, 1] bcast_S1x64_S12000x64_0_1 : (⟨S1x64, .f32⟩ : BufTy).Contents (Elt F) → (⟨S12000x64, .f32⟩ : BufTy).Contents (Elt F)),
    StableHlo.binary main_v113 main_v118 main_v119 (subf : (⟨S12000x64, .f32⟩ : BufTy).Contents (Elt F) → (⟨S12000x64, .f32⟩ : BufTy).Contents (Elt F) → (⟨S12000x64, .f32⟩ : BufTy).Contents (Elt F)),
    StableHlo.binary main_v119 main_v119 main_v120 (mulf : (⟨S12000x64, .f32⟩ : BufTy).Contents (Elt F) → (⟨S12000x64, .f32⟩ : BufTy).Contents (Elt F) → (⟨S12000x64, .f32⟩ : BufTy).Contents (Elt F)),
    StableHlo.nullary main_cst_27 (constant S_ .f32 0x00000000#32),
    StableHlo.binary main_v120 main_cst_27 main_v121 ((fun x v => Host.reduceAdd x v reducesTo_S12000x64_S64_d0 h_S_) : (⟨S12000x64, .f32⟩ : BufTy).Contents (Elt F) → (⟨S_, .f32⟩ : BufTy).Contents (Elt F) → (⟨S64, .f32⟩ : BufTy).Contents (Elt F)),
    StableHlo.nullary main_cst_28 (constant S_ .f32 0x463B8000#32),
    StableHlo.unary main_cst_28 main_v122 (broadcastInDim S64 ![] bcast_S_S64 : (⟨S_, .f32⟩ : BufTy).Contents (Elt F) → (⟨S64, .f32⟩ : BufTy).Contents (Elt F)),
    StableHlo.binary main_v121 main_v122 main_v123 (Host.divf : (⟨S64, .f32⟩ : BufTy).Contents (Elt F) → (⟨S64, .f32⟩ : BufTy).Contents (Elt F) → (⟨S64, .f32⟩ : BufTy).Contents (Elt F)),
    StableHlo.nullary main_cst_29 (constant S_ .f32 0x38D1B717#32),
    StableHlo.unary main_cst_29 main_v124 (broadcastInDim S64 ![] bcast_S_S64 : (⟨S_, .f32⟩ : BufTy).Contents (Elt F) → (⟨S64, .f32⟩ : BufTy).Contents (Elt F)),
    StableHlo.binary main_v123 main_v124 main_v125 (addf : (⟨S64, .f32⟩ : BufTy).Contents (Elt F) → (⟨S64, .f32⟩ : BufTy).Contents (Elt F) → (⟨S64, .f32⟩ : BufTy).Contents (Elt F)),
    StableHlo.unary main_v125 main_v126 (Host.rsqrt : (⟨S64, .f32⟩ : BufTy).Contents (Elt F) → (⟨S64, .f32⟩ : BufTy).Contents (Elt F)),
    StableHlo.unary main_v126 main_v127 (broadcastInDim S1x64 ![1] bcast_S64_S1x64_1 : (⟨S64, .f32⟩ : BufTy).Contents (Elt F) → (⟨S1x64, .f32⟩ : BufTy).Contents (Elt F)),
    StableHlo.unary main_v127 main_v128 (broadcastInDim S12000x64 ![0, 1] bcast_S1x64_S12000x64_0_1 : (⟨S1x64, .f32⟩ : BufTy).Contents (Elt F) → (⟨S12000x64, .f32⟩ : BufTy).Contents (Elt F)),
    StableHlo.binary main_v119 main_v128 main_v129 (mulf : (⟨S12000x64, .f32⟩ : BufTy).Contents (Elt F) → (⟨S12000x64, .f32⟩ : BufTy).Contents (Elt F) → (⟨S12000x64, .f32⟩ : BufTy).Contents (Elt F)),
    StableHlo.unary main_arg11 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S12000x64 ![0, 1] bcast_S1x64_S12000x64_0_1 : (⟨S1x64, .f32⟩ : BufTy).Contents (Elt F) → (⟨S12000x64, .f32⟩ : BufTy).Contents (Elt F)),
    StableHlo.binary main_v129 main_v131 main_v132 (mulf : (⟨S12000x64, .f32⟩ : BufTy).Contents (Elt F) → (⟨S12000x64, .f32⟩ : BufTy).Contents (Elt F) → (⟨S12000x64, .f32⟩ : BufTy).Contents (Elt F)),
    StableHlo.unary main_arg12 main_v133 (broadcastInDim S1x64 ![1] bcast_S64_S1x64_1 : (⟨S64, .f32⟩ : BufTy).Contents (Elt F) → (⟨S1x64, .f32⟩ : BufTy).Contents (Elt F)),
    StableHlo.unary main_v133 main_v134 (broadcastInDim S12000x64 ![0, 1] bcast_S1x64_S12000x64_0_1 : (⟨S1x64, .f32⟩ : BufTy).Contents (Elt F) → (⟨S12000x64, .f32⟩ : BufTy).Contents (Elt F)),
    StableHlo.binary main_v132 main_v134 main_v135 (addf : (⟨S12000x64, .f32⟩ : BufTy).Contents (Elt F) → (⟨S12000x64, .f32⟩ : BufTy).Contents (Elt F) → (⟨S12000x64, .f32⟩ : BufTy).Contents (Elt F)),
    StableHlo.binary main_v67 main_arg13 main_v136 ((fun l r => Host.dotGeneral dot_S12000x64_S64x64_S12000x64_1_0_0_1_n_n none l r) : (⟨S12000x64, .f32⟩ : BufTy).Contents (Elt F) → (⟨S64x64, .f32⟩ : BufTy).Contents (Elt F) → (⟨S12000x64, .f32⟩ : BufTy).Contents (Elt F)),
    StableHlo.nullary main_v137 (iotaInDim S12000 32 0),
    StableHlo.binary main_arg1 main_v137 main_v138 ((fun a b => concatenate S396000 0 [⟨S384000, a⟩, ⟨S12000, b⟩] concatenates_S384000_S12000_S396000_d0) : (⟨S384000, .i32⟩ : BufTy).Contents (Elt F) → (⟨S12000, .i32⟩ : BufTy).Contents (Elt F) → (⟨S396000, .i32⟩ : BufTy).Contents (Elt F)),
    StableHlo.binary main_arg2 main_v137 main_v139 ((fun a b => concatenate S396000 0 [⟨S384000, a⟩, ⟨S12000, b⟩] concatenates_S384000_S12000_S396000_d0) : (⟨S384000, .i32⟩ : BufTy).Contents (Elt F) → (⟨S12000, .i32⟩ : BufTy).Contents (Elt F) → (⟨S396000, .i32⟩ : BufTy).Contents (Elt F)),
    StableHlo.nullary main_cst_30 (constant S_ .f32 0x3F800000#32),
    StableHlo.unary main_cst_30 main_v140 (broadcastInDim S396000 ![] bcast_S_S396000 : (⟨S_, .f32⟩ : BufTy).Contents (Elt F) → (⟨S396000, .f32⟩ : BufTy).Contents (Elt F)),
    StableHlo.nullary main_cst_31 (constant S_ .f32 0x00000000#32),
    StableHlo.unary main_cst_31 main_v141 (broadcastInDim S12000 ![] bcast_S_S12000 : (⟨S_, .f32⟩ : BufTy).Contents (Elt F) → (⟨S12000, .f32⟩ : BufTy).Contents (Elt F)),
    StableHlo.unary main_v139 main_v142 (broadcastInDim S396000x1 ![0] bcast_S396000_S396000x1_0 : (⟨S396000, .i32⟩ : BufTy).Contents (Elt F) → (⟨S396000x1, .i32⟩ : BufTy).Contents (Elt F)),
    StableHlo.ternary main_v141 main_v142 main_v140 main_v143 ((fun x i u => Host.scatterAdd scatter_S12000_S396000x1_S396000_n_0_0_1 x i u) : (⟨S12000, .f32⟩ : BufTy).Contents (Elt F) → (⟨S396000x1, .i32⟩ : BufTy).Contents (Elt F) → (⟨S396000, .f32⟩ : BufTy).Contents (Elt F) → (⟨S12000, .f32⟩ : BufTy).Contents (Elt F)),
    StableHlo.unary main_v143 main_v144 (Host.rsqrt : (⟨S12000, .f32⟩ : BufTy).Contents (Elt F) → (⟨S12000, .f32⟩ : BufTy).Contents (Elt F)),
    StableHlo.nullary main_c_32 (constantI S_ 32 0#32) ]

/-- @main's operations 181 … 240, in order (window `main_part3`). -/
abbrev ops3 : List (HloOp τ sig (Elt F)) :=
  [ StableHlo.unary main_c_32 main_v145 (broadcastInDim S396000 ![] bcast_S_S396000 : (⟨S_, .i32⟩ : BufTy).Contents (Elt F) → (⟨S396000, .i32⟩ : BufTy).Contents (Elt F)),
    StableHlo.binary main_v138 main_v145 main_v146 (cmpi .slt : (⟨S396000, .i32⟩ : BufTy).Contents (Elt F) → (⟨S396000, .i32⟩ : BufTy).Contents (Elt F) → (⟨S396000, .i1⟩ : BufTy).Contents (Elt F)),
    StableHlo.nullary main_c_33 (constantI S_ 32 12000#32),
    StableHlo.unary main_c_33 main_v147 (broadcastInDim S396000 ![] bcast_S_S396000 : (⟨S_, .i32⟩ : BufTy).Contents (Elt F) → (⟨S396000, .i32⟩ : BufTy).Contents (Elt F)),
    StableHlo.binary main_v138 main_v147 main_v148 (addi : (⟨S396000, .i32⟩ : BufTy).Contents (Elt F) → (⟨S396000, .i32⟩ : BufTy).Contents (Elt F) → (⟨S396000, .i32⟩ : BufTy).Contents (Elt F)),
    StableHlo.ternary main_v146 main_v148 main_v138 main_v149 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    StableHlo.unary main_v149 main_v150 (broadcastInDim S396000x1 ![0] bcast_S396000_S396000x1_0 : (⟨S396000, .i32⟩ : BufTy).Contents (Elt F) → (⟨S396000x1, .i32⟩ : BufTy).Contents (Elt F)),
    StableHlo.binary main_v144 main_v150 main_v151 ((fun x i => Host.gather gather_S12000_S396000x1_S396000_n_0_n_n_0_1_1 x i) : (⟨S12000, .f32⟩ : BufTy).Contents (Elt F) → (⟨S396000x1, .i32⟩ : BufTy).Contents (Elt F) → (⟨S396000, .f32⟩ : BufTy).Contents (Elt F)),
    StableHlo.nullary main_c_34 (constantI S_ 32 0#32),
    StableHlo.unary main_c_34 main_v152 (broadcastInDim S396000 ![] bcast_S_S396000 : (⟨S_, .i32⟩ : BufTy).Contents (Elt F) → (⟨S396000, .i32⟩ : BufTy).Contents (Elt F)),
    StableHlo.binary main_v139 main_v152 main_v153 (cmpi .slt : (⟨S396000, .i32⟩ : BufTy).Contents (Elt F) → (⟨S396000, .i32⟩ : BufTy).Contents (Elt F) → (⟨S396000, .i1⟩ : BufTy).Contents (Elt F)),
    StableHlo.nullary main_c_35 (constantI S_ 32 12000#32),
    StableHlo.unary main_c_35 main_v154 (broadcastInDim S396000 ![] bcast_S_S396000 : (⟨S_, .i32⟩ : BufTy).Contents (Elt F) → (⟨S396000, .i32⟩ : BufTy).Contents (Elt F)),
    StableHlo.binary main_v139 main_v154 main_v155 (addi : (⟨S396000, .i32⟩ : BufTy).Contents (Elt F) → (⟨S396000, .i32⟩ : BufTy).Contents (Elt F) → (⟨S396000, .i32⟩ : BufTy).Contents (Elt F)),
    StableHlo.ternary main_v153 main_v155 main_v139 main_v156 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    StableHlo.unary main_v156 main_v157 (broadcastInDim S396000x1 ![0] bcast_S396000_S396000x1_0 : (⟨S396000, .i32⟩ : BufTy).Contents (Elt F) → (⟨S396000x1, .i32⟩ : BufTy).Contents (Elt F)),
    StableHlo.binary main_v144 main_v157 main_v158 ((fun x i => Host.gather gather_S12000_S396000x1_S396000_n_0_n_n_0_1_1 x i) : (⟨S12000, .f32⟩ : BufTy).Contents (Elt F) → (⟨S396000x1, .i32⟩ : BufTy).Contents (Elt F) → (⟨S396000, .f32⟩ : BufTy).Contents (Elt F)),
    StableHlo.binary main_v151 main_v158 main_v159 (mulf : (⟨S396000, .f32⟩ : BufTy).Contents (Elt F) → (⟨S396000, .f32⟩ : BufTy).Contents (Elt F) → (⟨S396000, .f32⟩ : BufTy).Contents (Elt F)),
    StableHlo.nullary main_c_36 (constantI S_ 32 0#32),
    StableHlo.unary main_c_36 main_v160 (broadcastInDim S396000 ![] bcast_S_S396000 : (⟨S_, .i32⟩ : BufTy).Contents (Elt F) → (⟨S396000, .i32⟩ : BufTy).Contents (Elt F)),
    StableHlo.binary main_v138 main_v160 main_v161 (cmpi .slt : (⟨S396000, .i32⟩ : BufTy).Contents (Elt F) → (⟨S396000, .i32⟩ : BufTy).Contents (Elt F) → (⟨S396000, .i1⟩ : BufTy).Contents (Elt F)),
    StableHlo.nullary main_c_37 (constantI S_ 32 12000#32),
    StableHlo.unary main_c_37 main_v162 (broadcastInDim S396000 ![] bcast_S_S396000 : (⟨S_, .i32⟩ : BufTy).Contents (Elt F) → (⟨S396000, .i32⟩ : BufTy).Contents (Elt F)),
    StableHlo.binary main_v138 main_v162 main_v163 (addi : (⟨S396000, .i32⟩ : BufTy).Contents (Elt F) → (⟨S396000, .i32⟩ : BufTy).Contents (Elt F) → (⟨S396000, .i32⟩ : BufTy).Contents (Elt F)),
    StableHlo.ternary main_v161 main_v163 main_v138 main_v164 (select : (⟨S396000, .i1⟩ : BufTy).Contents (Elt F) → (⟨S396000, .i32⟩ : BufTy).Contents (Elt F) → (⟨S396000, .i32⟩ : BufTy).Contents (Elt F) → (⟨S396000, .i32⟩ : BufTy).Contents (Elt F)),
    StableHlo.unary main_v164 main_v165 (broadcastInDim S396000x1 ![0] bcast_S396000_S396000x1_0 : (⟨S396000, .i32⟩ : BufTy).Contents (Elt F) → (⟨S396000x1, .i32⟩ : BufTy).Contents (Elt F)),
    StableHlo.binary main_v136 main_v165 main_v166 ((fun x i => Host.gather gather_S12000x64_S396000x1_S396000x64_1_0_n_n_0_1_164 x i) : (⟨S12000x64, .f32⟩ : BufTy).Contents (Elt F) → (⟨S396000x1, .i32⟩ : BufTy).Contents (Elt F) → (⟨S396000x64, .f32⟩ : BufTy).Contents (Elt F)),
    StableHlo.unary main_v159 main_v167 (broadcastInDim S396000x1 ![0] bcast_S396000_S396000x1_0 : (⟨S396000, .f32⟩ : BufTy).Contents (Elt F) → (⟨S396000x1, .f32⟩ : BufTy).Contents (Elt F)),
    StableHlo.unary main_v167 main_v168 (broadcastInDim S396000x64 ![0, 1] bcast_S396000x1_S396000x64_0_1 : (⟨S396000x1, .f32⟩ : BufTy).Contents (Elt F) → (⟨S396000x64, .f32⟩ : BufTy).Contents (Elt F)),
    StableHlo.binary main_v166 main_v168 main_v169 (mulf : (⟨S396000x64, .f32⟩ : BufTy).Contents (Elt F) → (⟨S396000x64, .f32⟩ : BufTy).Contents (Elt F) → (⟨S396000x64, .f32⟩ : BufTy).Contents (Elt F)),
    StableHlo.nullary main_cst_38 (constant S_ .f32 0x00000000#32),
    StableHlo.unary main_cst_38 main_v170 (broadcastInDim S12000x64 ![] bcast_S_S12000x64 : (⟨S_, .f32⟩ : BufTy).Contents (Elt F) → (⟨S12000x64, .f32⟩ : BufTy).Contents (Elt F)),
    StableHlo.unary main_v139 main_v171 (broadcastInDim S396000x1 ![0] bcast_S396000_S396000x1_0 : (⟨S396000, .i32⟩ : BufTy).Contents (Elt F) → (⟨S396000x1, .i32⟩ : BufTy).Contents (Elt F)),
    StableHlo.ternary main_v170 main_v171 main_v169 main_v172 ((fun x i u => Host.scatterAdd scatter_S12000x64_S396000x1_S396000x64_1_0_0_1 x i u) : (⟨S12000x64, .f32⟩ : BufTy).Contents (Elt F) → (⟨S396000x1, .i32⟩ : BufTy).Contents (Elt F) → (⟨S396000x64, .f32⟩ : BufTy).Contents (Elt F) → (⟨S12000x64, .f32⟩ : BufTy).Contents (Elt F)),
    StableHlo.unary main_arg14 main_v173 (broadcastInDim S1x64 ![1] bcast_S64_S1x64_1 : (⟨S64, .f32⟩ : BufTy).Contents (Elt F) → (⟨S1x64, .f32⟩ : BufTy).Contents (Elt F)),
    StableHlo.unary main_v173 main_v174 (broadcastInDim S12000x64 ![0, 1] bcast_S1x64_S12000x64_0_1 : (⟨S1x64, .f32⟩ : BufTy).Contents (Elt F) → (⟨S12000x64, .f32⟩ : BufTy).Contents (Elt F)),
    StableHlo.binary main_v172 main_v174 main_v175 (addf : (⟨S12000x64, .f32⟩ : BufTy).Contents (Elt F) → (⟨S12000x64, .f32⟩ : BufTy).Contents (Elt F) → (⟨S12000x64, .f32⟩ : BufTy).Contents (Elt F)),
    StableHlo.unary main_v175 main_v176 (Host.negf : (⟨S12000x64, .f32⟩ : BufTy).Contents (Elt F) → (⟨S12000x64, .f32⟩ : BufTy).Contents (Elt F)),
    StableHlo.unary main_v176 main_v177 (Host.exp : (⟨S12000x64, .f32⟩ : BufTy).Contents (Elt F) → (⟨S12000x64, .f32⟩ : BufTy).Contents (Elt F)),
    StableHlo.nullary main_cst_39 (constant S_ .f32 0x3F800000#32),
    StableHlo.unary main_cst_39 main_v178 (broadcastInDim S12000x64 ![] bcast_S_S12000x64 : (⟨S_, .f32⟩ : BufTy).Contents (Elt F) → (⟨S12000x64, .f32⟩ : BufTy).Contents (Elt F)),
    StableHlo.binary main_v178 main_v177 main_v179 (addf : (⟨S12000x64, .f32⟩ : BufTy).Contents (Elt F) → (⟨S12000x64, .f32⟩ : BufTy).Contents (Elt F) → (⟨S12000x64, .f32⟩ : BufTy).Contents (Elt F)),
    StableHlo.nullary main_cst_40 (constant S_ .f32 0x3F800000#32),
    StableHlo.unary main_cst_40 main_v180 (broadcastInDim S12000x64 ![] bcast_S_S12000x64 : (⟨S_, .f32⟩ : BufTy).Contents (Elt F) → (⟨S12000x64, .f32⟩ : BufTy).Contents (Elt F)),
    StableHlo.binary main_v180 main_v179 main_v181 (Host.divf : (⟨S12000x64, .f32⟩ : BufTy).Contents (Elt F) → (⟨S12000x64, .f32⟩ : BufTy).Contents (Elt F) → (⟨S12000x64, .f32⟩ : BufTy).Contents (Elt F)),
    StableHlo.nullary main_cst_41 (constant S_ .f32 0x00000000#32),
    StableHlo.binary main_v181 main_cst_41 main_v182 ((fun x v => Host.reduceAdd x v reducesTo_S12000x64_S64_d0 h_S_) : (⟨S12000x64, .f32⟩ : BufTy).Contents (Elt F) → (⟨S_, .f32⟩ : BufTy).Contents (Elt F) → (⟨S64, .f32⟩ : BufTy).Contents (Elt F)),
    StableHlo.nullary main_cst_42 (constant S_ .f32 0x463B8000#32),
    StableHlo.unary main_cst_42 main_v183 (broadcastInDim S64 ![] bcast_S_S64 : (⟨S_, .f32⟩ : BufTy).Contents (Elt F) → (⟨S64, .f32⟩ : BufTy).Contents (Elt F)),
    StableHlo.binary main_v182 main_v183 main_v184 (Host.divf : (⟨S64, .f32⟩ : BufTy).Contents (Elt F) → (⟨S64, .f32⟩ : BufTy).Contents (Elt F) → (⟨S64, .f32⟩ : BufTy).Contents (Elt F)),
    StableHlo.unary main_v184 main_v185 (broadcastInDim S1x64 ![1] bcast_S64_S1x64_1 : (⟨S64, .f32⟩ : BufTy).Contents (Elt F) → (⟨S1x64, .f32⟩ : BufTy).Contents (Elt F)),
    StableHlo.unary main_v185 main_v186 (broadcastInDim S12000x64 ![0, 1] bcast_S1x64_S12000x64_0_1 : (⟨S1x64, .f32⟩ : BufTy).Contents (Elt F) → (⟨S12000x64, .f32⟩ : BufTy).Contents (Elt F)),
    StableHlo.binary main_v181 main_v186 main_v187 (subf : (⟨S12000x64, .f32⟩ : BufTy).Contents (Elt F) → (⟨S12000x64, .f32⟩ : BufTy).Contents (Elt F) → (⟨S12000x64, .f32⟩ : BufTy).Contents (Elt F)),
    StableHlo.binary main_v187 main_v187 main_v188 (mulf : (⟨S12000x64, .f32⟩ : BufTy).Contents (Elt F) → (⟨S12000x64, .f32⟩ : BufTy).Contents (Elt F) → (⟨S12000x64, .f32⟩ : BufTy).Contents (Elt F)),
    StableHlo.nullary main_cst_43 (constant S_ .f32 0x00000000#32),
    StableHlo.binary main_v188 main_cst_43 main_v189 ((fun x v => Host.reduceAdd x v reducesTo_S12000x64_S64_d0 h_S_) : (⟨S12000x64, .f32⟩ : BufTy).Contents (Elt F) → (⟨S_, .f32⟩ : BufTy).Contents (Elt F) → (⟨S64, .f32⟩ : BufTy).Contents (Elt F)),
    StableHlo.nullary main_cst_44 (constant S_ .f32 0x463B8000#32),
    StableHlo.unary main_cst_44 main_v190 (broadcastInDim S64 ![] bcast_S_S64 : (⟨S_, .f32⟩ : BufTy).Contents (Elt F) → (⟨S64, .f32⟩ : BufTy).Contents (Elt F)),
    StableHlo.binary main_v189 main_v190 main_v191 (Host.divf : (⟨S64, .f32⟩ : BufTy).Contents (Elt F) → (⟨S64, .f32⟩ : BufTy).Contents (Elt F) → (⟨S64, .f32⟩ : BufTy).Contents (Elt F)),
    StableHlo.nullary main_cst_45 (constant S_ .f32 0x38D1B717#32) ]

/-- @main's operations 241 … 255 (the head of window `main_part4`): the last writes the third encoder layer's output `main_v206`. -/
abbrev ops4a : List (HloOp τ sig (Elt F)) :=
  [ StableHlo.unary main_cst_45 main_v192 (broadcastInDim S64 ![] bcast_S_S64 : (⟨S_, .f32⟩ : BufTy).Contents (Elt F) → (⟨S64, .f32⟩ : BufTy).Contents (Elt F)),
    StableHlo.binary main_v191 main_v192 main_v193 (addf : (⟨S64, .f32⟩ : BufTy).Contents (Elt F) → (⟨S64, .f32⟩ : BufTy).Contents (Elt F) → (⟨S64, .f32⟩ : BufTy).Contents (Elt F)),
    StableHlo.unary main_v193 main_v194 (Host.rsqrt : (⟨S64, .f32⟩ : BufTy).Contents (Elt F) → (⟨S64, .f32⟩ : BufTy).Contents (Elt F)),
    StableHlo.unary main_v194 main_v195 (broadcastInDim S1x64 ![1] bcast_S64_S1x64_1 : (⟨S64, .f32⟩ : BufTy).Contents (Elt F) → (⟨S1x64, .f32⟩ : BufTy).Contents (Elt F)),
    StableHlo.unary main_v195 main_v196 (broadcastInDim S12000x64 ![0, 1] bcast_S1x64_S12000x64_0_1 : (⟨S1x64, .f32⟩ : BufTy).Contents (Elt F) → (⟨S12000x64, .f32⟩ : BufTy).Contents (Elt F)),
    StableHlo.binary main_v187 main_v196 main_v197 (mulf : (⟨S12000x64, .f32⟩ : BufTy).Contents (Elt F) → (⟨S12000x64, .f32⟩ : BufTy).Contents (Elt F) → (⟨S12000x64, .f32⟩ : BufTy).Contents (Elt F)),
    StableHlo.unary main_arg15 main_v198 (broadcastInDim S1x64 ![1] bcast_S64_S1x64_1 : (⟨S64, .f32⟩ : BufTy).Contents (Elt F) → (⟨S1x64, .f32⟩ : BufTy).Contents (Elt F)),
    StableHlo.unary main_v198 main_v199 (broadcastInDim S12000x64 ![0, 1] bcast_S1x64_S12000x64_0_1 : (⟨S1x64, .f32⟩ : BufTy).Contents (Elt F) → (⟨S12000x64, .f32⟩ : BufTy).Contents (Elt F)),
    StableHlo.binary main_v197 main_v199 main_v200 (mulf : (⟨S12000x64, .f32⟩ : BufTy).Contents (Elt F) → (⟨S12000x64, .f32⟩ : BufTy).Contents (Elt F) → (⟨S12000x64, .f32⟩ : BufTy).Contents (Elt F)),
    StableHlo.unary main_arg16 main_v201 (broadcastInDim S1x64 ![1] bcast_S64_S1x64_1 : (⟨S64, .f32⟩ : BufTy).Contents (Elt F) → (⟨S1x64, .f32⟩ : BufTy).Contents (Elt F)),
    StableHlo.unary main_v201 main_v202 (broadcastInDim S12000x64 ![0, 1] bcast_S1x64_S12000x64_0_1 : (⟨S1x64, .f32⟩ : BufTy).Contents (Elt F) → (⟨S12000x64, .f32⟩ : BufTy).Contents (Elt F)),
    StableHlo.binary main_v200 main_v202 main_v203 (addf : (⟨S12000x64, .f32⟩ : BufTy).Contents (Elt F) → (⟨S12000x64, .f32⟩ : BufTy).Contents (Elt F) → (⟨S12000x64, .f32⟩ : BufTy).Contents (Elt F)),
    StableHlo.unary main_v203 main_v204 (Host.exp : (⟨S12000x64, .f32⟩ : BufTy).Contents (Elt F) → (⟨S12000x64, .f32⟩ : BufTy).Contents (Elt F)),
    StableHlo.binary main_arg4 main_v204 main_v205 (mulf : (⟨S12000x64, .f32⟩ : BufTy).Contents (Elt F) → (⟨S12000x64, .f32⟩ : BufTy).Contents (Elt F) → (⟨S12000x64, .f32⟩ : BufTy).Contents (Elt F)),
    StableHlo.binary main_v205 main_v135 main_v206 (addf : (⟨S12000x64, .f32⟩ : BufTy).Contents (Elt F) → (⟨S12000x64, .f32⟩ : BufTy).Contents (Elt F) → (⟨S12000x64, .f32⟩ : BufTy).Contents (Elt F)) ]

/-- The first 255 operations of @main, in order: the three encoder layers, ending at the write of `main_v206`. -/
abbrev pre : List (HloOp τ sig (Elt F)) :=
  ops0 ++ (ops1 ++ (ops2 ++ (ops3 ++ ops4a)))

/-- The remaining 26 operations of @main, in order: the decoder's first layer, @leaky_relu's six operations and @_where's select in the call's place over the call's buffers, the decoder's second layer, and the sigmoid of the inner products. -/
abbrev tail : List (HloOp τ sig (Elt F)) :=
  [ StableHlo.binary main_v206 main_arg17 main_v207 ((fun l r => Host.dotGeneral dot_S12000x64_S64x64_S12000x64_1_0_0_1_n_n none l r) : (⟨S12000x64, .f32⟩ : BufTy).Contents (Elt F) → (⟨S64x64, .f32⟩ : BufTy).Contents (Elt F) → (⟨S12000x64, .f32⟩ : BufTy).Contents (Elt F)),
    StableHlo.unary main_arg18 main_v208 (broadcastInDim S1x64 ![1] bcast_S64_S1x64_1 : (⟨S64, .f32⟩ : BufTy).Contents (Elt F) → (⟨S1x64, .f32⟩ : BufTy).Contents (Elt F)),
    StableHlo.unary main_v208 main_v209 (broadcastInDim S12000x64 ![0, 1] bcast_S1x64_S12000x64_0_1 : (⟨S1x64, .f32⟩ : BufTy).Contents (Elt F) → (⟨S12000x64, .f32⟩ : BufTy).Contents (Elt F)),
    StableHlo.binary main_v207 main_v209 main_v210 (addf : (⟨S12000x64, .f32⟩ : BufTy).Contents (Elt F) → (⟨S12000x64, .f32⟩ : BufTy).Contents (Elt F) → (⟨S12000x64, .f32⟩ : BufTy).Contents (Elt F)),
    StableHlo.nullary main_cst_46 (constant S_ .f32 0x3C23D70A#32),
    TRef.nullary main_call0.cst (constant S_ .f32 0x00000000#32),
    TRef.unary main_call0.cst main_call0.v0 (broadcastInDim S12000x64 ![] bcast_S_S12000x64),
    TRef.binary (.of main_v210 : TRef sig ⟨S12000x64, .f32⟩) main_call0.v0 main_call0.v1 (cmpf .oge),
    TRef.unary (.of main_cst_46 : TRef sig ⟨S_, .f32⟩) main_call0.v2 id,
    TRef.unary main_call0.v2 main_call0.v3 (broadcastInDim S12000x64 ![] bcast_S_S12000x64),
    TRef.binary main_call0.v3 (.of main_v210 : TRef sig ⟨S12000x64, .f32⟩) main_call0.v4 mulf,
    TRef.ternary main_call0.v1 (.of main_v210 : TRef sig ⟨S12000x64, .f32⟩) main_call0.v4 main_call0.call0.v0 select,
    StableHlo.binary main_v211 main_arg19 main_v212 ((fun l r => Host.dotGeneral dot_S12000x64_S64x128_S12000x128_1_0_0_1_n_n none l r) : (⟨S12000x64, .f32⟩ : BufTy).Contents (Elt F) → (⟨S64x128, .f32⟩ : BufTy).Contents (Elt F) → (⟨S12000x128, .f32⟩ : BufTy).Contents (Elt F)),
    StableHlo.unary main_arg20 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S12000x128 ![0, 1] bcast_S1x128_S12000x128_0_1 : (⟨S1x128, .f32⟩ : BufTy).Contents (Elt F) → (⟨S12000x128, .f32⟩ : BufTy).Contents (Elt F)),
    StableHlo.binary main_v212 main_v214 main_v215 (addf : (⟨S12000x128, .f32⟩ : BufTy).Contents (Elt F) → (⟨S12000x128, .f32⟩ : BufTy).Contents (Elt F) → (⟨S12000x128, .f32⟩ : BufTy).Contents (Elt F)),
    StableHlo.unary main_v206 main_v216 ((transpose S64x12000 [1, 0] · transposes_S12000x64_S64x12000_1_0) : (⟨S12000x64, .f32⟩ : BufTy).Contents (Elt F) → (⟨S64x12000, .f32⟩ : BufTy).Contents (Elt F)),
    StableHlo.binary main_v206 main_v216 main_v217 ((fun l r => Host.dotGeneral dot_S12000x64_S64x12000_S12000x12000_1_0_0_1_n_n none l r) : (⟨S12000x64, .f32⟩ : BufTy).Contents (Elt F) → (⟨S64x12000, .f32⟩ : BufTy).Contents (Elt F) → (⟨S12000x12000, .f32⟩ : BufTy).Contents (Elt F)),
    StableHlo.unary main_v217 main_v218 (Host.negf : (⟨S12000x12000, .f32⟩ : BufTy).Contents (Elt F) → (⟨S12000x12000, .f32⟩ : BufTy).Contents (Elt F)),
    StableHlo.unary main_v218 main_v219 (Host.exp : (⟨S12000x12000, .f32⟩ : BufTy).Contents (Elt F) → (⟨S12000x12000, .f32⟩ : BufTy).Contents (Elt F)),
    StableHlo.nullary main_cst_47 (constant S_ .f32 0x3F800000#32),
    StableHlo.unary main_cst_47 main_v220 (broadcastInDim S12000x12000 ![] bcast_S_S12000x12000 : (⟨S_, .f32⟩ : BufTy).Contents (Elt F) → (⟨S12000x12000, .f32⟩ : BufTy).Contents (Elt F)),
    StableHlo.binary main_v220 main_v219 main_v221 (addf : (⟨S12000x12000, .f32⟩ : BufTy).Contents (Elt F) → (⟨S12000x12000, .f32⟩ : BufTy).Contents (Elt F) → (⟨S12000x12000, .f32⟩ : BufTy).Contents (Elt F)),
    StableHlo.nullary main_cst_48 (constant S_ .f32 0x3F800000#32),
    StableHlo.unary main_cst_48 main_v222 (broadcastInDim S12000x12000 ![] bcast_S_S12000x12000 : (⟨S_, .f32⟩ : BufTy).Contents (Elt F) → (⟨S12000x12000, .f32⟩ : BufTy).Contents (Elt F)),
    StableHlo.binary main_v222 main_v221 main_v223 (Host.divf : (⟨S12000x12000, .f32⟩ : BufTy).Contents (Elt F) → (⟨S12000x12000, .f32⟩ : BufTy).Contents (Elt F) → (⟨S12000x12000, .f32⟩ : BufTy).Contents (Elt F)) ]

/-- @main's 281 operations, in order. -/
abbrev ops : List (HloOp τ sig (Elt F)) := pre ++ tail

end Cert.ReferenceIdeal.HandRun

end
-- ==== Proof.RefRun.MainEq.lean ====
import proofs.«119114_j25752623907299_2_alg».proof.Proof.RefRun.Ops

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line of its operations

Each window of @main is the line of its own operations by unfolding: a window is a chain of `hlo` steps, each continued
by nothing, and `seq` of the window's list is the same chain ended by the return. The last window holds the call of
@leaky_relu, whose body — six operations and the call of @_where, one select — unfolds in the call's place over the
call's own buffers. The windows in order are then the whole list (`seq_append`). -/

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
set_option maxHeartbeats 4000000 in
theorem main_part2_eq (c : Dev nD) : main_part2 (F := F) c = seq ops2 := rfl

set_option maxRecDepth 8192 in
set_option maxHeartbeats 4000000 in
theorem main_part3_eq (c : Dev nD) : main_part3 (F := F) c = seq ops3 := rfl

set_option maxRecDepth 8192 in
set_option maxHeartbeats 4000000 in
theorem main_part4_eq (c : Dev nD) : main_part4 (F := F) c = seq (ops4a ++ tail) := rfl

/-- The operations regrouped by window: the head of the last window joined to what follows the third layer's output. -/
theorem ops_eq_windows : (ops : List (HloOp τ sig (Elt F))) = ops0 ++ (ops1 ++ (ops2 ++ (ops3 ++ (ops4a ++ tail)))) := by
  simp only [ops, pre, List.append_assoc]

set_option maxRecDepth 8192 in
set_option maxHeartbeats 4000000 in
/-- @main is the straight line of its 281 operations. -/
theorem main_eq (c : Dev nD) : main (F := F) c = seq ops := by
  rw [ops_eq_windows, seq_append, seq_append, seq_append, seq_append,
    ← main_part0_eq c, ← main_part1_eq c, ← main_part2_eq c, ← main_part3_eq c, ← main_part4_eq c]
  rfl

end Cert.ReferenceIdeal.HandRun

end
-- ==== Proof.RefRun.Sub.lean ====
import proofs.«119114_j25752623907299_2_alg».proof.Proof.RefRun.Ops

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## What the operations touch, and what they write

Every operation of @main is one of the library's builders over TensorCore references, so it touches TensorCore
references only and allocates nothing; each writes exactly its result buffer. The result buffers, in order, are
`written`: a reference outside that list — each of the 21 arguments — holds after the line what it held before. -/

set_option maxRecDepth 8192 in
theorem ops0_sub : (ops0 : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., binary_bufs_sub .., nullary_bufs_sub ..⟩

set_option maxRecDepth 8192 in
theorem ops1_sub : (ops1 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub ..⟩

set_option maxRecDepth 8192 in
theorem ops2_sub : (ops2 : List (HloOp τ sig (Elt F))).Forall fun op => op.bufs ⊆ tcRefs τ sig :=
  ⟨ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., unary_bufs_sub .., nullary_bufs_sub ..⟩

set_option maxRecDepth 8192 in
theorem ops3_sub : (ops3 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub ..⟩

set_option maxRecDepth 8192 in
theorem ops4a_sub : (ops4a : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., binary_bufs_sub ..⟩

set_option maxRecDepth 8192 in
theorem tail_sub : (tail : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- Every operation of @main touches TensorCore references only. -/
theorem ops_sub : (ops : List (HloOp τ sig (Elt F))).Forall fun op => op.bufs ⊆ tcRefs τ sig :=
  List.forall_append.mpr ⟨List.forall_append.mpr ⟨ops0_sub, List.forall_append.mpr ⟨ops1_sub, List.forall_append.mpr ⟨ops2_sub,
    List.forall_append.mpr ⟨ops3_sub, ops4a_sub⟩⟩⟩⟩, tail_sub⟩

theorem ops0_fresh : (ops0 : List (HloOp τ sig (Elt F))).Forall fun op => op.fresh = ∅ := by
  simp only [List.Forall]; repeat' constructor

theorem ops1_fresh : (ops1 : List (HloOp τ sig (Elt F))).Forall fun op => op.fresh = ∅ := by
  simp only [List.Forall]; repeat' constructor

theorem ops2_fresh : (ops2 : List (HloOp τ sig (Elt F))).Forall fun op => op.fresh = ∅ := by
  simp only [List.Forall]; repeat' constructor

theorem ops3_fresh : (ops3 : List (HloOp τ sig (Elt F))).Forall fun op => op.fresh = ∅ := by
  simp only [List.Forall]; repeat' constructor

theorem ops4a_fresh : (ops4a : List (HloOp τ sig (Elt F))).Forall fun op => op.fresh = ∅ := by
  simp only [List.Forall]; repeat' constructor

theorem tail_fresh : (tail : List (HloOp τ sig (Elt F))).Forall fun op => op.fresh = ∅ := by
  simp only [List.Forall]; repeat' constructor

/-- No operation of @main allocates: each determines its results. -/
theorem ops_fresh : ∀ op ∈ (ops : List (HloOp τ sig (Elt F))), op.fresh = ∅ :=
  List.forall_iff_forall_mem.mp <| List.forall_append.mpr ⟨List.forall_append.mpr ⟨ops0_fresh, List.forall_append.mpr ⟨ops1_fresh,
    List.forall_append.mpr ⟨ops2_fresh, List.forall_append.mpr ⟨ops3_fresh, ops4a_fresh⟩⟩⟩⟩, tail_fresh⟩

/-- The buffers @main's operations write, in the operations' order: one each, its result. -/
abbrev written : List (Ref sig .tc) :=
  [ main_v0, main_v1, main_v2, main_v3, main_cst, main_v4, main_cst_0, main_v5, main_v6, main_v7,
    main_v8, main_c, main_v9, main_v10, main_c_1, main_v11, main_v12, main_v13, main_v14, main_v15,
    main_c_2, main_v16, main_v17, main_c_3, main_v18, main_v19, main_v20, main_v21, main_v22, main_v23,
    main_c_4, main_v24, main_v25, main_c_5, main_v26, main_v27, main_v28, main_v29, main_v30, main_v31,
    main_v32, main_v33, main_cst_6, main_v34, main_v35, main_v36, main_v37, main_v38, main_v39, main_v40,
    main_v41, main_cst_7, main_v42, main_v43, main_cst_8, main_v44, main_v45, main_cst_9, main_v46, main_cst_10,
    main_v47, main_v48, main_v49, main_v50, main_v51, main_v52, main_cst_11, main_v53, main_cst_12, main_v54,
    main_v55, main_cst_13, main_v56, main_v57, main_v58, main_v59, main_v60, main_v61, main_v62, main_v63,
    main_v64, main_v65, main_v66, main_v67, main_v68, main_v69, main_v70, main_v71, main_cst_14, main_v72,
    main_cst_15, main_v73, main_v74, main_v75, main_v76, main_c_16, main_v77, main_v78, main_c_17, main_v79,
    main_v80, main_v81, main_v82, main_v83, main_c_18, main_v84, main_v85, main_c_19, main_v86, main_v87,
    main_v88, main_v89, main_v90, main_v91, main_c_20, main_v92, main_v93, main_c_21, main_v94, main_v95,
    main_v96, main_v97, main_v98, main_v99, main_v100, main_v101, main_cst_22, main_v102, main_v103, main_v104,
    main_v105, main_v106, main_v107, main_v108, main_v109, main_cst_23, main_v110, main_v111, main_cst_24, main_v112,
    main_v113, main_cst_25, main_v114, main_cst_26, main_v115, main_v116, main_v117, main_v118, main_v119, main_v120,
    main_cst_27, main_v121, main_cst_28, main_v122, main_v123, main_cst_29, main_v124, main_v125, main_v126, main_v127,
    main_v128, main_v129, main_v130, main_v131, main_v132, main_v133, main_v134, main_v135, main_v136, main_v137,
    main_v138, main_v139, main_cst_30, main_v140, main_cst_31, main_v141, main_v142, main_v143, main_v144, main_c_32,
    main_v145, main_v146, main_c_33, main_v147, main_v148, main_v149, main_v150, main_v151, main_c_34, main_v152,
    main_v153, main_c_35, main_v154, main_v155, main_v156, main_v157, main_v158, main_v159, main_c_36, main_v160,
    main_v161, main_c_37, main_v162, main_v163, main_v164, main_v165, main_v166, main_v167, main_v168, main_v169,
    main_cst_38, main_v170, main_v171, main_v172, main_v173, main_v174, main_v175, main_v176, main_v177, main_cst_39,
    main_v178, main_v179, main_cst_40, main_v180, main_v181, main_cst_41, main_v182, main_cst_42, main_v183, main_v184,
    main_v185, main_v186, main_v187, main_v188, main_cst_43, main_v189, main_cst_44, main_v190, main_v191, main_cst_45,
    main_v192, main_v193, main_v194, main_v195, main_v196, main_v197, main_v198, main_v199, main_v200, main_v201,
    main_v202, main_v203, main_v204, main_v205, main_v206, main_v207, main_v208, main_v209, main_v210, main_cst_46,
    main_call0_cst, main_call0_v0, main_call0_v1, main_call0_v2, main_call0_v3, main_call0_v4, main_v211, main_v212, main_v213, main_v214,
    main_v215, main_v216, main_v217, main_v218, main_v219, main_cst_47, main_v220, main_v221, main_cst_48, main_v222,
    main_v223 ]

/-- An operation that writes the one buffer `y`, a member of a list `W`, writes inside `W`. -/
theorem writes_sub_of_mem {W : List (Ref sig .tc)} (y : Ref sig .tc) (op : HloOp τ sig (Elt F))
    (h : op.writes = {Proc.devRef .tc y}) (hy : y ∈ W) : op.writes ⊆ (W.map (Proc.devRef (τ := τ) .tc)).toFinset := by
  rw [h, Finset.singleton_subset_iff, List.mem_toFinset]
  exact List.mem_map_of_mem hy

set_option maxRecDepth 8192 in
theorem ops0_writes : (ops0 : List (HloOp τ sig (Elt F))).Forall fun op => op.writes ⊆ (written.map (Proc.devRef (τ := τ) .tc)).toFinset :=
  ⟨writes_sub_of_mem main_v0 _ rfl (by decide),
   writes_sub_of_mem main_v1 _ rfl (by decide),
   writes_sub_of_mem main_v2 _ rfl (by decide),
   writes_sub_of_mem main_v3 _ rfl (by decide),
   writes_sub_of_mem main_cst _ rfl (by decide),
   writes_sub_of_mem main_v4 _ rfl (by decide),
   writes_sub_of_mem main_cst_0 _ rfl (by decide),
   writes_sub_of_mem main_v5 _ rfl (by decide),
   writes_sub_of_mem main_v6 _ rfl (by decide),
   writes_sub_of_mem main_v7 _ rfl (by decide),
   writes_sub_of_mem main_v8 _ rfl (by decide),
   writes_sub_of_mem main_c _ rfl (by decide),
   writes_sub_of_mem main_v9 _ rfl (by decide),
   writes_sub_of_mem main_v10 _ rfl (by decide),
   writes_sub_of_mem main_c_1 _ rfl (by decide),
   writes_sub_of_mem main_v11 _ rfl (by decide),
   writes_sub_of_mem main_v12 _ rfl (by decide),
   writes_sub_of_mem main_v13 _ rfl (by decide),
   writes_sub_of_mem main_v14 _ rfl (by decide),
   writes_sub_of_mem main_v15 _ rfl (by decide),
   writes_sub_of_mem main_c_2 _ rfl (by decide),
   writes_sub_of_mem main_v16 _ rfl (by decide),
   writes_sub_of_mem main_v17 _ rfl (by decide),
   writes_sub_of_mem main_c_3 _ rfl (by decide),
   writes_sub_of_mem main_v18 _ rfl (by decide),
   writes_sub_of_mem main_v19 _ rfl (by decide),
   writes_sub_of_mem main_v20 _ rfl (by decide),
   writes_sub_of_mem main_v21 _ rfl (by decide),
   writes_sub_of_mem main_v22 _ rfl (by decide),
   writes_sub_of_mem main_v23 _ rfl (by decide),
   writes_sub_of_mem main_c_4 _ rfl (by decide),
   writes_sub_of_mem main_v24 _ rfl (by decide),
   writes_sub_of_mem main_v25 _ rfl (by decide),
   writes_sub_of_mem main_c_5 _ rfl (by decide),
   writes_sub_of_mem main_v26 _ rfl (by decide),
   writes_sub_of_mem main_v27 _ rfl (by decide),
   writes_sub_of_mem main_v28 _ rfl (by decide),
   writes_sub_of_mem main_v29 _ rfl (by decide),
   writes_sub_of_mem main_v30 _ rfl (by decide),
   writes_sub_of_mem main_v31 _ rfl (by decide),
   writes_sub_of_mem main_v32 _ rfl (by decide),
   writes_sub_of_mem main_v33 _ rfl (by decide),
   writes_sub_of_mem main_cst_6 _ rfl (by decide),
   writes_sub_of_mem main_v34 _ rfl (by decide),
   writes_sub_of_mem main_v35 _ rfl (by decide),
   writes_sub_of_mem main_v36 _ rfl (by decide),
   writes_sub_of_mem main_v37 _ rfl (by decide),
   writes_sub_of_mem main_v38 _ rfl (by decide),
   writes_sub_of_mem main_v39 _ rfl (by decide),
   writes_sub_of_mem main_v40 _ rfl (by decide),
   writes_sub_of_mem main_v41 _ rfl (by decide),
   writes_sub_of_mem main_cst_7 _ rfl (by decide),
   writes_sub_of_mem main_v42 _ rfl (by decide),
   writes_sub_of_mem main_v43 _ rfl (by decide),
   writes_sub_of_mem main_cst_8 _ rfl (by decide),
   writes_sub_of_mem main_v44 _ rfl (by decide),
   writes_sub_of_mem main_v45 _ rfl (by decide),
   writes_sub_of_mem main_cst_9 _ rfl (by decide),
   writes_sub_of_mem main_v46 _ rfl (by decide),
   writes_sub_of_mem main_cst_10 _ rfl (by decide)⟩

set_option maxRecDepth 8192 in
theorem ops1_writes : (ops1 : List (HloOp τ sig (Elt F))).Forall fun op => op.writes ⊆ (written.map (Proc.devRef (τ := τ) .tc)).toFinset :=
  ⟨writes_sub_of_mem main_v47 _ rfl (by decide),
   writes_sub_of_mem main_v48 _ rfl (by decide),
   writes_sub_of_mem main_v49 _ rfl (by decide),
   writes_sub_of_mem main_v50 _ rfl (by decide),
   writes_sub_of_mem main_v51 _ rfl (by decide),
   writes_sub_of_mem main_v52 _ rfl (by decide),
   writes_sub_of_mem main_cst_11 _ rfl (by decide),
   writes_sub_of_mem main_v53 _ rfl (by decide),
   writes_sub_of_mem main_cst_12 _ rfl (by decide),
   writes_sub_of_mem main_v54 _ rfl (by decide),
   writes_sub_of_mem main_v55 _ rfl (by decide),
   writes_sub_of_mem main_cst_13 _ rfl (by decide),
   writes_sub_of_mem main_v56 _ rfl (by decide),
   writes_sub_of_mem main_v57 _ rfl (by decide),
   writes_sub_of_mem main_v58 _ rfl (by decide),
   writes_sub_of_mem main_v59 _ rfl (by decide),
   writes_sub_of_mem main_v60 _ rfl (by decide),
   writes_sub_of_mem main_v61 _ rfl (by decide),
   writes_sub_of_mem main_v62 _ rfl (by decide),
   writes_sub_of_mem main_v63 _ rfl (by decide),
   writes_sub_of_mem main_v64 _ rfl (by decide),
   writes_sub_of_mem main_v65 _ rfl (by decide),
   writes_sub_of_mem main_v66 _ rfl (by decide),
   writes_sub_of_mem main_v67 _ rfl (by decide),
   writes_sub_of_mem main_v68 _ rfl (by decide),
   writes_sub_of_mem main_v69 _ rfl (by decide),
   writes_sub_of_mem main_v70 _ rfl (by decide),
   writes_sub_of_mem main_v71 _ rfl (by decide),
   writes_sub_of_mem main_cst_14 _ rfl (by decide),
   writes_sub_of_mem main_v72 _ rfl (by decide),
   writes_sub_of_mem main_cst_15 _ rfl (by decide),
   writes_sub_of_mem main_v73 _ rfl (by decide),
   writes_sub_of_mem main_v74 _ rfl (by decide),
   writes_sub_of_mem main_v75 _ rfl (by decide),
   writes_sub_of_mem main_v76 _ rfl (by decide),
   writes_sub_of_mem main_c_16 _ rfl (by decide),
   writes_sub_of_mem main_v77 _ rfl (by decide),
   writes_sub_of_mem main_v78 _ rfl (by decide),
   writes_sub_of_mem main_c_17 _ rfl (by decide),
   writes_sub_of_mem main_v79 _ rfl (by decide),
   writes_sub_of_mem main_v80 _ rfl (by decide),
   writes_sub_of_mem main_v81 _ rfl (by decide),
   writes_sub_of_mem main_v82 _ rfl (by decide),
   writes_sub_of_mem main_v83 _ rfl (by decide),
   writes_sub_of_mem main_c_18 _ rfl (by decide),
   writes_sub_of_mem main_v84 _ rfl (by decide),
   writes_sub_of_mem main_v85 _ rfl (by decide),
   writes_sub_of_mem main_c_19 _ rfl (by decide),
   writes_sub_of_mem main_v86 _ rfl (by decide),
   writes_sub_of_mem main_v87 _ rfl (by decide),
   writes_sub_of_mem main_v88 _ rfl (by decide),
   writes_sub_of_mem main_v89 _ rfl (by decide),
   writes_sub_of_mem main_v90 _ rfl (by decide),
   writes_sub_of_mem main_v91 _ rfl (by decide),
   writes_sub_of_mem main_c_20 _ rfl (by decide),
   writes_sub_of_mem main_v92 _ rfl (by decide),
   writes_sub_of_mem main_v93 _ rfl (by decide),
   writes_sub_of_mem main_c_21 _ rfl (by decide),
   writes_sub_of_mem main_v94 _ rfl (by decide),
   writes_sub_of_mem main_v95 _ rfl (by decide)⟩

set_option maxRecDepth 8192 in
theorem ops2_writes : (ops2 : List (HloOp τ sig (Elt F))).Forall fun op => op.writes ⊆ (written.map (Proc.devRef (τ := τ) .tc)).toFinset :=
  ⟨writes_sub_of_mem main_v96 _ rfl (by decide),
   writes_sub_of_mem main_v97 _ rfl (by decide),
   writes_sub_of_mem main_v98 _ rfl (by decide),
   writes_sub_of_mem main_v99 _ rfl (by decide),
   writes_sub_of_mem main_v100 _ rfl (by decide),
   writes_sub_of_mem main_v101 _ rfl (by decide),
   writes_sub_of_mem main_cst_22 _ rfl (by decide),
   writes_sub_of_mem main_v102 _ rfl (by decide),
   writes_sub_of_mem main_v103 _ rfl (by decide),
   writes_sub_of_mem main_v104 _ rfl (by decide),
   writes_sub_of_mem main_v105 _ rfl (by decide),
   writes_sub_of_mem main_v106 _ rfl (by decide),
   writes_sub_of_mem main_v107 _ rfl (by decide),
   writes_sub_of_mem main_v108 _ rfl (by decide),
   writes_sub_of_mem main_v109 _ rfl (by decide),
   writes_sub_of_mem main_cst_23 _ rfl (by decide),
   writes_sub_of_mem main_v110 _ rfl (by decide),
   writes_sub_of_mem main_v111 _ rfl (by decide),
   writes_sub_of_mem main_cst_24 _ rfl (by decide),
   writes_sub_of_mem main_v112 _ rfl (by decide),
   writes_sub_of_mem main_v113 _ rfl (by decide),
   writes_sub_of_mem main_cst_25 _ rfl (by decide),
   writes_sub_of_mem main_v114 _ rfl (by decide),
   writes_sub_of_mem main_cst_26 _ rfl (by decide),
   writes_sub_of_mem main_v115 _ rfl (by decide),
   writes_sub_of_mem main_v116 _ rfl (by decide),
   writes_sub_of_mem main_v117 _ rfl (by decide),
   writes_sub_of_mem main_v118 _ rfl (by decide),
   writes_sub_of_mem main_v119 _ rfl (by decide),
   writes_sub_of_mem main_v120 _ rfl (by decide),
   writes_sub_of_mem main_cst_27 _ rfl (by decide),
   writes_sub_of_mem main_v121 _ rfl (by decide),
   writes_sub_of_mem main_cst_28 _ rfl (by decide),
   writes_sub_of_mem main_v122 _ rfl (by decide),
   writes_sub_of_mem main_v123 _ rfl (by decide),
   writes_sub_of_mem main_cst_29 _ rfl (by decide),
   writes_sub_of_mem main_v124 _ rfl (by decide),
   writes_sub_of_mem main_v125 _ rfl (by decide),
   writes_sub_of_mem main_v126 _ rfl (by decide),
   writes_sub_of_mem main_v127 _ rfl (by decide),
   writes_sub_of_mem main_v128 _ rfl (by decide),
   writes_sub_of_mem main_v129 _ rfl (by decide),
   writes_sub_of_mem main_v130 _ rfl (by decide),
   writes_sub_of_mem main_v131 _ rfl (by decide),
   writes_sub_of_mem main_v132 _ rfl (by decide),
   writes_sub_of_mem main_v133 _ rfl (by decide),
   writes_sub_of_mem main_v134 _ rfl (by decide),
   writes_sub_of_mem main_v135 _ rfl (by decide),
   writes_sub_of_mem main_v136 _ rfl (by decide),
   writes_sub_of_mem main_v137 _ rfl (by decide),
   writes_sub_of_mem main_v138 _ rfl (by decide),
   writes_sub_of_mem main_v139 _ rfl (by decide),
   writes_sub_of_mem main_cst_30 _ rfl (by decide),
   writes_sub_of_mem main_v140 _ rfl (by decide),
   writes_sub_of_mem main_cst_31 _ rfl (by decide),
   writes_sub_of_mem main_v141 _ rfl (by decide),
   writes_sub_of_mem main_v142 _ rfl (by decide),
   writes_sub_of_mem main_v143 _ rfl (by decide),
   writes_sub_of_mem main_v144 _ rfl (by decide),
   writes_sub_of_mem main_c_32 _ rfl (by decide)⟩

set_option maxRecDepth 8192 in
theorem ops3_writes : (ops3 : List (HloOp τ sig (Elt F))).Forall fun op => op.writes ⊆ (written.map (Proc.devRef (τ := τ) .tc)).toFinset :=
  ⟨writes_sub_of_mem main_v145 _ rfl (by decide),
   writes_sub_of_mem main_v146 _ rfl (by decide),
   writes_sub_of_mem main_c_33 _ rfl (by decide),
   writes_sub_of_mem main_v147 _ rfl (by decide),
   writes_sub_of_mem main_v148 _ rfl (by decide),
   writes_sub_of_mem main_v149 _ rfl (by decide),
   writes_sub_of_mem main_v150 _ rfl (by decide),
   writes_sub_of_mem main_v151 _ rfl (by decide),
   writes_sub_of_mem main_c_34 _ rfl (by decide),
   writes_sub_of_mem main_v152 _ rfl (by decide),
   writes_sub_of_mem main_v153 _ rfl (by decide),
   writes_sub_of_mem main_c_35 _ rfl (by decide),
   writes_sub_of_mem main_v154 _ rfl (by decide),
   writes_sub_of_mem main_v155 _ rfl (by decide),
   writes_sub_of_mem main_v156 _ rfl (by decide),
   writes_sub_of_mem main_v157 _ rfl (by decide),
   writes_sub_of_mem main_v158 _ rfl (by decide),
   writes_sub_of_mem main_v159 _ rfl (by decide),
   writes_sub_of_mem main_c_36 _ rfl (by decide),
   writes_sub_of_mem main_v160 _ rfl (by decide),
   writes_sub_of_mem main_v161 _ rfl (by decide),
   writes_sub_of_mem main_c_37 _ rfl (by decide),
   writes_sub_of_mem main_v162 _ rfl (by decide),
   writes_sub_of_mem main_v163 _ rfl (by decide),
   writes_sub_of_mem main_v164 _ rfl (by decide),
   writes_sub_of_mem main_v165 _ rfl (by decide),
   writes_sub_of_mem main_v166 _ rfl (by decide),
   writes_sub_of_mem main_v167 _ rfl (by decide),
   writes_sub_of_mem main_v168 _ rfl (by decide),
   writes_sub_of_mem main_v169 _ rfl (by decide),
   writes_sub_of_mem main_cst_38 _ rfl (by decide),
   writes_sub_of_mem main_v170 _ rfl (by decide),
   writes_sub_of_mem main_v171 _ rfl (by decide),
   writes_sub_of_mem main_v172 _ rfl (by decide),
   writes_sub_of_mem main_v173 _ rfl (by decide),
   writes_sub_of_mem main_v174 _ rfl (by decide),
   writes_sub_of_mem main_v175 _ rfl (by decide),
   writes_sub_of_mem main_v176 _ rfl (by decide),
   writes_sub_of_mem main_v177 _ rfl (by decide),
   writes_sub_of_mem main_cst_39 _ rfl (by decide),
   writes_sub_of_mem main_v178 _ rfl (by decide),
   writes_sub_of_mem main_v179 _ rfl (by decide),
   writes_sub_of_mem main_cst_40 _ rfl (by decide),
   writes_sub_of_mem main_v180 _ rfl (by decide),
   writes_sub_of_mem main_v181 _ rfl (by decide),
   writes_sub_of_mem main_cst_41 _ rfl (by decide),
   writes_sub_of_mem main_v182 _ rfl (by decide),
   writes_sub_of_mem main_cst_42 _ rfl (by decide),
   writes_sub_of_mem main_v183 _ rfl (by decide),
   writes_sub_of_mem main_v184 _ rfl (by decide),
   writes_sub_of_mem main_v185 _ rfl (by decide),
   writes_sub_of_mem main_v186 _ rfl (by decide),
   writes_sub_of_mem main_v187 _ rfl (by decide),
   writes_sub_of_mem main_v188 _ rfl (by decide),
   writes_sub_of_mem main_cst_43 _ rfl (by decide),
   writes_sub_of_mem main_v189 _ rfl (by decide),
   writes_sub_of_mem main_cst_44 _ rfl (by decide),
   writes_sub_of_mem main_v190 _ rfl (by decide),
   writes_sub_of_mem main_v191 _ rfl (by decide),
   writes_sub_of_mem main_cst_45 _ rfl (by decide)⟩

set_option maxRecDepth 8192 in
theorem ops4a_writes : (ops4a : List (HloOp τ sig (Elt F))).Forall fun op => op.writes ⊆ (written.map (Proc.devRef (τ := τ) .tc)).toFinset :=
  ⟨writes_sub_of_mem main_v192 _ rfl (by decide),
   writes_sub_of_mem main_v193 _ rfl (by decide),
   writes_sub_of_mem main_v194 _ rfl (by decide),
   writes_sub_of_mem main_v195 _ rfl (by decide),
   writes_sub_of_mem main_v196 _ rfl (by decide),
   writes_sub_of_mem main_v197 _ rfl (by decide),
   writes_sub_of_mem main_v198 _ rfl (by decide),
   writes_sub_of_mem main_v199 _ rfl (by decide),
   writes_sub_of_mem main_v200 _ rfl (by decide),
   writes_sub_of_mem main_v201 _ rfl (by decide),
   writes_sub_of_mem main_v202 _ rfl (by decide),
   writes_sub_of_mem main_v203 _ rfl (by decide),
   writes_sub_of_mem main_v204 _ rfl (by decide),
   writes_sub_of_mem main_v205 _ rfl (by decide),
   writes_sub_of_mem main_v206 _ rfl (by decide)⟩

set_option maxRecDepth 8192 in
theorem tail_writes : (tail : List (HloOp τ sig (Elt F))).Forall fun op => op.writes ⊆ (written.map (Proc.devRef (τ := τ) .tc)).toFinset :=
  ⟨writes_sub_of_mem main_v207 _ rfl (by decide),
   writes_sub_of_mem main_v208 _ rfl (by decide),
   writes_sub_of_mem main_v209 _ rfl (by decide),
   writes_sub_of_mem main_v210 _ rfl (by decide),
   writes_sub_of_mem main_cst_46 _ rfl (by decide),
   writes_sub_of_mem main_call0_cst _ rfl (by decide),
   writes_sub_of_mem main_call0_v0 _ rfl (by decide),
   writes_sub_of_mem main_call0_v1 _ rfl (by decide),
   writes_sub_of_mem main_call0_v2 _ rfl (by decide),
   writes_sub_of_mem main_call0_v3 _ rfl (by decide),
   writes_sub_of_mem main_call0_v4 _ rfl (by decide),
   writes_sub_of_mem main_v211 _ rfl (by decide),
   writes_sub_of_mem main_v212 _ rfl (by decide),
   writes_sub_of_mem main_v213 _ rfl (by decide),
   writes_sub_of_mem main_v214 _ rfl (by decide),
   writes_sub_of_mem main_v215 _ rfl (by decide),
   writes_sub_of_mem main_v216 _ rfl (by decide),
   writes_sub_of_mem main_v217 _ rfl (by decide),
   writes_sub_of_mem main_v218 _ rfl (by decide),
   writes_sub_of_mem main_v219 _ rfl (by decide),
   writes_sub_of_mem main_cst_47 _ rfl (by decide),
   writes_sub_of_mem main_v220 _ rfl (by decide),
   writes_sub_of_mem main_v221 _ rfl (by decide),
   writes_sub_of_mem main_cst_48 _ rfl (by decide),
   writes_sub_of_mem main_v222 _ rfl (by decide),
   writes_sub_of_mem main_v223 _ rfl (by decide)⟩

/-- Every operation of @main writes inside `written`. -/
theorem ops_writes : (ops : List (HloOp τ sig (Elt F))).Forall fun op => op.writes ⊆ (written.map (Proc.devRef (τ := τ) .tc)).toFinset :=
  List.forall_append.mpr ⟨List.forall_append.mpr ⟨ops0_writes, List.forall_append.mpr ⟨ops1_writes, List.forall_append.mpr ⟨ops2_writes,
    List.forall_append.mpr ⟨ops3_writes, ops4a_writes⟩⟩⟩⟩, tail_writes⟩

/-- A buffer no operation writes holds after the line what it held before. -/
theorem kept (V : Valuation τ sig (Elt F)) {r : Ref sig .tc} (h : r ∉ written) :
    after ops V (Proc.devRef .tc r) = V (Proc.devRef .tc r) :=
  after_of_writes_sub ops V ops_writes h

/-- @main's 21 arguments. -/
abbrev args : List (Ref sig .tc) :=
  [ main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20 ]

/-- No argument is a result buffer. -/
theorem args_not_written : ∀ r ∈ args, r ∉ written := by decide

/-- No argument is written: each holds after the line what it held before. -/
theorem arg_kept (V : Valuation τ sig (Elt F)) : ∀ r ∈ args, after ops V (Proc.devRef .tc r) = V (Proc.devRef .tc r) :=
  fun r hr => kept V (args_not_written r hr)

theorem arg0_kept (V : Valuation τ sig (Elt F)) : after ops V (Proc.devRef .tc main_arg0) = V (Proc.devRef .tc main_arg0) :=
  kept V (by decide)
theorem arg1_kept (V : Valuation τ sig (Elt F)) : after ops V (Proc.devRef .tc main_arg1) = V (Proc.devRef .tc main_arg1) :=
  kept V (by decide)
theorem arg2_kept (V : Valuation τ sig (Elt F)) : after ops V (Proc.devRef .tc main_arg2) = V (Proc.devRef .tc main_arg2) :=
  kept V (by decide)
theorem arg3_kept (V : Valuation τ sig (Elt F)) : after ops V (Proc.devRef .tc main_arg3) = V (Proc.devRef .tc main_arg3) :=
  kept V (by decide)
theorem arg4_kept (V : Valuation τ sig (Elt F)) : after ops V (Proc.devRef .tc main_arg4) = V (Proc.devRef .tc main_arg4) :=
  kept V (by decide)
theorem arg5_kept (V : Valuation τ sig (Elt F)) : after ops V (Proc.devRef .tc main_arg5) = V (Proc.devRef .tc main_arg5) :=
  kept V (by decide)
theorem arg6_kept (V : Valuation τ sig (Elt F)) : after ops V (Proc.devRef .tc main_arg6) = V (Proc.devRef .tc main_arg6) :=
  kept V (by decide)
theorem arg7_kept (V : Valuation τ sig (Elt F)) : after ops V (Proc.devRef .tc main_arg7) = V (Proc.devRef .tc main_arg7) :=
  kept V (by decide)
theorem arg8_kept (V : Valuation τ sig (Elt F)) : after ops V (Proc.devRef .tc main_arg8) = V (Proc.devRef .tc main_arg8) :=
  kept V (by decide)
theorem arg9_kept (V : Valuation τ sig (Elt F)) : after ops V (Proc.devRef .tc main_arg9) = V (Proc.devRef .tc main_arg9) :=
  kept V (by decide)
theorem arg10_kept (V : Valuation τ sig (Elt F)) : after ops V (Proc.devRef .tc main_arg10) = V (Proc.devRef .tc main_arg10) :=
  kept V (by decide)
theorem arg11_kept (V : Valuation τ sig (Elt F)) : after ops V (Proc.devRef .tc main_arg11) = V (Proc.devRef .tc main_arg11) :=
  kept V (by decide)
theorem arg12_kept (V : Valuation τ sig (Elt F)) : after ops V (Proc.devRef .tc main_arg12) = V (Proc.devRef .tc main_arg12) :=
  kept V (by decide)
theorem arg13_kept (V : Valuation τ sig (Elt F)) : after ops V (Proc.devRef .tc main_arg13) = V (Proc.devRef .tc main_arg13) :=
  kept V (by decide)
theorem arg14_kept (V : Valuation τ sig (Elt F)) : after ops V (Proc.devRef .tc main_arg14) = V (Proc.devRef .tc main_arg14) :=
  kept V (by decide)
theorem arg15_kept (V : Valuation τ sig (Elt F)) : after ops V (Proc.devRef .tc main_arg15) = V (Proc.devRef .tc main_arg15) :=
  kept V (by decide)
theorem arg16_kept (V : Valuation τ sig (Elt F)) : after ops V (Proc.devRef .tc main_arg16) = V (Proc.devRef .tc main_arg16) :=
  kept V (by decide)
theorem arg17_kept (V : Valuation τ sig (Elt F)) : after ops V (Proc.devRef .tc main_arg17) = V (Proc.devRef .tc main_arg17) :=
  kept V (by decide)
theorem arg18_kept (V : Valuation τ sig (Elt F)) : after ops V (Proc.devRef .tc main_arg18) = V (Proc.devRef .tc main_arg18) :=
  kept V (by decide)
theorem arg19_kept (V : Valuation τ sig (Elt F)) : after ops V (Proc.devRef .tc main_arg19) = V (Proc.devRef .tc main_arg19) :=
  kept V (by decide)
theorem arg20_kept (V : Valuation τ sig (Elt F)) : after ops V (Proc.devRef .tc main_arg20) = V (Proc.devRef .tc main_arg20) :=
  kept V (by decide)

end Cert.ReferenceIdeal.HandRun

end
-- ==== Proof.RefRun.lean ====
import proofs.«119114_j25752623907299_2_alg».proof.Proof.RefRun.MainEq
import proofs.«119114_j25752623907299_2_alg».proof.Proof.RefRun.Sub

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The reference's run

@main scopes no TensorCore buffer and no semaphore, and is the straight line `ops`: from any memory with zero
counters every weakly fair execution terminates, each TensorCore buffer ending at the fold of the operations' results
over its launch contents. The arguments, which no operation writes, end as launched. -/

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- @main runs (terminates, no fault) and its 21 argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c =>
    ⟨(h c main_arg0).trans (arg0_kept _),
     (h c main_arg1).trans (arg1_kept _),
     (h c main_arg2).trans (arg2_kept _),
     (h c main_arg3).trans (arg3_kept _),
     (h c main_arg4).trans (arg4_kept _),
     (h c main_arg5).trans (arg5_kept _),
     (h c main_arg6).trans (arg6_kept _),
     (h c main_arg7).trans (arg7_kept _),
     (h c main_arg8).trans (arg8_kept _),
     (h c main_arg9).trans (arg9_kept _),
     (h c main_arg10).trans (arg10_kept _),
     (h c main_arg11).trans (arg11_kept _),
     (h c main_arg12).trans (arg12_kept _),
     (h c main_arg13).trans (arg13_kept _),
     (h c main_arg14).trans (arg14_kept _),
     (h c main_arg15).trans (arg15_kept _),
     (h c main_arg16).trans (arg16_kept _),
     (h c main_arg17).trans (arg17_kept _),
     (h c main_arg18).trans (arg18_kept _),
     (h c main_arg19).trans (arg19_kept _),
     (h c main_arg20).trans (arg20_kept _)⟩)
    (run m ρ)

end Cert.ReferenceIdeal.HandRun

end
-- ==== Proof.KI.Region0Value.lean ====
import proofs.«119114_j25752623907299_2_alg».proof.Proof.KI.Region0
import Idealize.ShloMosaic.PureOps.Ideal.Laws
import Idealize.ShloMosaic.Lib.ValueIdx
import Idealize.ShloMosaic.Lib.ValueLayout
import Idealize.ShloMosaic.Lib.Pipeline.Value

set_option maxRecDepth 16384

/-! # The decoder block's value at an entry, at the ideal values

What the decoder's body leaves in its output buffer (`out0_5`), read at row `i` and column `j`: with `x0` the
1200x64 input block, `x1`, `x2` the hidden layer's 64x64 weights and bias and `x3`, `x4` the output layer's 64x128
weights and bias,

  out (i, j) = (∑ l, leaky ((∑ k, x0 (i, k) * x1 (k, l)) + x2 l) * x3 (l, j)) + x4 j.

At the ideal values the roundings to bf16 on the way into the two products are the identity and a product
accumulated into the zero splat is the plain sum of products. -/

noncomputable section

namespace Cert.KernelIdeal.Hand

open Cert.KernelIdeal Cert.KernelIdeal.Gen
open Idealize.ShloMosaic Idealize.ShloMosaic.ValueIdx

/-- A product of a 1200x64 by a 64x64 matrix accumulated into the zero splat, read at an entry: the sum over the
    contracted coordinate of the products of the entries. -/
theorem hidden_matmul_apply (A : FVec Ideal S1200x64 .bf16) (B : FVec Ideal S64x64 .bf16) (i : Fin 1200) (l : Fin 64) :
    matmul dot_S1200x64_S64x64_S1200x64_1_0_0_1_n_n none A B (constant S1200x64 .f32 0x00000000#32) (ix2 i l)
      = ∑ k : Fin 64, A (ix2 i k) * B (ix2 k l) := by
  show FloatOps.matmul _ none A B _ (ix2 i l) = _
  rw [Ideal.matmul_constant_zero_apply,
    ← Equiv.sum_comp (contrEquiv1 dot_S1200x64_S64x64_S1200x64_1_0_0_1_n_n 64 rfl rfl).symm]
  refine Finset.sum_congr rfl fun k _ => ?_
  have ck := contrEquiv1_symm_val dot_S1200x64_S64x64_S1200x64_1_0_0_1_n_n 64 rfl rfl k
  have hl : dot_S1200x64_S64x64_S1200x64_1_0_0_1_n_n.lhsIdx (ix2 i l) ((contrEquiv1 _ 64 rfl rfl).symm k) = ix2 i k := by
    funext ax; apply Fin.ext
    match ax with
    | ⟨0, _⟩ => rfl
    | ⟨1, _⟩ => exact (DotDims.lhsIdx_val_of_single _ rfl _ _).trans ck
  have hr : dot_S1200x64_S64x64_S1200x64_1_0_0_1_n_n.rhsIdx (ix2 i l) ((contrEquiv1 _ 64 rfl rfl).symm k) = ix2 k l := by
    funext ax; apply Fin.ext
    match ax with
    | ⟨0, _⟩ => exact (DotDims.rhsIdx_val_of_single _ rfl _ _).trans ck
    | ⟨1, _⟩ => rfl
  rw [hl, hr]

/-- A product of a 1200x64 by a 64x128 matrix accumulated into the zero splat, read at an entry. -/
theorem output_matmul_apply (A : FVec Ideal S1200x64 .bf16) (B : FVec Ideal S64x128 .bf16) (i : Fin 1200) (j : Fin 128) :
    matmul dot_S1200x64_S64x128_S1200x128_1_0_0_1_n_n none A B (constant S1200x128 .f32 0x00000000#32) (ix2 i j)
      = ∑ l : Fin 64, A (ix2 i l) * B (ix2 l j) := by
  show FloatOps.matmul _ none A B _ (ix2 i j) = _
  rw [Ideal.matmul_constant_zero_apply,
    ← Equiv.sum_comp (contrEquiv1 dot_S1200x64_S64x128_S1200x128_1_0_0_1_n_n 64 rfl rfl).symm]
  refine Finset.sum_congr rfl fun l _ => ?_
  have cl := contrEquiv1_symm_val dot_S1200x64_S64x128_S1200x128_1_0_0_1_n_n 64 rfl rfl l
  have hl : dot_S1200x64_S64x128_S1200x128_1_0_0_1_n_n.lhsIdx (ix2 i j) ((contrEquiv1 _ 64 rfl rfl).symm l) = ix2 i l := by
    funext ax; apply Fin.ext
    match ax with
    | ⟨0, _⟩ => rfl
    | ⟨1, _⟩ => exact (DotDims.lhsIdx_val_of_single _ rfl _ _).trans cl
  have hr : dot_S1200x64_S64x128_S1200x128_1_0_0_1_n_n.rhsIdx (ix2 i j) ((contrEquiv1 _ 64 rfl rfl).symm l) = ix2 l j := by
    funext ax; apply Fin.ext
    match ax with
    | ⟨0, _⟩ => exact (DotDims.rhsIdx_val_of_single _ rfl _ _).trans cl
    | ⟨1, _⟩ => rfl
  rw [hl, hr]

/-- The hidden layer's bias, a 64-vector laid as one row and repeated down the 1200 rows, read at an entry. -/
theorem hidden_bias_apply (b : Vec Ideal S64 .f32) (i : Fin 1200) (l : Fin 64) :
    broadcastTo S1200x64 (shapeCast S1x64 b shapeCasts_S64_S1x64) broadcasts_S1x64_S1200x64 (ix2 i l) = b (ix1 l) := by
  rw [broadcastTo_1b_ab_apply, shapeCast_a_1a_apply]

/-- The output layer's bias likewise. -/
theorem output_bias_apply (b : Vec Ideal S128 .f32) (i : Fin 1200) (j : Fin 128) :
    broadcastTo S1200x128 (shapeCast S1x128 b shapeCasts_S128_S1x128) broadcasts_S1x128_S1200x128 (ix2 i j) = b (ix1 j) := by
  rw [broadcastTo_1b_ab_apply, shapeCast_a_1a_apply]

/-- The decoder's rectifier: `h` where `0 ≤ h`, and elsewhere `h` scaled by the slope the kernel names by its f32
    word (the word is never evaluated). -/
def leaky (h : EReal) : EReal :=
  Scalar.select (Ideal.cmp .oge h 0) h (Ideal.ofBits .f32 0x3C23D70A#32 * h)

theorem leaky_eq_ite (h : EReal) : leaky h = if 0 ≤ h then h else Ideal.ofBits .f32 0x3C23D70A#32 * h := by
  unfold leaky Scalar.select Ideal.cmp
  by_cases hh : 0 ≤ h <;> simp [hh]

/-- The decoder block's value at an entry: row `i` of the input block through the hidden layer (64 sums of 64 products,
    the bias, the rectifier), then through the output layer (a sum of 64 products and the bias). -/
theorem out0_5_apply (x0 : Vec Ideal S1200x64 .f32) (x1 : Vec Ideal S64x64 .f32) (x2 : Vec Ideal S64 .f32)
    (x3 : Vec Ideal S64x128 .f32) (x4 : Vec Ideal S128 .f32) (i : Fin 1200) (j : Fin 128) :
    out0_5 (F := Ideal) x0 x1 x2 x3 x4 (ix2 i j)
      = (∑ l : Fin 64, leaky ((∑ k : Fin 64, x0 (ix2 i k) * x1 (ix2 k l)) + x2 (ix1 l)) * x3 (ix2 l j)) + x4 (ix1 j) := by
  have hz2 : (![0, 0] : Fin 2 → Nat) = fun _ => 0 := by funext a; match a with | ⟨0, _⟩ => rfl | ⟨1, _⟩ => rfl
  have hz1 : (![0] : Fin 1 → Nat) = fun _ => 0 := by funext a; match a with | ⟨0, _⟩ => rfl
  unfold out0_5
  rw [View.canon_unit_zero hz2]
  simp only [View.ld_unit_zero (S := S1200x64) hz2, View.ld_unit_zero (S := S64x64) hz2, View.ld_unit_zero (S := S64) hz1,
    View.ld_unit_zero (S := S64x128) hz2, View.ld_unit_zero (S := S128) hz1]
  unfold k0_pay1
  rw [addf_apply, output_matmul_apply, output_bias_apply]
  refine congrArg (· + x4 (ix1 j)) (Finset.sum_congr rfl fun l _ => ?_)
  rw [truncf_apply, truncf_apply, select_apply, cmpf_apply, mulf_apply, addf_apply, hidden_matmul_apply, hidden_bias_apply,
    broadcast_apply, broadcast_apply]
  simp only [truncf_apply, shapeCast_self]
  refine congrArg (· * x3 (ix2 l j)) ?_
  unfold leaky
  rw [Ideal.cmpf_def]
  show Scalar.select (Ideal.cmp .oge _ (Ideal.ofBits .f32 0x00000000#32)) _ (Ideal.ofBits .f32 0x3C23D70A#32 * _) = _
  rw [Ideal.ofBits_zero_f32]

end Cert.KernelIdeal.Hand

end
-- ==== Proof.KI.Region0Final.lean ====
import proofs.«119114_j25752623907299_2_alg».proof.Proof.KI.Region0
import proofs.«119114_j25752623907299_2_alg».proof.Proof.KI.Region0Value
import Idealize.ShloMosaic.Lib.Pipeline.Value

set_option maxRecDepth 16384

/-! # The decoder pipeline's output array after its last point

The decoder pipeline walks ten grid points; point `t` stages rows `1200 t … 1200 t + 1199` of the encoder output and
the four weight arrays whole, and writes the decoder's value of them back to the same rows of the output array. The
ten row blocks tile the 12000 rows, so after the last point the output array is ONE function of the arrays the region
found: entry `(a, j)` is the two-layer decoder on row `a` of the encoder output,

  out (a, j) = (∑ l, leaky ((∑ k, z (a, k) * W1 (k, l)) + b1 l) * W2 (l, j)) + b2 j.

The steps: the windows' block indices at a point, decided over the ten points; each input block read at an entry as
the array at the entry it sits at; what point `t` writes back is block `t` of that function; every row lies in the
block of the point `a / 1200`. -/

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Final0
variable (V : (c : Dev nD) → (b : Ref sig .tc) → Buf (Elt Ideal) ((c : Thread nD τ).loc b))

/-- The five arrays the decoder reads, as the region finds them, at the types they have. -/
abbrev encOf (c : Dev nD) : FVec Ideal S12000x64 .f32 := V c main_v206
abbrev w1Of (c : Dev nD) : FVec Ideal S64x64 .f32 := V c main_arg17
abbrev b1Of (c : Dev nD) : FVec Ideal S64 .f32 := V c main_arg18
abbrev w2Of (c : Dev nD) : FVec Ideal S64x128 .f32 := V c main_arg19
abbrev b2Of (c : Dev nD) : FVec Ideal S128 .f32 := V c main_arg20

/-- The decoder on row `a` of the encoder output, column `j`. -/
def decodeAt (c : Dev nD) (a : Fin 12000) (j : Fin 128) : EReal :=
  (∑ l : Fin 64, leaky ((∑ k : Fin 64, encOf V c (ix2 a k) * w1Of V c (ix2 k l)) + b1Of V c (ix1 l)) * w2Of V c (ix2 l j))
    + b2Of V c (ix1 j)

/-- The whole output array as one function of the five arrays. -/
def decoded (c : Dev nD) : S12000x128.Idx → EReal := fun i => decodeAt V c (i 0) (i 1)

/-- The windows' block indices at point `t`, decided over the ten points: the encoder output's and the output's row block
    is `t`, every other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = t.val ∧ win0_5.index t (1 : Fin 2) = 0 :=
  (by decide +kernel : ∀ t : Fin grid0.N, _)

/-- Window 0's block at point `t` is rows `1200 t …` of the encoder output. -/
theorem iblk0_0_apply (c : Dev nD) (t : Fin cfg0.N) (p : Fin 1200) (k : Fin 64) (r : Fin 12000) (hr : r.val = 1200 * t.val + p.val) :
    (iblk0 V c 0 t : Vec Ideal S1200x64 .f32) (ix2 p k) = encOf V c (ix2 r k) := by
  obtain ⟨e0, e1, -⟩ := idx_facts0 t
  unfold iblk0
  rw [View.read_apply]
  show V c main_v206 _ = V c main_v206 _
  congr 1
  funext a
  apply Fin.ext
  match a with
  | ⟨0, _⟩ => show win0_0.index t (0 : Fin 2) * 1200 + 1 * p.val = r.val; rw [e0, hr]; omega
  | ⟨1, _⟩ => show win0_0.index t (1 : Fin 2) * 64 + 1 * k.val = k.val; rw [e1]; omega

/-- Windows 1 to 4's blocks are their arrays whole, at every point. -/
theorem iblk0_1_apply (c : Dev nD) (t : Fin cfg0.N) (k : Fin 64) (l : Fin 64) :
    (iblk0 V c 1 t : Vec Ideal S64x64 .f32) (ix2 k l) = w1Of V c (ix2 k l) := by
  obtain ⟨-, -, e0, e1, -⟩ := idx_facts0 t
  unfold iblk0
  rw [View.read_apply]
  show V c main_arg17 _ = V c main_arg17 _
  congr 1
  funext a
  apply Fin.ext
  match a with
  | ⟨0, _⟩ => show win0_1.index t (0 : Fin 2) * 64 + 1 * k.val = k.val; rw [e0]; omega
  | ⟨1, _⟩ => show win0_1.index t (1 : Fin 2) * 64 + 1 * l.val = l.val; rw [e1]; omega

theorem iblk0_2_apply (c : Dev nD) (t : Fin cfg0.N) (l : Fin 64) :
    (iblk0 V c 2 t : Vec Ideal S64 .f32) (ix1 l) = b1Of V c (ix1 l) := by
  obtain ⟨-, -, -, -, e0, -⟩ := idx_facts0 t
  unfold iblk0
  rw [View.read_apply]
  show V c main_arg18 _ = V c main_arg18 _
  congr 1
  funext a
  apply Fin.ext
  match a with
  | ⟨0, _⟩ => show win0_2.index t (0 : Fin 1) * 64 + 1 * l.val = l.val; rw [e0]; omega

theorem iblk0_3_apply (c : Dev nD) (t : Fin cfg0.N) (l : Fin 64) (j : Fin 128) :
    (iblk0 V c 3 t : Vec Ideal S64x128 .f32) (ix2 l j) = w2Of V c (ix2 l j) := by
  obtain ⟨-, -, -, -, -, e0, e1, -⟩ := idx_facts0 t
  unfold iblk0
  rw [View.read_apply]
  show V c main_arg19 _ = V c main_arg19 _
  congr 1
  funext a
  apply Fin.ext
  match a with
  | ⟨0, _⟩ => show win0_3.index t (0 : Fin 2) * 64 + 1 * l.val = l.val; rw [e0]; omega
  | ⟨1, _⟩ => show win0_3.index t (1 : Fin 2) * 128 + 1 * j.val = j.val; rw [e1]; omega

theorem iblk0_4_apply (c : Dev nD) (t : Fin cfg0.N) (j : Fin 128) :
    (iblk0 V c 4 t : Vec Ideal S128 .f32) (ix1 j) = b2Of V c (ix1 j) := by
  obtain ⟨-, -, -, -, -, -, -, e0, -⟩ := idx_facts0 t
  unfold iblk0
  rw [View.read_apply]
  show V c main_arg20 _ = V c main_arg20 _
  congr 1
  funext a
  apply Fin.ext
  match a with
  | ⟨0, _⟩ => show win0_4.index t (0 : Fin 1) * 128 + 1 * j.val = j.val; rw [e0]; omega

set_option maxHeartbeats 400000 in
/-- What point `t` writes back is block `t` of `decoded`: the body's value at an entry of the block (`out0_5_apply`) with
    each input block read as its array, and the entry `(p, q)` of the output block sits at `(1200 t + p, q)`. -/
theorem flushed5_eq (c : Dev nD) (t : Fin cfg0.N) :
    (dat0 V c).flushed 5 t = ((cfg0.win 5).blk t).view.read (Elt Ideal) (decoded V c) := by
  show (cfg0.win 5).cut (grid0.coords t) ((dat0 V c).after 5 t) = _
  rw [after0_5]
  funext y
  obtain ⟨p, q, rfl⟩ : ∃ (p : Fin 1200) (q : Fin 128), y = ix2 p q := ⟨y 0, y 1, eq_ix2 y⟩
  rw [View.read_apply]
  show out0_5 (F := Ideal) (iblk0 V c 0 t) (iblk0 V c 1 t) (iblk0 V c 2 t) (iblk0 V c 3 t) (iblk0 V c 4 t) (ix2 p q) = decoded V c _
  rw [out0_5_apply]
  obtain ⟨-, -, -, -, -, -, -, -, e0, e1⟩ := idx_facts0 t
  have ht : t.val < 10 := Nat.lt_of_lt_of_eq t.isLt (show cfg0.N = 10 from N_0)
  have hemb : ((cfg0.win 5).blk t).view.emb (ix2 p q) = ix2 (⟨1200 * t.val + p.val, by omega⟩ : Fin 12000) q := by
    funext a; apply Fin.ext
    match a with
    | ⟨0, _⟩ => show win0_5.index t (0 : Fin 2) * 1200 + 1 * p.val = 1200 * t.val + p.val; rw [e0]; omega
    | ⟨1, _⟩ => show win0_5.index t (1 : Fin 2) * 128 + 1 * q.val = q.val; rw [e1]; omega
  rw [hemb]
  show _ = decodeAt V c (⟨1200 * t.val + p.val, by omega⟩ : Fin 12000) q
  unfold decodeAt
  simp only [iblk0_0_apply V c t p _ (⟨1200 * t.val + p.val, by omega⟩ : Fin 12000) rfl, iblk0_1_apply, iblk0_2_apply, iblk0_3_apply, iblk0_4_apply]

/-- An index of the output array is in point `t`'s block iff each coordinate is in the block's range on its axis. -/
theorem mem_blk5 (t : Fin cfg0.N) (i : S12000x128.Idx) :
    i ∈ ((cfg0.win 5).blk t).view.set ↔ ∀ a : Fin 2, win0_5.index t a * S1200x128.size a ≤ (i a).val ∧ (i a).val < win0_5.index t a * S1200x128.size a + S1200x128.size a := by
  show i ∈ ((View.whole main_v207).slice (win0_5.rect t)).set ↔ _
  rw [View.set_slice_whole, Rect.mem_set_unit]
  exact Iff.rfl

/-- Every index of the output array is in the block of the point `a / 1200`, `a` its row: the ten blocks tile the rows. -/
theorem cover5 (i : S12000x128.Idx) : ∃ t : Fin cfg0.N, (cfg0.win 5).flush t = true ∧ i ∈ ((cfg0.win 5).blk t).view.set := by
  have hi0 : (i 0).val < 12000 := (i 0).isLt
  have hi1 : (i 1).val < 128 := (i 1).isLt
  let t : Fin cfg0.N := ⟨(i 0).val / 1200, by rw [show cfg0.N = 10 from N_0]; omega⟩
  obtain ⟨-, -, -, -, -, -, -, -, e0, e1⟩ := idx_facts0 t
  have e0' : win0_5.index t (0 : Fin 2) = (i 0).val / 1200 := e0
  refine ⟨t, flush0_5 t, ?_⟩
  rw [mem_blk5]
  intro a
  match a with
  | ⟨0, _⟩ => show win0_5.index t (0 : Fin 2) * 1200 ≤ (i 0).val ∧ (i 0).val < win0_5.index t (0 : Fin 2) * 1200 + 1200; rw [e0']; omega
  | ⟨1, _⟩ => show win0_5.index t (1 : Fin 2) * 128 ≤ (i 1).val ∧ (i 1).val < win0_5.index t (1 : Fin 2) * 128 + 128; rw [e1]; omega

/-- So after the last point the output array is `decoded`. -/
theorem final5 (c : Dev nD) : (dat0 V c).arrAt 5 cfg0.N = decoded V c :=
  (dat0 V c).arrAt_eq_of_cover 5 (decoded V c) (fun t _ => flushed5_eq V c t) cover5

/-- The output array after the last point, read at an entry. -/
theorem recon_final (c : Dev nD) (a : Fin 12000) (j : Fin 128) :
    (dat0 V c).arrAt 5 cfg0.N (ix2 a j)
      = (∑ l : Fin 64, leaky ((∑ k : Fin 64, encOf V c (ix2 a k) * w1Of V c (ix2 k l)) + b1Of V c (ix1 l)) * w2Of V c (ix2 l j))
        + b2Of V c (ix1 j) := by
  rw [final5]; rfl

end Final0
end Cert.KernelIdeal.Hand
end
-- ==== Proof.KI.Region1Final.lean ====
/-
  The result array of the adjacency prediction after the run, at the IDEAL values.

  Grid point t = 12 i + j reads operand blocks i and j of the embedding z and writes result block (i, j); a block's
  rows inside the array are the 1024 from its start, or the 736 left at the array's end. On those rows the operand
  buffers hold rows of z, so what each write-back writes is that block of the matrix whose entry (a, b) is one half
  of the hyperbolic tangent of one half of the inner product of rows a and b of z, plus one half. The 144 blocks
  cover the 12000 x 12000 array (entry (a, b) lies in block (a / 1024, b / 1024)), so the array ends as that matrix.
-/
import proofs.«119114_j25752623907299_2_alg».proof.Proof.KI.Region1
import proofs.«119114_j25752623907299_2_alg».proof.Proof.Gen.KernelIdeal.Launch
import proofs.«119114_j25752623907299_2_alg».proof.Proof.Gen.KernelIdeal.Skeleton
import proofs.«119114_j25752623907299_2_alg».proof.Proof.Gen.KernelIdeal.Points
import proofs.«119114_j25752623907299_2_alg».proof.Proof.KI.Region1Body
import proofs.«119114_j25752623907299_2_alg».proof.Proof.KI.Region1Value
import Idealize.ShloMosaic.Lib.Pipeline.FrameBody
import Idealize.ShloMosaic.Lib.Pipeline.Value
import Idealize.ShloMosaic.Lib.KernelVsHost
import Idealize.ShloMosaic.Lib.StackMember
import Idealize.ShloMosaic.Lib.ValueIdx
import Idealize.ShloMosaic.PureOps.Ideal.Laws
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open scoped BigOperators

variable {F : FTy → Type} [FloatOps F]

/-! ## The result array after the run -/

/-- Entry (a, b) of the predicted adjacency: one half of the hyperbolic tangent of one half of the inner product of
    rows a and b of the embedding, plus one half. -/
def adjE (z : S12000x64.Idx → EReal) (a b : Fin 12000) : EReal :=
  half1 * Ideal.tanh (half1 * ∑ k : Fin 64, z (ix2 a k) * z (ix2 b k)) + half1

/-- The whole array of them. -/
def adj1 (z : S12000x64.Idx → EReal) : S12000x12000.Idx → EReal := fun i => adjE z (i 0) (i 1)

/-- The three windows' block indices and cuts at grid point `t` = 12 i + j: operand blocks i and j of `z`, result block
    (i, j); a block's rows inside the array are the 1024 from its start, or what is left of the 12000. -/
theorem pt1 : ∀ t : Fin grid1.N,
    win1_2.index t (0 : Fin 2) = t.val / 12 ∧ win1_2.index t (1 : Fin 2) = t.val % 12
    ∧ win1_0.index t (0 : Fin 2) = t.val / 12 ∧ win1_0.index t (1 : Fin 2) = 0
    ∧ win1_1.index t (0 : Fin 2) = t.val % 12 ∧ win1_1.index t (1 : Fin 2) = 0
    ∧ win1_2.xsize (grid1.coords t) (0 : Fin 2) = min 1024 (12000 - t.val / 12 * 1024)
    ∧ win1_2.xsize (grid1.coords t) (1 : Fin 2) = min 1024 (12000 - t.val % 12 * 1024) := by decide +kernel

variable (V : (c : Dev nD) → (b : Ref sig .tc) → Buf (Elt Ideal) ((c : Thread nD τ).loc b))

/-- The first operand buffer as the proof data state it, at a row inside the array: that row of `z`. -/
theorem fill_iblk0 (c : Dev nD) (t : Fin cfg1.N) (r : Fin 1024) (k : Fin 64)
    (hr : r.val < win1_0.xsize (grid1.coords t) (0 : Fin 2)) (hlt : t.val / 12 * 1024 + r.val < 12000) :
    win1_0.fill (grid1.coords t) (fun _ => pad1) (iblk1 V c 0 t) (ix2 r k)
      = V c main_v206 (ix2 (⟨t.val / 12 * 1024 + r.val, hlt⟩ : Fin 12000) k) := by
  have hm : win1_0.moved (grid1.coords t) (ix2 r k) = true := (win1_0.moved_iff _ _).mpr fun a => by
    match a with
    | ⟨0, _⟩ => exact hr
    | ⟨1, _⟩ =>
      show k.val < win1_0.xsize (grid1.coords t) (1 : Fin 2)
      rw [(xsize1 _).2.2.1]; exact k.isLt
  unfold Window.fill; rw [dif_pos hm]
  show V c main_v206 ((win1_0.rect t).emb _) = _
  refine congrArg _ (funext fun a => Fin.ext ?_)
  rw [Window.rect_emb_val]
  match a with
  | ⟨0, _⟩ =>
    show win1_0.index t (0 : Fin 2) * 1024 + r.val = t.val / 12 * 1024 + r.val
    rw [(pt1 t).2.2.1]
  | ⟨1, _⟩ =>
    show win1_0.index t (1 : Fin 2) * 64 + k.val = k.val
    rw [(pt1 t).2.2.2.1]; omega

/-- The second operand buffer likewise. -/
theorem fill_iblk1 (c : Dev nD) (t : Fin cfg1.N) (r : Fin 1024) (k : Fin 64)
    (hr : r.val < win1_1.xsize (grid1.coords t) (0 : Fin 2)) (hlt : t.val % 12 * 1024 + r.val < 12000) :
    win1_1.fill (grid1.coords t) (fun _ => pad1) (iblk1 V c 1 t) (ix2 r k)
      = V c main_v206 (ix2 (⟨t.val % 12 * 1024 + r.val, hlt⟩ : Fin 12000) k) := by
  have hm : win1_1.moved (grid1.coords t) (ix2 r k) = true := (win1_1.moved_iff _ _).mpr fun a => by
    match a with
    | ⟨0, _⟩ => exact hr
    | ⟨1, _⟩ =>
      show k.val < win1_1.xsize (grid1.coords t) (1 : Fin 2)
      rw [(xsize1 _).2.2.2]; exact k.isLt
  unfold Window.fill; rw [dif_pos hm]
  show V c main_v206 ((win1_1.rect t).emb _) = _
  refine congrArg _ (funext fun a => Fin.ext ?_)
  rw [Window.rect_emb_val]
  match a with
  | ⟨0, _⟩ =>
    show win1_1.index t (0 : Fin 2) * 1024 + r.val = t.val % 12 * 1024 + r.val
    rw [(pt1 t).2.2.2.2.1]
  | ⟨1, _⟩ =>
    show win1_1.index t (1 : Fin 2) * 64 + k.val = k.val
    rw [(pt1 t).2.2.2.2.2.1]; omega

/-- One half is one half. -/
theorem half1_eq : half1 = (((1 : ℝ) / 2 : ℝ) : EReal) := by
  simp [half1, Ideal.ofBits, Ideal.ieee, -EReal.coe_mul]; norm_num

/-- What the write-back at point `t` writes — the part inside the array of what the body left — is the block of the
    predicted adjacency there: the operand buffers' rows inside the array are rows of `z`, blocks i and j. -/
theorem flushed1 (c : Dev nD) (t : Fin cfg1.N) :
    (dat1 V c).flushed 2 t = ((cfg1.win 2).blk t).view.read (Elt Ideal) (adj1 (V c main_v206)) := by
  funext j
  obtain ⟨f0, f1, -, -, -, -, f6, f7⟩ := pt1 t
  obtain ⟨hA, hB, -, -⟩ := xsize1 (grid1.coords t)
  have hj0 : (j (0 : Fin 2)).val < win1_2.xsize (grid1.coords t) (0 : Fin 2) := (j (0 : Fin 2)).isLt
  have hj1 : (j (1 : Fin 2)).val < win1_2.xsize (grid1.coords t) (1 : Fin 2) := (j (1 : Fin 2)).isLt
  have hr : (j (0 : Fin 2)).val < 1024 := by rw [f6] at hj0; omega
  have hc : (j (1 : Fin 2)).val < 1024 := by rw [f7] at hj1; omega
  have hlt0 : t.val / 12 * 1024 + (j (0 : Fin 2)).val < 12000 := by rw [f6] at hj0; omega
  have hlt1 : t.val % 12 * 1024 + (j (1 : Fin 2)).val < 12000 := by rw [f7] at hj1; omega
  have hL : (dat1 V c).flushed 2 t j = out1_2 (win1_0.fill (grid1.coords t) (fun _ => pad1) (iblk1 V c 0 t))
      (win1_1.fill (grid1.coords t) (fun _ => pad1) (iblk1 V c 1 t))
      (ix2 (⟨(j (0 : Fin 2)).val, hr⟩ : Fin 1024) (⟨(j (1 : Fin 2)).val, hc⟩ : Fin 1024)) := by
    show win1_2.cut (grid1.coords t) ((dat1 V c).after 2 t) j = _
    rw [after1_2]
    show out1_2 _ _ (win1_2.xinj (grid1.coords t) j) = _
    congr 1
    funext a
    match a with
    | ⟨0, _⟩ => rfl
    | ⟨1, _⟩ => rfl
  rw [hL, out1_2_apply, View.read_apply]
  show _ = adj1 (V c main_v206) ((win1_2.rect t).emb j)
  unfold adj1 adjE
  have e0 : (((win1_2.rect t).emb j (0 : Fin 2)) : Fin 12000) = ⟨t.val / 12 * 1024 + (j (0 : Fin 2)).val, hlt0⟩ :=
    Fin.ext (by
      rw [Window.rect_emb_val]
      show win1_2.index t (0 : Fin 2) * 1024 + (j (0 : Fin 2)).val = _
      rw [f0])
  have e1 : (((win1_2.rect t).emb j (1 : Fin 2)) : Fin 12000) = ⟨t.val % 12 * 1024 + (j (1 : Fin 2)).val, hlt1⟩ :=
    Fin.ext (by
      rw [Window.rect_emb_val]
      show win1_2.index t (1 : Fin 2) * 1024 + (j (1 : Fin 2)).val = _
      rw [f1])
  rw [e0, e1]
  refine congrArg (fun s => half1 * Ideal.tanh (half1 * s) + half1) (Finset.sum_congr rfl fun k _ => ?_)
  rw [fill_iblk0 V c t _ k (hA ▸ hj0) hlt0, fill_iblk1 V c t _ k (hB ▸ hj1) hlt1]
  rfl

/-- Every element of the result array lies in the block of the grid point (a / 1024, b / 1024). -/
theorem cover1 (i : S12000x12000.Idx) :
    ∃ t : Fin cfg1.N, (cfg1.win 2).flush t = true ∧ i ∈ ((cfg1.win 2).blk t).view.set := by
  have ha : (i (0 : Fin 2)).val < 12000 := (i (0 : Fin 2)).isLt
  have hb : (i (1 : Fin 2)).val < 12000 := (i (1 : Fin 2)).isLt
  have hN : 12 * ((i (0 : Fin 2)).val / 1024) + (i (1 : Fin 2)).val / 1024 < cfg1.N := by
    rw [show cfg1.N = 144 from N_1]; omega
  refine ⟨⟨_, hN⟩, flush1_2 _, ?_⟩
  obtain ⟨f0, f1, -, -, -, -, f6, f7⟩ := pt1 ⟨_, hN⟩
  show i ∈ ((View.whole main_v208).slice (win1_2.rect ⟨_, hN⟩)).set
  rw [View.set_slice_whole, Rect.mem_set_unit]
  intro a
  match a with
  | ⟨0, _⟩ =>
    show win1_2.index ⟨_, hN⟩ (0 : Fin 2) * 1024 ≤ (i (0 : Fin 2)).val
      ∧ (i (0 : Fin 2)).val < win1_2.index ⟨_, hN⟩ (0 : Fin 2) * 1024 + win1_2.xsize (grid1.coords ⟨_, hN⟩) (0 : Fin 2)
    rw [f0, f6]
    show (12 * ((i (0 : Fin 2)).val / 1024) + (i (1 : Fin 2)).val / 1024) / 12 * 1024 ≤ _ ∧ _ < (12 * ((i (0 : Fin 2)).val / 1024) + (i (1 : Fin 2)).val / 1024) / 12 * 1024 + min 1024 (12000 - (12 * ((i (0 : Fin 2)).val / 1024) + (i (1 : Fin 2)).val / 1024) / 12 * 1024)
    omega
  | ⟨1, _⟩ =>
    show win1_2.index ⟨_, hN⟩ (1 : Fin 2) * 1024 ≤ (i (1 : Fin 2)).val
      ∧ (i (1 : Fin 2)).val < win1_2.index ⟨_, hN⟩ (1 : Fin 2) * 1024 + win1_2.xsize (grid1.coords ⟨_, hN⟩) (1 : Fin 2)
    rw [f1, f7]
    show (12 * ((i (0 : Fin 2)).val / 1024) + (i (1 : Fin 2)).val / 1024) % 12 * 1024 ≤ _ ∧ _ < (12 * ((i (0 : Fin 2)).val / 1024) + (i (1 : Fin 2)).val / 1024) % 12 * 1024 + min 1024 (12000 - (12 * ((i (0 : Fin 2)).val / 1024) + (i (1 : Fin 2)).val / 1024) % 12 * 1024)
    omega

/-- THE RESULT ARRAY after the run: the predicted adjacency of the embedding the pipeline was entered with. -/
theorem final1 (c : Dev nD) : (dat1 V c).arrAt 2 cfg1.N = adj1 (V c main_v206) :=
  (dat1 V c).arrAt_eq_of_cover 2 (adj1 (V c main_v206)) (fun t _ => flushed1 V c t) cover1

/-- At an element. -/
theorem final1_apply (c : Dev nD) (a b : Fin 12000) :
    (dat1 V c).arrAt 2 cfg1.N (ix2 a b) = adjE (V c main_v206) a b := by
  rw [final1]; rfl

end Cert.KernelIdeal.Hand
end
-- ==== Proof.RefRun.Split.lean ====
/-
  The reference's run cut in two: its first 255 operations (`pre`) compute the latent array from the arguments; its
  remaining ones (`tail`) compute the two results from the latent array and the decoder's weights. Running the whole
  line is running `tail` from what `pre` leaves, and `pre` writes no argument.
-/
import proofs.«119114_j25752623907299_2_alg».proof.Proof.RefRun.Sub

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Two lines run one after the other: the second from what the first leaves. -/
theorem after_append' {τ : Topo} {sig : RefSig} {Val : EltTy → Type} (A B : List (HloOp τ sig Val)) (V : Valuation τ sig Val) :
    after (A ++ B) V = after B (after A V) := by
  induction A generalizing V with
  | nil => rfl
  | cons op A ih => simp only [List.cons_append, after_cons, ih]

/-- The whole line is `tail` run from what `pre` leaves. -/
theorem after_ops (V : Valuation τ sig (Elt F)) : after (ops (F := F)) V = after tail (after pre V) :=
  after_append' pre tail V

/-- Every operation of `pre` writes a result buffer. -/
theorem pre_writes : (pre : List (HloOp τ sig (Elt F))).Forall fun op => op.writes ⊆ (written.map (Proc.devRef (τ := τ) .tc)).toFinset :=
  List.forall_append.mpr ⟨ops0_writes, List.forall_append.mpr ⟨ops1_writes, List.forall_append.mpr ⟨ops2_writes,
    List.forall_append.mpr ⟨ops3_writes, ops4a_writes⟩⟩⟩⟩

/-- `pre` writes no argument. -/
theorem pre_kept (V : Valuation τ sig (Elt F)) : ∀ r ∈ args, after (pre (F := F)) V (Proc.devRef .tc r) = V (Proc.devRef .tc r) :=
  fun r hr => after_of_writes_sub pre V pre_writes (args_not_written r hr)

end Cert.ReferenceIdeal.HandRun

end
-- ==== Proof.RefValue.lean ====
import proofs.«119114_j25752623907299_2_alg».proof.Proof.RefRun.Ops
import proofs.«119114_j25752623907299_2_alg».proof.Proof.KI.Region0Value
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

/-! # The reference's two outputs at an entry, at the ideal values

The reference's last 26 operations read the encoder output `z` (12000x64) and the decoder's weights. Its first output is
the two-layer decoder applied to each row of `z`,

  out (a, j) = (∑ l, leaky ((∑ k, z (a, k) * W1 (k, l)) + b1 l) * W2 (l, j)) + b2 j,

and its second the logistic function of the inner product of every pair of rows,

  adj (a, b) = logistic (∑ k, z (a, k) * z (b, k)),

which the reference spells 1 / (1 + exp (-(z zᵀ)(a, b))). Both are stated for ANY contents the 26 operations start from:
they read five arrays of it and nothing else. -/

noncomputable section

namespace Cert.ReferenceIdeal.HandValue

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.KernelIdeal.Hand (leaky)

/-! ## The host's products read at an entry -/

/-- The product of a 12000x64 by a 64x64 matrix read at an entry: the sum over the contracted coordinate. -/
theorem hidden_dot_apply (A : FVec Ideal S12000x64 .f32) (B : FVec Ideal S64x64 .f32) (a : Fin 12000) (l : Fin 64) :
    Host.dotGeneral dot_S12000x64_S64x64_S12000x64_1_0_0_1_n_n none A B (ix2 a l) = ∑ k : Fin 64, A (ix2 a k) * B (ix2 k l) := by
  show FloatOps.dotGeneral _ none _ A B (ix2 a l) = _
  rw [Ideal.dotGeneral_apply, ← Equiv.sum_comp (contrEquiv1 dot_S12000x64_S64x64_S12000x64_1_0_0_1_n_n 64 rfl rfl).symm]
  refine Finset.sum_congr rfl fun k _ => ?_
  have ck := contrEquiv1_symm_val dot_S12000x64_S64x64_S12000x64_1_0_0_1_n_n 64 rfl rfl k
  have hl : dot_S12000x64_S64x64_S12000x64_1_0_0_1_n_n.lhsIdx (ix2 a l) ((contrEquiv1 _ 64 rfl rfl).symm k) = ix2 a k := by
    funext ax; apply Fin.ext
    match ax with
    | ⟨0, _⟩ => rfl
    | ⟨1, _⟩ => exact (DotDims.lhsIdx_val_of_single _ rfl _ _).trans ck
  have hr : dot_S12000x64_S64x64_S12000x64_1_0_0_1_n_n.rhsIdx (ix2 a l) ((contrEquiv1 _ 64 rfl rfl).symm k) = ix2 k l := by
    funext ax; apply Fin.ext
    match ax with
    | ⟨0, _⟩ => exact (DotDims.rhsIdx_val_of_single _ rfl _ _).trans ck
    | ⟨1, _⟩ => rfl
  rw [hl, hr]

/-- The product of a 12000x64 by a 64x128 matrix read at an entry. -/
theorem output_dot_apply (A : FVec Ideal S12000x64 .f32) (B : FVec Ideal S64x128 .f32) (a : Fin 12000) (j : Fin 128) :
    Host.dotGeneral dot_S12000x64_S64x128_S12000x128_1_0_0_1_n_n none A B (ix2 a j) = ∑ l : Fin 64, A (ix2 a l) * B (ix2 l j) := by
  show FloatOps.dotGeneral _ none _ A B (ix2 a j) = _
  rw [Ideal.dotGeneral_apply, ← Equiv.sum_comp (contrEquiv1 dot_S12000x64_S64x128_S12000x128_1_0_0_1_n_n 64 rfl rfl).symm]
  refine Finset.sum_congr rfl fun l _ => ?_
  have cl := contrEquiv1_symm_val dot_S12000x64_S64x128_S12000x128_1_0_0_1_n_n 64 rfl rfl l
  have hl : dot_S12000x64_S64x128_S12000x128_1_0_0_1_n_n.lhsIdx (ix2 a j) ((contrEquiv1 _ 64 rfl rfl).symm l) = ix2 a l := by
    funext ax; apply Fin.ext
    match ax with
    | ⟨0, _⟩ => rfl
    | ⟨1, _⟩ => exact (DotDims.lhsIdx_val_of_single _ rfl _ _).trans cl
  have hr : dot_S12000x64_S64x128_S12000x128_1_0_0_1_n_n.rhsIdx (ix2 a j) ((contrEquiv1 _ 64 rfl rfl).symm l) = ix2 l j := by
    funext ax; apply Fin.ext
    match ax with
    | ⟨0, _⟩ => exact (DotDims.rhsIdx_val_of_single _ rfl _ _).trans cl
    | ⟨1, _⟩ => rfl
  rw [hl, hr]

/-- The product of a 12000x64 by a 64x12000 matrix read at an entry. -/
theorem gram_dot_apply (A : FVec Ideal S12000x64 .f32) (B : FVec Ideal S64x12000 .f32) (a b : Fin 12000) :
    Host.dotGeneral dot_S12000x64_S64x12000_S12000x12000_1_0_0_1_n_n none A B (ix2 a b) = ∑ k : Fin 64, A (ix2 a k) * B (ix2 k b) := by
  show FloatOps.dotGeneral _ none _ A B (ix2 a b) = _
  rw [Ideal.dotGeneral_apply, ← Equiv.sum_comp (contrEquiv1 dot_S12000x64_S64x12000_S12000x12000_1_0_0_1_n_n 64 rfl rfl).symm]
  refine Finset.sum_congr rfl fun k _ => ?_
  have ck := contrEquiv1_symm_val dot_S12000x64_S64x12000_S12000x12000_1_0_0_1_n_n 64 rfl rfl k
  have hl : dot_S12000x64_S64x12000_S12000x12000_1_0_0_1_n_n.lhsIdx (ix2 a b) ((contrEquiv1 _ 64 rfl rfl).symm k) = ix2 a k := by
    funext ax; apply Fin.ext
    match ax with
    | ⟨0, _⟩ => rfl
    | ⟨1, _⟩ => exact (DotDims.lhsIdx_val_of_single _ rfl _ _).trans ck
  have hr : dot_S12000x64_S64x12000_S12000x12000_1_0_0_1_n_n.rhsIdx (ix2 a b) ((contrEquiv1 _ 64 rfl rfl).symm k) = ix2 k b := by
    funext ax; apply Fin.ext
    match ax with
    | ⟨0, _⟩ => exact (DotDims.rhsIdx_val_of_single _ rfl _ _).trans ck
    | ⟨1, _⟩ => rfl
  rw [hl, hr]

/-! ## The biases read at an entry -/

/-- The hidden layer's bias, a 64-vector laid as one row and repeated down the 12000 rows, read at an entry. -/
theorem hidden_bias_apply (v : Vec Ideal S64 .f32) (a : Fin 12000) (l : Fin 64) :
    broadcastInDim S12000x64 ![0, 1] bcast_S1x64_S12000x64_0_1 (broadcastInDim S1x64 ![1] bcast_S64_S1x64_1 v) (ix2 a l) = v (ix1 l) := by
  rw [broadcastInDim_apply ![0, 1] bcast_S1x64_S12000x64_0_1 _ (ix2 a l) (ix2 (0 : Fin 1) l)
      (fun ax => match ax with | ⟨0, _⟩ => rfl | ⟨1, _⟩ => rfl),
    broadcastInDim_apply ![1] bcast_S64_S1x64_1 v (ix2 (0 : Fin 1) l) (ix1 l) (fun ax => match ax with | ⟨0, _⟩ => rfl)]

/-- The output layer's bias likewise. -/
theorem output_bias_apply (v : Vec Ideal S128 .f32) (a : Fin 12000) (j : Fin 128) :
    broadcastInDim S12000x128 ![0, 1] bcast_S1x128_S12000x128_0_1 (broadcastInDim S1x128 ![1] bcast_S128_S1x128_1 v) (ix2 a j) = v (ix1 j) := by
  rw [broadcastInDim_apply ![0, 1] bcast_S1x128_S12000x128_0_1 _ (ix2 a j) (ix2 (0 : Fin 1) j)
      (fun ax => match ax with | ⟨0, _⟩ => rfl | ⟨1, _⟩ => rfl),
    broadcastInDim_apply ![1] bcast_S128_S1x128_1 v (ix2 (0 : Fin 1) j) (ix1 j) (fun ax => match ax with | ⟨0, _⟩ => rfl)]

/-! ## The decoder -/

/-- The hidden layer before its rectifier, as the reference's operations spell it. -/
def hiddenTerm (z : FVec Ideal S12000x64 .f32) (w1 : FVec Ideal S64x64 .f32) (b1 : FVec Ideal S64 .f32) : FVec Ideal S12000x64 .f32 :=
  addf (F := Ideal) (Host.dotGeneral dot_S12000x64_S64x64_S12000x64_1_0_0_1_n_n none z w1)
    (broadcastInDim S12000x64 ![0, 1] bcast_S1x64_S12000x64_0_1 (broadcastInDim S1x64 ![1] bcast_S64_S1x64_1 b1))

/-- The rectifier as the reference's operations spell it: where `0 ≤ h` the entry, elsewhere the slope times the entry. -/
def rectTerm (h : FVec Ideal S12000x64 .f32) : FVec Ideal S12000x64 .f32 :=
  select (cmpf (F := Ideal) .oge h (broadcastInDim S12000x64 ![] bcast_S_S12000x64 (constant (F := Ideal) S_ .f32 0x00000000#32))) h
    (mulf (F := Ideal) (broadcastInDim S12000x64 ![] bcast_S_S12000x64 (id (constant (F := Ideal) S_ .f32 0x3C23D70A#32))) h)

/-- The decoder's output as the reference's operations spell it. -/
def decoderTerm (z : FVec Ideal S12000x64 .f32) (w1 : FVec Ideal S64x64 .f32) (b1 : FVec Ideal S64 .f32)
    (w2 : FVec Ideal S64x128 .f32) (b2 : FVec Ideal S128 .f32) : FVec Ideal S12000x128 .f32 :=
  addf (F := Ideal) (Host.dotGeneral dot_S12000x64_S64x128_S12000x128_1_0_0_1_n_n none (rectTerm (hiddenTerm z w1 b1)) w2)
    (broadcastInDim S12000x128 ![0, 1] bcast_S1x128_S12000x128_0_1 (broadcastInDim S1x128 ![1] bcast_S128_S1x128_1 b2))

/-- The rectifier read at an entry is `leaky` of the entry. -/
theorem rectTerm_apply (h : FVec Ideal S12000x64 .f32) (i : S12000x64.Idx) : rectTerm h i = leaky (h i) := by
  unfold rectTerm leaky
  rw [select_apply, cmpf_apply, mulf_apply, broadcastInDim_scalar_apply, broadcastInDim_scalar_apply, Ideal.cmpf_def]
  show Scalar.select (Ideal.cmp .oge _ (Ideal.ofBits .f32 0x00000000#32)) _ (Ideal.ofBits .f32 0x3C23D70A#32 * _) = _
  rw [Ideal.ofBits_zero_f32]

/-- The decoder's output read at an entry. -/
theorem decoderTerm_apply (z : FVec Ideal S12000x64 .f32) (w1 : FVec Ideal S64x64 .f32) (b1 : FVec Ideal S64 .f32)
    (w2 : FVec Ideal S64x128 .f32) (b2 : FVec Ideal S128 .f32) (a : Fin 12000) (j : Fin 128) :
    decoderTerm z w1 b1 w2 b2 (ix2 a j)
      = (∑ l : Fin 64, leaky ((∑ k : Fin 64, z (ix2 a k) * w1 (ix2 k l)) + b1 (ix1 l)) * w2 (ix2 l j)) + b2 (ix1 j) := by
  unfold decoderTerm
  rw [addf_apply, output_dot_apply, output_bias_apply]
  refine congrArg (· + b2 (ix1 j)) (Finset.sum_congr rfl fun l _ => ?_)
  rw [rectTerm_apply]
  unfold hiddenTerm
  rw [addf_apply, hidden_dot_apply, hidden_bias_apply]

/-! ## The sigmoid of the inner products -/

/-- The second output as the reference's operations spell it: 1 / (1 + exp (-(z zᵀ))). -/
def adjTerm (z : FVec Ideal S12000x64 .f32) : FVec Ideal S12000x12000 .f32 :=
  Host.divf (F := Ideal) (broadcastInDim S12000x12000 ![] bcast_S_S12000x12000 (constant (F := Ideal) S_ .f32 0x3F800000#32))
    (addf (F := Ideal) (broadcastInDim S12000x12000 ![] bcast_S_S12000x12000 (constant (F := Ideal) S_ .f32 0x3F800000#32))
      (Host.exp (F := Ideal) (Host.negf (F := Ideal) (Host.dotGeneral (F := Ideal) (φ₁ := .f32) (φ₂ := .f32) dot_S12000x64_S64x12000_S12000x12000_1_0_0_1_n_n none z
        (transpose S64x12000 [1, 0] z transposes_S12000x64_S64x12000_1_0)))))

/-- The second output read at an entry: the logistic function of the two rows' inner product. -/
theorem adjTerm_apply (z : FVec Ideal S12000x64 .f32) (a b : Fin 12000) :
    adjTerm z (ix2 a b) = Ideal.logistic (∑ k : Fin 64, z (ix2 a k) * z (ix2 b k)) := by
  unfold adjTerm
  rw [hostDivf_apply, addf_apply, broadcastInDim_scalar_apply]
  show Ideal.div (Ideal.ofBits .f32 0x3F800000#32) (Ideal.ofBits .f32 0x3F800000#32
    + Ideal.exp (-(Host.dotGeneral dot_S12000x64_S64x12000_S12000x12000_1_0_0_1_n_n none z
        (transpose S64x12000 [1, 0] z transposes_S12000x64_S64x12000_1_0) (ix2 a b)))) = _
  rw [Ideal.ofBits_one_f32, gram_dot_apply]
  have ht : ∀ k : Fin 64, transpose S64x12000 [1, 0] z transposes_S12000x64_S64x12000_1_0 (ix2 k b) = z (ix2 b k) :=
    fun k => transpose_ix2_apply z transposes_S12000x64_S64x12000_1_0 k b
  simp only [ht]
  rfl

/-! ## The reference's last operations -/

section Tail
variable (X : Valuation τ sig (Elt Ideal))

/-- The five arrays the last operations read, at the types they have. -/
abbrev zOf : FVec Ideal S12000x64 .f32 := X (Proc.devRef .tc main_v206)
abbrev w1Of : FVec Ideal S64x64 .f32 := X (Proc.devRef .tc main_arg17)
abbrev b1Of : FVec Ideal S64 .f32 := X (Proc.devRef .tc main_arg18)
abbrev w2Of : FVec Ideal S64x128 .f32 := X (Proc.devRef .tc main_arg19)
abbrev b2Of : FVec Ideal S128 .f32 := X (Proc.devRef .tc main_arg20)

set_option maxHeartbeats 1000000 in
/-- From any contents, the last 26 operations leave in the first output's buffer the decoder's term of the five arrays. -/
theorem tail_v215 : after (tail (F := Ideal)) X (Proc.devRef .tc main_v215)
    = decoderTerm (zOf X) (w1Of X) (b1Of X) (w2Of X) (b2Of X) := by
  unfold tail
  after_results_simp
  rfl

set_option maxHeartbeats 1000000 in
/-- and in the second output's buffer the sigmoid term of the encoder output. -/
theorem tail_v223 : after (tail (F := Ideal)) X (Proc.devRef .tc main_v223) = adjTerm (zOf X) := by
  unfold tail
  after_results_simp
  rfl

/-- The reference's first output at an entry: the two-layer decoder on row `a` of the encoder output. -/
theorem tail_v215_apply (a : Fin 12000) (j : Fin 128) :
    after (tail (F := Ideal)) X (Proc.devRef .tc main_v215) (ix2 a j)
      = (∑ l : Fin 64, leaky ((∑ k : Fin 64, zOf X (ix2 a k) * w1Of X (ix2 k l)) + b1Of X (ix1 l)) * w2Of X (ix2 l j)) + b2Of X (ix1 j) := by
  rw [tail_v215]; exact decoderTerm_apply _ _ _ _ _ a j

/-- The reference's second output at an entry: the logistic function of the inner product of rows `a` and `b`. -/
theorem tail_v223_apply (a b : Fin 12000) :
    after (tail (F := Ideal)) X (Proc.devRef .tc main_v223) (ix2 a b)
      = Ideal.logistic (∑ k : Fin 64, zOf X (ix2 a k) * zOf X (ix2 b k)) := by
  rw [tail_v223]; exact adjTerm_apply _ a b

end Tail

end Cert.ReferenceIdeal.HandValue

end
-- ==== Proof.LibLogisticTanh.lean ====
/-
  The logistic function as a rescaled hyperbolic tangent, on the extended reals.

  For a real s, tanh (s/2) = (1 - e^(-s)) / (1 + e^(-s)), so 1/2 · tanh (s/2) + 1/2 = 1 / (1 + e^(-s)): the logistic
  function. At the two infinities both sides agree as well: tanh ⊤ = 1 gives 1/2 + 1/2 = 1 = logistic ⊤, and
  tanh ⊥ = -1 gives -1/2 + 1/2 = 0 = logistic ⊥. So the identity holds at EVERY extended real, and a program that
  spells the sigmoid of s as 0.5 · tanh (0.5 · s) + 0.5 computes what one spelling it 1 / (1 + exp (-s)) computes,
  with no finiteness assumption on s. Also: the f32 words of 1/2 and of 1.
-/
import Idealize.ShloMosaic.PureOps.Ideal

noncomputable section

namespace Cert.Lib.LogisticTanh

open Idealize.ShloMosaic

/-- The f32 word 0x3F000000 denotes 1/2. -/
theorem ofBits_half : Ideal.ofBits .f32 0x3F000000#32 = ((1 / 2 : ℝ) : EReal) := by
  simp [Ideal.ofBits, Ideal.ieee, -EReal.coe_mul]; norm_num

/-- The f32 word 0x3F800000 denotes 1. -/
theorem ofBits_one : Ideal.ofBits .f32 0x3F800000#32 = 1 := by
  simp [Ideal.ofBits, Ideal.ieee, -EReal.coe_mul]; norm_num

/-- Over the reals: 1/2 · tanh (r/2) + 1/2 = 1 / (1 + e^(-r)). -/
theorem half_tanh_half_real (r : ℝ) : (1 / 2 : ℝ) * Real.tanh ((1 / 2 : ℝ) * r) + 1 / 2 = (1 + Real.exp (-r))⁻¹ := by
  have ha : 0 < Real.exp ((1 / 2 : ℝ) * r) := Real.exp_pos _
  have hr : Real.exp (-r) = (Real.exp ((1 / 2 : ℝ) * r))⁻¹ ^ 2 := by
    rw [← Real.exp_neg, ← Real.exp_nat_mul]; congr 1; push_cast; ring
  rw [Real.tanh_eq_sinh_div_cosh, Real.sinh_eq, Real.cosh_eq, Real.exp_neg, hr]
  generalize Real.exp ((1 / 2 : ℝ) * r) = a at ha
  have ha' : a ≠ 0 := ha.ne'
  field_simp
  ring

/-- On the extended reals, at every s: 1/2 · tanh (1/2 · s) + 1/2 is the logistic function of s. -/
theorem half_tanh_half (s : EReal) :
    ((1 / 2 : ℝ) : EReal) * Ideal.tanh (((1 / 2 : ℝ) : EReal) * s) + ((1 / 2 : ℝ) : EReal) = Ideal.logistic s := by
  induction s using EReal.rec with
  | bot =>
    rw [EReal.coe_mul_bot_of_pos (by norm_num), Ideal.tanh_bot, Ideal.logistic_bot]
    rw [show (-1 : EReal) = ((-1 : ℝ) : EReal) by rw [EReal.coe_neg, EReal.coe_one], ← EReal.coe_mul, ← EReal.coe_add]
    norm_num
  | top =>
    rw [EReal.coe_mul_top_of_pos (by norm_num), Ideal.tanh_top, Ideal.logistic_top]
    rw [show (1 : EReal) = ((1 : ℝ) : EReal) from EReal.coe_one.symm, ← EReal.coe_mul, ← EReal.coe_add]
    norm_num
  | coe r =>
    rw [← EReal.coe_mul, Ideal.tanh_coe, ← EReal.coe_mul, ← EReal.coe_add, Ideal.logistic_coe, half_tanh_half_real]

end Cert.Lib.LogisticTanh

end
-- ==== Proof.Bridge.lean ====
/-
  The two results, one function each of the latent array on both sides.

  Both programs first compute the latent array z (12000×64) from the arguments by the same 255 host operations. From
  there the kernel launches two calls and the reference goes on with host operations:

  * the decoder: entry (a, j) of the first result is  Σ_l lrelu (Σ_k z(a,k)·Dw1(k,l) + Db1(l)) · Dw2(l,j) + Db2(j)
    on both sides — the kernel computes it ten row blocks of 1200 at a time with two matrix products into zero
    accumulators, the reference with two whole dot products; at the exact instance a matrix product is the plain sum,
    whatever its tiling, and rounding the operands to a shorter format is the identity;
  * the adjacency: entry (a, b) of the second result is the logistic function of s = Σ_k z(a,k)·z(b,k); the reference
    spells it 1 / (1 + exp (−s)), the kernel 1/2 · tanh (1/2 · s) + 1/2, and the two agree at every extended real
    (for real s by tanh (s/2) = (1 − e^(−s)) / (1 + e^(−s)); at +∞ both are 1, at −∞ both are 0), so no finiteness of
    the inputs is needed.

  Stated here over the contents `V` a call is entered from and the reference's launch contents `WR`, given that the
  reference's latent array is the one the call finds.
-/
import proofs.«119114_j25752623907299_2_alg».proof.Proof.KI.Run
import proofs.«119114_j25752623907299_2_alg».proof.Proof.KI.Region0Final
import proofs.«119114_j25752623907299_2_alg».proof.Proof.KI.Region1Final
import proofs.«119114_j25752623907299_2_alg».proof.Proof.RefRun.Split
import proofs.«119114_j25752623907299_2_alg».proof.Proof.RefValue
import proofs.«119114_j25752623907299_2_alg».proof.Proof.LibLogisticTanh

noncomputable section

namespace Cert.Proof.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Hand
open Cert.ReferenceIdeal.HandRun (pre tail ops after_ops pre_kept)

variable (V : (c : Dev nD) → (b : Ref sig .tc) → Buf (Elt Ideal) ((c : Thread nD τ).loc b)) (c : Dev nD)
  (WR : Valuation Cert.ReferenceIdeal.τ Cert.ReferenceIdeal.sig (Elt Ideal))

/-- THE DECODER'S OUTPUT: the reference's last operations applied to what its first 255 leave, against what call 0's ten
    write-backs leave — given that the reference's latent array is the one call 0 finds (`hz`) and that the two programs
    were handed the same decoder weights and biases. -/
theorem recon_eq
    (hz : after (pre (F := Ideal)) WR (Proc.devRef .tc Cert.ReferenceIdeal.main_v206) = V c main_v206)
    (e17 : WR (Proc.devRef .tc Cert.ReferenceIdeal.main_arg17) = V c main_arg17)
    (e18 : WR (Proc.devRef .tc Cert.ReferenceIdeal.main_arg18) = V c main_arg18)
    (e19 : WR (Proc.devRef .tc Cert.ReferenceIdeal.main_arg19) = V c main_arg19)
    (e20 : WR (Proc.devRef .tc Cert.ReferenceIdeal.main_arg20) = V c main_arg20) :
    after (ops (F := Ideal)) WR (Proc.devRef .tc Cert.ReferenceIdeal.main_v215) = (dat0 V c).arrAt 5 cfg0.N := by
  funext i
  obtain ⟨a, j, rfl⟩ : ∃ (a : Fin 12000) (j : Fin 128), i = ix2 a j := ⟨i 0, i 1, eq_ix2 i⟩
  rw [after_ops]
  refine (Cert.ReferenceIdeal.HandValue.tail_v215_apply _ a j).trans ?_
  refine Eq.trans ?_ (recon_final V c a j).symm
  have hZ : Cert.ReferenceIdeal.HandValue.zOf (after pre WR) = encOf V c := hz
  have hW1 : Cert.ReferenceIdeal.HandValue.w1Of (after pre WR) = Cert.KernelIdeal.Hand.w1Of V c :=
    (pre_kept WR Cert.ReferenceIdeal.main_arg17 (by decide)).trans e17
  have hB1 : Cert.ReferenceIdeal.HandValue.b1Of (after pre WR) = Cert.KernelIdeal.Hand.b1Of V c :=
    (pre_kept WR Cert.ReferenceIdeal.main_arg18 (by decide)).trans e18
  have hW2 : Cert.ReferenceIdeal.HandValue.w2Of (after pre WR) = Cert.KernelIdeal.Hand.w2Of V c :=
    (pre_kept WR Cert.ReferenceIdeal.main_arg19 (by decide)).trans e19
  have hB2 : Cert.ReferenceIdeal.HandValue.b2Of (after pre WR) = Cert.KernelIdeal.Hand.b2Of V c :=
    (pre_kept WR Cert.ReferenceIdeal.main_arg20 (by decide)).trans e20
  rw [hZ, hW1, hB1, hW2, hB2]

/-- THE ADJACENCY OUTPUT: the reference's 1 / (1 + exp (−z·zᵀ)) against call 1's 1/2 · tanh (1/2 · z·zᵀ) + 1/2, entry by
    entry one extended real. `V` is what call 1 is entered from. -/
theorem adj_eq
    (hz : after (pre (F := Ideal)) WR (Proc.devRef .tc Cert.ReferenceIdeal.main_v206) = V c main_v206) :
    after (ops (F := Ideal)) WR (Proc.devRef .tc Cert.ReferenceIdeal.main_v223) = (dat1 V c).arrAt 2 cfg1.N := by
  funext i
  obtain ⟨a, b, rfl⟩ : ∃ (a : Fin 12000) (b : Fin 12000), i = ix2 a b := ⟨i 0, i 1, eq_ix2 i⟩
  rw [after_ops]
  refine (Cert.ReferenceIdeal.HandValue.tail_v223_apply _ a b).trans ?_
  refine Eq.trans ?_ (final1_apply V c a b).symm
  have hZ : Cert.ReferenceIdeal.HandValue.zOf (after pre WR) = V c main_v206 := hz
  rw [hZ]
  unfold adjE
  rw [half1_eq]
  exact (Cert.Lib.LogisticTanh.half_tanh_half _).symm

end Cert.Proof.Bridge

end
-- ==== Proof.LibLineSimulation.lean ====
import Idealize.ShloMosaic.Lib.StableHlo.Run

/-! # Two straight lines of operations that compute the same values

Two programs over different signatures may run the same operations on buffers that correspond: a list `ρ` of pairs
of references, one of each signature and both of one tensor type, says which. Two valuations AGREE on `ρ` when
paired buffers hold the same contents. If an operation of the first line and one of the second read paired buffers,
apply the same function, and write a fresh pair, they keep the agreement and add the pair they write; so two lines
that correspond operation by operation carry agreement on the arguments to agreement on every result. No function
is ever opened: each step compares the two functions as they stand. -/

noncomputable section

namespace Cert.Lib.LineSimulation

open Idealize.ShloMosaic Idealize.ShloMosaic.TcCoe Idealize.SL.Sem Idealize.ShloMosaic.StableHlo

variable {τA τB : Topo} {sigA sigB : RefSig} {Val : EltTy → Type}

/-- A reference of each signature, the two buffers of one tensor type. -/
structure Pair (sigA sigB : RefSig) where
  a : Ref sigA .tc
  b : Ref sigB .tc
  ty : a.ty = b.ty

namespace Pair

/-- Contents of the first buffer as contents of the second (the identity when `ty` is `rfl`). -/
abbrev cast (p : Pair sigA sigB) (u : p.a.ty.Contents Val) : p.b.ty.Contents Val :=
  _root_.cast (congrArg (fun T : BufTy => T.Contents Val) p.ty) u

instance : DecidableEq (Pair sigA sigB) := fun p q =>
  if h : p.a = q.a ∧ p.b = q.b then
    isTrue (by obtain ⟨a, b, t⟩ := p; obtain ⟨a', b', t'⟩ := q; obtain ⟨rfl, rfl⟩ := h; rfl)
  else isFalse fun e => h ⟨e ▸ rfl, e ▸ rfl⟩

end Pair

/-- The two valuations hold the same contents at each listed pair. -/
def Agree (ρ : List (Pair sigA sigB)) (WA : Valuation τA sigA Val) (WB : Valuation τB sigB Val) : Prop :=
  ∀ p ∈ ρ, p.cast (WA (Proc.devRef .tc p.a)) = WB (Proc.devRef .tc p.b)

theorem Agree.nil {WA : Valuation τA sigA Val} {WB : Valuation τB sigB Val} : Agree [] WA WB :=
  fun _ h => nomatch h

theorem Agree.cons {ρ : List (Pair sigA sigB)} {p : Pair sigA sigB} {WA : Valuation τA sigA Val} {WB : Valuation τB sigB Val}
    (h : p.cast (WA (Proc.devRef .tc p.a)) = WB (Proc.devRef .tc p.b)) (t : Agree ρ WA WB) : Agree (p :: ρ) WA WB :=
  fun q hq => by
    rcases List.mem_cons.mp hq with rfl | hq
    · exact h
    · exact t q hq

theorem Agree.mono {ρ ρ' : List (Pair sigA sigB)} {WA : Valuation τA sigA Val} {WB : Valuation τB sigB Val}
    (hs : ∀ p ∈ ρ', p ∈ ρ) (h : Agree ρ WA WB) : Agree ρ' WA WB :=
  fun p hp => h p (hs p hp)

/-- One operation of each line: from agreement on `ρ` to agreement on `ρ` and the pair `y` they write. -/
def Step (ρ : List (Pair sigA sigB)) (opA : HloOp τA sigA Val) (opB : HloOp τB sigB Val) (y : Pair sigA sigB) : Prop :=
  ∀ WA WB, Agree ρ WA WB → Agree (y :: ρ) (opA.result WA) (opB.result WB)

/-- Two lines: from agreement on `ρ` before them to agreement on `ρ'` after them. -/
def Sim (ρ : List (Pair sigA sigB)) (lA : List (HloOp τA sigA Val)) (lB : List (HloOp τB sigB Val))
    (ρ' : List (Pair sigA sigB)) : Prop :=
  ∀ WA WB, Agree ρ WA WB → Agree ρ' (after lA WA) (after lB WB)

theorem Sim.nil {ρ ρ' : List (Pair sigA sigB)} (hs : ∀ p ∈ ρ', p ∈ ρ) :
    Sim (τA := τA) (τB := τB) (Val := Val) ρ [] [] ρ' :=
  fun _ _ h => h.mono hs

theorem Sim.cons {ρ ρ' : List (Pair sigA sigB)} {y : Pair sigA sigB} {opA : HloOp τA sigA Val} {opB : HloOp τB sigB Val}
    {lA : List (HloOp τA sigA Val)} {lB : List (HloOp τB sigB Val)}
    (hstep : Step ρ opA opB y) (t : Sim (y :: ρ) lA lB ρ') : Sim ρ (opA :: lA) (opB :: lB) ρ' :=
  fun WA WB h => t _ _ (hstep WA WB h)

/-- The fold over a concatenation is the fold over the second list from the fold over the first. -/
theorem after_append' {τ : Topo} {sig : RefSig} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem Sim.append {ρ ρ₁ ρ₂ : List (Pair sigA sigB)} {lA lA' : List (HloOp τA sigA Val)} {lB lB' : List (HloOp τB sigB Val)}
    (h₁ : Sim ρ lA lB ρ₁) (h₂ : Sim ρ₁ lA' lB' ρ₂) : Sim ρ (lA ++ lA') (lB ++ lB') ρ₂ :=
  fun WA WB h => by
    rw [after_append', after_append']
    exact h₂ _ _ (h₁ WA WB h)

/-- Two operations that each write one buffer, the pair `y`, fresh for `ρ`, and whose results there agree whenever
    the valuations agree on `ρ`. -/
theorem step_of {ρ : List (Pair sigA sigB)} {opA : HloOp τA sigA Val} {opB : HloOp τB sigB Val} {y : Pair sigA sigB}
    (hwA : opA.writes = {Proc.devRef .tc y.a}) (hwB : opB.writes = {Proc.devRef .tc y.b})
    (hfresh : ∀ p ∈ ρ, p.a ≠ y.a ∧ p.b ≠ y.b)
    (hval : ∀ WA WB, Agree ρ WA WB →
      y.cast (opA.result WA (Proc.devRef .tc y.a)) = opB.result WB (Proc.devRef .tc y.b)) : Step ρ opA opB y := by
  intro WA WB h
  refine Agree.cons (hval WA WB h) fun p hp => ?_
  rw [opA.result_of_not_mem WA (by rw [hwA, Finset.mem_singleton]; exact devRef_ne_of_ne (hfresh p hp).1),
    opB.result_of_not_mem WB (by rw [hwB, Finset.mem_singleton]; exact devRef_ne_of_ne (hfresh p hp).2)]
  exact h p hp

theorem step_nullary {ρ : List (Pair sigA sigB)} (y : Pair sigA sigB)
    {vA : y.a.ty.Contents Val} {vB : y.b.ty.Contents Val} {hA hB}
    (hfresh : ∀ p ∈ ρ, p.a ≠ y.a ∧ p.b ≠ y.b) (hv : y.cast vA = vB) :
    Step ρ (nullary y.a vA hA : HloOp τA sigA Val) (nullary y.b vB hB : HloOp τB sigB Val) y :=
  step_of rfl rfl hfresh fun WA WB _ => by rw [nullary_result, nullary_result]; exact hv

theorem step_unary {ρ : List (Pair sigA sigB)} (x y : Pair sigA sigB)
    {fA : x.a.ty.Contents Val → y.a.ty.Contents Val} {fB : x.b.ty.Contents Val → y.b.ty.Contents Val} {hxA hyA hxB hyB}
    (hx : x ∈ ρ) (hfresh : ∀ p ∈ ρ, p.a ≠ y.a ∧ p.b ≠ y.b) (hf : ∀ u, y.cast (fA u) = fB (x.cast u)) :
    Step ρ (unary x.a y.a fA hxA hyA : HloOp τA sigA Val) (unary x.b y.b fB hxB hyB : HloOp τB sigB Val) y :=
  step_of rfl rfl hfresh fun WA WB h => by rw [unary_result, unary_result, hf, h x hx]

theorem step_binary {ρ : List (Pair sigA sigB)} (a b y : Pair sigA sigB)
    {fA : a.a.ty.Contents Val → b.a.ty.Contents Val → y.a.ty.Contents Val}
    {fB : a.b.ty.Contents Val → b.b.ty.Contents Val → y.b.ty.Contents Val} {haA hbA hyA haB hbB hyB}
    (ha : a ∈ ρ) (hb : b ∈ ρ) (hfresh : ∀ p ∈ ρ, p.a ≠ y.a ∧ p.b ≠ y.b)
    (hf : ∀ u v, y.cast (fA u v) = fB (a.cast u) (b.cast v)) :
    Step ρ (binary a.a b.a y.a fA haA hbA hyA : HloOp τA sigA Val) (binary a.b b.b y.b fB haB hbB hyB : HloOp τB sigB Val) y :=
  step_of rfl rfl hfresh fun WA WB h => by rw [binary_result, binary_result, hf, h a ha, h b hb]

theorem step_ternary {ρ : List (Pair sigA sigB)} (c a b y : Pair sigA sigB)
    {fA : c.a.ty.Contents Val → a.a.ty.Contents Val → b.a.ty.Contents Val → y.a.ty.Contents Val}
    {fB : c.b.ty.Contents Val → a.b.ty.Contents Val → b.b.ty.Contents Val → y.b.ty.Contents Val}
    {hcA haA hbA hyA hcB haB hbB hyB}
    (hc : c ∈ ρ) (ha : a ∈ ρ) (hb : b ∈ ρ) (hfresh : ∀ p ∈ ρ, p.a ≠ y.a ∧ p.b ≠ y.b)
    (hf : ∀ w u v, y.cast (fA w u v) = fB (c.cast w) (a.cast u) (b.cast v)) :
    Step ρ (ternary c.a a.a b.a y.a fA hcA haA hbA hyA : HloOp τA sigA Val)
      (ternary c.b a.b b.b y.b fB hcB haB hbB hyB : HloOp τB sigB Val) y :=
  step_of rfl rfl hfresh fun WA WB h => by rw [ternary_result, ternary_result, hf, h c hc, h a ha, h b hb]

end Cert.Lib.LineSimulation

end
-- ==== Proof.Latent.Pairs.lean ====
import proofs.«119114_j25752623907299_2_alg».proof.Proof.Gen.KernelIdeal.Launch
import proofs.«119114_j25752623907299_2_alg».proof.Proof.RefRun.Ops
import proofs.«119114_j25752623907299_2_alg».proof.Proof.LibLineSimulation

noncomputable section

namespace Cert.Proof.Latent

open Idealize.ShloMosaic Idealize.ShloMosaic.TcCoe Idealize.SL.Sem Idealize.ShloMosaic.StableHlo
open Cert.ReferenceIdeal.HandRun Cert.Lib.LineSimulation

/-! ## The references the two programs share

The reference's @main and the kernel program's host prefix name the same 21 arguments and the same 255 values
(the statements up to the third encoder layer's output, with their constants), each a buffer of one tensor type in
either signature. -/

/-- The reference's and the kernel program's buffer of one value. -/
abbrev RK := Pair Cert.ReferenceIdeal.sig Cert.KernelIdeal.sig

abbrev p_arg0 : RK := ⟨Cert.ReferenceIdeal.main_arg0, Cert.KernelIdeal.main_arg0, rfl⟩
abbrev p_arg1 : RK := ⟨Cert.ReferenceIdeal.main_arg1, Cert.KernelIdeal.main_arg1, rfl⟩
abbrev p_arg2 : RK := ⟨Cert.ReferenceIdeal.main_arg2, Cert.KernelIdeal.main_arg2, rfl⟩
abbrev p_arg3 : RK := ⟨Cert.ReferenceIdeal.main_arg3, Cert.KernelIdeal.main_arg3, rfl⟩
abbrev p_arg4 : RK := ⟨Cert.ReferenceIdeal.main_arg4, Cert.KernelIdeal.main_arg4, rfl⟩
abbrev p_arg5 : RK := ⟨Cert.ReferenceIdeal.main_arg5, Cert.KernelIdeal.main_arg5, rfl⟩
abbrev p_arg6 : RK := ⟨Cert.ReferenceIdeal.main_arg6, Cert.KernelIdeal.main_arg6, rfl⟩
abbrev p_arg7 : RK := ⟨Cert.ReferenceIdeal.main_arg7, Cert.KernelIdeal.main_arg7, rfl⟩
abbrev p_arg8 : RK := ⟨Cert.ReferenceIdeal.main_arg8, Cert.KernelIdeal.main_arg8, rfl⟩
abbrev p_arg9 : RK := ⟨Cert.ReferenceIdeal.main_arg9, Cert.KernelIdeal.main_arg9, rfl⟩
abbrev p_arg10 : RK := ⟨Cert.ReferenceIdeal.main_arg10, Cert.KernelIdeal.main_arg10, rfl⟩
abbrev p_arg11 : RK := ⟨Cert.ReferenceIdeal.main_arg11, Cert.KernelIdeal.main_arg11, rfl⟩
abbrev p_arg12 : RK := ⟨Cert.ReferenceIdeal.main_arg12, Cert.KernelIdeal.main_arg12, rfl⟩
abbrev p_arg13 : RK := ⟨Cert.ReferenceIdeal.main_arg13, Cert.KernelIdeal.main_arg13, rfl⟩
abbrev p_arg14 : RK := ⟨Cert.ReferenceIdeal.main_arg14, Cert.KernelIdeal.main_arg14, rfl⟩
abbrev p_arg15 : RK := ⟨Cert.ReferenceIdeal.main_arg15, Cert.KernelIdeal.main_arg15, rfl⟩
abbrev p_arg16 : RK := ⟨Cert.ReferenceIdeal.main_arg16, Cert.KernelIdeal.main_arg16, rfl⟩
abbrev p_arg17 : RK := ⟨Cert.ReferenceIdeal.main_arg17, Cert.KernelIdeal.main_arg17, rfl⟩
abbrev p_arg18 : RK := ⟨Cert.ReferenceIdeal.main_arg18, Cert.KernelIdeal.main_arg18, rfl⟩
abbrev p_arg19 : RK := ⟨Cert.ReferenceIdeal.main_arg19, Cert.KernelIdeal.main_arg19, rfl⟩
abbrev p_arg20 : RK := ⟨Cert.ReferenceIdeal.main_arg20, Cert.KernelIdeal.main_arg20, rfl⟩
abbrev p_v0 : RK := ⟨Cert.ReferenceIdeal.main_v0, Cert.KernelIdeal.main_v0, rfl⟩
abbrev p_v1 : RK := ⟨Cert.ReferenceIdeal.main_v1, Cert.KernelIdeal.main_v1, rfl⟩
abbrev p_v2 : RK := ⟨Cert.ReferenceIdeal.main_v2, Cert.KernelIdeal.main_v2, rfl⟩
abbrev p_v3 : RK := ⟨Cert.ReferenceIdeal.main_v3, Cert.KernelIdeal.main_v3, rfl⟩
abbrev p_cst : RK := ⟨Cert.ReferenceIdeal.main_cst, Cert.KernelIdeal.main_cst, rfl⟩
abbrev p_v4 : RK := ⟨Cert.ReferenceIdeal.main_v4, Cert.KernelIdeal.main_v4, rfl⟩
abbrev p_cst_0 : RK := ⟨Cert.ReferenceIdeal.main_cst_0, Cert.KernelIdeal.main_cst_0, rfl⟩
abbrev p_v5 : RK := ⟨Cert.ReferenceIdeal.main_v5, Cert.KernelIdeal.main_v5, rfl⟩
abbrev p_v6 : RK := ⟨Cert.ReferenceIdeal.main_v6, Cert.KernelIdeal.main_v6, rfl⟩
abbrev p_v7 : RK := ⟨Cert.ReferenceIdeal.main_v7, Cert.KernelIdeal.main_v7, rfl⟩
abbrev p_v8 : RK := ⟨Cert.ReferenceIdeal.main_v8, Cert.KernelIdeal.main_v8, rfl⟩
abbrev p_c : RK := ⟨Cert.ReferenceIdeal.main_c, Cert.KernelIdeal.main_c, rfl⟩
abbrev p_v9 : RK := ⟨Cert.ReferenceIdeal.main_v9, Cert.KernelIdeal.main_v9, rfl⟩
abbrev p_v10 : RK := ⟨Cert.ReferenceIdeal.main_v10, Cert.KernelIdeal.main_v10, rfl⟩
abbrev p_c_1 : RK := ⟨Cert.ReferenceIdeal.main_c_1, Cert.KernelIdeal.main_c_1, rfl⟩
abbrev p_v11 : RK := ⟨Cert.ReferenceIdeal.main_v11, Cert.KernelIdeal.main_v11, rfl⟩
abbrev p_v12 : RK := ⟨Cert.ReferenceIdeal.main_v12, Cert.KernelIdeal.main_v12, rfl⟩
abbrev p_v13 : RK := ⟨Cert.ReferenceIdeal.main_v13, Cert.KernelIdeal.main_v13, rfl⟩
abbrev p_v14 : RK := ⟨Cert.ReferenceIdeal.main_v14, Cert.KernelIdeal.main_v14, rfl⟩
abbrev p_v15 : RK := ⟨Cert.ReferenceIdeal.main_v15, Cert.KernelIdeal.main_v15, rfl⟩
abbrev p_c_2 : RK := ⟨Cert.ReferenceIdeal.main_c_2, Cert.KernelIdeal.main_c_2, rfl⟩
abbrev p_v16 : RK := ⟨Cert.ReferenceIdeal.main_v16, Cert.KernelIdeal.main_v16, rfl⟩
abbrev p_v17 : RK := ⟨Cert.ReferenceIdeal.main_v17, Cert.KernelIdeal.main_v17, rfl⟩
abbrev p_c_3 : RK := ⟨Cert.ReferenceIdeal.main_c_3, Cert.KernelIdeal.main_c_3, rfl⟩
abbrev p_v18 : RK := ⟨Cert.ReferenceIdeal.main_v18, Cert.KernelIdeal.main_v18, rfl⟩
abbrev p_v19 : RK := ⟨Cert.ReferenceIdeal.main_v19, Cert.KernelIdeal.main_v19, rfl⟩
abbrev p_v20 : RK := ⟨Cert.ReferenceIdeal.main_v20, Cert.KernelIdeal.main_v20, rfl⟩
abbrev p_v21 : RK := ⟨Cert.ReferenceIdeal.main_v21, Cert.KernelIdeal.main_v21, rfl⟩
abbrev p_v22 : RK := ⟨Cert.ReferenceIdeal.main_v22, Cert.KernelIdeal.main_v22, rfl⟩
abbrev p_v23 : RK := ⟨Cert.ReferenceIdeal.main_v23, Cert.KernelIdeal.main_v23, rfl⟩
abbrev p_c_4 : RK := ⟨Cert.ReferenceIdeal.main_c_4, Cert.KernelIdeal.main_c_4, rfl⟩
abbrev p_v24 : RK := ⟨Cert.ReferenceIdeal.main_v24, Cert.KernelIdeal.main_v24, rfl⟩
abbrev p_v25 : RK := ⟨Cert.ReferenceIdeal.main_v25, Cert.KernelIdeal.main_v25, rfl⟩
abbrev p_c_5 : RK := ⟨Cert.ReferenceIdeal.main_c_5, Cert.KernelIdeal.main_c_5, rfl⟩
abbrev p_v26 : RK := ⟨Cert.ReferenceIdeal.main_v26, Cert.KernelIdeal.main_v26, rfl⟩
abbrev p_v27 : RK := ⟨Cert.ReferenceIdeal.main_v27, Cert.KernelIdeal.main_v27, rfl⟩
abbrev p_v28 : RK := ⟨Cert.ReferenceIdeal.main_v28, Cert.KernelIdeal.main_v28, rfl⟩
abbrev p_v29 : RK := ⟨Cert.ReferenceIdeal.main_v29, Cert.KernelIdeal.main_v29, rfl⟩
abbrev p_v30 : RK := ⟨Cert.ReferenceIdeal.main_v30, Cert.KernelIdeal.main_v30, rfl⟩
abbrev p_v31 : RK := ⟨Cert.ReferenceIdeal.main_v31, Cert.KernelIdeal.main_v31, rfl⟩
abbrev p_v32 : RK := ⟨Cert.ReferenceIdeal.main_v32, Cert.KernelIdeal.main_v32, rfl⟩
abbrev p_v33 : RK := ⟨Cert.ReferenceIdeal.main_v33, Cert.KernelIdeal.main_v33, rfl⟩
abbrev p_cst_6 : RK := ⟨Cert.ReferenceIdeal.main_cst_6, Cert.KernelIdeal.main_cst_6, rfl⟩
abbrev p_v34 : RK := ⟨Cert.ReferenceIdeal.main_v34, Cert.KernelIdeal.main_v34, rfl⟩
abbrev p_v35 : RK := ⟨Cert.ReferenceIdeal.main_v35, Cert.KernelIdeal.main_v35, rfl⟩
abbrev p_v36 : RK := ⟨Cert.ReferenceIdeal.main_v36, Cert.KernelIdeal.main_v36, rfl⟩
abbrev p_v37 : RK := ⟨Cert.ReferenceIdeal.main_v37, Cert.KernelIdeal.main_v37, rfl⟩
abbrev p_v38 : RK := ⟨Cert.ReferenceIdeal.main_v38, Cert.KernelIdeal.main_v38, rfl⟩
abbrev p_v39 : RK := ⟨Cert.ReferenceIdeal.main_v39, Cert.KernelIdeal.main_v39, rfl⟩
abbrev p_v40 : RK := ⟨Cert.ReferenceIdeal.main_v40, Cert.KernelIdeal.main_v40, rfl⟩
abbrev p_v41 : RK := ⟨Cert.ReferenceIdeal.main_v41, Cert.KernelIdeal.main_v41, rfl⟩
abbrev p_cst_7 : RK := ⟨Cert.ReferenceIdeal.main_cst_7, Cert.KernelIdeal.main_cst_7, rfl⟩
abbrev p_v42 : RK := ⟨Cert.ReferenceIdeal.main_v42, Cert.KernelIdeal.main_v42, rfl⟩
abbrev p_v43 : RK := ⟨Cert.ReferenceIdeal.main_v43, Cert.KernelIdeal.main_v43, rfl⟩
abbrev p_cst_8 : RK := ⟨Cert.ReferenceIdeal.main_cst_8, Cert.KernelIdeal.main_cst_8, rfl⟩
abbrev p_v44 : RK := ⟨Cert.ReferenceIdeal.main_v44, Cert.KernelIdeal.main_v44, rfl⟩
abbrev p_v45 : RK := ⟨Cert.ReferenceIdeal.main_v45, Cert.KernelIdeal.main_v45, rfl⟩
abbrev p_cst_9 : RK := ⟨Cert.ReferenceIdeal.main_cst_9, Cert.KernelIdeal.main_cst_9, rfl⟩
abbrev p_v46 : RK := ⟨Cert.ReferenceIdeal.main_v46, Cert.KernelIdeal.main_v46, rfl⟩
abbrev p_cst_10 : RK := ⟨Cert.ReferenceIdeal.main_cst_10, Cert.KernelIdeal.main_cst_10, rfl⟩
abbrev p_v47 : RK := ⟨Cert.ReferenceIdeal.main_v47, Cert.KernelIdeal.main_v47, rfl⟩
abbrev p_v48 : RK := ⟨Cert.ReferenceIdeal.main_v48, Cert.KernelIdeal.main_v48, rfl⟩
abbrev p_v49 : RK := ⟨Cert.ReferenceIdeal.main_v49, Cert.KernelIdeal.main_v49, rfl⟩
abbrev p_v50 : RK := ⟨Cert.ReferenceIdeal.main_v50, Cert.KernelIdeal.main_v50, rfl⟩
abbrev p_v51 : RK := ⟨Cert.ReferenceIdeal.main_v51, Cert.KernelIdeal.main_v51, rfl⟩
abbrev p_v52 : RK := ⟨Cert.ReferenceIdeal.main_v52, Cert.KernelIdeal.main_v52, rfl⟩
abbrev p_cst_11 : RK := ⟨Cert.ReferenceIdeal.main_cst_11, Cert.KernelIdeal.main_cst_11, rfl⟩
abbrev p_v53 : RK := ⟨Cert.ReferenceIdeal.main_v53, Cert.KernelIdeal.main_v53, rfl⟩
abbrev p_cst_12 : RK := ⟨Cert.ReferenceIdeal.main_cst_12, Cert.KernelIdeal.main_cst_12, rfl⟩
abbrev p_v54 : RK := ⟨Cert.ReferenceIdeal.main_v54, Cert.KernelIdeal.main_v54, rfl⟩
abbrev p_v55 : RK := ⟨Cert.ReferenceIdeal.main_v55, Cert.KernelIdeal.main_v55, rfl⟩
abbrev p_cst_13 : RK := ⟨Cert.ReferenceIdeal.main_cst_13, Cert.KernelIdeal.main_cst_13, rfl⟩
abbrev p_v56 : RK := ⟨Cert.ReferenceIdeal.main_v56, Cert.KernelIdeal.main_v56, rfl⟩
abbrev p_v57 : RK := ⟨Cert.ReferenceIdeal.main_v57, Cert.KernelIdeal.main_v57, rfl⟩
abbrev p_v58 : RK := ⟨Cert.ReferenceIdeal.main_v58, Cert.KernelIdeal.main_v58, rfl⟩
abbrev p_v59 : RK := ⟨Cert.ReferenceIdeal.main_v59, Cert.KernelIdeal.main_v59, rfl⟩
abbrev p_v60 : RK := ⟨Cert.ReferenceIdeal.main_v60, Cert.KernelIdeal.main_v60, rfl⟩
abbrev p_v61 : RK := ⟨Cert.ReferenceIdeal.main_v61, Cert.KernelIdeal.main_v61, rfl⟩
abbrev p_v62 : RK := ⟨Cert.ReferenceIdeal.main_v62, Cert.KernelIdeal.main_v62, rfl⟩
abbrev p_v63 : RK := ⟨Cert.ReferenceIdeal.main_v63, Cert.KernelIdeal.main_v63, rfl⟩
abbrev p_v64 : RK := ⟨Cert.ReferenceIdeal.main_v64, Cert.KernelIdeal.main_v64, rfl⟩
abbrev p_v65 : RK := ⟨Cert.ReferenceIdeal.main_v65, Cert.KernelIdeal.main_v65, rfl⟩
abbrev p_v66 : RK := ⟨Cert.ReferenceIdeal.main_v66, Cert.KernelIdeal.main_v66, rfl⟩
abbrev p_v67 : RK := ⟨Cert.ReferenceIdeal.main_v67, Cert.KernelIdeal.main_v67, rfl⟩
abbrev p_v68 : RK := ⟨Cert.ReferenceIdeal.main_v68, Cert.KernelIdeal.main_v68, rfl⟩
abbrev p_v69 : RK := ⟨Cert.ReferenceIdeal.main_v69, Cert.KernelIdeal.main_v69, rfl⟩
abbrev p_v70 : RK := ⟨Cert.ReferenceIdeal.main_v70, Cert.KernelIdeal.main_v70, rfl⟩
abbrev p_v71 : RK := ⟨Cert.ReferenceIdeal.main_v71, Cert.KernelIdeal.main_v71, rfl⟩
abbrev p_cst_14 : RK := ⟨Cert.ReferenceIdeal.main_cst_14, Cert.KernelIdeal.main_cst_14, rfl⟩
abbrev p_v72 : RK := ⟨Cert.ReferenceIdeal.main_v72, Cert.KernelIdeal.main_v72, rfl⟩
abbrev p_cst_15 : RK := ⟨Cert.ReferenceIdeal.main_cst_15, Cert.KernelIdeal.main_cst_15, rfl⟩
abbrev p_v73 : RK := ⟨Cert.ReferenceIdeal.main_v73, Cert.KernelIdeal.main_v73, rfl⟩
abbrev p_v74 : RK := ⟨Cert.ReferenceIdeal.main_v74, Cert.KernelIdeal.main_v74, rfl⟩
abbrev p_v75 : RK := ⟨Cert.ReferenceIdeal.main_v75, Cert.KernelIdeal.main_v75, rfl⟩
abbrev p_v76 : RK := ⟨Cert.ReferenceIdeal.main_v76, Cert.KernelIdeal.main_v76, rfl⟩
abbrev p_c_16 : RK := ⟨Cert.ReferenceIdeal.main_c_16, Cert.KernelIdeal.main_c_16, rfl⟩
abbrev p_v77 : RK := ⟨Cert.ReferenceIdeal.main_v77, Cert.KernelIdeal.main_v77, rfl⟩
abbrev p_v78 : RK := ⟨Cert.ReferenceIdeal.main_v78, Cert.KernelIdeal.main_v78, rfl⟩
abbrev p_c_17 : RK := ⟨Cert.ReferenceIdeal.main_c_17, Cert.KernelIdeal.main_c_17, rfl⟩
abbrev p_v79 : RK := ⟨Cert.ReferenceIdeal.main_v79, Cert.KernelIdeal.main_v79, rfl⟩
abbrev p_v80 : RK := ⟨Cert.ReferenceIdeal.main_v80, Cert.KernelIdeal.main_v80, rfl⟩
abbrev p_v81 : RK := ⟨Cert.ReferenceIdeal.main_v81, Cert.KernelIdeal.main_v81, rfl⟩
abbrev p_v82 : RK := ⟨Cert.ReferenceIdeal.main_v82, Cert.KernelIdeal.main_v82, rfl⟩
abbrev p_v83 : RK := ⟨Cert.ReferenceIdeal.main_v83, Cert.KernelIdeal.main_v83, rfl⟩
abbrev p_c_18 : RK := ⟨Cert.ReferenceIdeal.main_c_18, Cert.KernelIdeal.main_c_18, rfl⟩
abbrev p_v84 : RK := ⟨Cert.ReferenceIdeal.main_v84, Cert.KernelIdeal.main_v84, rfl⟩
abbrev p_v85 : RK := ⟨Cert.ReferenceIdeal.main_v85, Cert.KernelIdeal.main_v85, rfl⟩
abbrev p_c_19 : RK := ⟨Cert.ReferenceIdeal.main_c_19, Cert.KernelIdeal.main_c_19, rfl⟩
abbrev p_v86 : RK := ⟨Cert.ReferenceIdeal.main_v86, Cert.KernelIdeal.main_v86, rfl⟩
abbrev p_v87 : RK := ⟨Cert.ReferenceIdeal.main_v87, Cert.KernelIdeal.main_v87, rfl⟩
abbrev p_v88 : RK := ⟨Cert.ReferenceIdeal.main_v88, Cert.KernelIdeal.main_v88, rfl⟩
abbrev p_v89 : RK := ⟨Cert.ReferenceIdeal.main_v89, Cert.KernelIdeal.main_v89, rfl⟩
abbrev p_v90 : RK := ⟨Cert.ReferenceIdeal.main_v90, Cert.KernelIdeal.main_v90, rfl⟩
abbrev p_v91 : RK := ⟨Cert.ReferenceIdeal.main_v91, Cert.KernelIdeal.main_v91, rfl⟩
abbrev p_c_20 : RK := ⟨Cert.ReferenceIdeal.main_c_20, Cert.KernelIdeal.main_c_20, rfl⟩
abbrev p_v92 : RK := ⟨Cert.ReferenceIdeal.main_v92, Cert.KernelIdeal.main_v92, rfl⟩
abbrev p_v93 : RK := ⟨Cert.ReferenceIdeal.main_v93, Cert.KernelIdeal.main_v93, rfl⟩
abbrev p_c_21 : RK := ⟨Cert.ReferenceIdeal.main_c_21, Cert.KernelIdeal.main_c_21, rfl⟩
abbrev p_v94 : RK := ⟨Cert.ReferenceIdeal.main_v94, Cert.KernelIdeal.main_v94, rfl⟩
abbrev p_v95 : RK := ⟨Cert.ReferenceIdeal.main_v95, Cert.KernelIdeal.main_v95, rfl⟩
abbrev p_v96 : RK := ⟨Cert.ReferenceIdeal.main_v96, Cert.KernelIdeal.main_v96, rfl⟩
abbrev p_v97 : RK := ⟨Cert.ReferenceIdeal.main_v97, Cert.KernelIdeal.main_v97, rfl⟩
abbrev p_v98 : RK := ⟨Cert.ReferenceIdeal.main_v98, Cert.KernelIdeal.main_v98, rfl⟩
abbrev p_v99 : RK := ⟨Cert.ReferenceIdeal.main_v99, Cert.KernelIdeal.main_v99, rfl⟩
abbrev p_v100 : RK := ⟨Cert.ReferenceIdeal.main_v100, Cert.KernelIdeal.main_v100, rfl⟩
abbrev p_v101 : RK := ⟨Cert.ReferenceIdeal.main_v101, Cert.KernelIdeal.main_v101, rfl⟩
abbrev p_cst_22 : RK := ⟨Cert.ReferenceIdeal.main_cst_22, Cert.KernelIdeal.main_cst_22, rfl⟩
abbrev p_v102 : RK := ⟨Cert.ReferenceIdeal.main_v102, Cert.KernelIdeal.main_v102, rfl⟩
abbrev p_v103 : RK := ⟨Cert.ReferenceIdeal.main_v103, Cert.KernelIdeal.main_v103, rfl⟩
abbrev p_v104 : RK := ⟨Cert.ReferenceIdeal.main_v104, Cert.KernelIdeal.main_v104, rfl⟩
abbrev p_v105 : RK := ⟨Cert.ReferenceIdeal.main_v105, Cert.KernelIdeal.main_v105, rfl⟩
abbrev p_v106 : RK := ⟨Cert.ReferenceIdeal.main_v106, Cert.KernelIdeal.main_v106, rfl⟩
abbrev p_v107 : RK := ⟨Cert.ReferenceIdeal.main_v107, Cert.KernelIdeal.main_v107, rfl⟩
abbrev p_v108 : RK := ⟨Cert.ReferenceIdeal.main_v108, Cert.KernelIdeal.main_v108, rfl⟩
abbrev p_v109 : RK := ⟨Cert.ReferenceIdeal.main_v109, Cert.KernelIdeal.main_v109, rfl⟩
abbrev p_cst_23 : RK := ⟨Cert.ReferenceIdeal.main_cst_23, Cert.KernelIdeal.main_cst_23, rfl⟩
abbrev p_v110 : RK := ⟨Cert.ReferenceIdeal.main_v110, Cert.KernelIdeal.main_v110, rfl⟩
abbrev p_v111 : RK := ⟨Cert.ReferenceIdeal.main_v111, Cert.KernelIdeal.main_v111, rfl⟩
abbrev p_cst_24 : RK := ⟨Cert.ReferenceIdeal.main_cst_24, Cert.KernelIdeal.main_cst_24, rfl⟩
abbrev p_v112 : RK := ⟨Cert.ReferenceIdeal.main_v112, Cert.KernelIdeal.main_v112, rfl⟩
abbrev p_v113 : RK := ⟨Cert.ReferenceIdeal.main_v113, Cert.KernelIdeal.main_v113, rfl⟩
abbrev p_cst_25 : RK := ⟨Cert.ReferenceIdeal.main_cst_25, Cert.KernelIdeal.main_cst_25, rfl⟩
abbrev p_v114 : RK := ⟨Cert.ReferenceIdeal.main_v114, Cert.KernelIdeal.main_v114, rfl⟩
abbrev p_cst_26 : RK := ⟨Cert.ReferenceIdeal.main_cst_26, Cert.KernelIdeal.main_cst_26, rfl⟩
abbrev p_v115 : RK := ⟨Cert.ReferenceIdeal.main_v115, Cert.KernelIdeal.main_v115, rfl⟩
abbrev p_v116 : RK := ⟨Cert.ReferenceIdeal.main_v116, Cert.KernelIdeal.main_v116, rfl⟩
abbrev p_v117 : RK := ⟨Cert.ReferenceIdeal.main_v117, Cert.KernelIdeal.main_v117, rfl⟩
abbrev p_v118 : RK := ⟨Cert.ReferenceIdeal.main_v118, Cert.KernelIdeal.main_v118, rfl⟩
abbrev p_v119 : RK := ⟨Cert.ReferenceIdeal.main_v119, Cert.KernelIdeal.main_v119, rfl⟩
abbrev p_v120 : RK := ⟨Cert.ReferenceIdeal.main_v120, Cert.KernelIdeal.main_v120, rfl⟩
abbrev p_cst_27 : RK := ⟨Cert.ReferenceIdeal.main_cst_27, Cert.KernelIdeal.main_cst_27, rfl⟩
abbrev p_v121 : RK := ⟨Cert.ReferenceIdeal.main_v121, Cert.KernelIdeal.main_v121, rfl⟩
abbrev p_cst_28 : RK := ⟨Cert.ReferenceIdeal.main_cst_28, Cert.KernelIdeal.main_cst_28, rfl⟩
abbrev p_v122 : RK := ⟨Cert.ReferenceIdeal.main_v122, Cert.KernelIdeal.main_v122, rfl⟩
abbrev p_v123 : RK := ⟨Cert.ReferenceIdeal.main_v123, Cert.KernelIdeal.main_v123, rfl⟩
abbrev p_cst_29 : RK := ⟨Cert.ReferenceIdeal.main_cst_29, Cert.KernelIdeal.main_cst_29, rfl⟩
abbrev p_v124 : RK := ⟨Cert.ReferenceIdeal.main_v124, Cert.KernelIdeal.main_v124, rfl⟩
abbrev p_v125 : RK := ⟨Cert.ReferenceIdeal.main_v125, Cert.KernelIdeal.main_v125, rfl⟩
abbrev p_v126 : RK := ⟨Cert.ReferenceIdeal.main_v126, Cert.KernelIdeal.main_v126, rfl⟩
abbrev p_v127 : RK := ⟨Cert.ReferenceIdeal.main_v127, Cert.KernelIdeal.main_v127, rfl⟩
abbrev p_v128 : RK := ⟨Cert.ReferenceIdeal.main_v128, Cert.KernelIdeal.main_v128, rfl⟩
abbrev p_v129 : RK := ⟨Cert.ReferenceIdeal.main_v129, Cert.KernelIdeal.main_v129, rfl⟩
abbrev p_v130 : RK := ⟨Cert.ReferenceIdeal.main_v130, Cert.KernelIdeal.main_v130, rfl⟩
abbrev p_v131 : RK := ⟨Cert.ReferenceIdeal.main_v131, Cert.KernelIdeal.main_v131, rfl⟩
abbrev p_v132 : RK := ⟨Cert.ReferenceIdeal.main_v132, Cert.KernelIdeal.main_v132, rfl⟩
abbrev p_v133 : RK := ⟨Cert.ReferenceIdeal.main_v133, Cert.KernelIdeal.main_v133, rfl⟩
abbrev p_v134 : RK := ⟨Cert.ReferenceIdeal.main_v134, Cert.KernelIdeal.main_v134, rfl⟩
abbrev p_v135 : RK := ⟨Cert.ReferenceIdeal.main_v135, Cert.KernelIdeal.main_v135, rfl⟩
abbrev p_v136 : RK := ⟨Cert.ReferenceIdeal.main_v136, Cert.KernelIdeal.main_v136, rfl⟩
abbrev p_v137 : RK := ⟨Cert.ReferenceIdeal.main_v137, Cert.KernelIdeal.main_v137, rfl⟩
abbrev p_v138 : RK := ⟨Cert.ReferenceIdeal.main_v138, Cert.KernelIdeal.main_v138, rfl⟩
abbrev p_v139 : RK := ⟨Cert.ReferenceIdeal.main_v139, Cert.KernelIdeal.main_v139, rfl⟩
abbrev p_cst_30 : RK := ⟨Cert.ReferenceIdeal.main_cst_30, Cert.KernelIdeal.main_cst_30, rfl⟩
abbrev p_v140 : RK := ⟨Cert.ReferenceIdeal.main_v140, Cert.KernelIdeal.main_v140, rfl⟩
abbrev p_cst_31 : RK := ⟨Cert.ReferenceIdeal.main_cst_31, Cert.KernelIdeal.main_cst_31, rfl⟩
abbrev p_v141 : RK := ⟨Cert.ReferenceIdeal.main_v141, Cert.KernelIdeal.main_v141, rfl⟩
abbrev p_v142 : RK := ⟨Cert.ReferenceIdeal.main_v142, Cert.KernelIdeal.main_v142, rfl⟩
abbrev p_v143 : RK := ⟨Cert.ReferenceIdeal.main_v143, Cert.KernelIdeal.main_v143, rfl⟩
abbrev p_v144 : RK := ⟨Cert.ReferenceIdeal.main_v144, Cert.KernelIdeal.main_v144, rfl⟩
abbrev p_c_32 : RK := ⟨Cert.ReferenceIdeal.main_c_32, Cert.KernelIdeal.main_c_32, rfl⟩
abbrev p_v145 : RK := ⟨Cert.ReferenceIdeal.main_v145, Cert.KernelIdeal.main_v145, rfl⟩
abbrev p_v146 : RK := ⟨Cert.ReferenceIdeal.main_v146, Cert.KernelIdeal.main_v146, rfl⟩
abbrev p_c_33 : RK := ⟨Cert.ReferenceIdeal.main_c_33, Cert.KernelIdeal.main_c_33, rfl⟩
abbrev p_v147 : RK := ⟨Cert.ReferenceIdeal.main_v147, Cert.KernelIdeal.main_v147, rfl⟩
abbrev p_v148 : RK := ⟨Cert.ReferenceIdeal.main_v148, Cert.KernelIdeal.main_v148, rfl⟩
abbrev p_v149 : RK := ⟨Cert.ReferenceIdeal.main_v149, Cert.KernelIdeal.main_v149, rfl⟩
abbrev p_v150 : RK := ⟨Cert.ReferenceIdeal.main_v150, Cert.KernelIdeal.main_v150, rfl⟩
abbrev p_v151 : RK := ⟨Cert.ReferenceIdeal.main_v151, Cert.KernelIdeal.main_v151, rfl⟩
abbrev p_c_34 : RK := ⟨Cert.ReferenceIdeal.main_c_34, Cert.KernelIdeal.main_c_34, rfl⟩
abbrev p_v152 : RK := ⟨Cert.ReferenceIdeal.main_v152, Cert.KernelIdeal.main_v152, rfl⟩
abbrev p_v153 : RK := ⟨Cert.ReferenceIdeal.main_v153, Cert.KernelIdeal.main_v153, rfl⟩
abbrev p_c_35 : RK := ⟨Cert.ReferenceIdeal.main_c_35, Cert.KernelIdeal.main_c_35, rfl⟩
abbrev p_v154 : RK := ⟨Cert.ReferenceIdeal.main_v154, Cert.KernelIdeal.main_v154, rfl⟩
abbrev p_v155 : RK := ⟨Cert.ReferenceIdeal.main_v155, Cert.KernelIdeal.main_v155, rfl⟩
abbrev p_v156 : RK := ⟨Cert.ReferenceIdeal.main_v156, Cert.KernelIdeal.main_v156, rfl⟩
abbrev p_v157 : RK := ⟨Cert.ReferenceIdeal.main_v157, Cert.KernelIdeal.main_v157, rfl⟩
abbrev p_v158 : RK := ⟨Cert.ReferenceIdeal.main_v158, Cert.KernelIdeal.main_v158, rfl⟩
abbrev p_v159 : RK := ⟨Cert.ReferenceIdeal.main_v159, Cert.KernelIdeal.main_v159, rfl⟩
abbrev p_c_36 : RK := ⟨Cert.ReferenceIdeal.main_c_36, Cert.KernelIdeal.main_c_36, rfl⟩
abbrev p_v160 : RK := ⟨Cert.ReferenceIdeal.main_v160, Cert.KernelIdeal.main_v160, rfl⟩
abbrev p_v161 : RK := ⟨Cert.ReferenceIdeal.main_v161, Cert.KernelIdeal.main_v161, rfl⟩
abbrev p_c_37 : RK := ⟨Cert.ReferenceIdeal.main_c_37, Cert.KernelIdeal.main_c_37, rfl⟩
abbrev p_v162 : RK := ⟨Cert.ReferenceIdeal.main_v162, Cert.KernelIdeal.main_v162, rfl⟩
abbrev p_v163 : RK := ⟨Cert.ReferenceIdeal.main_v163, Cert.KernelIdeal.main_v163, rfl⟩
abbrev p_v164 : RK := ⟨Cert.ReferenceIdeal.main_v164, Cert.KernelIdeal.main_v164, rfl⟩
abbrev p_v165 : RK := ⟨Cert.ReferenceIdeal.main_v165, Cert.KernelIdeal.main_v165, rfl⟩
abbrev p_v166 : RK := ⟨Cert.ReferenceIdeal.main_v166, Cert.KernelIdeal.main_v166, rfl⟩
abbrev p_v167 : RK := ⟨Cert.ReferenceIdeal.main_v167, Cert.KernelIdeal.main_v167, rfl⟩
abbrev p_v168 : RK := ⟨Cert.ReferenceIdeal.main_v168, Cert.KernelIdeal.main_v168, rfl⟩
abbrev p_v169 : RK := ⟨Cert.ReferenceIdeal.main_v169, Cert.KernelIdeal.main_v169, rfl⟩
abbrev p_cst_38 : RK := ⟨Cert.ReferenceIdeal.main_cst_38, Cert.KernelIdeal.main_cst_38, rfl⟩
abbrev p_v170 : RK := ⟨Cert.ReferenceIdeal.main_v170, Cert.KernelIdeal.main_v170, rfl⟩
abbrev p_v171 : RK := ⟨Cert.ReferenceIdeal.main_v171, Cert.KernelIdeal.main_v171, rfl⟩
abbrev p_v172 : RK := ⟨Cert.ReferenceIdeal.main_v172, Cert.KernelIdeal.main_v172, rfl⟩
abbrev p_v173 : RK := ⟨Cert.ReferenceIdeal.main_v173, Cert.KernelIdeal.main_v173, rfl⟩
abbrev p_v174 : RK := ⟨Cert.ReferenceIdeal.main_v174, Cert.KernelIdeal.main_v174, rfl⟩
abbrev p_v175 : RK := ⟨Cert.ReferenceIdeal.main_v175, Cert.KernelIdeal.main_v175, rfl⟩
abbrev p_v176 : RK := ⟨Cert.ReferenceIdeal.main_v176, Cert.KernelIdeal.main_v176, rfl⟩
abbrev p_v177 : RK := ⟨Cert.ReferenceIdeal.main_v177, Cert.KernelIdeal.main_v177, rfl⟩
abbrev p_cst_39 : RK := ⟨Cert.ReferenceIdeal.main_cst_39, Cert.KernelIdeal.main_cst_39, rfl⟩
abbrev p_v178 : RK := ⟨Cert.ReferenceIdeal.main_v178, Cert.KernelIdeal.main_v178, rfl⟩
abbrev p_v179 : RK := ⟨Cert.ReferenceIdeal.main_v179, Cert.KernelIdeal.main_v179, rfl⟩
abbrev p_cst_40 : RK := ⟨Cert.ReferenceIdeal.main_cst_40, Cert.KernelIdeal.main_cst_40, rfl⟩
abbrev p_v180 : RK := ⟨Cert.ReferenceIdeal.main_v180, Cert.KernelIdeal.main_v180, rfl⟩
abbrev p_v181 : RK := ⟨Cert.ReferenceIdeal.main_v181, Cert.KernelIdeal.main_v181, rfl⟩
abbrev p_cst_41 : RK := ⟨Cert.ReferenceIdeal.main_cst_41, Cert.KernelIdeal.main_cst_41, rfl⟩
abbrev p_v182 : RK := ⟨Cert.ReferenceIdeal.main_v182, Cert.KernelIdeal.main_v182, rfl⟩
abbrev p_cst_42 : RK := ⟨Cert.ReferenceIdeal.main_cst_42, Cert.KernelIdeal.main_cst_42, rfl⟩
abbrev p_v183 : RK := ⟨Cert.ReferenceIdeal.main_v183, Cert.KernelIdeal.main_v183, rfl⟩
abbrev p_v184 : RK := ⟨Cert.ReferenceIdeal.main_v184, Cert.KernelIdeal.main_v184, rfl⟩
abbrev p_v185 : RK := ⟨Cert.ReferenceIdeal.main_v185, Cert.KernelIdeal.main_v185, rfl⟩
abbrev p_v186 : RK := ⟨Cert.ReferenceIdeal.main_v186, Cert.KernelIdeal.main_v186, rfl⟩
abbrev p_v187 : RK := ⟨Cert.ReferenceIdeal.main_v187, Cert.KernelIdeal.main_v187, rfl⟩
abbrev p_v188 : RK := ⟨Cert.ReferenceIdeal.main_v188, Cert.KernelIdeal.main_v188, rfl⟩
abbrev p_cst_43 : RK := ⟨Cert.ReferenceIdeal.main_cst_43, Cert.KernelIdeal.main_cst_43, rfl⟩
abbrev p_v189 : RK := ⟨Cert.ReferenceIdeal.main_v189, Cert.KernelIdeal.main_v189, rfl⟩
abbrev p_cst_44 : RK := ⟨Cert.ReferenceIdeal.main_cst_44, Cert.KernelIdeal.main_cst_44, rfl⟩
abbrev p_v190 : RK := ⟨Cert.ReferenceIdeal.main_v190, Cert.KernelIdeal.main_v190, rfl⟩
abbrev p_v191 : RK := ⟨Cert.ReferenceIdeal.main_v191, Cert.KernelIdeal.main_v191, rfl⟩
abbrev p_cst_45 : RK := ⟨Cert.ReferenceIdeal.main_cst_45, Cert.KernelIdeal.main_cst_45, rfl⟩
abbrev p_v192 : RK := ⟨Cert.ReferenceIdeal.main_v192, Cert.KernelIdeal.main_v192, rfl⟩
abbrev p_v193 : RK := ⟨Cert.ReferenceIdeal.main_v193, Cert.KernelIdeal.main_v193, rfl⟩
abbrev p_v194 : RK := ⟨Cert.ReferenceIdeal.main_v194, Cert.KernelIdeal.main_v194, rfl⟩
abbrev p_v195 : RK := ⟨Cert.ReferenceIdeal.main_v195, Cert.KernelIdeal.main_v195, rfl⟩
abbrev p_v196 : RK := ⟨Cert.ReferenceIdeal.main_v196, Cert.KernelIdeal.main_v196, rfl⟩
abbrev p_v197 : RK := ⟨Cert.ReferenceIdeal.main_v197, Cert.KernelIdeal.main_v197, rfl⟩
abbrev p_v198 : RK := ⟨Cert.ReferenceIdeal.main_v198, Cert.KernelIdeal.main_v198, rfl⟩
abbrev p_v199 : RK := ⟨Cert.ReferenceIdeal.main_v199, Cert.KernelIdeal.main_v199, rfl⟩
abbrev p_v200 : RK := ⟨Cert.ReferenceIdeal.main_v200, Cert.KernelIdeal.main_v200, rfl⟩
abbrev p_v201 : RK := ⟨Cert.ReferenceIdeal.main_v201, Cert.KernelIdeal.main_v201, rfl⟩
abbrev p_v202 : RK := ⟨Cert.ReferenceIdeal.main_v202, Cert.KernelIdeal.main_v202, rfl⟩
abbrev p_v203 : RK := ⟨Cert.ReferenceIdeal.main_v203, Cert.KernelIdeal.main_v203, rfl⟩
abbrev p_v204 : RK := ⟨Cert.ReferenceIdeal.main_v204, Cert.KernelIdeal.main_v204, rfl⟩
abbrev p_v205 : RK := ⟨Cert.ReferenceIdeal.main_v205, Cert.KernelIdeal.main_v205, rfl⟩
abbrev p_v206 : RK := ⟨Cert.ReferenceIdeal.main_v206, Cert.KernelIdeal.main_v206, rfl⟩

/-- The 21 arguments, paired. -/
abbrev argPairs : List RK :=
  [ p_arg0, p_arg1, p_arg2, p_arg3, p_arg4, p_arg5, p_arg6, p_arg7, p_arg8, p_arg9, p_arg10, p_arg11, p_arg12, p_arg13, p_arg14, p_arg15, p_arg16, p_arg17, p_arg18, p_arg19, p_arg20 ]
end Cert.Proof.Latent

end
-- ==== Proof.Latent.W0.lean ====
import proofs.«119114_j25752623907299_2_alg».proof.Proof.Latent.Pairs

noncomputable section

namespace Cert.Proof.Latent

open Idealize.ShloMosaic Idealize.ShloMosaic.TcCoe Idealize.SL.Sem Idealize.ShloMosaic.StableHlo
open Cert.ReferenceIdeal.HandRun Cert.Lib.LineSimulation

variable {F : FTy → Type} [FloatOps F]

/-- Operations 1 … 60 of the two host prefixes, one against the other: each pair reads paired buffers, applies the
    same function and writes a fresh pair. Agreement on the arguments and on the earlier values still read becomes
    agreement on the arguments and on the values later operations read. -/
theorem sim0 : Sim (τA := Cert.ReferenceIdeal.τ) (τB := Cert.KernelIdeal.τ) (Val := Elt F) (argPairs)
    (ops0 (F := F)) (Cert.KernelIdeal.Gen.main_part0_ops0 (F := F)) (p_v45 :: p_v46 :: p_cst_10 :: argPairs) := by
  refine Sim.cons (step_binary p_arg0 p_arg5 p_v0 (by decide) (by decide) (by decide) (by intro _ _; rfl)) ?_
  refine Sim.cons (step_nullary p_v1 (by decide) (by rfl)) ?_
  refine Sim.cons (step_binary p_arg1 p_v1 p_v2 (by decide) (by decide) (by decide) (by intro _ _; rfl)) ?_
  refine Sim.cons (step_binary p_arg2 p_v1 p_v3 (by decide) (by decide) (by decide) (by intro _ _; rfl)) ?_
  refine Sim.cons (step_nullary p_cst (by decide) (by rfl)) ?_
  refine Sim.cons (step_unary p_cst p_v4 (by decide) (by decide) (by intro _; rfl)) ?_
  refine Sim.cons (step_nullary p_cst_0 (by decide) (by rfl)) ?_
  refine Sim.cons (step_unary p_cst_0 p_v5 (by decide) (by decide) (by intro _; rfl)) ?_
  refine Sim.cons (step_unary p_v3 p_v6 (by decide) (by decide) (by intro _; rfl)) ?_
  refine Sim.cons (step_ternary p_v5 p_v6 p_v4 p_v7 (by decide) (by decide) (by decide) (by decide) (by intro _ _ _; rfl)) ?_
  refine Sim.cons (step_unary p_v7 p_v8 (by decide) (by decide) (by intro _; rfl)) ?_
  refine Sim.cons (step_nullary p_c (by decide) (by rfl)) ?_
  refine Sim.cons (step_unary p_c p_v9 (by decide) (by decide) (by intro _; rfl)) ?_
  refine Sim.cons (step_binary p_v2 p_v9 p_v10 (by decide) (by decide) (by decide) (by intro _ _; rfl)) ?_
  refine Sim.cons (step_nullary p_c_1 (by decide) (by rfl)) ?_
  refine Sim.cons (step_unary p_c_1 p_v11 (by decide) (by decide) (by intro _; rfl)) ?_
  refine Sim.cons (step_binary p_v2 p_v11 p_v12 (by decide) (by decide) (by decide) (by intro _ _; rfl)) ?_
  refine Sim.cons (step_ternary p_v10 p_v12 p_v2 p_v13 (by decide) (by decide) (by decide) (by decide) (by intro _ _ _; rfl)) ?_
  refine Sim.cons (step_unary p_v13 p_v14 (by decide) (by decide) (by intro _; rfl)) ?_
  refine Sim.cons (step_binary p_v8 p_v14 p_v15 (by decide) (by decide) (by decide) (by intro _ _; rfl)) ?_
  refine Sim.cons (step_nullary p_c_2 (by decide) (by rfl)) ?_
  refine Sim.cons (step_unary p_c_2 p_v16 (by decide) (by decide) (by intro _; rfl)) ?_
  refine Sim.cons (step_binary p_v3 p_v16 p_v17 (by decide) (by decide) (by decide) (by intro _ _; rfl)) ?_
  refine Sim.cons (step_nullary p_c_3 (by decide) (by rfl)) ?_
  refine Sim.cons (step_unary p_c_3 p_v18 (by decide) (by decide) (by intro _; rfl)) ?_
  refine Sim.cons (step_binary p_v3 p_v18 p_v19 (by decide) (by decide) (by decide) (by intro _ _; rfl)) ?_
  refine Sim.cons (step_ternary p_v17 p_v19 p_v3 p_v20 (by decide) (by decide) (by decide) (by decide) (by intro _ _ _; rfl)) ?_
  refine Sim.cons (step_unary p_v20 p_v21 (by decide) (by decide) (by intro _; rfl)) ?_
  refine Sim.cons (step_binary p_v8 p_v21 p_v22 (by decide) (by decide) (by decide) (by intro _ _; rfl)) ?_
  refine Sim.cons (step_binary p_v15 p_v22 p_v23 (by decide) (by decide) (by decide) (by intro _ _; rfl)) ?_
  refine Sim.cons (step_nullary p_c_4 (by decide) (by rfl)) ?_
  refine Sim.cons (step_unary p_c_4 p_v24 (by decide) (by decide) (by intro _; rfl)) ?_
  refine Sim.cons (step_binary p_v2 p_v24 p_v25 (by decide) (by decide) (by decide) (by intro _ _; rfl)) ?_
  refine Sim.cons (step_nullary p_c_5 (by decide) (by rfl)) ?_
  refine Sim.cons (step_unary p_c_5 p_v26 (by decide) (by decide) (by intro _; rfl)) ?_
  refine Sim.cons (step_binary p_v2 p_v26 p_v27 (by decide) (by decide) (by decide) (by intro _ _; rfl)) ?_
  refine Sim.cons (step_ternary p_v25 p_v27 p_v2 p_v28 (by decide) (by decide) (by decide) (by decide) (by intro _ _ _; rfl)) ?_
  refine Sim.cons (step_unary p_v28 p_v29 (by decide) (by decide) (by intro _; rfl)) ?_
  refine Sim.cons (step_binary p_v0 p_v29 p_v30 (by decide) (by decide) (by decide) (by intro _ _; rfl)) ?_
  refine Sim.cons (step_unary p_v23 p_v31 (by decide) (by decide) (by intro _; rfl)) ?_
  refine Sim.cons (step_unary p_v31 p_v32 (by decide) (by decide) (by intro _; rfl)) ?_
  refine Sim.cons (step_binary p_v30 p_v32 p_v33 (by decide) (by decide) (by decide) (by intro _ _; rfl)) ?_
  refine Sim.cons (step_nullary p_cst_6 (by decide) (by rfl)) ?_
  refine Sim.cons (step_unary p_cst_6 p_v34 (by decide) (by decide) (by intro _; rfl)) ?_
  refine Sim.cons (step_unary p_v3 p_v35 (by decide) (by decide) (by intro _; rfl)) ?_
  refine Sim.cons (step_ternary p_v34 p_v35 p_v33 p_v36 (by decide) (by decide) (by decide) (by decide) (by intro _ _ _; rfl)) ?_
  refine Sim.cons (step_unary p_arg6 p_v37 (by decide) (by decide) (by intro _; rfl)) ?_
  refine Sim.cons (step_unary p_v37 p_v38 (by decide) (by decide) (by intro _; rfl)) ?_
  refine Sim.cons (step_binary p_v36 p_v38 p_v39 (by decide) (by decide) (by decide) (by intro _ _; rfl)) ?_
  refine Sim.cons (step_unary p_v39 p_v40 (by decide) (by decide) (by intro _; rfl)) ?_
  refine Sim.cons (step_unary p_v40 p_v41 (by decide) (by decide) (by intro _; rfl)) ?_
  refine Sim.cons (step_nullary p_cst_7 (by decide) (by rfl)) ?_
  refine Sim.cons (step_unary p_cst_7 p_v42 (by decide) (by decide) (by intro _; rfl)) ?_
  refine Sim.cons (step_binary p_v42 p_v41 p_v43 (by decide) (by decide) (by decide) (by intro _ _; rfl)) ?_
  refine Sim.cons (step_nullary p_cst_8 (by decide) (by rfl)) ?_
  refine Sim.cons (step_unary p_cst_8 p_v44 (by decide) (by decide) (by intro _; rfl)) ?_
  refine Sim.cons (step_binary p_v44 p_v43 p_v45 (by decide) (by decide) (by decide) (by intro _ _; rfl)) ?_
  refine Sim.cons (step_nullary p_cst_9 (by decide) (by rfl)) ?_
  refine Sim.cons (step_binary p_v45 p_cst_9 p_v46 (by decide) (by decide) (by decide) (by intro _ _; rfl)) ?_
  refine Sim.cons (step_nullary p_cst_10 (by decide) (by rfl)) ?_
  exact Sim.nil (by decide)
end Cert.Proof.Latent

end
-- ==== Proof.Latent.W1.lean ====
import proofs.«119114_j25752623907299_2_alg».proof.Proof.Latent.Pairs

noncomputable section

namespace Cert.Proof.Latent

open Idealize.ShloMosaic Idealize.ShloMosaic.TcCoe Idealize.SL.Sem Idealize.ShloMosaic.StableHlo
open Cert.ReferenceIdeal.HandRun Cert.Lib.LineSimulation

variable {F : FTy → Type} [FloatOps F]

/-- Operations 61 … 120 of the two host prefixes, one against the other: each pair reads paired buffers, applies the
    same function and writes a fresh pair. Agreement on the arguments and on the earlier values still read becomes
    agreement on the arguments and on the values later operations read. -/
theorem sim1 : Sim (τA := Cert.ReferenceIdeal.τ) (τB := Cert.KernelIdeal.τ) (Val := Elt F) (p_v45 :: p_v46 :: p_cst_10 :: argPairs)
    (ops1 (F := F)) (Cert.KernelIdeal.Gen.main_part1_ops0 (F := F)) (p_v67 :: p_v68 :: p_v70 :: p_v71 :: p_v91 :: p_v93 :: p_v95 :: argPairs) := by
  refine Sim.cons (step_unary p_cst_10 p_v47 (by decide) (by decide) (by intro _; rfl)) ?_
  refine Sim.cons (step_binary p_v46 p_v47 p_v48 (by decide) (by decide) (by decide) (by intro _ _; rfl)) ?_
  refine Sim.cons (step_unary p_v48 p_v49 (by decide) (by decide) (by intro _; rfl)) ?_
  refine Sim.cons (step_unary p_v49 p_v50 (by decide) (by decide) (by intro _; rfl)) ?_
  refine Sim.cons (step_binary p_v45 p_v50 p_v51 (by decide) (by decide) (by decide) (by intro _ _; rfl)) ?_
  refine Sim.cons (step_binary p_v51 p_v51 p_v52 (by decide) (by decide) (by decide) (by intro _ _; rfl)) ?_
  refine Sim.cons (step_nullary p_cst_11 (by decide) (by rfl)) ?_
  refine Sim.cons (step_binary p_v52 p_cst_11 p_v53 (by decide) (by decide) (by decide) (by intro _ _; rfl)) ?_
  refine Sim.cons (step_nullary p_cst_12 (by decide) (by rfl)) ?_
  refine Sim.cons (step_unary p_cst_12 p_v54 (by decide) (by decide) (by intro _; rfl)) ?_
  refine Sim.cons (step_binary p_v53 p_v54 p_v55 (by decide) (by decide) (by decide) (by intro _ _; rfl)) ?_
  refine Sim.cons (step_nullary p_cst_13 (by decide) (by rfl)) ?_
  refine Sim.cons (step_unary p_cst_13 p_v56 (by decide) (by decide) (by intro _; rfl)) ?_
  refine Sim.cons (step_binary p_v55 p_v56 p_v57 (by decide) (by decide) (by decide) (by intro _ _; rfl)) ?_
  refine Sim.cons (step_unary p_v57 p_v58 (by decide) (by decide) (by intro _; rfl)) ?_
  refine Sim.cons (step_unary p_v58 p_v59 (by decide) (by decide) (by intro _; rfl)) ?_
  refine Sim.cons (step_unary p_v59 p_v60 (by decide) (by decide) (by intro _; rfl)) ?_
  refine Sim.cons (step_binary p_v51 p_v60 p_v61 (by decide) (by decide) (by decide) (by intro _ _; rfl)) ?_
  refine Sim.cons (step_unary p_arg7 p_v62 (by decide) (by decide) (by intro _; rfl)) ?_
  refine Sim.cons (step_unary p_v62 p_v63 (by decide) (by decide) (by intro _; rfl)) ?_
  refine Sim.cons (step_binary p_v61 p_v63 p_v64 (by decide) (by decide) (by decide) (by intro _ _; rfl)) ?_
  refine Sim.cons (step_unary p_arg8 p_v65 (by decide) (by decide) (by intro _; rfl)) ?_
  refine Sim.cons (step_unary p_v65 p_v66 (by decide) (by decide) (by intro _; rfl)) ?_
  refine Sim.cons (step_binary p_v64 p_v66 p_v67 (by decide) (by decide) (by decide) (by intro _ _; rfl)) ?_
  refine Sim.cons (step_binary p_v67 p_arg9 p_v68 (by decide) (by decide) (by decide) (by intro _ _; rfl)) ?_
  refine Sim.cons (step_nullary p_v69 (by decide) (by rfl)) ?_
  refine Sim.cons (step_binary p_arg1 p_v69 p_v70 (by decide) (by decide) (by decide) (by intro _ _; rfl)) ?_
  refine Sim.cons (step_binary p_arg2 p_v69 p_v71 (by decide) (by decide) (by decide) (by intro _ _; rfl)) ?_
  refine Sim.cons (step_nullary p_cst_14 (by decide) (by rfl)) ?_
  refine Sim.cons (step_unary p_cst_14 p_v72 (by decide) (by decide) (by intro _; rfl)) ?_
  refine Sim.cons (step_nullary p_cst_15 (by decide) (by rfl)) ?_
  refine Sim.cons (step_unary p_cst_15 p_v73 (by decide) (by decide) (by intro _; rfl)) ?_
  refine Sim.cons (step_unary p_v71 p_v74 (by decide) (by decide) (by intro _; rfl)) ?_
  refine Sim.cons (step_ternary p_v73 p_v74 p_v72 p_v75 (by decide) (by decide) (by decide) (by decide) (by intro _ _ _; rfl)) ?_
  refine Sim.cons (step_unary p_v75 p_v76 (by decide) (by decide) (by intro _; rfl)) ?_
  refine Sim.cons (step_nullary p_c_16 (by decide) (by rfl)) ?_
  refine Sim.cons (step_unary p_c_16 p_v77 (by decide) (by decide) (by intro _; rfl)) ?_
  refine Sim.cons (step_binary p_v70 p_v77 p_v78 (by decide) (by decide) (by decide) (by intro _ _; rfl)) ?_
  refine Sim.cons (step_nullary p_c_17 (by decide) (by rfl)) ?_
  refine Sim.cons (step_unary p_c_17 p_v79 (by decide) (by decide) (by intro _; rfl)) ?_
  refine Sim.cons (step_binary p_v70 p_v79 p_v80 (by decide) (by decide) (by decide) (by intro _ _; rfl)) ?_
  refine Sim.cons (step_ternary p_v78 p_v80 p_v70 p_v81 (by decide) (by decide) (by decide) (by decide) (by intro _ _ _; rfl)) ?_
  refine Sim.cons (step_unary p_v81 p_v82 (by decide) (by decide) (by intro _; rfl)) ?_
  refine Sim.cons (step_binary p_v76 p_v82 p_v83 (by decide) (by decide) (by decide) (by intro _ _; rfl)) ?_
  refine Sim.cons (step_nullary p_c_18 (by decide) (by rfl)) ?_
  refine Sim.cons (step_unary p_c_18 p_v84 (by decide) (by decide) (by intro _; rfl)) ?_
  refine Sim.cons (step_binary p_v71 p_v84 p_v85 (by decide) (by decide) (by decide) (by intro _ _; rfl)) ?_
  refine Sim.cons (step_nullary p_c_19 (by decide) (by rfl)) ?_
  refine Sim.cons (step_unary p_c_19 p_v86 (by decide) (by decide) (by intro _; rfl)) ?_
  refine Sim.cons (step_binary p_v71 p_v86 p_v87 (by decide) (by decide) (by decide) (by intro _ _; rfl)) ?_
  refine Sim.cons (step_ternary p_v85 p_v87 p_v71 p_v88 (by decide) (by decide) (by decide) (by decide) (by intro _ _ _; rfl)) ?_
  refine Sim.cons (step_unary p_v88 p_v89 (by decide) (by decide) (by intro _; rfl)) ?_
  refine Sim.cons (step_binary p_v76 p_v89 p_v90 (by decide) (by decide) (by decide) (by intro _ _; rfl)) ?_
  refine Sim.cons (step_binary p_v83 p_v90 p_v91 (by decide) (by decide) (by decide) (by intro _ _; rfl)) ?_
  refine Sim.cons (step_nullary p_c_20 (by decide) (by rfl)) ?_
  refine Sim.cons (step_unary p_c_20 p_v92 (by decide) (by decide) (by intro _; rfl)) ?_
  refine Sim.cons (step_binary p_v70 p_v92 p_v93 (by decide) (by decide) (by decide) (by intro _ _; rfl)) ?_
  refine Sim.cons (step_nullary p_c_21 (by decide) (by rfl)) ?_
  refine Sim.cons (step_unary p_c_21 p_v94 (by decide) (by decide) (by intro _; rfl)) ?_
  refine Sim.cons (step_binary p_v70 p_v94 p_v95 (by decide) (by decide) (by decide) (by intro _ _; rfl)) ?_
  exact Sim.nil (by decide)
end Cert.Proof.Latent

end
-- ==== Proof.Latent.W2.lean ====
import proofs.«119114_j25752623907299_2_alg».proof.Proof.Latent.Pairs

noncomputable section

namespace Cert.Proof.Latent

open Idealize.ShloMosaic Idealize.ShloMosaic.TcCoe Idealize.SL.Sem Idealize.ShloMosaic.StableHlo
open Cert.ReferenceIdeal.HandRun Cert.Lib.LineSimulation

variable {F : FTy → Type} [FloatOps F]

/-- Operations 121 … 180 of the two host prefixes, one against the other: each pair reads paired buffers, applies the
    same function and writes a fresh pair. Agreement on the arguments and on the earlier values still read becomes
    agreement on the arguments and on the values later operations read. -/
theorem sim2 : Sim (τA := Cert.ReferenceIdeal.τ) (τB := Cert.KernelIdeal.τ) (Val := Elt F) (p_v67 :: p_v68 :: p_v70 :: p_v71 :: p_v91 :: p_v93 :: p_v95 :: argPairs)
    (ops2 (F := F)) (Cert.KernelIdeal.Gen.main_part2_ops0 (F := F)) (p_v135 :: p_v136 :: p_v138 :: p_v139 :: p_v144 :: p_c_32 :: argPairs) := by
  refine Sim.cons (step_ternary p_v93 p_v95 p_v70 p_v96 (by decide) (by decide) (by decide) (by decide) (by intro _ _ _; rfl)) ?_
  refine Sim.cons (step_unary p_v96 p_v97 (by decide) (by decide) (by intro _; rfl)) ?_
  refine Sim.cons (step_binary p_v68 p_v97 p_v98 (by decide) (by decide) (by decide) (by intro _ _; rfl)) ?_
  refine Sim.cons (step_unary p_v91 p_v99 (by decide) (by decide) (by intro _; rfl)) ?_
  refine Sim.cons (step_unary p_v99 p_v100 (by decide) (by decide) (by intro _; rfl)) ?_
  refine Sim.cons (step_binary p_v98 p_v100 p_v101 (by decide) (by decide) (by decide) (by intro _ _; rfl)) ?_
  refine Sim.cons (step_nullary p_cst_22 (by decide) (by rfl)) ?_
  refine Sim.cons (step_unary p_cst_22 p_v102 (by decide) (by decide) (by intro _; rfl)) ?_
  refine Sim.cons (step_unary p_v71 p_v103 (by decide) (by decide) (by intro _; rfl)) ?_
  refine Sim.cons (step_ternary p_v102 p_v103 p_v101 p_v104 (by decide) (by decide) (by decide) (by decide) (by intro _ _ _; rfl)) ?_
  refine Sim.cons (step_unary p_arg10 p_v105 (by decide) (by decide) (by intro _; rfl)) ?_
  refine Sim.cons (step_unary p_v105 p_v106 (by decide) (by decide) (by intro _; rfl)) ?_
  refine Sim.cons (step_binary p_v104 p_v106 p_v107 (by decide) (by decide) (by decide) (by intro _ _; rfl)) ?_
  refine Sim.cons (step_unary p_v107 p_v108 (by decide) (by decide) (by intro _; rfl)) ?_
  refine Sim.cons (step_unary p_v108 p_v109 (by decide) (by decide) (by intro _; rfl)) ?_
  refine Sim.cons (step_nullary p_cst_23 (by decide) (by rfl)) ?_
  refine Sim.cons (step_unary p_cst_23 p_v110 (by decide) (by decide) (by intro _; rfl)) ?_
  refine Sim.cons (step_binary p_v110 p_v109 p_v111 (by decide) (by decide) (by decide) (by intro _ _; rfl)) ?_
  refine Sim.cons (step_nullary p_cst_24 (by decide) (by rfl)) ?_
  refine Sim.cons (step_unary p_cst_24 p_v112 (by decide) (by decide) (by intro _; rfl)) ?_
  refine Sim.cons (step_binary p_v112 p_v111 p_v113 (by decide) (by decide) (by decide) (by intro _ _; rfl)) ?_
  refine Sim.cons (step_nullary p_cst_25 (by decide) (by rfl)) ?_
  refine Sim.cons (step_binary p_v113 p_cst_25 p_v114 (by decide) (by decide) (by decide) (by intro _ _; rfl)) ?_
  refine Sim.cons (step_nullary p_cst_26 (by decide) (by rfl)) ?_
  refine Sim.cons (step_unary p_cst_26 p_v115 (by decide) (by decide) (by intro _; rfl)) ?_
  refine Sim.cons (step_binary p_v114 p_v115 p_v116 (by decide) (by decide) (by decide) (by intro _ _; rfl)) ?_
  refine Sim.cons (step_unary p_v116 p_v117 (by decide) (by decide) (by intro _; rfl)) ?_
  refine Sim.cons (step_unary p_v117 p_v118 (by decide) (by decide) (by intro _; rfl)) ?_
  refine Sim.cons (step_binary p_v113 p_v118 p_v119 (by decide) (by decide) (by decide) (by intro _ _; rfl)) ?_
  refine Sim.cons (step_binary p_v119 p_v119 p_v120 (by decide) (by decide) (by decide) (by intro _ _; rfl)) ?_
  refine Sim.cons (step_nullary p_cst_27 (by decide) (by rfl)) ?_
  refine Sim.cons (step_binary p_v120 p_cst_27 p_v121 (by decide) (by decide) (by decide) (by intro _ _; rfl)) ?_
  refine Sim.cons (step_nullary p_cst_28 (by decide) (by rfl)) ?_
  refine Sim.cons (step_unary p_cst_28 p_v122 (by decide) (by decide) (by intro _; rfl)) ?_
  refine Sim.cons (step_binary p_v121 p_v122 p_v123 (by decide) (by decide) (by decide) (by intro _ _; rfl)) ?_
  refine Sim.cons (step_nullary p_cst_29 (by decide) (by rfl)) ?_
  refine Sim.cons (step_unary p_cst_29 p_v124 (by decide) (by decide) (by intro _; rfl)) ?_
  refine Sim.cons (step_binary p_v123 p_v124 p_v125 (by decide) (by decide) (by decide) (by intro _ _; rfl)) ?_
  refine Sim.cons (step_unary p_v125 p_v126 (by decide) (by decide) (by intro _; rfl)) ?_
  refine Sim.cons (step_unary p_v126 p_v127 (by decide) (by decide) (by intro _; rfl)) ?_
  refine Sim.cons (step_unary p_v127 p_v128 (by decide) (by decide) (by intro _; rfl)) ?_
  refine Sim.cons (step_binary p_v119 p_v128 p_v129 (by decide) (by decide) (by decide) (by intro _ _; rfl)) ?_
  refine Sim.cons (step_unary p_arg11 p_v130 (by decide) (by decide) (by intro _; rfl)) ?_
  refine Sim.cons (step_unary p_v130 p_v131 (by decide) (by decide) (by intro _; rfl)) ?_
  refine Sim.cons (step_binary p_v129 p_v131 p_v132 (by decide) (by decide) (by decide) (by intro _ _; rfl)) ?_
  refine Sim.cons (step_unary p_arg12 p_v133 (by decide) (by decide) (by intro _; rfl)) ?_
  refine Sim.cons (step_unary p_v133 p_v134 (by decide) (by decide) (by intro _; rfl)) ?_
  refine Sim.cons (step_binary p_v132 p_v134 p_v135 (by decide) (by decide) (by decide) (by intro _ _; rfl)) ?_
  refine Sim.cons (step_binary p_v67 p_arg13 p_v136 (by decide) (by decide) (by decide) (by intro _ _; rfl)) ?_
  refine Sim.cons (step_nullary p_v137 (by decide) (by rfl)) ?_
  refine Sim.cons (step_binary p_arg1 p_v137 p_v138 (by decide) (by decide) (by decide) (by intro _ _; rfl)) ?_
  refine Sim.cons (step_binary p_arg2 p_v137 p_v139 (by decide) (by decide) (by decide) (by intro _ _; rfl)) ?_
  refine Sim.cons (step_nullary p_cst_30 (by decide) (by rfl)) ?_
  refine Sim.cons (step_unary p_cst_30 p_v140 (by decide) (by decide) (by intro _; rfl)) ?_
  refine Sim.cons (step_nullary p_cst_31 (by decide) (by rfl)) ?_
  refine Sim.cons (step_unary p_cst_31 p_v141 (by decide) (by decide) (by intro _; rfl)) ?_
  refine Sim.cons (step_unary p_v139 p_v142 (by decide) (by decide) (by intro _; rfl)) ?_
  refine Sim.cons (step_ternary p_v141 p_v142 p_v140 p_v143 (by decide) (by decide) (by decide) (by decide) (by intro _ _ _; rfl)) ?_
  refine Sim.cons (step_unary p_v143 p_v144 (by decide) (by decide) (by intro _; rfl)) ?_
  refine Sim.cons (step_nullary p_c_32 (by decide) (by rfl)) ?_
  exact Sim.nil (by decide)
end Cert.Proof.Latent

end
-- ==== Proof.Latent.W3.lean ====
import proofs.«119114_j25752623907299_2_alg».proof.Proof.Latent.Pairs

noncomputable section

namespace Cert.Proof.Latent

open Idealize.ShloMosaic Idealize.ShloMosaic.TcCoe Idealize.SL.Sem Idealize.ShloMosaic.StableHlo
open Cert.ReferenceIdeal.HandRun Cert.Lib.LineSimulation

variable {F : FTy → Type} [FloatOps F]

/-- Operations 181 … 240 of the two host prefixes, one against the other: each pair reads paired buffers, applies the
    same function and writes a fresh pair. Agreement on the arguments and on the earlier values still read becomes
    agreement on the arguments and on the values later operations read. -/
theorem sim3 : Sim (τA := Cert.ReferenceIdeal.τ) (τB := Cert.KernelIdeal.τ) (Val := Elt F) (p_v135 :: p_v136 :: p_v138 :: p_v139 :: p_v144 :: p_c_32 :: argPairs)
    (ops3 (F := F)) (Cert.KernelIdeal.Gen.main_part3_ops0 (F := F)) (p_v135 :: p_v187 :: p_v191 :: p_cst_45 :: argPairs) := by
  refine Sim.cons (step_unary p_c_32 p_v145 (by decide) (by decide) (by intro _; rfl)) ?_
  refine Sim.cons (step_binary p_v138 p_v145 p_v146 (by decide) (by decide) (by decide) (by intro _ _; rfl)) ?_
  refine Sim.cons (step_nullary p_c_33 (by decide) (by rfl)) ?_
  refine Sim.cons (step_unary p_c_33 p_v147 (by decide) (by decide) (by intro _; rfl)) ?_
  refine Sim.cons (step_binary p_v138 p_v147 p_v148 (by decide) (by decide) (by decide) (by intro _ _; rfl)) ?_
  refine Sim.cons (step_ternary p_v146 p_v148 p_v138 p_v149 (by decide) (by decide) (by decide) (by decide) (by intro _ _ _; rfl)) ?_
  refine Sim.cons (step_unary p_v149 p_v150 (by decide) (by decide) (by intro _; rfl)) ?_
  refine Sim.cons (step_binary p_v144 p_v150 p_v151 (by decide) (by decide) (by decide) (by intro _ _; rfl)) ?_
  refine Sim.cons (step_nullary p_c_34 (by decide) (by rfl)) ?_
  refine Sim.cons (step_unary p_c_34 p_v152 (by decide) (by decide) (by intro _; rfl)) ?_
  refine Sim.cons (step_binary p_v139 p_v152 p_v153 (by decide) (by decide) (by decide) (by intro _ _; rfl)) ?_
  refine Sim.cons (step_nullary p_c_35 (by decide) (by rfl)) ?_
  refine Sim.cons (step_unary p_c_35 p_v154 (by decide) (by decide) (by intro _; rfl)) ?_
  refine Sim.cons (step_binary p_v139 p_v154 p_v155 (by decide) (by decide) (by decide) (by intro _ _; rfl)) ?_
  refine Sim.cons (step_ternary p_v153 p_v155 p_v139 p_v156 (by decide) (by decide) (by decide) (by decide) (by intro _ _ _; rfl)) ?_
  refine Sim.cons (step_unary p_v156 p_v157 (by decide) (by decide) (by intro _; rfl)) ?_
  refine Sim.cons (step_binary p_v144 p_v157 p_v158 (by decide) (by decide) (by decide) (by intro _ _; rfl)) ?_
  refine Sim.cons (step_binary p_v151 p_v158 p_v159 (by decide) (by decide) (by decide) (by intro _ _; rfl)) ?_
  refine Sim.cons (step_nullary p_c_36 (by decide) (by rfl)) ?_
  refine Sim.cons (step_unary p_c_36 p_v160 (by decide) (by decide) (by intro _; rfl)) ?_
  refine Sim.cons (step_binary p_v138 p_v160 p_v161 (by decide) (by decide) (by decide) (by intro _ _; rfl)) ?_
  refine Sim.cons (step_nullary p_c_37 (by decide) (by rfl)) ?_
  refine Sim.cons (step_unary p_c_37 p_v162 (by decide) (by decide) (by intro _; rfl)) ?_
  refine Sim.cons (step_binary p_v138 p_v162 p_v163 (by decide) (by decide) (by decide) (by intro _ _; rfl)) ?_
  refine Sim.cons (step_ternary p_v161 p_v163 p_v138 p_v164 (by decide) (by decide) (by decide) (by decide) (by intro _ _ _; rfl)) ?_
  refine Sim.cons (step_unary p_v164 p_v165 (by decide) (by decide) (by intro _; rfl)) ?_
  refine Sim.cons (step_binary p_v136 p_v165 p_v166 (by decide) (by decide) (by decide) (by intro _ _; rfl)) ?_
  refine Sim.cons (step_unary p_v159 p_v167 (by decide) (by decide) (by intro _; rfl)) ?_
  refine Sim.cons (step_unary p_v167 p_v168 (by decide) (by decide) (by intro _; rfl)) ?_
  refine Sim.cons (step_binary p_v166 p_v168 p_v169 (by decide) (by decide) (by decide) (by intro _ _; rfl)) ?_
  refine Sim.cons (step_nullary p_cst_38 (by decide) (by rfl)) ?_
  refine Sim.cons (step_unary p_cst_38 p_v170 (by decide) (by decide) (by intro _; rfl)) ?_
  refine Sim.cons (step_unary p_v139 p_v171 (by decide) (by decide) (by intro _; rfl)) ?_
  refine Sim.cons (step_ternary p_v170 p_v171 p_v169 p_v172 (by decide) (by decide) (by decide) (by decide) (by intro _ _ _; rfl)) ?_
  refine Sim.cons (step_unary p_arg14 p_v173 (by decide) (by decide) (by intro _; rfl)) ?_
  refine Sim.cons (step_unary p_v173 p_v174 (by decide) (by decide) (by intro _; rfl)) ?_
  refine Sim.cons (step_binary p_v172 p_v174 p_v175 (by decide) (by decide) (by decide) (by intro _ _; rfl)) ?_
  refine Sim.cons (step_unary p_v175 p_v176 (by decide) (by decide) (by intro _; rfl)) ?_
  refine Sim.cons (step_unary p_v176 p_v177 (by decide) (by decide) (by intro _; rfl)) ?_
  refine Sim.cons (step_nullary p_cst_39 (by decide) (by rfl)) ?_
  refine Sim.cons (step_unary p_cst_39 p_v178 (by decide) (by decide) (by intro _; rfl)) ?_
  refine Sim.cons (step_binary p_v178 p_v177 p_v179 (by decide) (by decide) (by decide) (by intro _ _; rfl)) ?_
  refine Sim.cons (step_nullary p_cst_40 (by decide) (by rfl)) ?_
  refine Sim.cons (step_unary p_cst_40 p_v180 (by decide) (by decide) (by intro _; rfl)) ?_
  refine Sim.cons (step_binary p_v180 p_v179 p_v181 (by decide) (by decide) (by decide) (by intro _ _; rfl)) ?_
  refine Sim.cons (step_nullary p_cst_41 (by decide) (by rfl)) ?_
  refine Sim.cons (step_binary p_v181 p_cst_41 p_v182 (by decide) (by decide) (by decide) (by intro _ _; rfl)) ?_
  refine Sim.cons (step_nullary p_cst_42 (by decide) (by rfl)) ?_
  refine Sim.cons (step_unary p_cst_42 p_v183 (by decide) (by decide) (by intro _; rfl)) ?_
  refine Sim.cons (step_binary p_v182 p_v183 p_v184 (by decide) (by decide) (by decide) (by intro _ _; rfl)) ?_
  refine Sim.cons (step_unary p_v184 p_v185 (by decide) (by decide) (by intro _; rfl)) ?_
  refine Sim.cons (step_unary p_v185 p_v186 (by decide) (by decide) (by intro _; rfl)) ?_
  refine Sim.cons (step_binary p_v181 p_v186 p_v187 (by decide) (by decide) (by decide) (by intro _ _; rfl)) ?_
  refine Sim.cons (step_binary p_v187 p_v187 p_v188 (by decide) (by decide) (by decide) (by intro _ _; rfl)) ?_
  refine Sim.cons (step_nullary p_cst_43 (by decide) (by rfl)) ?_
  refine Sim.cons (step_binary p_v188 p_cst_43 p_v189 (by decide) (by decide) (by decide) (by intro _ _; rfl)) ?_
  refine Sim.cons (step_nullary p_cst_44 (by decide) (by rfl)) ?_
  refine Sim.cons (step_unary p_cst_44 p_v190 (by decide) (by decide) (by intro _; rfl)) ?_
  refine Sim.cons (step_binary p_v189 p_v190 p_v191 (by decide) (by decide) (by decide) (by intro _ _; rfl)) ?_
  refine Sim.cons (step_nullary p_cst_45 (by decide) (by rfl)) ?_
  exact Sim.nil (by decide)
end Cert.Proof.Latent

end
-- ==== Proof.Latent.W4.lean ====
import proofs.«119114_j25752623907299_2_alg».proof.Proof.Latent.Pairs

noncomputable section

namespace Cert.Proof.Latent

open Idealize.ShloMosaic Idealize.ShloMosaic.TcCoe Idealize.SL.Sem Idealize.ShloMosaic.StableHlo
open Cert.ReferenceIdeal.HandRun Cert.Lib.LineSimulation

variable {F : FTy → Type} [FloatOps F]

/-- Operations 241 … 255 of the two host prefixes, one against the other: each pair reads paired buffers, applies the
    same function and writes a fresh pair. Agreement on the arguments and on the earlier values still read becomes
    agreement on the arguments and on the values later operations read. -/
theorem sim4 : Sim (τA := Cert.ReferenceIdeal.τ) (τB := Cert.KernelIdeal.τ) (Val := Elt F) (p_v135 :: p_v187 :: p_v191 :: p_cst_45 :: argPairs)
    (ops4a (F := F)) (Cert.KernelIdeal.Gen.main_part4_ops0 (F := F)) (p_v206 :: argPairs) := by
  refine Sim.cons (step_unary p_cst_45 p_v192 (by decide) (by decide) (by intro _; rfl)) ?_
  refine Sim.cons (step_binary p_v191 p_v192 p_v193 (by decide) (by decide) (by decide) (by intro _ _; rfl)) ?_
  refine Sim.cons (step_unary p_v193 p_v194 (by decide) (by decide) (by intro _; rfl)) ?_
  refine Sim.cons (step_unary p_v194 p_v195 (by decide) (by decide) (by intro _; rfl)) ?_
  refine Sim.cons (step_unary p_v195 p_v196 (by decide) (by decide) (by intro _; rfl)) ?_
  refine Sim.cons (step_binary p_v187 p_v196 p_v197 (by decide) (by decide) (by decide) (by intro _ _; rfl)) ?_
  refine Sim.cons (step_unary p_arg15 p_v198 (by decide) (by decide) (by intro _; rfl)) ?_
  refine Sim.cons (step_unary p_v198 p_v199 (by decide) (by decide) (by intro _; rfl)) ?_
  refine Sim.cons (step_binary p_v197 p_v199 p_v200 (by decide) (by decide) (by decide) (by intro _ _; rfl)) ?_
  refine Sim.cons (step_unary p_arg16 p_v201 (by decide) (by decide) (by intro _; rfl)) ?_
  refine Sim.cons (step_unary p_v201 p_v202 (by decide) (by decide) (by intro _; rfl)) ?_
  refine Sim.cons (step_binary p_v200 p_v202 p_v203 (by decide) (by decide) (by decide) (by intro _ _; rfl)) ?_
  refine Sim.cons (step_unary p_v203 p_v204 (by decide) (by decide) (by intro _; rfl)) ?_
  refine Sim.cons (step_binary p_arg4 p_v204 p_v205 (by decide) (by decide) (by decide) (by intro _ _; rfl)) ?_
  refine Sim.cons (step_binary p_v205 p_v135 p_v206 (by decide) (by decide) (by decide) (by intro _ _; rfl)) ?_
  exact Sim.nil (by decide)
end Cert.Proof.Latent

end
-- ==== Proof.Latent.KernelWindows.lean ====
import proofs.«119114_j25752623907299_2_alg».proof.Proof.Gen.KernelIdeal.Launch

noncomputable section

namespace Cert.Proof.Latent

open Cert.KernelIdeal Cert.KernelIdeal.Gen
open Idealize.ShloMosaic Idealize.SL.Sem

variable {F : FTy → Type} [FloatOps F]

/-- The 255 host operations the kernel program runs before its two calls are @main's five windows of them, one after
    the other: the same operations in the same order, cut at the window boundaries. -/
theorem hostOps0_eq_windows : (hostOps0 : List (HloOp τ sig (Elt F)))
    = main_part0_ops0 ++ (main_part1_ops0 ++ (main_part2_ops0 ++ (main_part3_ops0 ++ main_part4_ops0))) := by
  chain_rfl

end Cert.Proof.Latent

end
-- ==== Proof.LatentAgree.lean ====
import proofs.«119114_j25752623907299_2_alg».proof.Proof.Latent.W0
import proofs.«119114_j25752623907299_2_alg».proof.Proof.Latent.W1
import proofs.«119114_j25752623907299_2_alg».proof.Proof.Latent.W2
import proofs.«119114_j25752623907299_2_alg».proof.Proof.Latent.W3
import proofs.«119114_j25752623907299_2_alg».proof.Proof.Latent.W4
import proofs.«119114_j25752623907299_2_alg».proof.Proof.Latent.KernelWindows

/-! # The two programs' host prefixes compute one latent array

The reference's first 255 operations and the kernel program's 255 host operations are the same statements over their
own buffers. Window by window they correspond operation by operation (`sim0` … `sim4`), so from valuations that agree
on the 21 arguments the two folds agree on the third encoder layer's output `main_v206`. -/

noncomputable section

namespace Cert.Proof.Latent

open Idealize.ShloMosaic Idealize.ShloMosaic.TcCoe Idealize.SL.Sem Idealize.ShloMosaic.StableHlo
open Cert.ReferenceIdeal.HandRun Cert.Lib.LineSimulation

variable {F : FTy → Type} [FloatOps F]

/-- The whole prefixes, one against the other: agreement on the arguments becomes agreement on the arguments and on
    the latent array. -/
theorem sim_pre : Sim (τA := Cert.ReferenceIdeal.τ) (τB := Cert.KernelIdeal.τ) (Val := Elt F) argPairs
    (pre (F := F)) (Cert.KernelIdeal.Gen.hostOps0 (F := F)) (p_v206 :: argPairs) := by
  rw [hostOps0_eq_windows]
  exact sim0.append (sim1.append (sim2.append (sim3.append sim4)))

/-- From valuations that agree on the 21 arguments, the reference's prefix and the kernel program's host prefix leave
    the same latent array in `main_v206`. -/
theorem latent_agree (WK : Valuation Cert.KernelIdeal.τ Cert.KernelIdeal.sig (Elt F)) (WR : Valuation Cert.ReferenceIdeal.τ Cert.ReferenceIdeal.sig (Elt F))
    (h0 : WR (Proc.devRef .tc Cert.ReferenceIdeal.main_arg0) = WK (Proc.devRef .tc Cert.KernelIdeal.main_arg0))
    (h1 : WR (Proc.devRef .tc Cert.ReferenceIdeal.main_arg1) = WK (Proc.devRef .tc Cert.KernelIdeal.main_arg1))
    (h2 : WR (Proc.devRef .tc Cert.ReferenceIdeal.main_arg2) = WK (Proc.devRef .tc Cert.KernelIdeal.main_arg2))
    (h3 : WR (Proc.devRef .tc Cert.ReferenceIdeal.main_arg3) = WK (Proc.devRef .tc Cert.KernelIdeal.main_arg3))
    (h4 : WR (Proc.devRef .tc Cert.ReferenceIdeal.main_arg4) = WK (Proc.devRef .tc Cert.KernelIdeal.main_arg4))
    (h5 : WR (Proc.devRef .tc Cert.ReferenceIdeal.main_arg5) = WK (Proc.devRef .tc Cert.KernelIdeal.main_arg5))
    (h6 : WR (Proc.devRef .tc Cert.ReferenceIdeal.main_arg6) = WK (Proc.devRef .tc Cert.KernelIdeal.main_arg6))
    (h7 : WR (Proc.devRef .tc Cert.ReferenceIdeal.main_arg7) = WK (Proc.devRef .tc Cert.KernelIdeal.main_arg7))
    (h8 : WR (Proc.devRef .tc Cert.ReferenceIdeal.main_arg8) = WK (Proc.devRef .tc Cert.KernelIdeal.main_arg8))
    (h9 : WR (Proc.devRef .tc Cert.ReferenceIdeal.main_arg9) = WK (Proc.devRef .tc Cert.KernelIdeal.main_arg9))
    (h10 : WR (Proc.devRef .tc Cert.ReferenceIdeal.main_arg10) = WK (Proc.devRef .tc Cert.KernelIdeal.main_arg10))
    (h11 : WR (Proc.devRef .tc Cert.ReferenceIdeal.main_arg11) = WK (Proc.devRef .tc Cert.KernelIdeal.main_arg11))
    (h12 : WR (Proc.devRef .tc Cert.ReferenceIdeal.main_arg12) = WK (Proc.devRef .tc Cert.KernelIdeal.main_arg12))
    (h13 : WR (Proc.devRef .tc Cert.ReferenceIdeal.main_arg13) = WK (Proc.devRef .tc Cert.KernelIdeal.main_arg13))
    (h14 : WR (Proc.devRef .tc Cert.ReferenceIdeal.main_arg14) = WK (Proc.devRef .tc Cert.KernelIdeal.main_arg14))
    (h15 : WR (Proc.devRef .tc Cert.ReferenceIdeal.main_arg15) = WK (Proc.devRef .tc Cert.KernelIdeal.main_arg15))
    (h16 : WR (Proc.devRef .tc Cert.ReferenceIdeal.main_arg16) = WK (Proc.devRef .tc Cert.KernelIdeal.main_arg16))
    (h17 : WR (Proc.devRef .tc Cert.ReferenceIdeal.main_arg17) = WK (Proc.devRef .tc Cert.KernelIdeal.main_arg17))
    (h18 : WR (Proc.devRef .tc Cert.ReferenceIdeal.main_arg18) = WK (Proc.devRef .tc Cert.KernelIdeal.main_arg18))
    (h19 : WR (Proc.devRef .tc Cert.ReferenceIdeal.main_arg19) = WK (Proc.devRef .tc Cert.KernelIdeal.main_arg19))
    (h20 : WR (Proc.devRef .tc Cert.ReferenceIdeal.main_arg20) = WK (Proc.devRef .tc Cert.KernelIdeal.main_arg20)) :
    after (pre (F := F)) WR (Proc.devRef .tc Cert.ReferenceIdeal.main_v206)
      = after (Cert.KernelIdeal.Gen.hostOps0 (F := F)) WK (Proc.devRef .tc Cert.KernelIdeal.main_v206) :=
  sim_pre WR WK (Agree.cons h0 <| Agree.cons h1 <| Agree.cons h2 <| Agree.cons h3 <| Agree.cons h4 <| Agree.cons h5 <| Agree.cons h6 <| Agree.cons h7 <| Agree.cons h8 <| Agree.cons h9 <| Agree.cons h10 <| Agree.cons h11 <| Agree.cons h12 <| Agree.cons h13 <| Agree.cons h14 <| Agree.cons h15 <| Agree.cons h16 <| Agree.cons h17 <| Agree.cons h18 <| Agree.cons h19 <| Agree.cons h20 <| Agree.nil) p_v206 List.mem_cons_self

end Cert.Proof.Latent

end
-- ==== Proof.LibIdealAtIndex.lean ====
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

/-! # A dense layer's pieces read at an entry, at the ideal values, for any extents

Three things a dense layer `x ↦ act (x · W + b)` is made of, each in the spelling a kernel body uses and in the
spelling a host program uses, read at one entry of the result:

* the product of an `m × k` by a `k × n` matrix, contracted on the first operand's columns and the second's rows:
  entry `(a, b)` is `∑ c, A (a, c) * B (c, b)` — no rounding, no order of summation left;
* a bias, an `n`-vector laid as one row and repeated down `m` rows: entry `(a, l)` is `v l`;
* the leaky rectifier with slope `c`: `h` where `0 ≤ h`, `c * h` elsewhere, which both programs spell as a select on
  the comparison `h ≥ 0`.

Every statement is over variables `m k n` and an arbitrary shape, so it applies to any program's records. -/

noncomputable section

namespace Cert.Lib.IdealAtIndex

open Idealize.ShloMosaic Idealize.ShloMosaic.ValueIdx

/-! ## The product of two matrices -/

section Product
variable {m k n : ℕ} {φ₁ φ₂ : FTy}

/-- The two operand entries a matrix product's entry `(a, b)` reads at contraction coordinate `c`: `(a, c)` of the
    first operand and `(c, b)` of the second. -/
theorem operand_idx (wf : DotDims.WF ⟨2, ![m, k]⟩ ⟨2, ![k, n]⟩ ⟨2, ![m, n]⟩ [1] [0] [0] [1] [] []) (a : Fin m) (b : Fin n) (c : Fin k) :
    (⟨[1], [0], [0], [1], [], [], wf⟩ : DotDims ⟨2, ![m, k]⟩ ⟨2, ![k, n]⟩ ⟨2, ![m, n]⟩).lhsIdx (ix2 a b)
        ((contrEquiv1 (⟨[1], [0], [0], [1], [], [], wf⟩ : DotDims ⟨2, ![m, k]⟩ ⟨2, ![k, n]⟩ ⟨2, ![m, n]⟩) k rfl rfl).symm c) = ix2 a c
    ∧ (⟨[1], [0], [0], [1], [], [], wf⟩ : DotDims ⟨2, ![m, k]⟩ ⟨2, ![k, n]⟩ ⟨2, ![m, n]⟩).rhsIdx (ix2 a b)
        ((contrEquiv1 (⟨[1], [0], [0], [1], [], [], wf⟩ : DotDims ⟨2, ![m, k]⟩ ⟨2, ![k, n]⟩ ⟨2, ![m, n]⟩) k rfl rfl).symm c) = ix2 c b := by
  have hc := contrEquiv1_symm_val (⟨[1], [0], [0], [1], [], [], wf⟩ : DotDims ⟨2, ![m, k]⟩ ⟨2, ![k, n]⟩ ⟨2, ![m, n]⟩) k rfl rfl c
  constructor
  · funext ax; apply Fin.ext
    match ax with
    | ⟨0, _⟩ => rfl
    | ⟨1, _⟩ => exact (DotDims.lhsIdx_val_of_single _ rfl _ _).trans hc
  · funext ax; apply Fin.ext
    match ax with
    | ⟨0, _⟩ => exact (DotDims.rhsIdx_val_of_single _ rfl _ _).trans hc
    | ⟨1, _⟩ => rfl

/-- The host's product of an `m × k` by a `k × n` matrix, read at an entry: the sum over the contracted coordinate of
    the products of the entries. -/
theorem host_product_apply (wf : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], wf⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], wf⟩ : DotDims ⟨2, ![m, k]⟩ ⟨2, ![k, n]⟩ ⟨2, ![m, n]⟩) k rfl rfl).symm]
  refine Finset.sum_congr rfl fun c _ => ?_
  rw [(operand_idx wf a b c).1, (operand_idx wf a b c).2]

/-- A kernel's product of an `m × k` by a `k × n` matrix accumulated into the zero splat, read at an entry: the same sum. -/
theorem kernel_product_apply (wf : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], wf⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], wf⟩ : DotDims ⟨2, ![m, k]⟩ ⟨2, ![k, n]⟩ ⟨2, ![m, n]⟩) k rfl rfl).symm]
  refine Finset.sum_congr rfl fun c _ => ?_
  rw [(operand_idx wf a b c).1, (operand_idx wf a b c).2]

/-- So the two spellings of the product agree entry by entry. -/
theorem kernel_product_eq_host (wf : DotDims.WF ⟨2, ![m, k]⟩ ⟨2, ![k, n]⟩ ⟨2, ![m, n]⟩ [1] [0] [0] [1] [] [])
    (prec prec' : Option ContractPrecision) (A : FVec Ideal ⟨2, ![m, k]⟩ φ₁) (B : FVec Ideal ⟨2, ![k, n]⟩ φ₂) (a : Fin m) (b : Fin n) :
    matmul (⟨[1], [0], [0], [1], [], [], wf⟩ : DotDims ⟨2, ![m, k]⟩ ⟨2, ![k, n]⟩ ⟨2, ![m, n]⟩) prec A B
        (constant (F := Ideal) ⟨2, ![m, n]⟩ .f32 0x00000000#32) (ix2 a b)
      = Host.dotGeneral (⟨[1], [0], [0], [1], [], [], wf⟩ : DotDims ⟨2, ![m, k]⟩ ⟨2, ![k, n]⟩ ⟨2, ![m, n]⟩) prec' A B (ix2 a b) := by
  rw [kernel_product_apply, host_product_apply]

end Product

/-! ## A bias row repeated down the rows -/

section Bias
variable {α : Type} {m n : ℕ}

/-- The host's spelling: an `n`-vector broadcast to `[1, n]` along axis 1, then to `[m, n]` along both axes, reads at
    `(a, l)` the vector at `l`. -/
theorem host_bias_apply (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (a : Fin m) (l : Fin n) :
    broadcastInDim ⟨2, ![m, n]⟩ ![0, 1] h2 (broadcastInDim ⟨2, ![1, n]⟩ ![1] h1 v) (ix2 a l) = v (ix1 l) := by
  have hlt : l.val < n := l.isLt
  have e2 : broadcastInDim ⟨2, ![m, n]⟩ ![0, 1] h2 (broadcastInDim ⟨2, ![1, n]⟩ ![1] h1 v) (ix2 a l)
      = broadcastInDim ⟨2, ![1, n]⟩ ![1] h1 v (ix2 (0 : Fin 1) l) := by
    refine broadcastInDim_apply ![0, 1] h2 _ (ix2 a l) (ix2 (0 : Fin 1) l) fun ax => ?_
    match ax with
    | ⟨0, _⟩ => rfl
    | ⟨1, _⟩ =>
      show l.val = if n = 1 then 0 else l.val
      split
      · omega
      · rfl
  have e1 : broadcastInDim ⟨2, ![1, n]⟩ ![1] h1 v (ix2 (0 : Fin 1) l) = v (ix1 l) := by
    refine broadcastInDim_apply ![1] h1 v (ix2 (0 : Fin 1) l) (ix1 l) fun ax => ?_
    match ax with
    | ⟨0, _⟩ =>
      show l.val = if n = 1 then 0 else l.val
      split
      · omega
      · rfl
  rw [e2, e1]

/-- A kernel's spelling: the `n`-vector cast to `[1, n]`, then broadcast to `[m, n]`, reads at `(a, l)` the vector at `l`. -/
theorem kernel_bias_apply (v : (⟨1, ![n]⟩ : Shape).Idx → α) (h1 : (⟨1, ![n]⟩ : Shape).ShapeCasts ⟨2, ![1, n]⟩)
    (h2 : (⟨2, ![1, n]⟩ : Shape).Broadcasts ⟨2, ![m, n]⟩) (a : Fin m) (l : Fin n) :
    broadcastTo ⟨2, ![m, n]⟩ (shapeCast ⟨2, ![1, n]⟩ v h1) h2 (ix2 a l) = v (ix1 l) := by
  rw [broadcastTo_1b_ab_apply, shapeCast_a_1a_apply]

end Bias

/-! ## The leaky rectifier -/

section Rectifier

/-- The leaky rectifier with slope `c`, as a select on the comparison `h ≥ 0`. -/
def leakyOf (c h : EReal) : EReal := Scalar.select (Ideal.cmp .oge h 0) h (c * h)

/-- It is `h` where `0 ≤ h` and `c * h` elsewhere. -/
theorem leakyOf_eq_ite (c h : EReal) : leakyOf c h = if 0 ≤ h then h else c * h := by
  unfold leakyOf Scalar.select Ideal.cmp
  by_cases hh : 0 ≤ h <;> simp [hh]

variable {s : Shape}

/-- A kernel's spelling, the zero and the slope each a scalar word broadcast over the vector, read at an entry. -/
theorem kernel_leaky_apply (x : FVec Ideal s .f32) (w : BitVec 32) (i : s.Idx) :
    select (cmpf (F := Ideal) .oge x (broadcast s (Scalar.ofBits (F := Ideal) .f32 0x00000000#32))) x
        (mulf (F := Ideal) (broadcast s (Scalar.ofBits (F := Ideal) .f32 w)) x) i
      = leakyOf (Ideal.ofBits .f32 w) (x i) := by
  rw [select_apply, cmpf_apply, mulf_apply, broadcast_apply, broadcast_apply, Ideal.cmpf_def]
  show Scalar.select (Ideal.cmp .oge _ (Ideal.ofBits .f32 0x00000000#32)) _ (Ideal.ofBits .f32 w * _) = _
  rw [Ideal.ofBits_zero_f32]
  rfl

/-- The host's spelling, the zero and the slope each a rank-0 constant broadcast to the array's shape, read at an entry. -/
theorem host_leaky_apply (x : FVec Ideal s .f32) (w : BitVec 32) (h : (⟨0, ![]⟩ : Shape).BroadcastsInDim s ![]) (i : s.Idx) :
    select (cmpf (F := Ideal) .oge x (broadcastInDim s ![] h (constant (F := Ideal) ⟨0, ![]⟩ .f32 0x00000000#32))) x
        (mulf (F := Ideal) (broadcastInDim s ![] h (constant (F := Ideal) ⟨0, ![]⟩ .f32 w)) x) i
      = leakyOf (Ideal.ofBits .f32 w) (x i) := by
  rw [select_apply, cmpf_apply, mulf_apply, broadcastInDim_scalar_apply, broadcastInDim_scalar_apply, Ideal.cmpf_def]
  show Scalar.select (Ideal.cmp .oge _ (Ideal.ofBits .f32 0x00000000#32)) _ (Ideal.ofBits .f32 w * _) = _
  rw [Ideal.ofBits_zero_f32]
  rfl

end Rectifier

end Cert.Lib.IdealAtIndex

end
-- ==== Proof.lean ====
/-
  The certificate of a graph variational auto-encoder's forward pass: two TensorCore kernels against their jnp reference.

  The program: three graph-convolution encoder layers (a dense product, a symmetric-normalised scatter-add over the edge
  list with self-loops, a sigmoid, a batch normalisation over the 12000 nodes) compute the mean and the log standard
  deviation of the latent array; z = noise · exp(logstd) + mean (12000×64). All of that is host operations, the same 255
  in the kernel's program and in the reference. Then
    * the decoder  z·Dw1 + Db1 → leaky ReLU → ·Dw2 + Db2  (12000×128) is a kernel on a grid of ten row blocks of 1200 in the
      first program and two dot products in the reference;
    * the adjacency  σ(z·zᵀ)  (12000×12000) is a kernel on a 12×12 grid of 1024×1024 blocks — the last block row and block
      column overhang the array, 12000 = 11·1024 + 736, and are cut — spelt 1/2·tanh(1/2·s) + 1/2, against the reference's
      1 / (1 + exp (−s)).

  What is proved. The three frames: each program runs to the end without a fault and leaves its 21 arguments unchanged —
  the kernel's programs through the library's launch of a list of host stretches and kernel regions, call 1 holding the
  latent array at two half shares for the two windows that read it; at the exact instance the adjacency's output is
  followed block by block (an entry of a block's product reads one row of each operand, so the words a cut fetch leaves
  past the array's end do not reach the part written back); at the word level that output is left unnamed. The ideal
  pass rewrote nothing, so `preserves` has nothing to say. And the value claim: at the exact instance, from memories that
  agree on the arguments, both results are equal, entry by entry, as extended reals — with no use of the inputs'
  finiteness: the latent arrays agree because the two programs compute them by the same operations on the same
  arguments; a matrix product is the plain sum of products however it is tiled; and the logistic function is the
  rescaled hyperbolic tangent at every extended real, the infinities included.
-/
import proofs.«119114_j25752623907299_2_alg».proof.Defs
import proofs.«119114_j25752623907299_2_alg».proof.Proof.Gen.Kernel
import proofs.«119114_j25752623907299_2_alg».proof.Proof.Gen.KernelIdeal
import proofs.«119114_j25752623907299_2_alg».proof.Proof.Gen.ReferenceIdeal
import proofs.«119114_j25752623907299_2_alg».proof.Proof.Gen.Pre_finite_inputs
import proofs.«119114_j25752623907299_2_alg».proof.Proof.KB.FrameRel
import proofs.«119114_j25752623907299_2_alg».proof.Proof.KI.Run
import proofs.«119114_j25752623907299_2_alg».proof.Proof.KI.Region1Value
import proofs.«119114_j25752623907299_2_alg».proof.Proof.RefRun
import proofs.«119114_j25752623907299_2_alg».proof.Proof.Bridge
import proofs.«119114_j25752623907299_2_alg».proof.Proof.LatentAgree
import proofs.«119114_j25752623907299_2_alg».proof.Proof.LibIdealAtIndex
import Idealize.ShloMosaic.Adequacy
import Idealize.ShloMosaic.Init

noncomputable section

namespace Cert.Proof

open Idealize.ShloMosaic Idealize.ShloMosaic.TcCoe Idealize.SL.Sem Idealize.ShloMosaic.StableHlo

/-- The word-level program runs to the end and leaves its arguments unchanged. -/
theorem frame_p : Cert.frame_Kernel := fun m g _ =>
  (θ_run (Cert.Kernel.defs (F := Bits)) _ _).mono (fun r h c => by
      repeat' apply And.intro
      all_goals exact h c _ (by decide))
    (Cert.Kernel.Hand.Rel.frame_rel (F := Bits) m g)

section

open Cert.KernelIdeal Cert.KernelIdeal.Gen Cert.KernelIdeal.Hand Cert.Proof.Bridge

/-- The idealized program runs to the end and leaves its arguments unchanged. -/
theorem frame_pi : Cert.frame_KernelIdeal := fun m g _ =>
  (θ_run (Cert.KernelIdeal.defs (F := Ideal)) _ _).mono (fun r h c => by
      obtain ⟨-, -, hk⟩ := h c
      repeat' apply And.intro
      all_goals exact hk _ (by decide))
    (run_post (F := Ideal) m g pay1Local_ideal)

/-- The reference runs to the end and leaves its arguments unchanged. -/
theorem frame_ri : Cert.frame_ReferenceIdeal := fun m g _ => Cert.ReferenceIdeal.HandRun.frame m g

/-- The ideal pass rewrote nothing. -/
theorem preserves : Cert.preserves_Kernel_KernelIdeal := trivial

/-- At the exact instance, from memories that agree on the arguments, the two programs run to the end with equal results:
    the decoder's output and the adjacency output are, on both sides, one function each of the latent array and the
    decoder's weights, and the latent arrays agree because the two programs compute them by the same operations. -/
theorem algebraic : Cert.algebraic_KernelIdeal_ReferenceIdeal := by
  intro m g m' g' _ hagree
  refine ⟨fun c => (dat0 (V1 m g) c).arrAt 5 cfg0.N, fun c => (dat1 (V2 m g) c).arrAt 2 cfg1.N, ?_, ?_⟩
  · refine (θ_run (Cert.KernelIdeal.defs (F := Ideal)) _ _).mono (fun r h c => ?_) (run_post (F := Ideal) m g pay1Local_ideal)
    obtain ⟨h7, h8, hk⟩ := h c
    refine ⟨h7, h8, ?_⟩
    repeat' apply And.intro
    all_goals exact hk _ (by decide)
  · refine (θ_run (Cert.ReferenceIdeal.defs (F := Ideal)) _ _).mono (fun r h c => ?_) (Cert.ReferenceIdeal.HandRun.run (F := Ideal) m' g')
    obtain ⟨e0, e1, e2, e3, e4, e5, e6, e7, e8, e9, e10, e11, e12, e13, e14, e15, e16, e17, e18, e19, e20⟩ := hagree c
    have hz : after (Cert.ReferenceIdeal.HandRun.pre (F := Ideal)) (launchContents m' c) (Proc.devRef .tc Cert.ReferenceIdeal.main_v206)
        = V1 m g c main_v206 :=
      Cert.Proof.Latent.latent_agree (W0 m g c) (launchContents m' c) e0 e1 e2 e3 e4 e5 e6 e7 e8 e9 e10 e11 e12 e13 e14 e15 e16 e17 e18 e19 e20
    refine ⟨(h c Cert.ReferenceIdeal.main_v215).trans
        (recon_eq (V1 m g) c _ hz (e17.trans (V1_arg m g c main_arg17 (by decide)).symm) (e18.trans (V1_arg m g c main_arg18 (by decide)).symm)
          (e19.trans (V1_arg m g c main_arg19 (by decide)).symm) (e20.trans (V1_arg m g c main_arg20 (by decide)).symm)),
      (h c Cert.ReferenceIdeal.main_v223).trans (adj_eq (V2 m g) c _ (hz.trans (V2_latent m g c).symm)), ?_⟩
    repeat' apply And.intro
    all_goals exact (h c _).trans (Cert.ReferenceIdeal.HandRun.arg_kept _ _ (by decide))

end

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
